-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v254) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x9 : Shape := ⟨2, ![50000, 9]⟩
abbrev S2x625000 : Shape := ⟨2, ![2, 625000]⟩
abbrev S625000x4 : Shape := ⟨2, ![625000, 4]⟩
abbrev S50000 : Shape := ⟨1, ![50000]⟩
abbrev S9x128 : Shape := ⟨2, ![9, 128]⟩
abbrev S128 : Shape := ⟨1, ![128]⟩
abbrev S4x128 : Shape := ⟨2, ![4, 128]⟩
abbrev S4x128x256 : Shape := ⟨3, ![4, 128, 256]⟩
abbrev S4x256 : Shape := ⟨2, ![4, 256]⟩
abbrev S4x256x128 : Shape := ⟨3, ![4, 256, 128]⟩
abbrev S_ : Shape := ⟨0, ![]⟩

class Facts : Prop where
  bcast_S_S50000x9 : S_.BroadcastsInDim S50000x9 (![] : Fin 0 → Fin S50000x9.rank)
  reducesTo_S50000x9_S_d0_1 : S50000x9.ReducesTo [0, 1] S_
  h_S_ : 0 < S_.numel
  bcast_S_S625000x4 : S_.BroadcastsInDim S625000x4 (![] : Fin 0 → Fin S625000x4.rank)
  reducesTo_S625000x4_S_d0_1 : S625000x4.ReducesTo [0, 1] S_
  bcast_S_S9x128 : S_.BroadcastsInDim S9x128 (![] : Fin 0 → Fin S9x128.rank)
  reducesTo_S9x128_S_d0_1 : S9x128.ReducesTo [0, 1] S_
  bcast_S_S128 : S_.BroadcastsInDim S128 (![] : Fin 0 → Fin S128.rank)
  reducesTo_S128_S_d0 : S128.ReducesTo [0] S_
  bcast_S_S4x128 : S_.BroadcastsInDim S4x128 (![] : Fin 0 → Fin S4x128.rank)
  reducesTo_S4x128_S_d0_1 : S4x128.ReducesTo [0, 1] S_
  bcast_S_S4x128x256 : S_.BroadcastsInDim S4x128x256 (![] : Fin 0 → Fin S4x128x256.rank)
  reducesTo_S4x128x256_S_d0_1_2 : S4x128x256.ReducesTo [0, 1, 2] S_
  bcast_S_S4x256 : S_.BroadcastsInDim S4x256 (![] : Fin 0 → Fin S4x256.rank)
  reducesTo_S4x256_S_d0_1 : S4x256.ReducesTo [0, 1] S_
  bcast_S_S4x256x128 : S_.BroadcastsInDim S4x256x128 (![] : Fin 0 → Fin S4x256x128.rank)
  reducesTo_S4x256x128_S_d0_1_2 : S4x256x128.ReducesTo [0, 1, 2] S_

variable [Facts]

def fn_part3 {F : FTy → Type} [FloatOps F] (main_arg13 : FVec F S4x128 .f32) (main_v48 : IVec S_ 1) (main_v49 : FVec F S4x128 .f32) (main_v50 : FVec F S4x128 .f32) : IVec S_ 1 :=
  let main_v51 : IVec S4x128 1 := cmpf .olt main_v49 main_v50
  let main_c_19 : IVec S_ 1 := constantI S_ 1 1#1
  let main_v52 : IVec S_ 1 := (fun x v => Host.reduce IntOp.andi x v reducesTo_S4x128_S_d0_1 h_S_) main_v51 main_c_19
  let main_v53 : IVec S_ 1 := andi main_v48 main_v52
  let main_v54 : FVec F S4x128 .f32 := Host.absf main_arg13
  let main_cst_20 : FVec F S_ .f32 := constant S_ .f32 0x7F800000#32
  let main_v55 : FVec F S4x128 .f32 := broadcastInDim S4x128 ![] bcast_S_S4x128 main_cst_20
  let main_v56 : IVec S4x128 1 := cmpf .olt main_v54 main_v55
  let main_c_21 : IVec S_ 1 := constantI S_ 1 1#1
  let main_v57 : IVec S_ 1 := (fun x v => Host.reduce IntOp.andi x v reducesTo_S4x128_S_d0_1 h_S_) main_v56 main_c_21
  let main_v58 : IVec S_ 1 := andi main_v53 main_v57
  main_v58

def fn_part2 {F : FTy → Type} [FloatOps F] (main_arg9 : FVec F S4x256 .f32) (main_arg10 : FVec F S4x256x128 .f32) (main_arg11 : FVec F S4x128 .f32) (main_arg12 : FVec F S4x128 .f32) (main_arg13 : FVec F S4x128 .f32) (main_v33 : IVec S_ 1) : IVec S_ 1 :=
  let main_v34 : FVec F S4x256 .f32 := Host.absf main_arg9
  let main_cst_12 : FVec F S_ .f32 := constant S_ .f32 0x7F800000#32
  let main_v35 : FVec F S4x256 .f32 := broadcastInDim S4x256 ![] bcast_S_S4x256 main_cst_12
  let main_v36 : IVec S4x256 1 := cmpf .olt main_v34 main_v35
  let main_c_13 : IVec S_ 1 := constantI S_ 1 1#1
  let main_v37 : IVec S_ 1 := (fun x v => Host.reduce IntOp.andi x v reducesTo_S4x256_S_d0_1 h_S_) main_v36 main_c_13
  let main_v38 : IVec S_ 1 := andi main_v33 main_v37
  let main_v39 : FVec F S4x256x128 .f32 := Host.absf main_arg10
  let main_cst_14 : FVec F S_ .f32 := constant S_ .f32 0x7F800000#32
  let main_v40 : FVec F S4x256x128 .f32 := broadcastInDim S4x256x128 ![] bcast_S_S4x256x128 main_cst_14
  let main_v41 : IVec S4x256x128 1 := cmpf .olt main_v39 main_v40
  let main_c_15 : IVec S_ 1 := constantI S_ 1 1#1
  let main_v42 : IVec S_ 1 := (fun x v => Host.reduce IntOp.andi x v reducesTo_S4x256x128_S_d0_1_2 h_S_) main_v41 main_c_15
  let main_v43 : IVec S_ 1 := andi main_v38 main_v42
  let main_v44 : FVec F S4x128 .f32 := Host.absf main_arg11
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S4x128 .f32 := Host.absf main_arg12
  let main_cst_18 : FVec F S_ .f32 := constant S_ .f32 0x7F800000#32
  let main_v50 : FVec F S4x128 .f32 := broadcastInDim S4x128 ![] bcast_S_S4x128 main_cst_18
  fn_part3 (F := F) main_arg13 main_v48 main_v49 main_v50

def fn_part1 {F : FTy → Type} [FloatOps F] (main_arg6 : FVec F S4x128 .f32) (main_arg7 : FVec F S128 .f32) (main_arg8 : FVec F S4x128x256 .f32) (main_arg9 : FVec F S4x256 .f32) (main_arg10 : FVec F S4x256x128 .f32) (main_arg11 : FVec F S4x128 .f32) (main_arg12 : FVec F S4x128 .f32) (main_arg13 : FVec F S4x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S4x128x256 .f32 := Host.absf main_arg8
  let main_cst_10 : FVec F S_ .f32 := constant S_ .f32 0x7F800000#32
  let main_v30 : FVec F S4x128x256 .f32 := broadcastInDim S4x128x256 ![] bcast_S_S4x128x256 main_cst_10
  let main_v31 : IVec S4x128x256 1 := cmpf .olt main_v29 main_v30
  let main_c_11 : IVec S_ 1 := constantI S_ 1 1#1
  let main_v32 : IVec S_ 1 := (fun x v => Host.reduce IntOp.andi x v reducesTo_S4x128x256_S_d0_1_2 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x9 .f32) (main_arg1 : IVec S2x625000 32) (main_arg2 : FVec F S625000x4 .f32) (main_arg3 : IVec S50000 32) (main_arg4 : FVec F S9x128 .f32) (main_arg5 : FVec F S128 .f32) (main_arg6 : FVec F S4x128 .f32) (main_arg7 : FVec F S128 .f32) (main_arg8 : FVec F S4x128x256 .f32) (main_arg9 : FVec F S4x256 .f32) (main_arg10 : FVec F S4x256x128 .f32) (main_arg11 : FVec F S4x128 .f32) (main_arg12 : FVec F S4x128 .f32) (main_arg13 : FVec F S4x128 .f32) : IVec S_ 1 :=
  let main_v0 : FVec F S50000x9 .f32 := Host.absf main_arg0
  let main_cst : FVec F S_ .f32 := constant S_ .f32 0x7F800000#32
  let main_v1 : FVec F S50000x9 .f32 := broadcastInDim S50000x9 ![] bcast_S_S50000x9 main_cst
  let main_v2 : IVec S50000x9 1 := cmpf .olt main_v0 main_v1
  let main_c : IVec S_ 1 := constantI S_ 1 1#1
  let main_v3 : IVec S_ 1 := (fun x v => Host.reduce IntOp.andi x v reducesTo_S50000x9_S_d0_1 h_S_) main_v2 main_c
  let main_v4 : FVec F S625000x4 .f32 := Host.absf main_arg2
  let main_cst_0 : FVec F S_ .f32 := constant S_ .f32 0x7F800000#32
  let main_v5 : FVec F S625000x4 .f32 := broadcastInDim S625000x4 ![] bcast_S_S625000x4 main_cst_0
  let main_v6 : IVec S625000x4 1 := cmpf .olt main_v4 main_v5
  let main_c_1 : IVec S_ 1 := constantI S_ 1 1#1
  let main_v7 : IVec S_ 1 := (fun x v => Host.reduce IntOp.andi x v reducesTo_S625000x4_S_d0_1 h_S_) main_v6 main_c_1
  let main_v8 : IVec S_ 1 := andi main_v3 main_v7
  let main_v9 : FVec F S9x128 .f32 := Host.absf main_arg4
  let main_cst_2 : FVec F S_ .f32 := constant S_ .f32 0x7F800000#32
  let main_v10 : FVec F S9x128 .f32 := broadcastInDim S9x128 ![] bcast_S_S9x128 main_cst_2
  let main_v11 : IVec S9x128 1 := cmpf .olt main_v9 main_v10
  let main_c_3 : IVec S_ 1 := constantI S_ 1 1#1
  let main_v12 : IVec S_ 1 := (fun x v => Host.reduce IntOp.andi x v reducesTo_S9x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S50000x9 : Shape := ⟨2, ![50000, 9]⟩
abbrev S2x625000 : Shape := ⟨2, ![2, 625000]⟩
abbrev S625000x4 : Shape := ⟨2, ![625000, 4]⟩
abbrev S50000 : Shape := ⟨1, ![50000]⟩
abbrev S9x128 : Shape := ⟨2, ![9, 128]⟩
abbrev S128 : Shape := ⟨1, ![128]⟩
abbrev S4x128 : Shape := ⟨2, ![4, 128]⟩
abbrev S4x128x256 : Shape := ⟨3, ![4, 128, 256]⟩
abbrev S4x256 : Shape := ⟨2, ![4, 256]⟩
abbrev S4x256x128 : Shape := ⟨3, ![4, 256, 128]⟩
abbrev S1x128 : Shape := ⟨2, ![1, 128]⟩
abbrev S50000x128 : Shape := ⟨2, ![50000, 128]⟩
abbrev S2000x9 : Shape := ⟨2, ![2000, 9]⟩
abbrev S2000x128 : Shape := ⟨2, ![2000, 128]⟩
abbrev S625000x128 : Shape := ⟨2, ![625000, 128]⟩
abbrev S5000x4 : Shape := ⟨2, ![5000, 4]⟩
abbrev S5000x128 : Shape := ⟨2, ![5000, 128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S2000x256 : Shape := ⟨2, ![2000, 256]⟩
abbrev S2000 : Shape := ⟨1, ![2000]⟩
abbrev S2000x1 : Shape := ⟨2, ![2000, 1]⟩
abbrev S50000x1 : Shape := ⟨2, ![50000, 1]⟩

abbrev nBuf : Space → Nat
  | .hbm => 150
  | .vmem => 84
  | .smem => 0
  | _ => 0

abbrev hbmTy0_0 (i : Nat) : BufTy := match i % 128 with
  | 0 => ⟨S50000x9, .f32⟩
  | 1 => ⟨S2x625000, .i32⟩
  | 2 => ⟨S625000x4, .f32⟩
  | 3 => ⟨S50000, .i32⟩
  | 4 => ⟨S9x128, .f32⟩
  | 5 => ⟨S128, .f32⟩
  | 6 => ⟨S4x128, .f32⟩
  | 7 => ⟨S128, .f32⟩
  | 8 => ⟨S4x128x256, .f32⟩
  | 9 => ⟨S4x256, .f32⟩
  | 10 => ⟨S4x256x128, .f32⟩
  | 11 => ⟨S4x128, .f32⟩
  | 12 => ⟨S4x128, .f32⟩
  | 13 => ⟨S4x128, .f32⟩
  | 14 => ⟨S1x128, .f32⟩
  | 15 => ⟨S50000x128, .f32⟩
  | 16 => ⟨S1x128, .f32⟩
  | 17 => ⟨S625000x128, .f32⟩
  | 18 => ⟨S1x625000, .i32⟩
  | 19 => ⟨S625000, .i32⟩
  | 20 => ⟨S1x625000, .i32⟩
  | 21 => ⟨S625000, .i32⟩
  | 22 => ⟨S_, .i32⟩
  | 23 => ⟨S625000, .i32⟩
  | 24 => ⟨S625000, .i1⟩
  | 25 => ⟨S_, .i32⟩
  | 26 => ⟨S625000, .i32⟩
  | 27 => ⟨S625000, .i32⟩
  | 28 => ⟨S625000, .i32⟩
  | 29 => ⟨S625000x1, .i32⟩
  | 30 => ⟨S625000x128, .f32⟩
  | 31 => ⟨S625000x128, .f32⟩
  | 32 => ⟨S_, .f32⟩
  | 33 => ⟨S50000x128, .f32⟩
  | 34 => ⟨S625000x1, .i32⟩
  | 35 => ⟨S50000x128, .f32⟩
  | 36 => ⟨S1x128x256, .f32⟩
  | 37 => ⟨S128x256, .f32⟩
  | 38 => ⟨S1x256, .f32⟩
  | 39 => ⟨S256, .f32⟩
  | 40 => ⟨S1x256x128, .f32⟩
  | 41 => ⟨S256x128, .f32⟩
  | 42 => ⟨S1x128, .f32⟩
  | 43 => ⟨S128, .f32⟩
  | 44 => ⟨S1x128, .f32⟩
  | 45 => ⟨S128, .f32⟩
  | 46 => ⟨S1x128, .f32⟩
  | 47 => ⟨S128, .f32⟩
  | 48 => ⟨S1x256, .f32⟩
  | 49 => ⟨S1x128, .f32⟩
  | 50 => ⟨S1x128, .f32⟩
  | 51 => ⟨S1x128, .f32⟩
  | 52 => ⟨S50000x128, .f32⟩
  | 53 => ⟨S_, .i32⟩
  | 54 => ⟨S625000, .i32⟩
  | 55 => ⟨S625000, .i1⟩
  | 56 => ⟨S_, .i32⟩
  | 57 => ⟨S625000, .i32⟩
  | 58 => ⟨S625000, .i32⟩
  | 59 => ⟨S625000, .i32⟩
  | 60 => ⟨S625000x1, .i32⟩
  | 61 => ⟨S625000x128, .f32⟩
  | 62 => ⟨S625000x128, .f32⟩
  | 63 => ⟨S_, .f32⟩
  | 64 => ⟨S50000x128, .f32⟩
  | 65 => ⟨S625000x1, .i32⟩
  | 66 => ⟨S50000x128, .f32⟩
  | 67 => ⟨S1x128x256, .f32⟩
  | 68 => ⟨S128x256, .f32⟩
  | 69 => ⟨S1x256, .f32⟩
  | 70 => ⟨S256, .f32⟩
  | 71 => ⟨S1x256x128, .f32⟩
  | 72 => ⟨S256x128, .f32⟩
  | 73 => ⟨S1x128, .f32⟩
  | 74 => ⟨S128, .f32⟩
  | 75 => ⟨S1x128, .f32⟩
  | 76 => ⟨S128, .f32⟩
  | 77 => ⟨S1x128, .f32⟩
  | 78 => ⟨S128, .f32⟩
  | 79 => ⟨S1x256, .f32⟩
  | 80 => ⟨S1x128, .f32⟩
  | 81 => ⟨S1x128, .f32⟩
  | 82 => ⟨S1x128, .f32⟩
  | 83 => ⟨S50000x128, .f32⟩
  | 84 => ⟨S_, .i32⟩
  | 85 => ⟨S625000, .i32⟩
  | 86 => ⟨S625000, .i1⟩
  | 87 => ⟨S_, .i32⟩
  | 88 => ⟨S625000, .i32⟩
  | 89 => ⟨S625000, .i32⟩
  | 90 => ⟨S625000, .i32⟩
  | 91 => ⟨S625000x1, .i32⟩
  | 92 => ⟨S625000x128, .f32⟩
  | 93 => ⟨S625000x128, .f32⟩
  | 94 => ⟨S_, .f32⟩
  | 95 => ⟨S50000x128, .f32⟩
  | 96 => ⟨S625000x1, .i32⟩
  | 97 => ⟨S50000x128, .f32⟩
  | 98 => ⟨S1x128x256, .f32⟩
  | 99 => ⟨S128x256, .f32⟩
  | 100 => ⟨S1x256, .f32⟩
  | 101 => ⟨S256, .f32⟩
  | 102 => ⟨S1x256x128, .f32⟩
  | 103 => ⟨S256x128, .f32⟩
  | 104 => ⟨S1x128, .f32⟩
  | 105 => ⟨S128, .f32⟩
  | 106 => ⟨S1x128, .f32⟩
  | 107 => ⟨S128, .f32⟩
  | 108 => ⟨S1x128, .f32⟩
  | 109 => ⟨S128, .f32⟩
  | 110 => ⟨S1x256, .f32⟩
  | 111 => ⟨S1x128, .f32⟩
  | 112 => ⟨S1x128, .f32⟩
  | 113 => ⟨S1x128, .f32⟩
  | 114 => ⟨S50000x128, .f32⟩
  | 115 => ⟨S_, .i32⟩
  | 116 => ⟨S625000, .i32⟩
  | 117 => ⟨S625000, .i1⟩
  | 118 => ⟨S_, .i32⟩
  | 119 => ⟨S625000, .i32⟩
  | 120 => ⟨S625000, .i32⟩
  | 121 => ⟨S625000, .i32⟩
  | 122 => ⟨S625000x1, .i32⟩
  | 123 => ⟨S625000x128, .f32⟩
  | 124 => ⟨S625000x128, .f32⟩
  | 125 => ⟨S_, .f32⟩
  | 126 => ⟨S50000x128, .f32⟩
  | 127 => ⟨S625000x1, .i32⟩
  | _ => ⟨S50000x9, .f32⟩

abbrev hbmTy0_1 (i : Nat) : BufTy := match i % 128 with
  | 0 => ⟨S50000x128, .f32⟩
  | 1 => ⟨S1x128x256, .f32⟩
  | 2 => ⟨S128x256, .f32⟩
  | 3 => ⟨S1x256, .f32⟩
  | 4 => ⟨S256, .f32⟩
  | 5 => ⟨S1x256x128, .f32⟩
  | 6 => ⟨S256x128, .f32⟩
  | 7 => ⟨S1x128, .f32⟩
  | 8 => ⟨S128, .f32⟩
  | 9 => ⟨S1x128, .f32⟩
  | 10 => ⟨S128, .f32⟩
  | 11 => ⟨S1x128, .f32⟩
  | 12 => ⟨S128, .f32⟩
  | 13 => ⟨S1x256, .f32⟩
  | 14 => ⟨S1x128, .f32⟩
  | 15 => ⟨S1x128, .f32⟩
  | 16 => ⟨S1x128, .f32⟩
  | 17 => ⟨S50000x128, .f32⟩
  | 18 => ⟨S_, .f32⟩
  | 19 => ⟨S2000x128, .f32⟩
  | 20 => ⟨S50000x1, .i32⟩
  | 21 => ⟨S2000x128, .f32⟩
  | _ => ⟨S50000x9, .f32⟩

abbrev hbmTy (i : Nat) : BufTy := match i / 128 with
  | 0 => hbmTy0_0 i
  | 1 => hbmTy0_1 i
  | _ => ⟨S50000x9, .f32⟩

abbrev bufTy : (tb : Table) → Fin (tcTables nBuf tb) → BufTy
  | .hbm, ⟨i, _⟩ => hbmTy i
  | .local _ .vmem, ⟨0, _⟩ => ⟨S2000x9, .f32⟩
  | .local _ .vmem, ⟨1, _⟩ => ⟨S2000x9, .f32⟩
  | .local _ .vmem, ⟨2, _⟩ => ⟨S9x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S5000x4, .f32⟩
  | .local _ .vmem, ⟨7, _⟩ => ⟨S5000x4, .f32⟩
  | .local _ .vmem, ⟨8, _⟩ => ⟨S4x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x256, .f32⟩
  | .local _ .vmem, ⟨23, _⟩ => ⟨S1x256, .f32⟩
  | .local _ .vmem, ⟨24, _⟩ => ⟨S256x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S128x256, .f32⟩
  | .local _ .vmem, ⟨41, _⟩ => ⟨S1x256, .f32⟩
  | .local _ .vmem, ⟨42, _⟩ => ⟨S256x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S128x256, .f32⟩
  | .local _ .vmem, ⟨59, _⟩ => ⟨S1x256, .f32⟩
  | .local _ .vmem, ⟨60, _⟩ => ⟨S256x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S2000x128, .f32⟩
  | .local _ .vmem, ⟨65, _⟩ => ⟨S2000x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S2000x128, .f32⟩
  | .local _ .vmem, ⟨73, _⟩ => ⟨S2000x128, .f32⟩
  | .local _ .vmem, ⟨74, _⟩ => ⟨S2000x128, .f32⟩
  | .local _ .vmem, ⟨75, _⟩ => ⟨S2000x128, .f32⟩
  | .local _ .vmem, ⟨76, _⟩ => ⟨S128x256, .f32⟩
  | .local _ .vmem, ⟨77, _⟩ => ⟨S1x256, .f32⟩
  | .local _ .vmem, ⟨78, _⟩ => ⟨S256x128, .f32⟩
  | .local _ .vmem, ⟨79, _⟩ => ⟨S1x128, .f32⟩
  | .local _ .vmem, ⟨80, _⟩ => ⟨S1x128, .f32⟩
  | .local _ .vmem, ⟨81, _⟩ => ⟨S1x128, .f32⟩
  | .local _ .vmem, ⟨82, _⟩ => ⟨S2000x128, .f32⟩
  | .local _ .vmem, ⟨83, _⟩ => ⟨S2000x128, .f32⟩
  | _, _ => ⟨S50000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_1 : Ref sig .tc := ⟨.hbm, 53, rfl⟩
abbrev main_v36 : Ref sig .tc := ⟨.hbm, 54, rfl⟩
abbrev main_v37 : Ref sig .tc := ⟨.hbm, 55, rfl⟩
abbrev main_c_2 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_3 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_4 : Ref sig .tc := ⟨.hbm, 84, rfl⟩
abbrev main_v64 : Ref sig .tc := ⟨.hbm, 85, rfl⟩
abbrev main_v65 : Ref sig .tc := ⟨.hbm, 86, rfl⟩
abbrev main_c_5 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_6 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_c_7 : Ref sig .tc := ⟨.hbm, 115, rfl⟩
abbrev main_v92 : Ref sig .tc := ⟨.hbm, 116, rfl⟩
abbrev main_v93 : Ref sig .tc := ⟨.hbm, 117, rfl⟩
abbrev main_c_8 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_9 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_cst_10 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg7_0 : Ref sig .tc := ⟨.vmem, 27, rfl⟩
abbrev cc3_stg8_0 : Ref sig .tc := ⟨.vmem, 28, rfl⟩
abbrev cc3_stg8_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc5_stg6_0 : Ref sig .tc := ⟨.vmem, 44, rfl⟩
abbrev cc5_stg7_0 : Ref sig .tc := ⟨.vmem, 45, rfl⟩
abbrev cc5_stg8_0 : Ref sig .tc := ⟨.vmem, 46, rfl⟩
abbrev cc5_stg8_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg5_0 : Ref sig .tc := ⟨.vmem, 61, rfl⟩
abbrev cc7_stg6_0 : Ref sig .tc := ⟨.vmem, 62, rfl⟩
abbrev cc7_stg7_0 : Ref sig .tc := ⟨.vmem, 63, rfl⟩
abbrev cc7_stg8_0 : Ref sig .tc := ⟨.vmem, 64, rfl⟩
abbrev cc7_stg8_1 : Ref sig .tc := ⟨.vmem, 65, rfl⟩
abbrev cc8_stg0_0 : Ref sig .tc := ⟨.vmem, 66, rfl⟩
abbrev cc8_stg0_1 : Ref sig .tc := ⟨.vmem, 67, rfl⟩
abbrev cc8_stg1_0 : Ref sig .tc := ⟨.vmem, 68, rfl⟩
abbrev cc8_stg1_1 : Ref sig .tc := ⟨.vmem, 69, rfl⟩
abbrev cc8_stg2_0 : Ref sig .tc := ⟨.vmem, 70, rfl⟩
abbrev cc8_stg2_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg1_1 : Ref sig .tc := ⟨.vmem, 75, rfl⟩
abbrev cc9_stg2_0 : Ref sig .tc := ⟨.vmem, 76, rfl⟩
abbrev cc9_stg3_0 : Ref sig .tc := ⟨.vmem, 77, rfl⟩
abbrev cc9_stg4_0 : Ref sig .tc := ⟨.vmem, 78, rfl⟩
abbrev cc9_stg5_0 : Ref sig .tc := ⟨.vmem, 79, rfl⟩
abbrev cc9_stg6_0 : Ref sig .tc := ⟨.vmem, 80, rfl⟩
abbrev cc9_stg7_0 : Ref sig .tc := ⟨.vmem, 81, rfl⟩
abbrev cc9_stg8_0 : Ref sig .tc := ⟨.vmem, 82, rfl⟩
abbrev cc9_stg8_1 : Ref sig .tc := ⟨.vmem, 83, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem7_0 : DmaSem sig := 27
abbrev cc3_sem8_0 : DmaSem sig := 28
abbrev cc3_sem8_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem4_0 : DmaSem sig := 42
abbrev cc5_sem5_0 : DmaSem sig := 43
abbrev cc5_sem6_0 : DmaSem sig := 44
abbrev cc5_sem7_0 : DmaSem sig := 45
abbrev cc5_sem8_0 : DmaSem sig := 46
abbrev cc5_sem8_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem3_0 : DmaSem sig := 59
abbrev cc7_sem4_0 : DmaSem sig := 60
abbrev cc7_sem5_0 : DmaSem sig := 61
abbrev cc7_sem6_0 : DmaSem sig := 62
abbrev cc7_sem7_0 : DmaSem sig := 63
abbrev cc7_sem8_0 : DmaSem sig := 64
abbrev cc7_sem8_1 : DmaSem sig := 65
abbrev cc8_sem0_0 : DmaSem sig := 66
abbrev cc8_sem0_1 : DmaSem sig := 67
abbrev cc8_sem1_0 : DmaSem sig := 68
abbrev cc8_sem1_1 : DmaSem sig := 69
abbrev cc8_sem2_0 : DmaSem sig := 70
abbrev cc8_sem2_1 : DmaSem sig := 71
abbrev cc9_sem0_0 : DmaSem sig := 72
abbrev cc9_sem0_1 : DmaSem sig := 73
abbrev cc9_sem1_0 : DmaSem sig := 74
abbrev cc9_sem1_1 : DmaSem sig := 75
abbrev cc9_sem2_0 : DmaSem sig := 76
abbrev cc9_sem3_0 : DmaSem sig := 77
abbrev cc9_sem4_0 : DmaSem sig := 78
abbrev cc9_sem5_0 : DmaSem sig := 79
abbrev cc9_sem6_0 : DmaSem sig := 80
abbrev cc9_sem7_0 : DmaSem sig := 81
abbrev cc9_sem8_0 : DmaSem sig := 82
abbrev cc9_sem8_1 : DmaSem sig := 83

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S2000x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![125], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S256x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 2 → Memref sig .tc .vmem S2000x128 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev grid8 : Pipeline.Grid := ⟨1, ![125], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S256x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1x128 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 2 → Memref sig .tc .vmem S2000x128 .f32 := fun | 0 => Memref.whole cc9_stg8_0 | 1 => Memref.whole cc9_stg8_1 | ⟨_ + 2, h⟩ => absurd h (Nat.not_lt.2 (Nat.le_add_left _ _))
abbrev sem9_8 : Fin 2 → DmaSem sig := fun | 0 => cc9_sem8_0 | 1 => cc9_sem8_1 | ⟨_ + 2, h⟩ => absurd h (Nat.not_lt.2 (Nat.le_add_left _ _))
abbrev reads9_8 : Fin grid9.rank → Bool := ![true]

class Facts₀ : Prop where
  shapeCasts_S128_S1x128 : S128.ShapeCasts S1x128
  inb_S2000x9_S2000x9_0_0 : ∀ a, (![0, 0] : Fin 2 → Nat) a + S2000x9.size a ≤ S2000x9.size a
  h_S2000x9 : 0 < S2000x9.numel
  bitsLt_bf16_f32 : FTy.bits .bf16 < FTy.bits .f32
  inb_S9x128_S9x128_0_0 : ∀ a, (![0, 0] : Fin 2 → Nat) a + S9x128.size a ≤ S9x128.size a
  h_S9x128 : 0 < S9x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  inb_S5000x4_S5000x4_0_0 : ∀ a, (![0, 0] : Fin 2 → Nat) a + S5000x4.size a ≤ S5000x4.size a
  h_S5000x4 : 0 < S5000x4.numel
  inb_S4x128_S4x128_0_0 : ∀ a, (![0, 0] : Fin 2 → Nat) a + S4x128.size a ≤ S4x128.size a
  h_S4x128 : 0 < S4x128.numel
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  shapeCasts_S5000x128_S5000x128 : S5000x128.ShapeCasts S5000x128
  bcast_S_S50000x128 : S_.BroadcastsInDim S50000x128 (![] : Fin 0 → Fin S50000x128.rank)
  slices_S4x128x256_S1x128x256_0_0_0 : S4x128x256.Slices ![0, 0, 0] S1x128x256
  shapeCasts_S1x128x256_S128x256 : S1x128x256.ShapeCasts S128x256
  slices_S4x256_S1x256_0_0 : S4x256.Slices ![0, 0] S1x256
  shapeCasts_S1x256_S256 : S1x256.ShapeCasts S256
  slices_S4x256x128_S1x256x128_0_0_0 : S4x256x128.Slices ![0, 0, 0] S1x256x128
  shapeCasts_S1x256x128_S256x128 : S1x256x128.ShapeCasts S256x128
  slices_S4x128_S1x128_0_0 : S4x128.Slices ![0, 0] S1x128
  shapeCasts_S1x128_S128 : S1x128.ShapeCasts S128
  shapeCasts_S256_S1x256 : S256.ShapeCasts S1x256
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  reduces_S2000x128_S2000 : S2000x128.Reduces [1] S2000
  shapeCasts_S2000_S2000x1 : S2000.ShapeCasts S2000x1
  broadcasts_S2000x1_S2000x128 : S2000x1.Broadcasts S2000x128
  slices_S4x128x256_S1x128x256_1_0_0 : S4x128x256.Slices ![1, 0, 0] S1x128x256
  slices_S4x256_S1x256_1_0 : S4x256.Slices ![1, 0] S1x256
  slices_S4x256x128_S1x256x128_1_0_0 : S4x256x128.Slices ![1, 0, 0] S1x256x128
  slices_S4x128_S1x128_1_0 : S4x128.Slices ![1, 0] S1x128
  slices_S4x128x256_S1x128x256_2_0_0 : S4x128x256.Slices ![2, 0, 0] S1x128x256
  slices_S4x256_S1x256_2_0 : S4x256.Slices ![2, 0] S1x256
  slices_S4x256x128_S1x256x128_2_0_0 : S4x256x128.Slices ![2, 0, 0] S1x256x128
  slices_S4x128_S1x128_2_0 : S4x128.Slices ![2, 0] S1x128
  slices_S4x128x256_S1x128x256_3_0_0 : S4x128x256.Slices ![3, 0, 0] S1x128x256
  slices_S4x256_S1x256_3_0 : S4x256.Slices ![3, 0] S1x256
  slices_S4x256x128_S1x256x128_3_0_0 : S4x256x128.Slices ![3, 0, 0] S1x256x128
  slices_S4x128_S1x128_3_0 : S4x128.Slices ![3, 0] S1x128
  bcast_S_S2000x128 : S_.BroadcastsInDim S2000x128 (![] : Fin 0 → Fin S2000x128.rank)
  bcast_S50000_S50000x1_0 : S50000.BroadcastsInDim S50000x1 (![0] : Fin 1 → Fin S50000x1.rank)
  dot_S2000x9_S9x128_S2000x128_1_0_0_1_n_n_wf : DotDims.WF S2000x9 S9x128 S2000x128 [1] [0] [0] [1] [] []
  dot_S5000x4_S4x128_S5000x128_1_0_0_1_n_n_wf : DotDims.WF S5000x4 S4x128 S5000x128 [1] [0] [0] [1] [] []
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  scatter_S2000x128_S50000x1_S50000x128_1_0_0_1_wf : ScatterDims.WF S2000x128 S50000x1 S50000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x9.size a ≤ S50000x9.size a
  hwx0_0 : ∀ i : grid0.Coords, EltTy.bits .f32 = 32 ∨ (Rect.block (s := S50000x9) S2000x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x128.size a ≤ S9x128.size a
  hwx0_1 : ∀ i : grid0.Coords, EltTy.bits .f32 = 32 ∨ (Rect.block (s := S9x128) S9x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x4.size a ≤ S625000x4.size a
  hwx1_0 : ∀ i : grid1.Coords, EltTy.bits .f32 = 32 ∨ (Rect.block (s := S625000x4) S5000x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x128.size a ≤ S4x128.size a
  hwx1_1 : ∀ i : grid1.Coords, EltTy.bits .f32 = 32 ∨ (Rect.block (s := S4x128) S4x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S625000x128.size a
  hwx1_3 : ∀ i : grid1.Coords, EltTy.bits .f32 = 32 ∨ (Rect.block (s := S625000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S625000x128.size a
  hwx2_0 : ∀ i : grid2.Coords, EltTy.bits .f32 = 32 ∨ (Rect.block (s := S625000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S625000x128.size a
  hwx2_1 : ∀ i : grid2.Coords, EltTy.bits .f32 = 32 ∨ (Rect.block (s := S625000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S625000x128.size a
  hwx2_2 : ∀ i : grid2.Coords, EltTy.bits .f32 = 32 ∨ (Rect.block (s := S625000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x256.size a ≤ S128x256.size a
  hwx3_2 : ∀ i : grid3.Coords, EltTy.bits .f32 = 32 ∨ (Rect.block (s := S128x256) S128x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x128.size a ≤ S256x128.size a
  hwx3_4 : ∀ i : grid3.Coords, EltTy.bits .f32 = 32 ∨ (Rect.block (s := S256x128) S256x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x128.size a ≤ S50000x128.size a
  hwx3_8 : ∀ i : grid3.Coords, EltTy.bits .f32 = 32 ∨ (Rect.block (s := S50000x128) S2000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S625000x128.size a
  hwx4_0 : ∀ i : grid4.Coords, EltTy.bits .f32 = 32 ∨ (Rect.block (s := S625000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S625000x128.size a
  hwx4_1 : ∀ i : grid4.Coords, EltTy.bits .f32 = 32 ∨ (Rect.block (s := S625000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S625000x128.size a
  hwx4_2 : ∀ i : grid4.Coords, EltTy.bits .f32 = 32 ∨ (Rect.block (s := S625000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x256.size a ≤ S128x256.size a
  hwx5_2 : ∀ i : grid5.Coords, EltTy.bits .f32 = 32 ∨ (Rect.block (s := S128x256) S128x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x128.size a ≤ S256x128.size a
  hwx5_4 : ∀ i : grid5.Coords, EltTy.bits .f32 = 32 ∨ (Rect.block (s := S256x128) S256x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S2000x128.size a ≤ S50000x128.size a
  hwx5_8 : ∀ i : grid5.Coords, EltTy.bits .f32 = 32 ∨ (Rect.block (s := S50000x128) S2000x128.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S625000x128.size a
  hwx6_0 : ∀ i : grid6.Coords, EltTy.bits .f32 = 32 ∨ (Rect.block (s := S625000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S625000x128.size a
  hwx6_1 : ∀ i : grid6.Coords, EltTy.bits .f32 = 32 ∨ (Rect.block (s := S625000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S625000x128.size a
  hwx6_2 : ∀ i : grid6.Coords, EltTy.bits .f32 = 32 ∨ (Rect.block (s := S625000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S50000x128.size a
  hwx7_1 : ∀ i : grid7.Coords, EltTy.bits .f32 = 32 ∨ (Rect.block (s := S50000x128) S2000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x256.size a ≤ S128x256.size a
  hwx7_2 : ∀ i : grid7.Coords, EltTy.bits .f32 = 32 ∨ (Rect.block (s := S128x256) S128x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S256x128.size a ≤ S256x128.size a
  hwx7_4 : ∀ i : grid7.Coords, EltTy.bits .f32 = 32 ∨ (Rect.block (s := S256x128) S256x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x128.size a ≤ S1x128.size a
  hwx7_7 : ∀ i : grid7.Coords, EltTy.bits .f32 = 32 ∨ (Rect.block (s := S1x128) S1x128.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S2000x128.size a ≤ S50000x128.size a
  hwx7_8 : ∀ i : grid7.Coords, EltTy.bits .f32 = 32 ∨ (Rect.block (s := S50000x128) S2000x128.size (cc7_transform_8 i) (hinb7_8 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S625000x128.size a
  hwx8_0 : ∀ i : grid8.Coords, EltTy.bits .f32 = 32 ∨ (Rect.block (s := S625000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S625000x128.size a
  hwx8_1 : ∀ i : grid8.Coords, EltTy.bits .f32 = 32 ∨ (Rect.block (s := S625000x128) S5000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S625000x128.size a
  hwx8_2 : ∀ i : grid8.Coords, EltTy.bits .f32 = 32 ∨ (Rect.block (s := S625000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x128.size a ≤ S50000x128.size a
  hwx9_1 : ∀ i : grid9.Coords, EltTy.bits .f32 = 32 ∨ (Rect.block (s := S50000x128) S2000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x256.size a ≤ S128x256.size a
  hwx9_2 : ∀ i : grid9.Coords, EltTy.bits .f32 = 32 ∨ (Rect.block (s := S128x256) S128x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x256.size a ≤ S1x256.size a
  hwx9_3 : ∀ i : grid9.Coords, EltTy.bits .f32 = 32 ∨ (Rect.block (s := S1x256) S1x256.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S256x128.size a ≤ S256x128.size a
  hwx9_4 : ∀ i : grid9.Coords, EltTy.bits .f32 = 32 ∨ (Rect.block (s := S256x128) S256x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1x128.size a ≤ S1x128.size a
  hwx9_7 : ∀ i : grid9.Coords, EltTy.bits .f32 = 32 ∨ (Rect.block (s := S1x128) S1x128.size (cc9_transform_7 i) (hinb9_7 i)).WholeWords (EltTy.packing .f32)
  hstage9_8 : ∀ j, (stage9_8 j).IsWhole
  nbuf9_8 : grid9.bufCount reads9_8 false = 2
  hreads9_8 : ∀ i i' : grid9.Coords, (∀ a, reads9_8 a = true → i a = i' a) → cc9_transform_8 i = cc9_transform_8 i'
  hinb9_8 : ∀ (i : grid9.Coords) a, (cc9_transform_8 i a + 1) * S2000x128.size a ≤ S50000x128.size a
  hwx9_8 : ∀ i : grid9.Coords, EltTy.bits .f32 = 32 ∨ (Rect.block (s := S50000x128) S2000x128.size (cc9_transform_8 i) (hinb9_8 i)).WholeWords (EltTy.packing .f32)

variable [Facts₀]

def dot_S2000x9_S9x128_S2000x128_1_0_0_1_n_n : DotDims S2000x9 S9x128 S2000x128 where
  lhsContracting := [1]
  rhsContracting := [0]
  lhsNonContracting := [0]
  rhsNonContracting := [1]
  lhsBatch := []
  rhsBatch := []
  wf := dot_S2000x9_S9x128_S2000x128_1_0_0_1_n_n_wf
def dot_S5000x4_S4x128_S5000x128_1_0_0_1_n_n : DotDims S5000x4 S4x128 S5000x128 where
  lhsContracting := [1]
  rhsContracting := [0]
  lhsNonContracting := [0]
  rhsNonContracting := [1]
  lhsBatch := []
  rhsBatch := []
  wf := dot_S5000x4_S4x128_S5000x128_1_0_0_1_n_n_wf
def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S2000x128_S50000x1_S50000x128_1_0_0_1 : ScatterDims S2000x128 S50000x1 S50000x128 where
  updateWindowDims := [1]
  insertedWindowDims := [0]
  scatterDimsToOperandDims := [0]
  indexVectorDim := 1
  wf := scatter_S2000x128_S50000x1_S50000x128_1_0_0_1_wf

abbrev win0_0 : Pipeline.Window sig grid0 :=
  Pipeline.Window.ofSpec (Memref.whole main_arg0) S2000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S9x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S5000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S4x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v1) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v20) S128x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v31) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v24) S256x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v32) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v33) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v34) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v35) S2000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v42) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v43) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v35) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v48) S128x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v59) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v52) S256x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v60) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v61) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v62) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v63) S2000x128.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v70) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v3) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v71) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v63) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v74) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v76) S128x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v87) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v80) S256x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v88) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v89) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v90) S1x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v91) S2000x128.size cc7_transform_8 reads7_8 true false 2 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

abbrev win8_0 : Pipeline.Window sig grid8 :=
  Pipeline.Window.ofSpec (Memref.whole main_v98) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v3) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v99) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v91) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v102) S2000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v104) S128x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v115) S1x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v108) S256x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v116) S1x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v117) S1x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v118) S1x128.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v119) S2000x128.size cc9_transform_8 reads9_8 true false 2 stage9_8 sem9_8
    hrank9 hreads9_8 hinb9_8 nbuf9_8 (Memref.isWhole_whole _) hwx9_8 hstage9_8

abbrev win9 : Fin 9 → Pipeline.Window sig grid9 := fun | 0 => win9_0 | 1 => win9_1 | 2 => win9_2 | 3 => win9_3 | 4 => win9_4 | 5 => win9_5 | 6 => win9_6 | 7 => win9_7 | 8 => win9_8 | ⟨_ + 9, h⟩ => absurd h (Nat.not_lt.2 (Nat.le_add_left _ _))
abbrev spec9 : Fin 9 → Pipeline.WinSpec sig grid9.rank := fun w => (win9 w).toWinSpec

class Facts : Prop extends Facts₀ where

variable [Facts]
-- ==== ReferenceIdeal.lean ====
abbrev S50000x9 : Shape := ⟨2, ![50000, 9]⟩
abbrev S2x625000 : Shape := ⟨2, ![2, 625000]⟩
abbrev S625000x4 : Shape := ⟨2, ![625000, 4]⟩
abbrev S50000 : Shape := ⟨1, ![50000]⟩
abbrev S9x128 : Shape := ⟨2, ![9, 128]⟩
abbrev S128 : Shape := ⟨1, ![128]⟩
abbrev S4x128 : Shape := ⟨2, ![4, 128]⟩
abbrev S4x128x256 : Shape := ⟨3, ![4, 128, 256]⟩
abbrev S4x256 : Shape := ⟨2, ![4, 256]⟩
abbrev S4x256x128 : Shape := ⟨3, ![4, 256, 128]⟩
abbrev S50000x128 : Shape := ⟨2, ![50000, 128]⟩
abbrev S1x128 : Shape := ⟨2, ![1, 128]⟩
abbrev S625000x128 : Shape := ⟨2, ![625000, 128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S1x128x256 : Shape := ⟨3, ![1, 128, 256]⟩
abbrev S128x256 : Shape := ⟨2, ![128, 256]⟩
abbrev S50000x256 : Shape := ⟨2, ![50000, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S50000x1 : Shape := ⟨2, ![50000, 1]⟩
abbrev S2000x128 : Shape := ⟨2, ![2000, 128]⟩

abbrev nBuf : Space → Nat
  | .hbm => 326
  | .vmem => 0
  | .smem => 0
  | _ => 0

abbrev hbmTy0_0 (i : Nat) : BufTy := match i % 128 with
  | 0 => ⟨S50000x9, .f32⟩
  | 1 => ⟨S2x625000, .i32⟩
  | 2 => ⟨S625000x4, .f32⟩
  | 3 => ⟨S50000, .i32⟩
  | 4 => ⟨S9x128, .f32⟩
  | 5 => ⟨S128, .f32⟩
  | 6 => ⟨S4x128, .f32⟩
  | 7 => ⟨S128, .f32⟩
  | 8 => ⟨S4x128x256, .f32⟩
  | 9 => ⟨S4x256, .f32⟩
  | 10 => ⟨S4x256x128, .f32⟩
  | 11 => ⟨S4x128, .f32⟩
  | 12 => ⟨S4x128, .f32⟩
  | 13 => ⟨S4x128, .f32⟩
  | 14 => ⟨S50000x128, .f32⟩
  | 15 => ⟨S1x128, .f32⟩
  | 16 => ⟨S50000x128, .f32⟩
  | 17 => ⟨S50000x128, .f32⟩
  | 18 => ⟨S625000x128, .f32⟩
  | 19 => ⟨S1x128, .f32⟩
  | 20 => ⟨S625000x128, .f32⟩
  | 21 => ⟨S625000x128, .f32⟩
  | 22 => ⟨S1x625000, .i32⟩
  | 23 => ⟨S625000, .i32⟩
  | 24 => ⟨S1x625000, .i32⟩
  | 25 => ⟨S625000, .i32⟩
  | 26 => ⟨S_, .i32⟩
  | 27 => ⟨S625000, .i32⟩
  | 28 => ⟨S625000, .i1⟩
  | 29 => ⟨S_, .i32⟩
  | 30 => ⟨S625000, .i32⟩
  | 31 => ⟨S625000, .i32⟩
  | 32 => ⟨S625000, .i32⟩
  | 33 => ⟨S625000x1, .i32⟩
  | 34 => ⟨S625000x128, .f32⟩
  | 35 => ⟨S625000x128, .f32⟩
  | 36 => ⟨S_, .f32⟩
  | 37 => ⟨S625000x128, .f32⟩
  | 38 => ⟨S625000x128, .f32⟩
  | 39 => ⟨S_, .f32⟩
  | 40 => ⟨S50000x128, .f32⟩
  | 41 => ⟨S625000x1, .i32⟩
  | 42 => ⟨S50000x128, .f32⟩
  | 43 => ⟨S50000x128, .f32⟩
  | 44 => ⟨S1x128x256, .f32⟩
  | 45 => ⟨S128x256, .f32⟩
  | 46 => ⟨S50000x256, .f32⟩
  | 47 => ⟨S1x256, .f32⟩
  | 48 => ⟨S256, .f32⟩
  | 49 => ⟨S1x256, .f32⟩
  | 50 => ⟨S50000x256, .f32⟩
  | 51 => ⟨S50000x256, .f32⟩
  | 52 => ⟨S_, .f32⟩
  | 53 => ⟨S50000x256, .f32⟩
  | 54 => ⟨S50000x256, .f32⟩
  | 55 => ⟨S1x256x128, .f32⟩
  | 56 => ⟨S256x128, .f32⟩
  | 57 => ⟨S50000x128, .f32⟩
  | 58 => ⟨S1x128, .f32⟩
  | 59 => ⟨S128, .f32⟩
  | 60 => ⟨S1x128, .f32⟩
  | 61 => ⟨S50000x128, .f32⟩
  | 62 => ⟨S50000x128, .f32⟩
  | 63 => ⟨S_, .f32⟩
  | 64 => ⟨S50000, .f32⟩
  | 65 => ⟨S50000x1, .f32⟩
  | 66 => ⟨S_, .f32⟩
  | 67 => ⟨S50000x1, .f32⟩
  | 68 => ⟨S50000x1, .f32⟩
  | 69 => ⟨S50000x128, .f32⟩
  | 70 => ⟨S50000x128, .f32⟩
  | 71 => ⟨S50000x128, .f32⟩
  | 72 => ⟨S_, .f32⟩
  | 73 => ⟨S50000, .f32⟩
  | 74 => ⟨S50000x1, .f32⟩
  | 75 => ⟨S_, .f32⟩
  | 76 => ⟨S50000x1, .f32⟩
  | 77 => ⟨S50000x1, .f32⟩
  | 78 => ⟨S50000x128, .f32⟩
  | 79 => ⟨S50000x128, .f32⟩
  | 80 => ⟨S_, .f32⟩
  | 81 => ⟨S50000x1, .f32⟩
  | 82 => ⟨S50000x1, .f32⟩
  | 83 => ⟨S50000x1, .f32⟩
  | 84 => ⟨S50000x128, .f32⟩
  | 85 => ⟨S50000x128, .f32⟩
  | 86 => ⟨S1x128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S50000x128, .f32⟩
  | 100 => ⟨S_, .i32⟩
  | 101 => ⟨S625000, .i32⟩
  | 102 => ⟨S625000, .i1⟩
  | 103 => ⟨S_, .i32⟩
  | 104 => ⟨S625000, .i32⟩
  | 105 => ⟨S625000, .i32⟩
  | 106 => ⟨S625000, .i32⟩
  | 107 => ⟨S625000x1, .i32⟩
  | 108 => ⟨S625000x128, .f32⟩
  | 109 => ⟨S625000x128, .f32⟩
  | 110 => ⟨S_, .f32⟩
  | 111 => ⟨S625000x128, .f32⟩
  | 112 => ⟨S625000x128, .f32⟩
  | 113 => ⟨S_, .f32⟩
  | 114 => ⟨S50000x128, .f32⟩
  | 115 => ⟨S625000x1, .i32⟩
  | 116 => ⟨S50000x128, .f32⟩
  | 117 => ⟨S50000x128, .f32⟩
  | 118 => ⟨S1x128x256, .f32⟩
  | 119 => ⟨S128x256, .f32⟩
  | 120 => ⟨S50000x256, .f32⟩
  | 121 => ⟨S1x256, .f32⟩
  | 122 => ⟨S256, .f32⟩
  | 123 => ⟨S1x256, .f32⟩
  | 124 => ⟨S50000x256, .f32⟩
  | 125 => ⟨S50000x256, .f32⟩
  | 126 => ⟨S_, .f32⟩
  | 127 => ⟨S50000x256, .f32⟩
  | _ => ⟨S50000x9, .f32⟩

abbrev hbmTy0_1 (i : Nat) : BufTy := match i % 128 with
  | 0 => ⟨S50000x256, .f32⟩
  | 1 => ⟨S1x256x128, .f32⟩
  | 2 => ⟨S256x128, .f32⟩
  | 3 => ⟨S50000x128, .f32⟩
  | 4 => ⟨S1x128, .f32⟩
  | 5 => ⟨S128, .f32⟩
  | 6 => ⟨S1x128, .f32⟩
  | 7 => ⟨S50000x128, .f32⟩
  | 8 => ⟨S50000x128, .f32⟩
  | 9 => ⟨S_, .f32⟩
  | 10 => ⟨S50000, .f32⟩
  | 11 => ⟨S50000x1, .f32⟩
  | 12 => ⟨S_, .f32⟩
  | 13 => ⟨S50000x1, .f32⟩
  | 14 => ⟨S50000x1, .f32⟩
  | 15 => ⟨S50000x128, .f32⟩
  | 16 => ⟨S50000x128, .f32⟩
  | 17 => ⟨S50000x128, .f32⟩
  | 18 => ⟨S_, .f32⟩
  | 19 => ⟨S50000, .f32⟩
  | 20 => ⟨S50000x1, .f32⟩
  | 21 => ⟨S_, .f32⟩
  | 22 => ⟨S50000x1, .f32⟩
  | 23 => ⟨S50000x1, .f32⟩
  | 24 => ⟨S50000x128, .f32⟩
  | 25 => ⟨S50000x128, .f32⟩
  | 26 => ⟨S_, .f32⟩
  | 27 => ⟨S50000x1, .f32⟩
  | 28 => ⟨S50000x1, .f32⟩
  | 29 => ⟨S50000x1, .f32⟩
  | 30 => ⟨S50000x128, .f32⟩
  | 31 => ⟨S50000x128, .f32⟩
  | 32 => ⟨S1x128, .f32⟩
  | 33 => ⟨S128, .f32⟩
  | 34 => ⟨S1x128, .f32⟩
  | 35 => ⟨S50000x128, .f32⟩
  | 36 => ⟨S50000x128, .f32⟩
  | 37 => ⟨S1x128, .f32⟩
  | 38 => ⟨S128, .f32⟩
  | 39 => ⟨S1x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S50000x128, .f32⟩
  | 46 => ⟨S_, .i32⟩
  | 47 => ⟨S625000, .i32⟩
  | 48 => ⟨S625000, .i1⟩
  | 49 => ⟨S_, .i32⟩
  | 50 => ⟨S625000, .i32⟩
  | 51 => ⟨S625000, .i32⟩
  | 52 => ⟨S625000, .i32⟩
  | 53 => ⟨S625000x1, .i32⟩
  | 54 => ⟨S625000x128, .f32⟩
  | 55 => ⟨S625000x128, .f32⟩
  | 56 => ⟨S_, .f32⟩
  | 57 => ⟨S625000x128, .f32⟩
  | 58 => ⟨S625000x128, .f32⟩
  | 59 => ⟨S_, .f32⟩
  | 60 => ⟨S50000x128, .f32⟩
  | 61 => ⟨S625000x1, .i32⟩
  | 62 => ⟨S50000x128, .f32⟩
  | 63 => ⟨S50000x128, .f32⟩
  | 64 => ⟨S1x128x256, .f32⟩
  | 65 => ⟨S128x256, .f32⟩
  | 66 => ⟨S50000x256, .f32⟩
  | 67 => ⟨S1x256, .f32⟩
  | 68 => ⟨S256, .f32⟩
  | 69 => ⟨S1x256, .f32⟩
  | 70 => ⟨S50000x256, .f32⟩
  | 71 => ⟨S50000x256, .f32⟩
  | 72 => ⟨S_, .f32⟩
  | 73 => ⟨S50000x256, .f32⟩
  | 74 => ⟨S50000x256, .f32⟩
  | 75 => ⟨S1x256x128, .f32⟩
  | 76 => ⟨S256x128, .f32⟩
  | 77 => ⟨S50000x128, .f32⟩
  | 78 => ⟨S1x128, .f32⟩
  | 79 => ⟨S128, .f32⟩
  | 80 => ⟨S1x128, .f32⟩
  | 81 => ⟨S50000x128, .f32⟩
  | 82 => ⟨S50000x128, .f32⟩
  | 83 => ⟨S_, .f32⟩
  | 84 => ⟨S50000, .f32⟩
  | 85 => ⟨S50000x1, .f32⟩
  | 86 => ⟨S_, .f32⟩
  | 87 => ⟨S50000x1, .f32⟩
  | 88 => ⟨S50000x1, .f32⟩
  | 89 => ⟨S50000x128, .f32⟩
  | 90 => ⟨S50000x128, .f32⟩
  | 91 => ⟨S50000x128, .f32⟩
  | 92 => ⟨S_, .f32⟩
  | 93 => ⟨S50000, .f32⟩
  | 94 => ⟨S50000x1, .f32⟩
  | 95 => ⟨S_, .f32⟩
  | 96 => ⟨S50000x1, .f32⟩
  | 97 => ⟨S50000x1, .f32⟩
  | 98 => ⟨S50000x128, .f32⟩
  | 99 => ⟨S50000x128, .f32⟩
  | 100 => ⟨S_, .f32⟩
  | 101 => ⟨S50000x1, .f32⟩
  | 102 => ⟨S50000x1, .f32⟩
  | 103 => ⟨S50000x1, .f32⟩
  | 104 => ⟨S50000x128, .f32⟩
  | 105 => ⟨S50000x128, .f32⟩
  | 106 => ⟨S1x128, .f32⟩
  | 107 => ⟨S128, .f32⟩
  | 108 => ⟨S1x128, .f32⟩
  | 109 => ⟨S50000x128, .f32⟩
  | 110 => ⟨S50000x128, .f32⟩
  | 111 => ⟨S1x128, .f32⟩
  | 112 => ⟨S128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S50000x128, .f32⟩
  | 120 => ⟨S_, .i32⟩
  | 121 => ⟨S625000, .i32⟩
  | 122 => ⟨S625000, .i1⟩
  | 123 => ⟨S_, .i32⟩
  | 124 => ⟨S625000, .i32⟩
  | 125 => ⟨S625000, .i32⟩
  | 126 => ⟨S625000, .i32⟩
  | 127 => ⟨S625000x1, .i32⟩
  | _ => ⟨S50000x9, .f32⟩

abbrev hbmTy0_2 (i : Nat) : BufTy := match i % 128 with
  | 0 => ⟨S625000x128, .f32⟩
  | 1 => ⟨S625000x128, .f32⟩
  | 2 => ⟨S_, .f32⟩
  | 3 => ⟨S625000x128, .f32⟩
  | 4 => ⟨S625000x128, .f32⟩
  | 5 => ⟨S_, .f32⟩
  | 6 => ⟨S50000x128, .f32⟩
  | 7 => ⟨S625000x1, .i32⟩
  | 8 => ⟨S50000x128, .f32⟩
  | 9 => ⟨S50000x128, .f32⟩
  | 10 => ⟨S1x128x256, .f32⟩
  | 11 => ⟨S128x256, .f32⟩
  | 12 => ⟨S50000x256, .f32⟩
  | 13 => ⟨S1x256, .f32⟩
  | 14 => ⟨S256, .f32⟩
  | 15 => ⟨S1x256, .f32⟩
  | 16 => ⟨S50000x256, .f32⟩
  | 17 => ⟨S50000x256, .f32⟩
  | 18 => ⟨S_, .f32⟩
  | 19 => ⟨S50000x256, .f32⟩
  | 20 => ⟨S50000x256, .f32⟩
  | 21 => ⟨S1x256x128, .f32⟩
  | 22 => ⟨S256x128, .f32⟩
  | 23 => ⟨S50000x128, .f32⟩
  | 24 => ⟨S1x128, .f32⟩
  | 25 => ⟨S128, .f32⟩
  | 26 => ⟨S1x128, .f32⟩
  | 27 => ⟨S50000x128, .f32⟩
  | 28 => ⟨S50000x128, .f32⟩
  | 29 => ⟨S_, .f32⟩
  | 30 => ⟨S50000, .f32⟩
  | 31 => ⟨S50000x1, .f32⟩
  | 32 => ⟨S_, .f32⟩
  | 33 => ⟨S50000x1, .f32⟩
  | 34 => ⟨S50000x1, .f32⟩
  | 35 => ⟨S50000x128, .f32⟩
  | 36 => ⟨S50000x128, .f32⟩
  | 37 => ⟨S50000x128, .f32⟩
  | 38 => ⟨S_, .f32⟩
  | 39 => ⟨S50000, .f32⟩
  | 40 => ⟨S50000x1, .f32⟩
  | 41 => ⟨S_, .f32⟩
  | 42 => ⟨S50000x1, .f32⟩
  | 43 => ⟨S50000x1, .f32⟩
  | 44 => ⟨S50000x128, .f32⟩
  | 45 => ⟨S50000x128, .f32⟩
  | 46 => ⟨S_, .f32⟩
  | 47 => ⟨S50000x1, .f32⟩
  | 48 => ⟨S50000x1, .f32⟩
  | 49 => ⟨S50000x1, .f32⟩
  | 50 => ⟨S50000x128, .f32⟩
  | 51 => ⟨S50000x128, .f32⟩
  | 52 => ⟨S1x128, .f32⟩
  | 53 => ⟨S128, .f32⟩
  | 54 => ⟨S1x128, .f32⟩
  | 55 => ⟨S50000x128, .f32⟩
  | 56 => ⟨S50000x128, .f32⟩
  | 57 => ⟨S1x128, .f32⟩
  | 58 => ⟨S128, .f32⟩
  | 59 => ⟨S1x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S50000x128, .f32⟩
  | 66 => ⟨S_, .f32⟩
  | 67 => ⟨S2000x128, .f32⟩
  | 68 => ⟨S50000x1, .i32⟩
  | 69 => ⟨S2000x128, .f32⟩
  | _ => ⟨S50000x9, .f32⟩

abbrev hbmTy (i : Nat) : BufTy := match i / 128 with
  | 0 => hbmTy0_0 i
  | 1 => hbmTy0_1 i
  | 2 => hbmTy0_2 i
  | _ => ⟨S50000x9, .f32⟩

abbrev bufTy : (tb : Table) → Fin (tcTables nBuf tb) → BufTy
  | .hbm, ⟨i, _⟩ => hbmTy i
  | _, _ => ⟨S50000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call0_cst : Ref sig .tc := ⟨.hbm, 36, rfl⟩
abbrev main_call0_v0 : Ref sig .tc := ⟨.hbm, 37, rfl⟩
abbrev main_v20 : Ref sig .tc := ⟨.hbm, 38, rfl⟩
abbrev main_cst : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_cst : Ref sig .tc := ⟨.hbm, 52, rfl⟩
abbrev main_call1_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_1 : Ref sig .tc := ⟨.hbm, 63, rfl⟩
abbrev main_v42 : Ref sig .tc := ⟨.hbm, 64, rfl⟩
abbrev main_v43 : Ref sig .tc := ⟨.hbm, 65, rfl⟩
abbrev main_cst_2 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_3 : Ref sig .tc := ⟨.hbm, 72, rfl⟩
abbrev main_v49 : Ref sig .tc := ⟨.hbm, 73, rfl⟩
abbrev main_v50 : Ref sig .tc := ⟨.hbm, 74, rfl⟩
abbrev main_cst_4 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_5 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_call2_cst : Ref sig .tc := ⟨.hbm, 96, rfl⟩
abbrev main_call2_v0 : Ref sig .tc := ⟨.hbm, 97, rfl⟩
abbrev main_v70 : Ref sig .tc := ⟨.hbm, 98, rfl⟩
abbrev main_v71 : Ref sig .tc := ⟨.hbm, 99, rfl⟩
abbrev main_c_6 : Ref sig .tc := ⟨.hbm, 100, rfl⟩
abbrev main_v72 : Ref sig .tc := ⟨.hbm, 101, rfl⟩
abbrev main_v73 : Ref sig .tc := ⟨.hbm, 102, rfl⟩
abbrev main_c_7 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call3_cst : Ref sig .tc := ⟨.hbm, 110, rfl⟩
abbrev main_call3_v0 : Ref sig .tc := ⟨.hbm, 111, rfl⟩
abbrev main_v80 : Ref sig .tc := ⟨.hbm, 112, rfl⟩
abbrev main_cst_8 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_call4_cst : Ref sig .tc := ⟨.hbm, 126, rfl⟩
abbrev main_call4_v0 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_9 : Ref sig .tc := ⟨.hbm, 137, rfl⟩
abbrev main_v102 : Ref sig .tc := ⟨.hbm, 138, rfl⟩
abbrev main_v103 : Ref sig .tc := ⟨.hbm, 139, rfl⟩
abbrev main_cst_10 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_11 : Ref sig .tc := ⟨.hbm, 146, rfl⟩
abbrev main_v109 : Ref sig .tc := ⟨.hbm, 147, rfl⟩
abbrev main_v110 : Ref sig .tc := ⟨.hbm, 148, rfl⟩
abbrev main_cst_12 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_13 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_call5_cst : Ref sig .tc := ⟨.hbm, 170, rfl⟩
abbrev main_call5_v0 : Ref sig .tc := ⟨.hbm, 171, rfl⟩
abbrev main_v130 : Ref sig .tc := ⟨.hbm, 172, rfl⟩
abbrev main_v131 : Ref sig .tc := ⟨.hbm, 173, rfl⟩
abbrev main_c_14 : Ref sig .tc := ⟨.hbm, 174, rfl⟩
abbrev main_v132 : Ref sig .tc := ⟨.hbm, 175, rfl⟩
abbrev main_v133 : Ref sig .tc := ⟨.hbm, 176, rfl⟩
abbrev main_c_15 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_call6_cst : Ref sig .tc := ⟨.hbm, 184, rfl⟩
abbrev main_call6_v0 : Ref sig .tc := ⟨.hbm, 185, rfl⟩
abbrev main_v140 : Ref sig .tc := ⟨.hbm, 186, rfl⟩
abbrev main_cst_16 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_call7_cst : Ref sig .tc := ⟨.hbm, 200, rfl⟩
abbrev main_call7_v0 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_cst_17 : Ref sig .tc := ⟨.hbm, 211, rfl⟩
abbrev main_v162 : Ref sig .tc := ⟨.hbm, 212, rfl⟩
abbrev main_v163 : Ref sig .tc := ⟨.hbm, 213, rfl⟩
abbrev main_cst_18 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_cst_19 : Ref sig .tc := ⟨.hbm, 220, rfl⟩
abbrev main_v169 : Ref sig .tc := ⟨.hbm, 221, rfl⟩
abbrev main_v170 : Ref sig .tc := ⟨.hbm, 222, rfl⟩
abbrev main_cst_20 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_cst_21 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_call8_cst : Ref sig .tc := ⟨.hbm, 244, rfl⟩
abbrev main_call8_v0 : Ref sig .tc := ⟨.hbm, 245, rfl⟩
abbrev main_v190 : Ref sig .tc := ⟨.hbm, 246, rfl⟩
abbrev main_v191 : Ref sig .tc := ⟨.hbm, 247, rfl⟩
abbrev main_c_22 : Ref sig .tc := ⟨.hbm, 248, rfl⟩
abbrev main_v192 : Ref sig .tc := ⟨.hbm, 249, rfl⟩
abbrev main_v193 : Ref sig .tc := ⟨.hbm, 250, rfl⟩
abbrev main_c_23 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_call9_cst : Ref sig .tc := ⟨.hbm, 258, rfl⟩
abbrev main_call9_v0 : Ref sig .tc := ⟨.hbm, 259, rfl⟩
abbrev main_v200 : Ref sig .tc := ⟨.hbm, 260, rfl⟩
abbrev main_cst_24 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_call10_cst : Ref sig .tc := ⟨.hbm, 274, rfl⟩
abbrev main_call10_v0 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_cst_25 : Ref sig .tc := ⟨.hbm, 285, rfl⟩
abbrev main_v222 : Ref sig .tc := ⟨.hbm, 286, rfl⟩
abbrev main_v223 : Ref sig .tc := ⟨.hbm, 287, rfl⟩
abbrev main_cst_26 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_cst_27 : Ref sig .tc := ⟨.hbm, 294, rfl⟩
abbrev main_v229 : Ref sig .tc := ⟨.hbm, 295, rfl⟩
abbrev main_v230 : Ref sig .tc := ⟨.hbm, 296, rfl⟩
abbrev main_cst_28 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_cst_29 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_v239 : Ref sig .tc := ⟨.hbm, 307, rfl⟩
abbrev main_v240 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_call11_cst : Ref sig .tc := ⟨.hbm, 318, rfl⟩
abbrev main_call11_v0 : Ref sig .tc := ⟨.hbm, 319, rfl⟩
abbrev main_v250 : Ref sig .tc := ⟨.hbm, 320, rfl⟩
abbrev main_v251 : Ref sig .tc := ⟨.hbm, 321, rfl⟩
abbrev main_cst_30 : Ref sig .tc := ⟨.hbm, 322, rfl⟩
abbrev main_v252 : Ref sig .tc := ⟨.hbm, 323, rfl⟩
abbrev main_v253 : Ref sig .tc := ⟨.hbm, 324, rfl⟩
abbrev main_v254 : Ref sig .tc := ⟨.hbm, 325, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S625000x128_0_1 : S1x128.BroadcastsInDim S625000x128 (![0, 1] : Fin 2 → Fin S625000x128.rank)
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S625000x128 : S_.BroadcastsInDim S625000x128 (![] : Fin 0 → Fin S625000x128.rank)
  bcast_S_S50000x128 : S_.BroadcastsInDim S50000x128 (![] : Fin 0 → Fin S50000x128.rank)
  slices_S4x128x256_S1x128x256_0_0_0 : S4x128x256.Slices ![0, 0, 0] S1x128x256
  shapeCasts_S1x128x256_S128x256 : S1x128x256.ShapeCasts S128x256
  slices_S4x256_S1x256_0_0 : S4x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S4x256x128_S1x256x128_0_0_0 : S4x256x128.Slices ![0, 0, 0] S1x256x128
  shapeCasts_S1x256x128_S256x128 : S1x256x128.ShapeCasts S256x128
  slices_S4x128_S1x128_0_0 : S4x128.Slices ![0, 0] S1x128
  shapeCasts_S1x128_S128 : S1x128.ShapeCasts S128
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S4x128x256_S1x128x256_1_0_0 : S4x128x256.Slices ![1, 0, 0] S1x128x256
  slices_S4x256_S1x256_1_0 : S4x256.Slices ![1, 0] S1x256
  slices_S4x256x128_S1x256x128_1_0_0 : S4x256x128.Slices ![1, 0, 0] S1x256x128
  slices_S4x128_S1x128_1_0 : S4x128.Slices ![1, 0] S1x128
  slices_S4x128x256_S1x128x256_2_0_0 : S4x128x256.Slices ![2, 0, 0] S1x128x256
  slices_S4x256_S1x256_2_0 : S4x256.Slices ![2, 0] S1x256
  slices_S4x256x128_S1x256x128_2_0_0 : S4x256x128.Slices ![2, 0, 0] S1x256x128
  slices_S4x128_S1x128_2_0 : S4x128.Slices ![2, 0] S1x128
  slices_S4x128x256_S1x128x256_3_0_0 : S4x128x256.Slices ![3, 0, 0] S1x128x256
  slices_S4x256_S1x256_3_0 : S4x256.Slices ![3, 0] S1x256
  slices_S4x256x128_S1x256x128_3_0_0 : S4x256x128.Slices ![3, 0, 0] S1x256x128
  slices_S4x128_S1x128_3_0 : S4x128.Slices ![3, 0] S1x128
  bcast_S_S2000x128 : S_.BroadcastsInDim S2000x128 (![] : Fin 0 → Fin S2000x128.rank)
  dot_S50000x9_S9x128_S50000x128_1_0_0_1_n_n_wf : DotDims.WF S50000x9 S9x128 S50000x128 [1] [0] [0] [1] [] []
  dot_S625000x4_S4x128_S625000x128_1_0_0_1_n_n_wf : DotDims.WF S625000x4 S4x128 S625000x128 [1] [0] [0] [1] [] []
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []
  scatter_S2000x128_S50000x1_S50000x128_1_0_0_1_wf : ScatterDims.WF S2000x128 S50000x1 S50000x128 [1] [0] [0] 1

variable [Facts₀]

def dot_S50000x9_S9x128_S50000x128_1_0_0_1_n_n : DotDims S50000x9 S9x128 S50000x128 where
  lhsContracting := [1]
  rhsContracting := [0]
  lhsNonContracting := [0]
  rhsNonContracting := [1]
  lhsBatch := []
  rhsBatch := []
  wf := dot_S50000x9_S9x128_S50000x128_1_0_0_1_n_n_wf
def dot_S625000x4_S4x128_S625000x128_1_0_0_1_n_n : DotDims S625000x4 S4x128 S625000x128 where
  lhsContracting := [1]
  rhsContracting := [0]
  lhsNonContracting := [0]
  rhsNonContracting := [1]
  lhsBatch := []
  rhsBatch := []
  wf := dot_S625000x4_S4x128_S625000x128_1_0_0_1_n_n_wf
def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S2000x128_S50000x1_S50000x128_1_0_0_1 : ScatterDims S2000x128 S50000x1 S50000x128 where
  updateWindowDims := [1]
  insertedWindowDims := [0]
  scatterDimsToOperandDims := [0]
  indexVectorDim := 1
  wf := scatter_S2000x128_S50000x1_S50000x128_1_0_0_1_wf

class Facts : Prop extends Facts₀ where

variable [Facts]
-- ==== Proof.KernelRun.lean ====
/-
  The whole program's run with its result kept.

  The program is a chain of twenty-one segments: eleven stretches of host operations with ten grid launches between
  them. The contents of every buffer at each boundary are a fold from the launch memory: a host stretch applies its
  operations, a launch replaces each of its output arrays by what its grid points wrote back and leaves everything
  else. Every weakly fair execution terminates without a fault in a state whose buffers are the last boundary's
  contents; read at the result buffer this gives the pooled array, and read at the fourteen argument buffers it gives
  the launch contents again.
-/
import proofs.«157398_j15616501088448_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments as
    launched. -/
theorem run_result : θ_run defs (onTc (τ := τ) (main (F := F))) ⟨m, fun _ => 0, ρ⟩ (fun r => ∀ c : Dev nD,
      r.2.mem ((c.tc : Thread nD τ).loc main_v122) = W21 m ρ c (Proc.devRef .tc main_v122)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v122 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c),
       (h c _ (mem_uc main_arg11 (by decide))).trans (W21_main_arg11 m ρ c),
       (h c _ (mem_uc main_arg12 (by decide))).trans (W21_main_arg12 m ρ c),
       (h c _ (mem_uc main_arg13 (by decide))).trans (W21_main_arg13 m ρ c)⟩)

end Cert.KernelIdeal.RunValue

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibHostRow.lean ====
/-
  A bias row spread over the rows of a matrix, and a scalar spread over an array, on the host.

  To add a length-`d` vector to every row of an `[n, d]` array the host first regards the vector as one row `[1, d]`
  and then repeats that row `n` times (two `broadcast_in_dim`s, with dimension maps `[1]` and `[0, 1]`): entry (r, q) of
  the result is entry q of the vector. A scalar spread to any shape (dimension map `[]`) reads the scalar everywhere.
  All three steps are stated for arbitrary extents.
-/
import Idealize.ShloMosaic.Lib.Pipeline.Value
import Idealize.ShloMosaic.Lib.ValueIdx

noncomputable section

namespace Cert.LibHostRow

open Idealize.ShloMosaic Idealize.ShloMosaic.ValueIdx

/-- A vector regarded as one row reads, at (0, q), the vector's entry q. -/
theorem row_apply {α : Type} {d : ℕ} (x : (⟨1, ![d]⟩ : Shape).Idx → α)
    (h : (⟨1, ![d]⟩ : Shape).BroadcastsInDim ⟨2, ![1, d]⟩ (![1] : Fin 1 → Fin 2)) (u : Fin 1) (q : Fin d) :
    broadcastInDim ⟨2, ![1, d]⟩ ![1] h x (ix2 u q) = x (ix1 q) := by
  refine broadcastInDim_apply _ h x (ix2 u q) (ix1 q) fun a => ?_
  match a with
  | ⟨0, _⟩ =>
    show q.val = if d = 1 then 0 else q.val
    split
    · have := q.isLt; omega
    · rfl

/-- One row repeated down the rows reads, at (r, q), the row's entry q. -/
theorem rows_apply {α : Type} {n d : ℕ} (x : (⟨2, ![1, d]⟩ : Shape).Idx → α)
    (h : (⟨2, ![1, d]⟩ : Shape).BroadcastsInDim ⟨2, ![n, d]⟩ (![0, 1] : Fin 2 → Fin 2)) (r : Fin n) (q : Fin d) :
    broadcastInDim ⟨2, ![n, d]⟩ ![0, 1] h x (ix2 r q) = x (ix2 (0 : Fin 1) q) := by
  refine broadcastInDim_apply _ h x (ix2 r q) (ix2 (0 : Fin 1) q) fun a => ?_
  match a with
  | ⟨0, _⟩ => rfl
  | ⟨1, _⟩ =>
    show q.val = if d = 1 then 0 else q.val
    split
    · have := q.isLt; omega
    · rfl

/-- A scalar spread to any shape reads, everywhere, the scalar. -/
theorem scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun a => a.elim0

end Cert.LibHostRow

end
-- ==== Proof.LibDenseRow.lean ====
/-
  One row through a dense layer, as the vector unit and as the host spell it.

  For any extents M, K, N and at the extended reals. `lin x w b` is a row x of K entries times a K × N matrix w plus a
  bias given as a 1 × N row b. On a block of M rows the vector unit narrows both operands (the identity here), multiplies
  them on the matrix unit into an accumulator of zeros and adds the bias row broadcast down the rows; the host multiplies
  by `dot_general` and adds a bias VECTOR regarded as one row and repeated down the rows. Read at entry (p, q), both are
  `lin` of row p — on the host with the vector b appearing as the row (0, q) ↦ b q (`rowCast_apply`).
-/
import proofs.«157398_j15616501088448_1_alg».proof.Proof.LibPlainDot
import proofs.«157398_j15616501088448_1_alg».proof.Proof.LibHostRow
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Gine

open Idealize.ShloMosaic Idealize.ShloMosaic.ValueIdx

/-- An array of extended reals with a rows and b columns. -/
abbrev Mat (a b : ℕ) : Type := (⟨2, ![a, b]⟩ : Shape).Idx → EReal

/-- One row through a dense layer: the row times the matrix, plus the bias row. -/
def lin {K N : ℕ} (x : Fin K → EReal) (w : Mat K N) (b : Mat 1 N) (q : Fin N) : EReal :=
  (∑ k : Fin K, x k * w (ix2 k q)) + b (ix2 (0 : Fin 1) q)

/-- A product of narrowed operands accumulating into zero, plus a bias row broadcast down the rows. -/
theorem denseVec_apply {M K N : ℕ} (x : FVec Idealize.ShloMosaic.Ideal ⟨2, ![M, K]⟩ .f32)
    (w : FVec Idealize.ShloMosaic.Ideal ⟨2, ![K, N]⟩ .f32) (b : FVec Idealize.ShloMosaic.Ideal ⟨2, ![1, N]⟩ .f32)
    (hlt : FTy.bf16.bits < FTy.f32.bits) (hsc : (⟨2, ![1, N]⟩ : Shape).ShapeCasts ⟨2, ![1, N]⟩)
    (hb : (⟨2, ![1, N]⟩ : Shape).Broadcasts ⟨2, ![M, N]⟩) (p : Fin M) (q : Fin N) :
    addf (matmul (DotDims.plain M K N) none (truncf .bf16 x hlt) (truncf .bf16 w hlt)
          (constant ⟨2, ![M, N]⟩ .f32 0x00000000#32))
        (broadcastTo ⟨2, ![M, N]⟩ (shapeCast ⟨2, ![1, N]⟩ b hsc) hb) (ix2 p q)
      = lin (fun k => x (ix2 p k)) w b q := by
  show FloatOps.matmul (DotDims.plain M K N) none (truncf .bf16 x hlt) (truncf .bf16 w hlt)
        (constant ⟨2, ![M, N]⟩ .f32 0x00000000#32) (ix2 p q)
      + broadcastTo ⟨2, ![M, N]⟩ (shapeCast ⟨2, ![1, N]⟩ b hsc) hb (ix2 p q) = _
  rw [Cert.Sage.matmul_plain_zero_apply, broadcastTo_1b_ab_apply, shapeCast_self]
  rfl

/-- The same with the bias row broadcast as it is. -/
theorem denseVec_apply' {M K N : ℕ} (x : FVec Idealize.ShloMosaic.Ideal ⟨2, ![M, K]⟩ .f32)
    (w : FVec Idealize.ShloMosaic.Ideal ⟨2, ![K, N]⟩ .f32) (b : FVec Idealize.ShloMosaic.Ideal ⟨2, ![1, N]⟩ .f32)
    (hlt : FTy.bf16.bits < FTy.f32.bits)
    (hb : (⟨2, ![1, N]⟩ : Shape).Broadcasts ⟨2, ![M, N]⟩) (p : Fin M) (q : Fin N) :
    addf (matmul (DotDims.plain M K N) none (truncf .bf16 x hlt) (truncf .bf16 w hlt)
          (constant ⟨2, ![M, N]⟩ .f32 0x00000000#32))
        (broadcastTo ⟨2, ![M, N]⟩ b hb) (ix2 p q)
      = lin (fun k => x (ix2 p k)) w b q := by
  show FloatOps.matmul (DotDims.plain M K N) none (truncf .bf16 x hlt) (truncf .bf16 w hlt)
        (constant ⟨2, ![M, N]⟩ .f32 0x00000000#32) (ix2 p q)
      + broadcastTo ⟨2, ![M, N]⟩ b hb (ix2 p q) = _
  rw [Cert.Sage.matmul_plain_zero_apply, broadcastTo_1b_ab_apply]
  rfl

/-- A vector regarded as one row: entry (0, q) is entry q. -/
theorem rowCast_apply {N : ℕ} (b : (⟨1, ![N]⟩ : Shape).Idx → EReal) (hs : (⟨1, ![N]⟩ : Shape).ShapeCasts ⟨2, ![1, N]⟩)
    (q : Fin N) : shapeCast ⟨2, ![1, N]⟩ b hs (ix2 (0 : Fin 1) q) = b (ix1 q) :=
  shapeCast_apply b hs _ _ (by
    rw [Shape.rowMajor_val_two, Shape.rowMajor_val_one]
    show q.val = 0 * N + q.val
    omega)

/-- The host's dense layer at an entry. -/
theorem hostDense_apply {M K N : ℕ} (x : FVec Idealize.ShloMosaic.Ideal ⟨2, ![M, K]⟩ .f32) (w : FVec Idealize.ShloMosaic.Ideal ⟨2, ![K, N]⟩ .f32)
    (b : FVec Idealize.ShloMosaic.Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hs : (⟨1, ![N]⟩ : Shape).ShapeCasts ⟨2, ![1, N]⟩) (r : Fin M) (q : Fin N) :
    addf (Host.dotGeneral (F := Idealize.ShloMosaic.Ideal) (DotDims.plain M K N) none x w)
        (broadcastInDim ⟨2, ![M, N]⟩ ![0, 1] h2 (broadcastInDim ⟨2, ![1, N]⟩ ![1] h1 b)) (ix2 r q)
      = lin (fun k => x (ix2 r k)) w (shapeCast ⟨2, ![1, N]⟩ b hs) q := by
  show Host.dotGeneral (F := Idealize.ShloMosaic.Ideal) (DotDims.plain M K N) none x w (ix2 r q)
      + broadcastInDim ⟨2, ![M, N]⟩ ![0, 1] h2 (broadcastInDim ⟨2, ![1, N]⟩ ![1] h1 b) (ix2 r q) = _
  unfold Host.dotGeneral
  rw [Cert.Sage.dotGeneral_plain_apply, Cert.LibHostRow.rows_apply, Cert.LibHostRow.row_apply]
  unfold lin
  rw [rowCast_apply]

end Cert.Gine

end
-- ==== Proof.LibRowScalars.lean ====
/-
  Reading a block of rows one row at a time, for any number of rows `a` and any row length `b`:

  * the sum along the lanes of an `[a, b]` array, at row `p`, is `∑ k : Fin b` of the entries of row `p`;
  * a vector of `a` entries regarded as an `[a, 1]` column has entry `p` in row `p`;
  * the single entry of a `[1, 1]` array broadcast down an `[a, 1]` column is that entry in every row;
  * the leading `m` columns of an `[a, b]` array, at `(p, k)`, are the array at `(p, k)`;
  * three `[a, 1]` columns laid side by side into `[a, 3]` have, in row `p`, the first column's entry at
    column 0, the second's at column 1, the third's at column 2.

  All hold for every extent `a` (and `b`, `m ≤ b`); the column count of the last one is the literal 3.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowScalars

open Idealize.ShloMosaic Idealize.ShloMosaic.ValueIdx

variable {α : Type}

/-- The lane sum of an `[a, b]` array of extended reals at row `p`: the sum of that row's `b` entries. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext d
  match d with
  | ⟨0, _⟩ => rfl
  | ⟨1, _⟩ => rfl

/-- A vector of `a` entries cast to an `[a, 1]` column reads, at `(p, u)`, entry `p`. -/
theorem column_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The one entry of a `[1, 1]` array broadcast down an `[a, 1]` column is that entry, in every row. -/
theorem splat11_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  have hu : u = 0 := Subsingleton.elim _ _
  subst hu
  exact broadcastTo_1b_ab_apply v h p 0

/-- The leading `m` columns of an `[a, b]` array read, at `(p, k)`, the array at `(p, k)`. -/
theorem leadingCols_apply {a b m : ℕ} (X : (⟨2, ![a, b]⟩ : Shape).Idx → α)
    (h : (⟨2, ![a, b]⟩ : Shape).Slices ![0, 0] ⟨2, ![a, m]⟩) (p : Fin a) (k : Fin m) (k' : Fin b) (hk : k'.val = k.val) :
    extractStridedSlice ⟨2, ![a, m]⟩ ![0, 0] X h (ix2 p k) = X (ix2 p k') :=
  slice2_axis1_apply 0 X h p k k' (by rw [hk, Nat.zero_add])

section ThreeColumns

variable {a : ℕ} (x y z : (⟨2, ![a, 1]⟩ : Shape).Idx → α)
  (h : Shape.Concatenates [(⟨2, ![a, 1]⟩ : Shape), ⟨2, ![a, 1]⟩, ⟨2, ![a, 1]⟩] ⟨2, ![a, 3]⟩ 1)

/-- Three columns side by side, read in column 0: the first column. -/
theorem cols3_apply_0 (p : Fin a) :
    concatenate ⟨2, ![a, 3]⟩ 1 [⟨⟨2, ![a, 1]⟩, x⟩, ⟨⟨2, ![a, 1]⟩, y⟩, ⟨⟨2, ![a, 1]⟩, z⟩] h (ix2 p (0 : Fin 3))
      = x (ix2 p (0 : Fin 1)) :=
  concatenate_apply_piece (t := ⟨2, ![a, 3]⟩) (1 : Fin 2) [⟨⟨2, ![a, 1]⟩, x⟩, ⟨⟨2, ![a, 1]⟩, y⟩, ⟨⟨2, ![a, 1]⟩, z⟩] h
    (ix2 p (0 : Fin 3)) 0 (by show 0 < 3; omega) ⟨2, ![a, 1]⟩ x rfl rfl 0 rfl (ix2 p (0 : Fin 1))
    (fun b hb => by
      match b with
      | ⟨0, _⟩ => rfl
      | ⟨1, _⟩ => exact absurd rfl hb)
    rfl

/-- Three columns side by side, read in column 1: the second column. -/
theorem cols3_apply_1 (p : Fin a) :
    concatenate ⟨2, ![a, 3]⟩ 1 [⟨⟨2, ![a, 1]⟩, x⟩, ⟨⟨2, ![a, 1]⟩, y⟩, ⟨⟨2, ![a, 1]⟩, z⟩] h (ix2 p (1 : Fin 3))
      = y (ix2 p (0 : Fin 1)) :=
  concatenate_apply_piece (t := ⟨2, ![a, 3]⟩) (1 : Fin 2) [⟨⟨2, ![a, 1]⟩, x⟩, ⟨⟨2, ![a, 1]⟩, y⟩, ⟨⟨2, ![a, 1]⟩, z⟩] h
    (ix2 p (1 : Fin 3)) 1 (by show 1 < 3; omega) ⟨2, ![a, 1]⟩ y rfl rfl 1 rfl (ix2 p (0 : Fin 1))
    (fun b hb => by
      match b with
      | ⟨0, _⟩ => rfl
      | ⟨1, _⟩ => exact absurd rfl hb)
    rfl

/-- Three columns side by side, read in column 2: the third column. -/
theorem cols3_apply_2 (p : Fin a) :
    concatenate ⟨2, ![a, 3]⟩ 1 [⟨⟨2, ![a, 1]⟩, x⟩, ⟨⟨2, ![a, 1]⟩, y⟩, ⟨⟨2, ![a, 1]⟩, z⟩] h (ix2 p (2 : Fin 3))
      = z (ix2 p (0 : Fin 1)) :=
  concatenate_apply_piece (t := ⟨2, ![a, 3]⟩) (1 : Fin 2) [⟨⟨2, ![a, 1]⟩, x⟩, ⟨⟨2, ![a, 1]⟩, y⟩, ⟨⟨2, ![a, 1]⟩, z⟩] h
    (ix2 p (2 : Fin 3)) 2 (by show 2 < 3; omega) ⟨2, ![a, 1]⟩ z rfl rfl 2 rfl (ix2 p (0 : Fin 1))
    (fun b hb => by
      match b with
      | ⟨0, _⟩ => rfl
      | ⟨1, _⟩ => exact absurd rfl hb)
    rfl

end ThreeColumns

end Cert.RowScalars

end
-- ==== Proof.LibColumn.lean ====
/-
  A column kept beside an array: the two layout steps of a row-wise reduction with its axis kept.

  A vector of length a regarded as an a × 1 column reads, at (i, u), the vector at i; an a × 1 column broadcast
  across b columns reads, at (p, c), the column at p. Both hold for every a and b (a = 1 and b = 1 included:
  the unit coordinate is then the only one there is). Indices are written with the literal-extent constructors
  ix1, ix2, so that the statements apply by unification to a term written the same way.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`, whatever the unit
    coordinate `u`. Every `a`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at `p`. Every `a` and `b`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Spec.lean ====
/-
  The mathematics of the graph network, one row at a time.

  Every dense stage of the network works on the rows of an array independently: row r of the result depends on row r
  of the inputs and on the weights only. `lin` is one row through a dense layer (the row times the weight matrix, plus
  the bias row); `relu` the maximum with zero; `mean128` the mean of a row of 128 entries (the sum divided by 128);
  `normRow` the layer normalisation of a row (subtract the mean, multiply by the reciprocal square root of the variance
  plus a small constant, scale and shift); `layerRow` one whole update of a node's row h given its aggregated messages a:
  relu(norm(lin(relu(lin(h + a))))) + h.  The whole-array functions `encG`, `msgG`, `layerG` apply them row by row.

  Second half: the same stages as the vector unit spells them on a block of M rows (a product on operands narrowed to
  bf16 — the identity on extended reals — accumulating into zero, a bias row broadcast down the rows, a sum along the
  lanes kept as a column and broadcast back), read at an entry (p, q): each is the row function of row p.
-/
import proofs.«157398_j15616501088448_1_alg».proof.Proof.LibDenseRow
import proofs.«157398_j15616501088448_1_alg».proof.Proof.LibRowScalars
import proofs.«157398_j15616501088448_1_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Gine

open Idealize.ShloMosaic Idealize.ShloMosaic.ValueIdx

/-- The maximum with zero. -/
def relu (v : EReal) : EReal := max v (Idealize.ShloMosaic.Ideal.ofBits .f32 0x00000000#32)

/-- The mean of 128 entries: their sum divided by 128. -/
def mean128 (z : Fin 128 → EReal) : EReal :=
  Idealize.ShloMosaic.Ideal.div (∑ q : Fin 128, z q) (Idealize.ShloMosaic.Ideal.ofBits .f32 0x43000000#32)

/-- Layer normalisation of a row, scaled and shifted. -/
def normRow (z : Fin 128 → EReal) (g bt : Mat 1 128) (q : Fin 128) : EReal :=
  (z q - mean128 z)
      * Idealize.ShloMosaic.Ideal.rsqrt (mean128 (fun j => (z j - mean128 z) * (z j - mean128 z))
          + Idealize.ShloMosaic.Ideal.ofBits .f32 0x3727C5AC#32)
      * g (ix2 (0 : Fin 1) q)
    + bt (ix2 (0 : Fin 1) q)

/-- The hidden row of the two-layer perceptron: relu of the first dense layer of h + a. -/
def hidRow (h a : Fin 128 → EReal) (w1 : Mat 128 256) (b1 : Mat 1 256) (j : Fin 256) : EReal :=
  relu (lin (fun k => h k + a k) w1 b1 j)

/-- The perceptron's output row. -/
def mlpRow (h a : Fin 128 → EReal) (w1 : Mat 128 256) (b1 : Mat 1 256) (w2 : Mat 256 128) (b2 : Mat 1 128)
    (q : Fin 128) : EReal :=
  lin (hidRow h a w1 b1) w2 b2 q

/-- One update of a node's row. -/
def layerRow (h a : Fin 128 → EReal) (w1 : Mat 128 256) (b1 : Mat 1 256) (w2 : Mat 256 128) (b2 g bt : Mat 1 128)
    (q : Fin 128) : EReal :=
  relu (normRow (mlpRow h a w1 b1 w2 b2) g bt q) + h q

/-- The encoder on a whole array: every row through one dense layer. -/
def encG {M K N : ℕ} (x : Mat M K) (w : Mat K N) (b : Mat 1 N) : Mat M N :=
  fun j => lin (fun k => x (ix2 (j 0) k)) w b (j 1)

/-- The message at one entry: relu of the sum. -/
def msgAt (a e : EReal) : EReal := relu (a + e)

/-- The message on a whole array: relu of the sum, entry by entry. -/
def msgG {M N : ℕ} (a e : Mat M N) : Mat M N := fun j => msgAt (a j) (e j)

/-- The node update on a whole array: every row through `layerRow`. -/
def layerG {M : ℕ} (h a : Mat M 128) (w1 : Mat 128 256) (b1 : Mat 1 256) (w2 : Mat 256 128) (b2 g bt : Mat 1 128) :
    Mat M 128 :=
  fun j => layerRow (fun k => h (ix2 (j 0) k)) (fun k => a (ix2 (j 0) k)) w1 b1 w2 b2 g bt (j 1)

theorem encG_apply {M K N : ℕ} (x : Mat M K) (w : Mat K N) (b : Mat 1 N) (r : Fin M) (q : Fin N) :
    encG x w b (ix2 r q) = lin (fun k => x (ix2 r k)) w b q := rfl

theorem layerG_apply {M : ℕ} (h a : Mat M 128) (w1 : Mat 128 256) (b1 : Mat 1 256) (w2 : Mat 256 128)
    (b2 g bt : Mat 1 128) (r : Fin M) (q : Fin 128) :
    layerG h a w1 b1 w2 b2 g bt (ix2 r q)
      = layerRow (fun k => h (ix2 r k)) (fun k => a (ix2 r k)) w1 b1 w2 b2 g bt q := rfl

/-! ## The vector unit's spelling, read at an entry -/

/-- A sum along the lanes kept as a column, divided by a splat: the mean of the row. -/
theorem meanVec_apply {M : ℕ} (z : FVec Idealize.ShloMosaic.Ideal ⟨2, ![M, 128]⟩ .f32)
    (hr : (⟨2, ![M, 128]⟩ : Shape).Reduces [1] ⟨1, ![M]⟩) (hφ : FKind.Formats .f32)
    (hacc : (0x00000000#32 : BitVec 32) = 0x00000000#32)
    (hsc : (⟨1, ![M]⟩ : Shape).ShapeCasts ⟨2, ![M, 1]⟩) (p : Fin M) (u : Fin 1) :
    divf (shapeCast ⟨2, ![M, 1]⟩ (multiReduction .add [1] ⟨1, ![M]⟩ z 0x00000000#32 hr hφ hacc) hsc)
        (broadcast ⟨2, ![M, 1]⟩ (Scalar.ofBits (F := Idealize.ShloMosaic.Ideal) .f32 0x43000000#32)) (ix2 p u)
      = mean128 (fun q => z (ix2 p q)) := by
  show Idealize.ShloMosaic.Ideal.div
      (shapeCast ⟨2, ![M, 1]⟩ (multiReduction .add [1] ⟨1, ![M]⟩ z 0x00000000#32 hr hφ hacc) hsc (ix2 p u)) _ = _
  rw [Cert.LibColumn.shapeCast_a_a1_apply, Cert.RowScalars.laneSum_apply]
  rfl

end Cert.Gine

end
-- ==== Proof.Net.lean ====
/-
  The network as one function of its fourteen argument arrays.

  Node features and edge features are encoded by one dense layer each. Then four times: every edge takes the row of
  its source node (a gather; a negative index counts from the end), adds its edge features and cuts at zero; the
  messages are summed into their destination nodes (a scatter-add); every node row is updated from its own row and
  its sum of messages (`layerG`, with the layer's slice of the stacked weights). Last, the node rows are summed per
  graph. The small functions here are the host operations as written between the launches; `net` composes them.
-/
import proofs.«157398_j15616501088448_1_alg».proof.KernelIdeal
import proofs.«157398_j15616501088448_1_alg».proof.Proof.Gen.KernelIdeal
import proofs.«157398_j15616501088448_1_alg».proof.Proof.Spec

noncomputable section

namespace Cert.Gine.Net

open Cert.KernelIdeal Cert.KernelIdeal.Facts₀ Cert.KernelIdeal.Facts Cert.Gine
open Idealize.ShloMosaic Idealize.ShloMosaic.ValueIdx

abbrev IdealF := Idealize.ShloMosaic.Ideal

/-- The contents of a buffer of the given shape and element type, at the exact values. -/
abbrev C (s : Shape) (e : EltTy) : Type := (⟨s, e⟩ : BufTy).Contents (Elt IdealF)

/-- A bias vector as one row. -/
def rowOf (b : C S128 .f32) : C S1x128 .f32 := (shapeCast S1x128 b shapeCasts_S128_S1x128)

/-- The edges' source nodes and destination nodes: the two rows of the edge index. -/
def srcOf (e : C S2x625000 .i32) : C S625000 .i32 := (shapeCast S625000 (extractStridedSlice S1x625000 ![0, 0] e slices_S2x625000_S1x625000_0_0) shapeCasts_S1x625000_S625000)
def dstOf (e : C S2x625000 .i32) : C S625000 .i32 := (shapeCast S625000 (extractStridedSlice S1x625000 ![1, 0] e slices_S2x625000_S1x625000_1_0) shapeCasts_S1x625000_S625000)

/-- The rows of the node array at the edges' source nodes. -/
def gath (h : C S50000x128 .f32) (s : C S625000 .i32) : C S625000x128 .f32 :=
  (Host.gather gather_S50000x128_S625000x1_S625000x128_1_0_n_n_0_1_1128 h (broadcastInDim S625000x1 ![0] bcast_S625000_S625000x1_0 (select (cmpi .slt s (broadcastInDim S625000 ![] bcast_S_S625000 ((constantI S_ 32 0#32)))) (addi s (broadcastInDim S625000 ![] bcast_S_S625000 ((constantI S_ 32 50000#32)))) s)))

/-- The messages summed into their destination nodes (a scatter-add into an array of zeros). -/
def agg (msg : C S625000x128 .f32) (d : C S625000 .i32) : C S50000x128 .f32 :=
  (Host.scatterAdd (F := IdealF) scatter_S50000x128_S625000x1_S625000x128_1_0_0_1 (broadcastInDim S50000x128 ![] bcast_S_S50000x128 ((constant S_ .f32 0x00000000#32))) (broadcastInDim S625000x1 ![0] bcast_S625000_S625000x1_0 d) msg)

/-- Layer 0's weights: slice 0 of each stacked parameter, the vectors as rows. -/
def w1_0 (a8 : C S4x128x256 .f32) : C S128x256 .f32 := (shapeCast S128x256 (extractStridedSlice S1x128x256 ![0, 0, 0] a8 slices_S4x128x256_S1x128x256_0_0_0) shapeCasts_S1x128x256_S128x256)
def b1r_0 (a9 : C S4x256 .f32) : C S1x256 .f32 := (shapeCast S1x256 (shapeCast S256 (extractStridedSlice S1x256 ![0, 0] a9 slices_S4x256_S1x256_0_0) shapeCasts_S1x256_S256) shapeCasts_S256_S1x256)
def w2_0 (a10 : C S4x256x128 .f32) : C S256x128 .f32 := (shapeCast S256x128 (extractStridedSlice S1x256x128 ![0, 0, 0] a10 slices_S4x256x128_S1x256x128_0_0_0) shapeCasts_S1x256x128_S256x128)
def b2r_0 (a11 : C S4x128 .f32) : C S1x128 .f32 := (shapeCast S1x128 (shapeCast S128 (extractStridedSlice S1x128 ![0, 0] a11 slices_S4x128_S1x128_0_0) shapeCasts_S1x128_S128) shapeCasts_S128_S1x128)
def gr_0 (a12 : C S4x128 .f32) : C S1x128 .f32 := (shapeCast S1x128 (shapeCast S128 (extractStridedSlice S1x128 ![0, 0] a12 slices_S4x128_S1x128_0_0) shapeCasts_S1x128_S128) shapeCasts_S128_S1x128)
def btr_0 (a13 : C S4x128 .f32) : C S1x128 .f32 := (shapeCast S1x128 (shapeCast S128 (extractStridedSlice S1x128 ![0, 0] a13 slices_S4x128_S1x128_0_0) shapeCasts_S1x128_S128) shapeCasts_S128_S1x128)

/-- Layer 0: gather the source rows, form the messages, sum them per destination, update every node. -/
def layer0 (h : C S50000x128 .f32) (ea : C S625000x128 .f32) (s d : C S625000 .i32) (a8 : C S4x128x256 .f32) (a9 : C S4x256 .f32)
    (a10 : C S4x256x128 .f32) (a11 a12 a13 : C S4x128 .f32) : C S50000x128 .f32 :=
  layerG (M := 50000) h (agg (msgG (M := 625000) (N := 128) (gath h s) ea) d) (w1_0 a8) (b1r_0 a9) (w2_0 a10) (b2r_0 a11)
    (gr_0 a12) (btr_0 a13)

/-- Layer 1's weights: slice 1 of each stacked parameter, the vectors as rows. -/
def w1_1 (a8 : C S4x128x256 .f32) : C S128x256 .f32 := (shapeCast S128x256 (extractStridedSlice S1x128x256 ![1, 0, 0] a8 slices_S4x128x256_S1x128x256_1_0_0) shapeCasts_S1x128x256_S128x256)
def b1r_1 (a9 : C S4x256 .f32) : C S1x256 .f32 := (shapeCast S1x256 (shapeCast S256 (extractStridedSlice S1x256 ![1, 0] a9 slices_S4x256_S1x256_1_0) shapeCasts_S1x256_S256) shapeCasts_S256_S1x256)
def w2_1 (a10 : C S4x256x128 .f32) : C S256x128 .f32 := (shapeCast S256x128 (extractStridedSlice S1x256x128 ![1, 0, 0] a10 slices_S4x256x128_S1x256x128_1_0_0) shapeCasts_S1x256x128_S256x128)
def b2r_1 (a11 : C S4x128 .f32) : C S1x128 .f32 := (shapeCast S1x128 (shapeCast S128 (extractStridedSlice S1x128 ![1, 0] a11 slices_S4x128_S1x128_1_0) shapeCasts_S1x128_S128) shapeCasts_S128_S1x128)
def gr_1 (a12 : C S4x128 .f32) : C S1x128 .f32 := (shapeCast S1x128 (shapeCast S128 (extractStridedSlice S1x128 ![1, 0] a12 slices_S4x128_S1x128_1_0) shapeCasts_S1x128_S128) shapeCasts_S128_S1x128)
def btr_1 (a13 : C S4x128 .f32) : C S1x128 .f32 := (shapeCast S1x128 (shapeCast S128 (extractStridedSlice S1x128 ![1, 0] a13 slices_S4x128_S1x128_1_0) shapeCasts_S1x128_S128) shapeCasts_S128_S1x128)

/-- Layer 1: gather the source rows, form the messages, sum them per destination, update every node. -/
def layer1 (h : C S50000x128 .f32) (ea : C S625000x128 .f32) (s d : C S625000 .i32) (a8 : C S4x128x256 .f32) (a9 : C S4x256 .f32)
    (a10 : C S4x256x128 .f32) (a11 a12 a13 : C S4x128 .f32) : C S50000x128 .f32 :=
  layerG (M := 50000) h (agg (msgG (M := 625000) (N := 128) (gath h s) ea) d) (w1_1 a8) (b1r_1 a9) (w2_1 a10) (b2r_1 a11)
    (gr_1 a12) (btr_1 a13)

/-- Layer 2's weights: slice 2 of each stacked parameter, the vectors as rows. -/
def w1_2 (a8 : C S4x128x256 .f32) : C S128x256 .f32 := (shapeCast S128x256 (extractStridedSlice S1x128x256 ![2, 0, 0] a8 slices_S4x128x256_S1x128x256_2_0_0) shapeCasts_S1x128x256_S128x256)
def b1r_2 (a9 : C S4x256 .f32) : C S1x256 .f32 := (shapeCast S1x256 (shapeCast S256 (extractStridedSlice S1x256 ![2, 0] a9 slices_S4x256_S1x256_2_0) shapeCasts_S1x256_S256) shapeCasts_S256_S1x256)
def w2_2 (a10 : C S4x256x128 .f32) : C S256x128 .f32 := (shapeCast S256x128 (extractStridedSlice S1x256x128 ![2, 0, 0] a10 slices_S4x256x128_S1x256x128_2_0_0) shapeCasts_S1x256x128_S256x128)
def b2r_2 (a11 : C S4x128 .f32) : C S1x128 .f32 := (shapeCast S1x128 (shapeCast S128 (extractStridedSlice S1x128 ![2, 0] a11 slices_S4x128_S1x128_2_0) shapeCasts_S1x128_S128) shapeCasts_S128_S1x128)
def gr_2 (a12 : C S4x128 .f32) : C S1x128 .f32 := (shapeCast S1x128 (shapeCast S128 (extractStridedSlice S1x128 ![2, 0] a12 slices_S4x128_S1x128_2_0) shapeCasts_S1x128_S128) shapeCasts_S128_S1x128)
def btr_2 (a13 : C S4x128 .f32) : C S1x128 .f32 := (shapeCast S1x128 (shapeCast S128 (extractStridedSlice S1x128 ![2, 0] a13 slices_S4x128_S1x128_2_0) shapeCasts_S1x128_S128) shapeCasts_S128_S1x128)

/-- Layer 2: gather the source rows, form the messages, sum them per destination, update every node. -/
def layer2 (h : C S50000x128 .f32) (ea : C S625000x128 .f32) (s d : C S625000 .i32) (a8 : C S4x128x256 .f32) (a9 : C S4x256 .f32)
    (a10 : C S4x256x128 .f32) (a11 a12 a13 : C S4x128 .f32) : C S50000x128 .f32 :=
  layerG (M := 50000) h (agg (msgG (M := 625000) (N := 128) (gath h s) ea) d) (w1_2 a8) (b1r_2 a9) (w2_2 a10) (b2r_2 a11)
    (gr_2 a12) (btr_2 a13)

/-- Layer 3's weights: slice 3 of each stacked parameter, the vectors as rows. -/
def w1_3 (a8 : C S4x128x256 .f32) : C S128x256 .f32 := (shapeCast S128x256 (extractStridedSlice S1x128x256 ![3, 0, 0] a8 slices_S4x128x256_S1x128x256_3_0_0) shapeCasts_S1x128x256_S128x256)
def b1r_3 (a9 : C S4x256 .f32) : C S1x256 .f32 := (shapeCast S1x256 (shapeCast S256 (extractStridedSlice S1x256 ![3, 0] a9 slices_S4x256_S1x256_3_0) shapeCasts_S1x256_S256) shapeCasts_S256_S1x256)
def w2_3 (a10 : C S4x256x128 .f32) : C S256x128 .f32 := (shapeCast S256x128 (extractStridedSlice S1x256x128 ![3, 0, 0] a10 slices_S4x256x128_S1x256x128_3_0_0) shapeCasts_S1x256x128_S256x128)
def b2r_3 (a11 : C S4x128 .f32) : C S1x128 .f32 := (shapeCast S1x128 (shapeCast S128 (extractStridedSlice S1x128 ![3, 0] a11 slices_S4x128_S1x128_3_0) shapeCasts_S1x128_S128) shapeCasts_S128_S1x128)
def gr_3 (a12 : C S4x128 .f32) : C S1x128 .f32 := (shapeCast S1x128 (shapeCast S128 (extractStridedSlice S1x128 ![3, 0] a12 slices_S4x128_S1x128_3_0) shapeCasts_S1x128_S128) shapeCasts_S128_S1x128)
def btr_3 (a13 : C S4x128 .f32) : C S1x128 .f32 := (shapeCast S1x128 (shapeCast S128 (extractStridedSlice S1x128 ![3, 0] a13 slices_S4x128_S1x128_3_0) shapeCasts_S1x128_S128) shapeCasts_S128_S1x128)

/-- Layer 3: gather the source rows, form the messages, sum them per destination, update every node. -/
def layer3 (h : C S50000x128 .f32) (ea : C S625000x128 .f32) (s d : C S625000 .i32) (a8 : C S4x128x256 .f32) (a9 : C S4x256 .f32)
    (a10 : C S4x256x128 .f32) (a11 a12 a13 : C S4x128 .f32) : C S50000x128 .f32 :=
  layerG (M := 50000) h (agg (msgG (M := 625000) (N := 128) (gath h s) ea) d) (w1_3 a8) (b1r_3 a9) (w2_3 a10) (b2r_3 a11)
    (gr_3 a12) (btr_3 a13)

/-- The node rows summed per graph. -/
def pool (h : C S50000x128 .f32) (b : C S50000 .i32) : C S2000x128 .f32 :=
  (Host.scatterAdd (F := IdealF) scatter_S2000x128_S50000x1_S50000x128_1_0_0_1 (broadcastInDim S2000x128 ![] bcast_S_S2000x128 ((constant S_ .f32 0x00000000#32))) (broadcastInDim S50000x1 ![0] bcast_S50000_S50000x1_0 b) h)

/-- The encoded node rows and edge rows. -/
def nodes0 (a0 : C S50000x9 .f32) (a4 : C S9x128 .f32) (a5 : C S128 .f32) : C S50000x128 .f32 :=
  encG (M := 50000) (K := 9) (N := 128) a0 a4 (rowOf a5)
def edges0 (a2 : C S625000x4 .f32) (a6 : C S4x128 .f32) (a7 : C S128 .f32) : C S625000x128 .f32 :=
  encG (M := 625000) (K := 4) (N := 128) a2 a6 (rowOf a7)

/-- The node rows after one, two, three and four layers. -/
def nodes1 (a0 : C S50000x9 .f32) (a1 : C S2x625000 .i32) (a2 : C S625000x4 .f32) (a3 : C S50000 .i32) (a4 : C S9x128 .f32)
    (a5 : C S128 .f32) (a6 : C S4x128 .f32) (a7 : C S128 .f32) (a8 : C S4x128x256 .f32) (a9 : C S4x256 .f32)
    (a10 : C S4x256x128 .f32) (a11 a12 a13 : C S4x128 .f32) : C S50000x128 .f32 :=
  layer0 (nodes0 a0 a4 a5) (edges0 a2 a6 a7) (srcOf a1) (dstOf a1) a8 a9 a10 a11 a12 a13
def nodes2 (a0 : C S50000x9 .f32) (a1 : C S2x625000 .i32) (a2 : C S625000x4 .f32) (a3 : C S50000 .i32) (a4 : C S9x128 .f32)
    (a5 : C S128 .f32) (a6 : C S4x128 .f32) (a7 : C S128 .f32) (a8 : C S4x128x256 .f32) (a9 : C S4x256 .f32)
    (a10 : C S4x256x128 .f32) (a11 a12 a13 : C S4x128 .f32) : C S50000x128 .f32 :=
  layer1 (nodes1 a0 a1 a2 a3 a4 a5 a6 a7 a8 a9 a10 a11 a12 a13) (edges0 a2 a6 a7) (srcOf a1) (dstOf a1) a8 a9 a10 a11 a12 a13
def nodes3 (a0 : C S50000x9 .f32) (a1 : C S2x625000 .i32) (a2 : C S625000x4 .f32) (a3 : C S50000 .i32) (a4 : C S9x128 .f32)
    (a5 : C S128 .f32) (a6 : C S4x128 .f32) (a7 : C S128 .f32) (a8 : C S4x128x256 .f32) (a9 : C S4x256 .f32)
    (a10 : C S4x256x128 .f32) (a11 a12 a13 : C S4x128 .f32) : C S50000x128 .f32 :=
  layer2 (nodes2 a0 a1 a2 a3 a4 a5 a6 a7 a8 a9 a10 a11 a12 a13) (edges0 a2 a6 a7) (srcOf a1) (dstOf a1) a8 a9 a10 a11 a12 a13
def nodes4 (a0 : C S50000x9 .f32) (a1 : C S2x625000 .i32) (a2 : C S625000x4 .f32) (a3 : C S50000 .i32) (a4 : C S9x128 .f32)
    (a5 : C S128 .f32) (a6 : C S4x128 .f32) (a7 : C S128 .f32) (a8 : C S4x128x256 .f32) (a9 : C S4x256 .f32)
    (a10 : C S4x256x128 .f32) (a11 a12 a13 : C S4x128 .f32) : C S50000x128 .f32 :=
  layer3 (nodes3 a0 a1 a2 a3 a4 a5 a6 a7 a8 a9 a10 a11 a12 a13) (edges0 a2 a6 a7) (srcOf a1) (dstOf a1) a8 a9 a10 a11 a12 a13

/-- The network. -/
def net (a0 : C S50000x9 .f32) (a1 : C S2x625000 .i32) (a2 : C S625000x4 .f32) (a3 : C S50000 .i32) (a4 : C S9x128 .f32)
    (a5 : C S128 .f32) (a6 : C S4x128 .f32) (a7 : C S128 .f32) (a8 : C S4x128x256 .f32) (a9 : C S4x256 .f32)
    (a10 : C S4x256x128 .f32) (a11 a12 a13 : C S4x128 .f32) : C S2000x128 .f32 :=
  pool (nodes4 a0 a1 a2 a3 a4 a5 a6 a7 a8 a9 a10 a11 a12 a13) a3

end Cert.Gine.Net

end
-- ==== Proof.FoldArgs.lean ====
/-
  The argument arrays at the boundaries between the program's segments.

  No host operation and no launch writes an argument array: a host stretch writes only its own result buffers, and a
  launch replaces only its output array (an argument it reads through an input window comes back as it was). So at
  every boundary up to its last use each argument buffer still holds its launch contents.
-/
import proofs.«157398_j15616501088448_1_alg».proof.Proof.Gen.KernelIdeal.Frame
import proofs.«157398_j15616501088448_1_alg».proof.Proof.Net

set_option maxRecDepth 16384

noncomputable section

namespace Cert.KernelIdeal.Fold

open Cert.KernelIdeal Cert.KernelIdeal.Gen Cert.Gine Cert.Gine.Net
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt IdealF) ℓ) (ρ : Dev nD → PrngReg) (c : Dev nD)

theorem arg0_at0 : W0 m ρ c (Proc.devRef .tc main_arg0) = (m ((c : Thread nD τ).loc main_arg0)) := rfl
theorem arg0_at1 : W1 m ρ c (Proc.devRef .tc main_arg0) = (m ((c : Thread nD τ).loc main_arg0)) := by
  show StableHlo.after hostOps0 (W0 m ρ c) (Proc.devRef .tc main_arg0) = _
  dsimp only [hostOps0]
  after_results <;> exact arg0_at0 m ρ c

theorem arg1_at0 : W0 m ρ c (Proc.devRef .tc main_arg1) = (m ((c : Thread nD τ).loc main_arg1)) := rfl
theorem arg1_at1 : W1 m ρ c (Proc.devRef .tc main_arg1) = (m ((c : Thread nD τ).loc main_arg1)) := by
  show StableHlo.after hostOps0 (W0 m ρ c) (Proc.devRef .tc main_arg1) = _
  dsimp only [hostOps0]
  after_results <;> exact arg1_at0 m ρ c
theorem arg1_at2 : W2 m ρ c (Proc.devRef .tc main_arg1) = (m ((c : Thread nD τ).loc main_arg1)) :=
  (W2_of_ne m ρ c main_arg1 (by decide)).trans (arg1_at1 m ρ c)
theorem arg1_at3 : W3 m ρ c (Proc.devRef .tc main_arg1) = (m ((c : Thread nD τ).loc main_arg1)) := by
  show StableHlo.after hostOps1 (W2 m ρ c) (Proc.devRef .tc main_arg1) = _
  dsimp only [hostOps1]
  after_results <;> exact arg1_at2 m ρ c
theorem arg1_at4 : W4 m ρ c (Proc.devRef .tc main_arg1) = (m ((c : Thread nD τ).loc main_arg1)) :=
  (W4_of_ne m ρ c main_arg1 (by decide)).trans (arg1_at3 m ρ c)

theorem arg2_at0 : W0 m ρ c (Proc.devRef .tc main_arg2) = (m ((c : Thread nD τ).loc main_arg2)) := rfl
theorem arg2_at1 : W1 m ρ c (Proc.devRef .tc main_arg2) = (m ((c : Thread nD τ).loc main_arg2)) := by
  show StableHlo.after hostOps0 (W0 m ρ c) (Proc.devRef .tc main_arg2) = _
  dsimp only [hostOps0]
  after_results <;> exact arg2_at0 m ρ c
theorem arg2_at2 : W2 m ρ c (Proc.devRef .tc main_arg2) = (m ((c : Thread nD τ).loc main_arg2)) :=
  (W2_of_ne m ρ c main_arg2 (by decide)).trans (arg2_at1 m ρ c)
theorem arg2_at3 : W3 m ρ c (Proc.devRef .tc main_arg2) = (m ((c : Thread nD τ).loc main_arg2)) := by
  show StableHlo.after hostOps1 (W2 m ρ c) (Proc.devRef .tc main_arg2) = _
  dsimp only [hostOps1]
  after_results <;> exact arg2_at2 m ρ c

theorem arg3_at0 : W0 m ρ c (Proc.devRef .tc main_arg3) = (m ((c : Thread nD τ).loc main_arg3)) := rfl
theorem arg3_at1 : W1 m ρ c (Proc.devRef .tc main_arg3) = (m ((c : Thread nD τ).loc main_arg3)) := by
  show StableHlo.after hostOps0 (W0 m ρ c) (Proc.devRef .tc main_arg3) = _
  dsimp only [hostOps0]
  after_results <;> exact arg3_at0 m ρ c
theorem arg3_at2 : W2 m ρ c (Proc.devRef .tc main_arg3) = (m ((c : Thread nD τ).loc main_arg3)) :=
  (W2_of_ne m ρ c main_arg3 (by decide)).trans (arg3_at1 m ρ c)
theorem arg3_at3 : W3 m ρ c (Proc.devRef .tc main_arg3) = (m ((c : Thread nD τ).loc main_arg3)) := by
  show StableHlo.after hostOps1 (W2 m ρ c) (Proc.devRef .tc main_arg3) = _
  dsimp only [hostOps1]
  after_results <;> exact arg3_at2 m ρ c
theorem arg3_at4 : W4 m ρ c (Proc.devRef .tc main_arg3) = (m ((c : Thread nD τ).loc main_arg3)) :=
  (W4_of_ne m ρ c main_arg3 (by decide)).trans (arg3_at3 m ρ c)
theorem arg3_at5 : W5 m ρ c (Proc.devRef .tc main_arg3) = (m ((c : Thread nD τ).loc main_arg3)) := by
  show StableHlo.after hostOps2 (W4 m ρ c) (Proc.devRef .tc main_arg3) = _
  dsimp only [hostOps2]
  after_results <;> exact arg3_at4 m ρ c
theorem arg3_at6 : W6 m ρ c (Proc.devRef .tc main_arg3) = (m ((c : Thread nD τ).loc main_arg3)) :=
  (W6_of_ne m ρ c main_arg3 (by decide)).trans (arg3_at5 m ρ c)
theorem arg3_at7 : W7 m ρ c (Proc.devRef .tc main_arg3) = (m ((c : Thread nD τ).loc main_arg3)) := by
  show StableHlo.after hostOps3 (W6 m ρ c) (Proc.devRef .tc main_arg3) = _
  dsimp only [hostOps3]
  after_results <;> exact arg3_at6 m ρ c
theorem arg3_at8 : W8 m ρ c (Proc.devRef .tc main_arg3) = (m ((c : Thread nD τ).loc main_arg3)) :=
  (W8_of_ne m ρ c main_arg3 (by decide)).trans (arg3_at7 m ρ c)
theorem arg3_at9 : W9 m ρ c (Proc.devRef .tc main_arg3) = (m ((c : Thread nD τ).loc main_arg3)) := by
  show StableHlo.after hostOps4 (W8 m ρ c) (Proc.devRef .tc main_arg3) = _
  dsimp only [hostOps4]
  after_results <;> exact arg3_at8 m ρ c
theorem arg3_at10 : W10 m ρ c (Proc.devRef .tc main_arg3) = (m ((c : Thread nD τ).loc main_arg3)) :=
  (W10_of_ne m ρ c main_arg3 (by decide)).trans (arg3_at9 m ρ c)
theorem arg3_at11 : W11 m ρ c (Proc.devRef .tc main_arg3) = (m ((c : Thread nD τ).loc main_arg3)) := by
  show StableHlo.after hostOps5 (W10 m ρ c) (Proc.devRef .tc main_arg3) = _
  dsimp only [hostOps5]
  after_results <;> exact arg3_at10 m ρ c
theorem arg3_at12 : W12 m ρ c (Proc.devRef .tc main_arg3) = (m ((c : Thread nD τ).loc main_arg3)) :=
  (W12_of_ne m ρ c main_arg3 (by decide)).trans (arg3_at11 m ρ c)
theorem arg3_at13 : W13 m ρ c (Proc.devRef .tc main_arg3) = (m ((c : Thread nD τ).loc main_arg3)) := by
  show StableHlo.after hostOps6 (W12 m ρ c) (Proc.devRef .tc main_arg3) = _
  dsimp only [hostOps6]
  after_results <;> exact arg3_at12 m ρ c
theorem arg3_at14 : W14 m ρ c (Proc.devRef .tc main_arg3) = (m ((c : Thread nD τ).loc main_arg3)) :=
  (W14_of_ne m ρ c main_arg3 (by decide)).trans (arg3_at13 m ρ c)
theorem arg3_at15 : W15 m ρ c (Proc.devRef .tc main_arg3) = (m ((c : Thread nD τ).loc main_arg3)) := by
  show StableHlo.after hostOps7 (W14 m ρ c) (Proc.devRef .tc main_arg3) = _
  dsimp only [hostOps7]
  after_results <;> exact arg3_at14 m ρ c
theorem arg3_at16 : W16 m ρ c (Proc.devRef .tc main_arg3) = (m ((c : Thread nD τ).loc main_arg3)) :=
  (W16_of_ne m ρ c main_arg3 (by decide)).trans (arg3_at15 m ρ c)
theorem arg3_at17 : W17 m ρ c (Proc.devRef .tc main_arg3) = (m ((c : Thread nD τ).loc main_arg3)) := by
  show StableHlo.after hostOps8 (W16 m ρ c) (Proc.devRef .tc main_arg3) = _
  dsimp only [hostOps8]
  after_results <;> exact arg3_at16 m ρ c
theorem arg3_at18 : W18 m ρ c (Proc.devRef .tc main_arg3) = (m ((c : Thread nD τ).loc main_arg3)) :=
  (W18_of_ne m ρ c main_arg3 (by decide)).trans (arg3_at17 m ρ c)
theorem arg3_at19 : W19 m ρ c (Proc.devRef .tc main_arg3) = (m ((c : Thread nD τ).loc main_arg3)) := by
  show StableHlo.after hostOps9 (W18 m ρ c) (Proc.devRef .tc main_arg3) = _
  dsimp only [hostOps9]
  after_results <;> exact arg3_at18 m ρ c
theorem arg3_at20 : W20 m ρ c (Proc.devRef .tc main_arg3) = (m ((c : Thread nD τ).loc main_arg3)) :=
  (W20_of_ne m ρ c main_arg3 (by decide)).trans (arg3_at19 m ρ c)

theorem arg4_at0 : W0 m ρ c (Proc.devRef .tc main_arg4) = (m ((c : Thread nD τ).loc main_arg4)) := rfl
theorem arg4_at1 : W1 m ρ c (Proc.devRef .tc main_arg4) = (m ((c : Thread nD τ).loc main_arg4)) := by
  show StableHlo.after hostOps0 (W0 m ρ c) (Proc.devRef .tc main_arg4) = _
  dsimp only [hostOps0]
  after_results <;> exact arg4_at0 m ρ c

theorem arg5_at0 : W0 m ρ c (Proc.devRef .tc main_arg5) = (m ((c : Thread nD τ).loc main_arg5)) := rfl

theorem arg6_at0 : W0 m ρ c (Proc.devRef .tc main_arg6) = (m ((c : Thread nD τ).loc main_arg6)) := rfl
theorem arg6_at1 : W1 m ρ c (Proc.devRef .tc main_arg6) = (m ((c : Thread nD τ).loc main_arg6)) := by
  show StableHlo.after hostOps0 (W0 m ρ c) (Proc.devRef .tc main_arg6) = _
  dsimp only [hostOps0]
  after_results <;> exact arg6_at0 m ρ c
theorem arg6_at2 : W2 m ρ c (Proc.devRef .tc main_arg6) = (m ((c : Thread nD τ).loc main_arg6)) :=
  (W2_of_ne m ρ c main_arg6 (by decide)).trans (arg6_at1 m ρ c)
theorem arg6_at3 : W3 m ρ c (Proc.devRef .tc main_arg6) = (m ((c : Thread nD τ).loc main_arg6)) := by
  show StableHlo.after hostOps1 (W2 m ρ c) (Proc.devRef .tc main_arg6) = _
  dsimp only [hostOps1]
  after_results <;> exact arg6_at2 m ρ c

theorem arg7_at0 : W0 m ρ c (Proc.devRef .tc main_arg7) = (m ((c : Thread nD τ).loc main_arg7)) := rfl
theorem arg7_at1 : W1 m ρ c (Proc.devRef .tc main_arg7) = (m ((c : Thread nD τ).loc main_arg7)) := by
  show StableHlo.after hostOps0 (W0 m ρ c) (Proc.devRef .tc main_arg7) = _
  dsimp only [hostOps0]
  after_results <;> exact arg7_at0 m ρ c
theorem arg7_at2 : W2 m ρ c (Proc.devRef .tc main_arg7) = (m ((c : Thread nD τ).loc main_arg7)) :=
  (W2_of_ne m ρ c main_arg7 (by decide)).trans (arg7_at1 m ρ c)

theorem arg8_at0 : W0 m ρ c (Proc.devRef .tc main_arg8) = (m ((c : Thread nD τ).loc main_arg8)) := rfl
theorem arg8_at1 : W1 m ρ c (Proc.devRef .tc main_arg8) = (m ((c : Thread nD τ).loc main_arg8)) := by
  show StableHlo.after hostOps0 (W0 m ρ c) (Proc.devRef .tc main_arg8) = _
  dsimp only [hostOps0]
  after_results <;> exact arg8_at0 m ρ c
theorem arg8_at2 : W2 m ρ c (Proc.devRef .tc main_arg8) = (m ((c : Thread nD τ).loc main_arg8)) :=
  (W2_of_ne m ρ c main_arg8 (by decide)).trans (arg8_at1 m ρ c)
theorem arg8_at3 : W3 m ρ c (Proc.devRef .tc main_arg8) = (m ((c : Thread nD τ).loc main_arg8)) := by
  show StableHlo.after hostOps1 (W2 m ρ c) (Proc.devRef .tc main_arg8) = _
  dsimp only [hostOps1]
  after_results <;> exact arg8_at2 m ρ c
theorem arg8_at4 : W4 m ρ c (Proc.devRef .tc main_arg8) = (m ((c : Thread nD τ).loc main_arg8)) :=
  (W4_of_ne m ρ c main_arg8 (by decide)).trans (arg8_at3 m ρ c)
theorem arg8_at5 : W5 m ρ c (Proc.devRef .tc main_arg8) = (m ((c : Thread nD τ).loc main_arg8)) := by
  show StableHlo.after hostOps2 (W4 m ρ c) (Proc.devRef .tc main_arg8) = _
  dsimp only [hostOps2]
  after_results <;> exact arg8_at4 m ρ c
theorem arg8_at6 : W6 m ρ c (Proc.devRef .tc main_arg8) = (m ((c : Thread nD τ).loc main_arg8)) :=
  (W6_of_ne m ρ c main_arg8 (by decide)).trans (arg8_at5 m ρ c)
theorem arg8_at7 : W7 m ρ c (Proc.devRef .tc main_arg8) = (m ((c : Thread nD τ).loc main_arg8)) := by
  show StableHlo.after hostOps3 (W6 m ρ c) (Proc.devRef .tc main_arg8) = _
  dsimp only [hostOps3]
  after_results <;> exact arg8_at6 m ρ c
theorem arg8_at8 : W8 m ρ c (Proc.devRef .tc main_arg8) = (m ((c : Thread nD τ).loc main_arg8)) :=
  (W8_of_ne m ρ c main_arg8 (by decide)).trans (arg8_at7 m ρ c)
theorem arg8_at9 : W9 m ρ c (Proc.devRef .tc main_arg8) = (m ((c : Thread nD τ).loc main_arg8)) := by
  show StableHlo.after hostOps4 (W8 m ρ c) (Proc.devRef .tc main_arg8) = _
  dsimp only [hostOps4]
  after_results <;> exact arg8_at8 m ρ c
theorem arg8_at10 : W10 m ρ c (Proc.devRef .tc main_arg8) = (m ((c : Thread nD τ).loc main_arg8)) :=
  (W10_of_ne m ρ c main_arg8 (by decide)).trans (arg8_at9 m ρ c)
theorem arg8_at11 : W11 m ρ c (Proc.devRef .tc main_arg8) = (m ((c : Thread nD τ).loc main_arg8)) := by
  show StableHlo.after hostOps5 (W10 m ρ c) (Proc.devRef .tc main_arg8) = _
  dsimp only [hostOps5]
  after_results <;> exact arg8_at10 m ρ c
theorem arg8_at12 : W12 m ρ c (Proc.devRef .tc main_arg8) = (m ((c : Thread nD τ).loc main_arg8)) :=
  (W12_of_ne m ρ c main_arg8 (by decide)).trans (arg8_at11 m ρ c)
theorem arg8_at13 : W13 m ρ c (Proc.devRef .tc main_arg8) = (m ((c : Thread nD τ).loc main_arg8)) := by
  show StableHlo.after hostOps6 (W12 m ρ c) (Proc.devRef .tc main_arg8) = _
  dsimp only [hostOps6]
  after_results <;> exact arg8_at12 m ρ c
theorem arg8_at14 : W14 m ρ c (Proc.devRef .tc main_arg8) = (m ((c : Thread nD τ).loc main_arg8)) :=
  (W14_of_ne m ρ c main_arg8 (by decide)).trans (arg8_at13 m ρ c)
theorem arg8_at15 : W15 m ρ c (Proc.devRef .tc main_arg8) = (m ((c : Thread nD τ).loc main_arg8)) := by
  show StableHlo.after hostOps7 (W14 m ρ c) (Proc.devRef .tc main_arg8) = _
  dsimp only [hostOps7]
  after_results <;> exact arg8_at14 m ρ c
theorem arg8_at16 : W16 m ρ c (Proc.devRef .tc main_arg8) = (m ((c : Thread nD τ).loc main_arg8)) :=
  (W16_of_ne m ρ c main_arg8 (by decide)).trans (arg8_at15 m ρ c)
theorem arg8_at17 : W17 m ρ c (Proc.devRef .tc main_arg8) = (m ((c : Thread nD τ).loc main_arg8)) := by
  show StableHlo.after hostOps8 (W16 m ρ c) (Proc.devRef .tc main_arg8) = _
  dsimp only [hostOps8]
  after_results <;> exact arg8_at16 m ρ c
theorem arg8_at18 : W18 m ρ c (Proc.devRef .tc main_arg8) = (m ((c : Thread nD τ).loc main_arg8)) :=
  (W18_of_ne m ρ c main_arg8 (by decide)).trans (arg8_at17 m ρ c)

theorem arg9_at0 : W0 m ρ c (Proc.devRef .tc main_arg9) = (m ((c : Thread nD τ).loc main_arg9)) := rfl
theorem arg9_at1 : W1 m ρ c (Proc.devRef .tc main_arg9) = (m ((c : Thread nD τ).loc main_arg9)) := by
  show StableHlo.after hostOps0 (W0 m ρ c) (Proc.devRef .tc main_arg9) = _
  dsimp only [hostOps0]
  after_results <;> exact arg9_at0 m ρ c
theorem arg9_at2 : W2 m ρ c (Proc.devRef .tc main_arg9) = (m ((c : Thread nD τ).loc main_arg9)) :=
  (W2_of_ne m ρ c main_arg9 (by decide)).trans (arg9_at1 m ρ c)
theorem arg9_at3 : W3 m ρ c (Proc.devRef .tc main_arg9) = (m ((c : Thread nD τ).loc main_arg9)) := by
  show StableHlo.after hostOps1 (W2 m ρ c) (Proc.devRef .tc main_arg9) = _
  dsimp only [hostOps1]
  after_results <;> exact arg9_at2 m ρ c
theorem arg9_at4 : W4 m ρ c (Proc.devRef .tc main_arg9) = (m ((c : Thread nD τ).loc main_arg9)) :=
  (W4_of_ne m ρ c main_arg9 (by decide)).trans (arg9_at3 m ρ c)
theorem arg9_at5 : W5 m ρ c (Proc.devRef .tc main_arg9) = (m ((c : Thread nD τ).loc main_arg9)) := by
  show StableHlo.after hostOps2 (W4 m ρ c) (Proc.devRef .tc main_arg9) = _
  dsimp only [hostOps2]
  after_results <;> exact arg9_at4 m ρ c
theorem arg9_at6 : W6 m ρ c (Proc.devRef .tc main_arg9) = (m ((c : Thread nD τ).loc main_arg9)) :=
  (W6_of_ne m ρ c main_arg9 (by decide)).trans (arg9_at5 m ρ c)
theorem arg9_at7 : W7 m ρ c (Proc.devRef .tc main_arg9) = (m ((c : Thread nD τ).loc main_arg9)) := by
  show StableHlo.after hostOps3 (W6 m ρ c) (Proc.devRef .tc main_arg9) = _
  dsimp only [hostOps3]
  after_results <;> exact arg9_at6 m ρ c
theorem arg9_at8 : W8 m ρ c (Proc.devRef .tc main_arg9) = (m ((c : Thread nD τ).loc main_arg9)) :=
  (W8_of_ne m ρ c main_arg9 (by decide)).trans (arg9_at7 m ρ c)
theorem arg9_at9 : W9 m ρ c (Proc.devRef .tc main_arg9) = (m ((c : Thread nD τ).loc main_arg9)) := by
  show StableHlo.after hostOps4 (W8 m ρ c) (Proc.devRef .tc main_arg9) = _
  dsimp only [hostOps4]
  after_results <;> exact arg9_at8 m ρ c
theorem arg9_at10 : W10 m ρ c (Proc.devRef .tc main_arg9) = (m ((c : Thread nD τ).loc main_arg9)) :=
  (W10_of_ne m ρ c main_arg9 (by decide)).trans (arg9_at9 m ρ c)
theorem arg9_at11 : W11 m ρ c (Proc.devRef .tc main_arg9) = (m ((c : Thread nD τ).loc main_arg9)) := by
  show StableHlo.after hostOps5 (W10 m ρ c) (Proc.devRef .tc main_arg9) = _
  dsimp only [hostOps5]
  after_results <;> exact arg9_at10 m ρ c
theorem arg9_at12 : W12 m ρ c (Proc.devRef .tc main_arg9) = (m ((c : Thread nD τ).loc main_arg9)) :=
  (W12_of_ne m ρ c main_arg9 (by decide)).trans (arg9_at11 m ρ c)
theorem arg9_at13 : W13 m ρ c (Proc.devRef .tc main_arg9) = (m ((c : Thread nD τ).loc main_arg9)) := by
  show StableHlo.after hostOps6 (W12 m ρ c) (Proc.devRef .tc main_arg9) = _
  dsimp only [hostOps6]
  after_results <;> exact arg9_at12 m ρ c
theorem arg9_at14 : W14 m ρ c (Proc.devRef .tc main_arg9) = (m ((c : Thread nD τ).loc main_arg9)) :=
  (W14_of_ne m ρ c main_arg9 (by decide)).trans (arg9_at13 m ρ c)
theorem arg9_at15 : W15 m ρ c (Proc.devRef .tc main_arg9) = (m ((c : Thread nD τ).loc main_arg9)) := by
  show StableHlo.after hostOps7 (W14 m ρ c) (Proc.devRef .tc main_arg9) = _
  dsimp only [hostOps7]
  after_results <;> exact arg9_at14 m ρ c
theorem arg9_at16 : W16 m ρ c (Proc.devRef .tc main_arg9) = (m ((c : Thread nD τ).loc main_arg9)) :=
  (W16_of_ne m ρ c main_arg9 (by decide)).trans (arg9_at15 m ρ c)
theorem arg9_at17 : W17 m ρ c (Proc.devRef .tc main_arg9) = (m ((c : Thread nD τ).loc main_arg9)) := by
  show StableHlo.after hostOps8 (W16 m ρ c) (Proc.devRef .tc main_arg9) = _
  dsimp only [hostOps8]
  after_results <;> exact arg9_at16 m ρ c
theorem arg9_at18 : W18 m ρ c (Proc.devRef .tc main_arg9) = (m ((c : Thread nD τ).loc main_arg9)) :=
  (W18_of_ne m ρ c main_arg9 (by decide)).trans (arg9_at17 m ρ c)

theorem arg10_at0 : W0 m ρ c (Proc.devRef .tc main_arg10) = (m ((c : Thread nD τ).loc main_arg10)) := rfl
theorem arg10_at1 : W1 m ρ c (Proc.devRef .tc main_arg10) = (m ((c : Thread nD τ).loc main_arg10)) := by
  show StableHlo.after hostOps0 (W0 m ρ c) (Proc.devRef .tc main_arg10) = _
  dsimp only [hostOps0]
  after_results <;> exact arg10_at0 m ρ c
theorem arg10_at2 : W2 m ρ c (Proc.devRef .tc main_arg10) = (m ((c : Thread nD τ).loc main_arg10)) :=
  (W2_of_ne m ρ c main_arg10 (by decide)).trans (arg10_at1 m ρ c)
theorem arg10_at3 : W3 m ρ c (Proc.devRef .tc main_arg10) = (m ((c : Thread nD τ).loc main_arg10)) := by
  show StableHlo.after hostOps1 (W2 m ρ c) (Proc.devRef .tc main_arg10) = _
  dsimp only [hostOps1]
  after_results <;> exact arg10_at2 m ρ c
theorem arg10_at4 : W4 m ρ c (Proc.devRef .tc main_arg10) = (m ((c : Thread nD τ).loc main_arg10)) :=
  (W4_of_ne m ρ c main_arg10 (by decide)).trans (arg10_at3 m ρ c)
theorem arg10_at5 : W5 m ρ c (Proc.devRef .tc main_arg10) = (m ((c : Thread nD τ).loc main_arg10)) := by
  show StableHlo.after hostOps2 (W4 m ρ c) (Proc.devRef .tc main_arg10) = _
  dsimp only [hostOps2]
  after_results <;> exact arg10_at4 m ρ c
theorem arg10_at6 : W6 m ρ c (Proc.devRef .tc main_arg10) = (m ((c : Thread nD τ).loc main_arg10)) :=
  (W6_of_ne m ρ c main_arg10 (by decide)).trans (arg10_at5 m ρ c)
theorem arg10_at7 : W7 m ρ c (Proc.devRef .tc main_arg10) = (m ((c : Thread nD τ).loc main_arg10)) := by
  show StableHlo.after hostOps3 (W6 m ρ c) (Proc.devRef .tc main_arg10) = _
  dsimp only [hostOps3]
  after_results <;> exact arg10_at6 m ρ c
theorem arg10_at8 : W8 m ρ c (Proc.devRef .tc main_arg10) = (m ((c : Thread nD τ).loc main_arg10)) :=
  (W8_of_ne m ρ c main_arg10 (by decide)).trans (arg10_at7 m ρ c)
theorem arg10_at9 : W9 m ρ c (Proc.devRef .tc main_arg10) = (m ((c : Thread nD τ).loc main_arg10)) := by
  show StableHlo.after hostOps4 (W8 m ρ c) (Proc.devRef .tc main_arg10) = _
  dsimp only [hostOps4]
  after_results <;> exact arg10_at8 m ρ c
theorem arg10_at10 : W10 m ρ c (Proc.devRef .tc main_arg10) = (m ((c : Thread nD τ).loc main_arg10)) :=
  (W10_of_ne m ρ c main_arg10 (by decide)).trans (arg10_at9 m ρ c)
theorem arg10_at11 : W11 m ρ c (Proc.devRef .tc main_arg10) = (m ((c : Thread nD τ).loc main_arg10)) := by
  show StableHlo.after hostOps5 (W10 m ρ c) (Proc.devRef .tc main_arg10) = _
  dsimp only [hostOps5]
  after_results <;> exact arg10_at10 m ρ c
theorem arg10_at12 : W12 m ρ c (Proc.devRef .tc main_arg10) = (m ((c : Thread nD τ).loc main_arg10)) :=
  (W12_of_ne m ρ c main_arg10 (by decide)).trans (arg10_at11 m ρ c)
theorem arg10_at13 : W13 m ρ c (Proc.devRef .tc main_arg10) = (m ((c : Thread nD τ).loc main_arg10)) := by
  show StableHlo.after hostOps6 (W12 m ρ c) (Proc.devRef .tc main_arg10) = _
  dsimp only [hostOps6]
  after_results <;> exact arg10_at12 m ρ c
theorem arg10_at14 : W14 m ρ c (Proc.devRef .tc main_arg10) = (m ((c : Thread nD τ).loc main_arg10)) :=
  (W14_of_ne m ρ c main_arg10 (by decide)).trans (arg10_at13 m ρ c)
theorem arg10_at15 : W15 m ρ c (Proc.devRef .tc main_arg10) = (m ((c : Thread nD τ).loc main_arg10)) := by
  show StableHlo.after hostOps7 (W14 m ρ c) (Proc.devRef .tc main_arg10) = _
  dsimp only [hostOps7]
  after_results <;> exact arg10_at14 m ρ c
theorem arg10_at16 : W16 m ρ c (Proc.devRef .tc main_arg10) = (m ((c : Thread nD τ).loc main_arg10)) :=
  (W16_of_ne m ρ c main_arg10 (by decide)).trans (arg10_at15 m ρ c)
theorem arg10_at17 : W17 m ρ c (Proc.devRef .tc main_arg10) = (m ((c : Thread nD τ).loc main_arg10)) := by
  show StableHlo.after hostOps8 (W16 m ρ c) (Proc.devRef .tc main_arg10) = _
  dsimp only [hostOps8]
  after_results <;> exact arg10_at16 m ρ c
theorem arg10_at18 : W18 m ρ c (Proc.devRef .tc main_arg10) = (m ((c : Thread nD τ).loc main_arg10)) :=
  (W18_of_ne m ρ c main_arg10 (by decide)).trans (arg10_at17 m ρ c)

theorem arg11_at0 : W0 m ρ c (Proc.devRef .tc main_arg11) = (m ((c : Thread nD τ).loc main_arg11)) := rfl
theorem arg11_at1 : W1 m ρ c (Proc.devRef .tc main_arg11) = (m ((c : Thread nD τ).loc main_arg11)) := by
  show StableHlo.after hostOps0 (W0 m ρ c) (Proc.devRef .tc main_arg11) = _
  dsimp only [hostOps0]
  after_results <;> exact arg11_at0 m ρ c
theorem arg11_at2 : W2 m ρ c (Proc.devRef .tc main_arg11) = (m ((c : Thread nD τ).loc main_arg11)) :=
  (W2_of_ne m ρ c main_arg11 (by decide)).trans (arg11_at1 m ρ c)
theorem arg11_at3 : W3 m ρ c (Proc.devRef .tc main_arg11) = (m ((c : Thread nD τ).loc main_arg11)) := by
  show StableHlo.after hostOps1 (W2 m ρ c) (Proc.devRef .tc main_arg11) = _
  dsimp only [hostOps1]
  after_results <;> exact arg11_at2 m ρ c
theorem arg11_at4 : W4 m ρ c (Proc.devRef .tc main_arg11) = (m ((c : Thread nD τ).loc main_arg11)) :=
  (W4_of_ne m ρ c main_arg11 (by decide)).trans (arg11_at3 m ρ c)
theorem arg11_at5 : W5 m ρ c (Proc.devRef .tc main_arg11) = (m ((c : Thread nD τ).loc main_arg11)) := by
  show StableHlo.after hostOps2 (W4 m ρ c) (Proc.devRef .tc main_arg11) = _
  dsimp only [hostOps2]
  after_results <;> exact arg11_at4 m ρ c
theorem arg11_at6 : W6 m ρ c (Proc.devRef .tc main_arg11) = (m ((c : Thread nD τ).loc main_arg11)) :=
  (W6_of_ne m ρ c main_arg11 (by decide)).trans (arg11_at5 m ρ c)
theorem arg11_at7 : W7 m ρ c (Proc.devRef .tc main_arg11) = (m ((c : Thread nD τ).loc main_arg11)) := by
  show StableHlo.after hostOps3 (W6 m ρ c) (Proc.devRef .tc main_arg11) = _
  dsimp only [hostOps3]
  after_results <;> exact arg11_at6 m ρ c
theorem arg11_at8 : W8 m ρ c (Proc.devRef .tc main_arg11) = (m ((c : Thread nD τ).loc main_arg11)) :=
  (W8_of_ne m ρ c main_arg11 (by decide)).trans (arg11_at7 m ρ c)
theorem arg11_at9 : W9 m ρ c (Proc.devRef .tc main_arg11) = (m ((c : Thread nD τ).loc main_arg11)) := by
  show StableHlo.after hostOps4 (W8 m ρ c) (Proc.devRef .tc main_arg11) = _
  dsimp only [hostOps4]
  after_results <;> exact arg11_at8 m ρ c
theorem arg11_at10 : W10 m ρ c (Proc.devRef .tc main_arg11) = (m ((c : Thread nD τ).loc main_arg11)) :=
  (W10_of_ne m ρ c main_arg11 (by decide)).trans (arg11_at9 m ρ c)
theorem arg11_at11 : W11 m ρ c (Proc.devRef .tc main_arg11) = (m ((c : Thread nD τ).loc main_arg11)) := by
  show StableHlo.after hostOps5 (W10 m ρ c) (Proc.devRef .tc main_arg11) = _
  dsimp only [hostOps5]
  after_results <;> exact arg11_at10 m ρ c
theorem arg11_at12 : W12 m ρ c (Proc.devRef .tc main_arg11) = (m ((c : Thread nD τ).loc main_arg11)) :=
  (W12_of_ne m ρ c main_arg11 (by decide)).trans (arg11_at11 m ρ c)
theorem arg11_at13 : W13 m ρ c (Proc.devRef .tc main_arg11) = (m ((c : Thread nD τ).loc main_arg11)) := by
  show StableHlo.after hostOps6 (W12 m ρ c) (Proc.devRef .tc main_arg11) = _
  dsimp only [hostOps6]
  after_results <;> exact arg11_at12 m ρ c
theorem arg11_at14 : W14 m ρ c (Proc.devRef .tc main_arg11) = (m ((c : Thread nD τ).loc main_arg11)) :=
  (W14_of_ne m ρ c main_arg11 (by decide)).trans (arg11_at13 m ρ c)
theorem arg11_at15 : W15 m ρ c (Proc.devRef .tc main_arg11) = (m ((c : Thread nD τ).loc main_arg11)) := by
  show StableHlo.after hostOps7 (W14 m ρ c) (Proc.devRef .tc main_arg11) = _
  dsimp only [hostOps7]
  after_results <;> exact arg11_at14 m ρ c
theorem arg11_at16 : W16 m ρ c (Proc.devRef .tc main_arg11) = (m ((c : Thread nD τ).loc main_arg11)) :=
  (W16_of_ne m ρ c main_arg11 (by decide)).trans (arg11_at15 m ρ c)
theorem arg11_at17 : W17 m ρ c (Proc.devRef .tc main_arg11) = (m ((c : Thread nD τ).loc main_arg11)) := by
  show StableHlo.after hostOps8 (W16 m ρ c) (Proc.devRef .tc main_arg11) = _
  dsimp only [hostOps8]
  after_results <;> exact arg11_at16 m ρ c
theorem arg11_at18 : W18 m ρ c (Proc.devRef .tc main_arg11) = (m ((c : Thread nD τ).loc main_arg11)) :=
  (W18_of_ne m ρ c main_arg11 (by decide)).trans (arg11_at17 m ρ c)

theorem arg12_at0 : W0 m ρ c (Proc.devRef .tc main_arg12) = (m ((c : Thread nD τ).loc main_arg12)) := rfl
theorem arg12_at1 : W1 m ρ c (Proc.devRef .tc main_arg12) = (m ((c : Thread nD τ).loc main_arg12)) := by
  show StableHlo.after hostOps0 (W0 m ρ c) (Proc.devRef .tc main_arg12) = _
  dsimp only [hostOps0]
  after_results <;> exact arg12_at0 m ρ c
theorem arg12_at2 : W2 m ρ c (Proc.devRef .tc main_arg12) = (m ((c : Thread nD τ).loc main_arg12)) :=
  (W2_of_ne m ρ c main_arg12 (by decide)).trans (arg12_at1 m ρ c)
theorem arg12_at3 : W3 m ρ c (Proc.devRef .tc main_arg12) = (m ((c : Thread nD τ).loc main_arg12)) := by
  show StableHlo.after hostOps1 (W2 m ρ c) (Proc.devRef .tc main_arg12) = _
  dsimp only [hostOps1]
  after_results <;> exact arg12_at2 m ρ c
theorem arg12_at4 : W4 m ρ c (Proc.devRef .tc main_arg12) = (m ((c : Thread nD τ).loc main_arg12)) :=
  (W4_of_ne m ρ c main_arg12 (by decide)).trans (arg12_at3 m ρ c)
theorem arg12_at5 : W5 m ρ c (Proc.devRef .tc main_arg12) = (m ((c : Thread nD τ).loc main_arg12)) := by
  show StableHlo.after hostOps2 (W4 m ρ c) (Proc.devRef .tc main_arg12) = _
  dsimp only [hostOps2]
  after_results <;> exact arg12_at4 m ρ c
theorem arg12_at6 : W6 m ρ c (Proc.devRef .tc main_arg12) = (m ((c : Thread nD τ).loc main_arg12)) :=
  (W6_of_ne m ρ c main_arg12 (by decide)).trans (arg12_at5 m ρ c)
theorem arg12_at7 : W7 m ρ c (Proc.devRef .tc main_arg12) = (m ((c : Thread nD τ).loc main_arg12)) := by
  show StableHlo.after hostOps3 (W6 m ρ c) (Proc.devRef .tc main_arg12) = _
  dsimp only [hostOps3]
  after_results <;> exact arg12_at6 m ρ c
theorem arg12_at8 : W8 m ρ c (Proc.devRef .tc main_arg12) = (m ((c : Thread nD τ).loc main_arg12)) :=
  (W8_of_ne m ρ c main_arg12 (by decide)).trans (arg12_at7 m ρ c)
theorem arg12_at9 : W9 m ρ c (Proc.devRef .tc main_arg12) = (m ((c : Thread nD τ).loc main_arg12)) := by
  show StableHlo.after hostOps4 (W8 m ρ c) (Proc.devRef .tc main_arg12) = _
  dsimp only [hostOps4]
  after_results <;> exact arg12_at8 m ρ c
theorem arg12_at10 : W10 m ρ c (Proc.devRef .tc main_arg12) = (m ((c : Thread nD τ).loc main_arg12)) :=
  (W10_of_ne m ρ c main_arg12 (by decide)).trans (arg12_at9 m ρ c)
theorem arg12_at11 : W11 m ρ c (Proc.devRef .tc main_arg12) = (m ((c : Thread nD τ).loc main_arg12)) := by
  show StableHlo.after hostOps5 (W10 m ρ c) (Proc.devRef .tc main_arg12) = _
  dsimp only [hostOps5]
  after_results <;> exact arg12_at10 m ρ c
theorem arg12_at12 : W12 m ρ c (Proc.devRef .tc main_arg12) = (m ((c : Thread nD τ).loc main_arg12)) :=
  (W12_of_ne m ρ c main_arg12 (by decide)).trans (arg12_at11 m ρ c)
theorem arg12_at13 : W13 m ρ c (Proc.devRef .tc main_arg12) = (m ((c : Thread nD τ).loc main_arg12)) := by
  show StableHlo.after hostOps6 (W12 m ρ c) (Proc.devRef .tc main_arg12) = _
  dsimp only [hostOps6]
  after_results <;> exact arg12_at12 m ρ c
theorem arg12_at14 : W14 m ρ c (Proc.devRef .tc main_arg12) = (m ((c : Thread nD τ).loc main_arg12)) :=
  (W14_of_ne m ρ c main_arg12 (by decide)).trans (arg12_at13 m ρ c)
theorem arg12_at15 : W15 m ρ c (Proc.devRef .tc main_arg12) = (m ((c : Thread nD τ).loc main_arg12)) := by
  show StableHlo.after hostOps7 (W14 m ρ c) (Proc.devRef .tc main_arg12) = _
  dsimp only [hostOps7]
  after_results <;> exact arg12_at14 m ρ c
theorem arg12_at16 : W16 m ρ c (Proc.devRef .tc main_arg12) = (m ((c : Thread nD τ).loc main_arg12)) :=
  (W16_of_ne m ρ c main_arg12 (by decide)).trans (arg12_at15 m ρ c)
theorem arg12_at17 : W17 m ρ c (Proc.devRef .tc main_arg12) = (m ((c : Thread nD τ).loc main_arg12)) := by
  show StableHlo.after hostOps8 (W16 m ρ c) (Proc.devRef .tc main_arg12) = _
  dsimp only [hostOps8]
  after_results <;> exact arg12_at16 m ρ c
theorem arg12_at18 : W18 m ρ c (Proc.devRef .tc main_arg12) = (m ((c : Thread nD τ).loc main_arg12)) :=
  (W18_of_ne m ρ c main_arg12 (by decide)).trans (arg12_at17 m ρ c)

theorem arg13_at0 : W0 m ρ c (Proc.devRef .tc main_arg13) = (m ((c : Thread nD τ).loc main_arg13)) := rfl
theorem arg13_at1 : W1 m ρ c (Proc.devRef .tc main_arg13) = (m ((c : Thread nD τ).loc main_arg13)) := by
  show StableHlo.after hostOps0 (W0 m ρ c) (Proc.devRef .tc main_arg13) = _
  dsimp only [hostOps0]
  after_results <;> exact arg13_at0 m ρ c
theorem arg13_at2 : W2 m ρ c (Proc.devRef .tc main_arg13) = (m ((c : Thread nD τ).loc main_arg13)) :=
  (W2_of_ne m ρ c main_arg13 (by decide)).trans (arg13_at1 m ρ c)
theorem arg13_at3 : W3 m ρ c (Proc.devRef .tc main_arg13) = (m ((c : Thread nD τ).loc main_arg13)) := by
  show StableHlo.after hostOps1 (W2 m ρ c) (Proc.devRef .tc main_arg13) = _
  dsimp only [hostOps1]
  after_results <;> exact arg13_at2 m ρ c
theorem arg13_at4 : W4 m ρ c (Proc.devRef .tc main_arg13) = (m ((c : Thread nD τ).loc main_arg13)) :=
  (W4_of_ne m ρ c main_arg13 (by decide)).trans (arg13_at3 m ρ c)
theorem arg13_at5 : W5 m ρ c (Proc.devRef .tc main_arg13) = (m ((c : Thread nD τ).loc main_arg13)) := by
  show StableHlo.after hostOps2 (W4 m ρ c) (Proc.devRef .tc main_arg13) = _
  dsimp only [hostOps2]
  after_results <;> exact arg13_at4 m ρ c
theorem arg13_at6 : W6 m ρ c (Proc.devRef .tc main_arg13) = (m ((c : Thread nD τ).loc main_arg13)) :=
  (W6_of_ne m ρ c main_arg13 (by decide)).trans (arg13_at5 m ρ c)
theorem arg13_at7 : W7 m ρ c (Proc.devRef .tc main_arg13) = (m ((c : Thread nD τ).loc main_arg13)) := by
  show StableHlo.after hostOps3 (W6 m ρ c) (Proc.devRef .tc main_arg13) = _
  dsimp only [hostOps3]
  after_results <;> exact arg13_at6 m ρ c
theorem arg13_at8 : W8 m ρ c (Proc.devRef .tc main_arg13) = (m ((c : Thread nD τ).loc main_arg13)) :=
  (W8_of_ne m ρ c main_arg13 (by decide)).trans (arg13_at7 m ρ c)
theorem arg13_at9 : W9 m ρ c (Proc.devRef .tc main_arg13) = (m ((c : Thread nD τ).loc main_arg13)) := by
  show StableHlo.after hostOps4 (W8 m ρ c) (Proc.devRef .tc main_arg13) = _
  dsimp only [hostOps4]
  after_results <;> exact arg13_at8 m ρ c
theorem arg13_at10 : W10 m ρ c (Proc.devRef .tc main_arg13) = (m ((c : Thread nD τ).loc main_arg13)) :=
  (W10_of_ne m ρ c main_arg13 (by decide)).trans (arg13_at9 m ρ c)
theorem arg13_at11 : W11 m ρ c (Proc.devRef .tc main_arg13) = (m ((c : Thread nD τ).loc main_arg13)) := by
  show StableHlo.after hostOps5 (W10 m ρ c) (Proc.devRef .tc main_arg13) = _
  dsimp only [hostOps5]
  after_results <;> exact arg13_at10 m ρ c
theorem arg13_at12 : W12 m ρ c (Proc.devRef .tc main_arg13) = (m ((c : Thread nD τ).loc main_arg13)) :=
  (W12_of_ne m ρ c main_arg13 (by decide)).trans (arg13_at11 m ρ c)
theorem arg13_at13 : W13 m ρ c (Proc.devRef .tc main_arg13) = (m ((c : Thread nD τ).loc main_arg13)) := by
  show StableHlo.after hostOps6 (W12 m ρ c) (Proc.devRef .tc main_arg13) = _
  dsimp only [hostOps6]
  after_results <;> exact arg13_at12 m ρ c
theorem arg13_at14 : W14 m ρ c (Proc.devRef .tc main_arg13) = (m ((c : Thread nD τ).loc main_arg13)) :=
  (W14_of_ne m ρ c main_arg13 (by decide)).trans (arg13_at13 m ρ c)
theorem arg13_at15 : W15 m ρ c (Proc.devRef .tc main_arg13) = (m ((c : Thread nD τ).loc main_arg13)) := by
  show StableHlo.after hostOps7 (W14 m ρ c) (Proc.devRef .tc main_arg13) = _
  dsimp only [hostOps7]
  after_results <;> exact arg13_at14 m ρ c
theorem arg13_at16 : W16 m ρ c (Proc.devRef .tc main_arg13) = (m ((c : Thread nD τ).loc main_arg13)) :=
  (W16_of_ne m ρ c main_arg13 (by decide)).trans (arg13_at15 m ρ c)
theorem arg13_at17 : W17 m ρ c (Proc.devRef .tc main_arg13) = (m ((c : Thread nD τ).loc main_arg13)) := by
  show StableHlo.after hostOps8 (W16 m ρ c) (Proc.devRef .tc main_arg13) = _
  dsimp only [hostOps8]
  after_results <;> exact arg13_at16 m ρ c
theorem arg13_at18 : W18 m ρ c (Proc.devRef .tc main_arg13) = (m ((c : Thread nD τ).loc main_arg13)) :=
  (W18_of_ne m ρ c main_arg13 (by decide)).trans (arg13_at17 m ρ c)

end Cert.KernelIdeal.Fold

end
-- ==== Proof.Region0.lean ====
/-
  Launch 0 (the node encoder): the array it leaves.

  The grid has 25 points; point t takes rows 2000·t … 2000·t + 1999 of the feature array, multiplies them by the whole
  9 × 128 weight matrix, adds the bias row and writes the 2000 result rows back to the same row range. The 25 blocks
  tile the 50000 rows, so after the launch every row of the output is that row of the features through the dense layer.
-/
import proofs.«157398_j15616501088448_1_alg».proof.Proof.Gen.KernelIdeal.Frame
import proofs.«157398_j15616501088448_1_alg».proof.Proof.Spec

set_option maxRecDepth 16384

noncomputable section

namespace Cert.KernelIdeal.R0

open Cert.KernelIdeal Cert.KernelIdeal.Gen Cert.Gine
open Idealize.ShloMosaic Idealize.ShloMosaic.TcCoe Idealize.ShloMosaic.ValueIdx
open Idealize.SL.Sem
open Idealize.ShloMosaic.Pipeline (Dat Cfg Window)

abbrev IdealF := Idealize.ShloMosaic.Ideal

variable (V : (c : Dev nD) → (b : Ref sig .tc) → Buf (Elt IdealF) ((c : Thread nD τ).loc b))

theorem hz : (![0, 0] : Fin 2 → Nat) = fun _ => 0 := funext fun a => by fin_cases a <;> rfl

/-- The body's arithmetic on a block: every row through the dense layer. -/
theorem pay_eq (x0 : Vec IdealF S2000x9 .f32) (x1 : Vec IdealF S9x128 .f32) (x2 : Vec IdealF S1x128 .f32) :
    k0_pay1 x0 x1 x2 = fun j => lin (fun k => x0 (ix2 (j 0) k)) x1 x2 (j 1) := by
  funext j
  obtain ⟨p, q, rfl⟩ : ∃ (p : Fin 2000) (q : Fin 128), j = ix2 p q := ⟨j 0, j 1, eq_ix2 j⟩
  unfold k0_pay1
  exact denseVec_apply x0 x1 x2 _ _ _ p q

/-- Point t's row blocks start at row block t; the weight and bias windows are the whole arrays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 25 := t.isLt

/-- Entry (p, q) of point t's output block is entry (2000·t + p, q) of the array. -/
theorem emb_out (t : Fin cfg0.N) (p : Fin 2000) (q : Fin 128) (hr : t.val * 2000 + p.val < 50000) :
    ((cfg0.win 3).blk t).view.emb (ix2 p q) = ix2 (⟨t.val * 2000 + p.val, hr⟩ : Fin 50000) q := by
  obtain ⟨e0, e1, e2, e3, e4, e5, e6, e7⟩ := idx_facts t
  funext a; apply Fin.ext
  match a with
  | ⟨0, _⟩ => show win0_3.index t (0 : Fin 2) * 2000 + 1 * p.val = t.val * 2000 + p.val; omega
  | ⟨1, _⟩ => show win0_3.index t (1 : Fin 2) * 128 + 1 * q.val = q.val; omega

/-- Entry (p, k) of point t's feature block is entry (2000·t + p, k) of the feature array. -/
theorem emb_in (t : Fin cfg0.N) (p : Fin 2000) (k : Fin 9) (hr : t.val * 2000 + p.val < 50000) :
    ((cfg0.win 0).blk t).view.emb (ix2 p k) = ix2 (⟨t.val * 2000 + p.val, hr⟩ : Fin 50000) k := by
  obtain ⟨e0, e1, e2, e3, e4, e5, e6, e7⟩ := idx_facts t
  funext a; apply Fin.ext
  match a with
  | ⟨0, _⟩ => show win0_0.index t (0 : Fin 2) * 2000 + 1 * p.val = t.val * 2000 + p.val; omega
  | ⟨1, _⟩ => show win0_0.index t (1 : Fin 2) * 9 + 1 * k.val = k.val; omega

/-- The weight window's block is the whole weight matrix. -/
theorem emb_w (t : Fin cfg0.N) (y : S9x128.Idx) : ((cfg0.win 1).blk t).view.emb y = y := by
  obtain ⟨e0, e1, e2, e3, e4, e5, e6, e7⟩ := idx_facts t
  funext a; apply Fin.ext
  match a with
  | ⟨0, _⟩ => show win0_1.index t (0 : Fin 2) * 9 + 1 * (y 0).val = (y 0).val; omega
  | ⟨1, _⟩ => show win0_1.index t (1 : Fin 2) * 128 + 1 * (y 1).val = (y 1).val; omega

/-- The bias window's block is the whole bias row. -/
theorem emb_b (t : Fin cfg0.N) (y : S1x128.Idx) : ((cfg0.win 2).blk t).view.emb y = y := by
  obtain ⟨e0, e1, e2, e3, e4, e5, e6, e7⟩ := idx_facts t
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- What point t writes back is block t of the encoder applied to the arrays as the launch found them. -/
theorem flushed_eq (c : Dev nD) (t : Fin cfg0.N) :
    (dat0 V c).flushed 3 t = ((cfg0.win 3).blk t).view.read (Elt IdealF)
      (encG (M := 50000) (K := 9) (N := 128) (V c main_arg0) (V c main_arg4) (V c main_v0)) := by
  show (cfg0.win 3).cut (grid0.coords t) ((dat0 V c).after 3 t) = _
  rw [after0_3]
  unfold out0_3
  rw [View.canon_unit_zero hz]
  simp only [View.ld_unit_zero (S := S2000x9) hz, View.ld_unit_zero (S := S9x128) hz, View.ld_unit_zero (S := S1x128) hz]
  rw [pay_eq]
  have ht := t_lt t
  funext j
  obtain ⟨p, q, rfl⟩ : ∃ (p : Fin 2000) (q : Fin 128), j = ix2 p q := ⟨j 0, j 1, eq_ix2 j⟩
  have hr : t.val * 2000 + p.val < 50000 := by have := p.isLt; omega
  show lin (fun k => iblk0 V c 0 t (ix2 p k)) (iblk0 V c 1 t) (iblk0 V c 2 t) q
    = encG (M := 50000) (K := 9) (N := 128) (V c main_arg0) (V c main_arg4) (V c main_v0) (((cfg0.win 3).blk t).view.emb (ix2 p q))
  rw [emb_out t p q hr, encG_apply]
  have h0 : (fun k : Fin 9 => iblk0 V c 0 t (ix2 p k)) = fun k => V c main_arg0 (ix2 (⟨t.val * 2000 + p.val, hr⟩ : Fin 50000) k) := by
    funext k
    show V c main_arg0 (((cfg0.win 0).blk t).view.emb (ix2 p k)) = _
    rw [emb_in t p k hr]
  have h1 : iblk0 V c 1 t = V c main_arg4 := by
    funext y
    show V c main_arg4 (((cfg0.win 1).blk t).view.emb y) = _
    rw [emb_w]
  have h2 : iblk0 V c 2 t = V c main_v0 := by
    funext y
    show V c main_v0 (((cfg0.win 2).blk t).view.emb y) = _
    rw [emb_b]
  rw [h0, h1, h2]

/-- An index of the array is in point t's block iff each coordinate is in the block's range on its axis. -/
theorem mem_blk (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v1).slice (win0_3.rect t)).set ↔ _
  rw [View.set_slice_whole, Rect.mem_set_unit]
  exact Iff.rfl

/-- Every row of the array is in the block of the point numbered row / 2000. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have ht : (i 0).val / 2000 < 25 := by omega
  refine ⟨⟨(i 0).val / 2000, ht⟩, flush0_3 _, ?_⟩
  obtain ⟨e0, e1, e2, e3, e4, e5, e6, e7⟩ := idx_facts ⟨(i 0).val / 2000, ht⟩
  rw [mem_blk]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win0_3.index ⟨(i 0).val / 2000, ht⟩ (1 : Fin 2) * 128 ≤ (i 1).val
      ∧ (i 1).val < win0_3.index ⟨(i 0).val / 2000, ht⟩ (1 : Fin 2) * 128 + 128
    rw [e7]; omega

/-- The array after the launch: the encoder applied to the arrays as the launch found them. -/
theorem final (c : Dev nD) :
    (dat0 V c).arrAt 3 cfg0.N
      = encG (M := 50000) (K := 9) (N := 128) (V c main_arg0) (V c main_arg4) (V c main_v0) :=
  (dat0 V c).arrAt_eq_of_cover 3 _ (fun t _ => flushed_eq V c t) cover

end Cert.KernelIdeal.R0

end
-- ==== Proof.Region1.lean ====
/-
  Launch 1 (the edge encoder): the array it leaves.

  The grid has 125 points; point t takes rows 5000·t … 5000·t + 4999 of the feature array, multiplies them by the whole
  4 × 128 weight matrix, adds the bias row and writes the 5000 result rows back to the same row range. The 125 blocks
  tile the 625000 rows, so after the launch every row of the output is that row of the features through the dense layer.
-/
import proofs.«157398_j15616501088448_1_alg».proof.Proof.Gen.KernelIdeal.Frame
import proofs.«157398_j15616501088448_1_alg».proof.Proof.Spec

set_option maxRecDepth 16384

noncomputable section

namespace Cert.KernelIdeal.R1

open Cert.KernelIdeal Cert.KernelIdeal.Gen Cert.Gine
open Idealize.ShloMosaic Idealize.ShloMosaic.TcCoe Idealize.ShloMosaic.ValueIdx
open Idealize.SL.Sem
open Idealize.ShloMosaic.Pipeline (Dat Cfg Window)

abbrev IdealF := Idealize.ShloMosaic.Ideal

variable (V : (c : Dev nD) → (b : Ref sig .tc) → Buf (Elt IdealF) ((c : Thread nD τ).loc b))

theorem hz : (![0, 0] : Fin 2 → Nat) = fun _ => 0 := funext fun a => by fin_cases a <;> rfl

/-- The body's arithmetic on a block: every row through the dense layer. -/
theorem pay_eq (x0 : Vec IdealF S5000x4 .f32) (x1 : Vec IdealF S4x128 .f32) (x2 : Vec IdealF S1x128 .f32) :
    k1_pay1 x0 x1 x2 = fun j => lin (fun k => x0 (ix2 (j 0) k)) x1 x2 (j 1) := by
  funext j
  obtain ⟨p, q, rfl⟩ : ∃ (p : Fin 5000) (q : Fin 128), j = ix2 p q := ⟨j 0, j 1, eq_ix2 j⟩
  unfold k1_pay1
  exact denseVec_apply x0 x1 x2 _ _ _ p q

/-- Point t's row blocks start at row block t; the weight and bias windows are the whole arrays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem t_lt (t : Fin cfg1.N) : t.val < 125 := t.isLt

/-- Entry (p, q) of point t's output block is entry (5000·t + p, q) of the array. -/
theorem emb_out (t : Fin cfg1.N) (p : Fin 5000) (q : Fin 128) (hr : t.val * 5000 + p.val < 625000) :
    ((cfg1.win 3).blk t).view.emb (ix2 p q) = ix2 (⟨t.val * 5000 + p.val, hr⟩ : Fin 625000) q := by
  obtain ⟨e0, e1, e2, e3, e4, e5, e6, e7⟩ := idx_facts t
  funext a; apply Fin.ext
  match a with
  | ⟨0, _⟩ => show win1_3.index t (0 : Fin 2) * 5000 + 1 * p.val = t.val * 5000 + p.val; omega
  | ⟨1, _⟩ => show win1_3.index t (1 : Fin 2) * 128 + 1 * q.val = q.val; omega

/-- Entry (p, k) of point t's feature block is entry (5000·t + p, k) of the feature array. -/
theorem emb_in (t : Fin cfg1.N) (p : Fin 5000) (k : Fin 4) (hr : t.val * 5000 + p.val < 625000) :
    ((cfg1.win 0).blk t).view.emb (ix2 p k) = ix2 (⟨t.val * 5000 + p.val, hr⟩ : Fin 625000) k := by
  obtain ⟨e0, e1, e2, e3, e4, e5, e6, e7⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 4 + 1 * k.val = k.val; omega

/-- The weight window's block is the whole weight matrix. -/
theorem emb_w (t : Fin cfg1.N) (y : S4x128.Idx) : ((cfg1.win 1).blk t).view.emb y = y := by
  obtain ⟨e0, e1, e2, e3, e4, e5, e6, e7⟩ := idx_facts t
  funext a; apply Fin.ext
  match a with
  | ⟨0, _⟩ => show win1_1.index t (0 : Fin 2) * 4 + 1 * (y 0).val = (y 0).val; omega
  | ⟨1, _⟩ => show win1_1.index t (1 : Fin 2) * 128 + 1 * (y 1).val = (y 1).val; omega

/-- The bias window's block is the whole bias row. -/
theorem emb_b (t : Fin cfg1.N) (y : S1x128.Idx) : ((cfg1.win 2).blk t).view.emb y = y := by
  obtain ⟨e0, e1, e2, e3, e4, e5, e6, e7⟩ := idx_facts t
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- What point t writes back is block t of the encoder applied to the arrays as the launch found them. -/
theorem flushed_eq (c : Dev nD) (t : Fin cfg1.N) :
    (dat1 V c).flushed 3 t = ((cfg1.win 3).blk t).view.read (Elt IdealF)
      (encG (M := 625000) (K := 4) (N := 128) (V c main_arg2) (V c main_arg6) (V c main_v2)) := by
  show (cfg1.win 3).cut (grid1.coords t) ((dat1 V c).after 3 t) = _
  rw [after1_3]
  unfold out1_3
  rw [View.canon_unit_zero hz]
  simp only [View.ld_unit_zero (S := S5000x4) hz, View.ld_unit_zero (S := S4x128) hz, View.ld_unit_zero (S := S1x128) hz]
  rw [pay_eq]
  have ht := t_lt t
  funext j
  obtain ⟨p, q, rfl⟩ : ∃ (p : Fin 5000) (q : Fin 128), j = ix2 p q := ⟨j 0, j 1, eq_ix2 j⟩
  have hr : t.val * 5000 + p.val < 625000 := by have := p.isLt; omega
  show lin (fun k => iblk1 V c 0 t (ix2 p k)) (iblk1 V c 1 t) (iblk1 V c 2 t) q
    = encG (M := 625000) (K := 4) (N := 128) (V c main_arg2) (V c main_arg6) (V c main_v2) (((cfg1.win 3).blk t).view.emb (ix2 p q))
  rw [emb_out t p q hr, encG_apply]
  have h0 : (fun k : Fin 4 => iblk1 V c 0 t (ix2 p k)) = fun k => V c main_arg2 (ix2 (⟨t.val * 5000 + p.val, hr⟩ : Fin 625000) k) := by
    funext k
    show V c main_arg2 (((cfg1.win 0).blk t).view.emb (ix2 p k)) = _
    rw [emb_in t p k hr]
  have h1 : iblk1 V c 1 t = V c main_arg6 := by
    funext y
    show V c main_arg6 (((cfg1.win 1).blk t).view.emb y) = _
    rw [emb_w]
  have h2 : iblk1 V c 2 t = V c main_v2 := by
    funext y
    show V c main_v2 (((cfg1.win 2).blk t).view.emb y) = _
    rw [emb_b]
  rw [h0, h1, h2]

/-- An index of the array is in point t's block iff each coordinate is in the block's range on its axis. -/
theorem mem_blk (t : Fin cfg1.N) (i : S625000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v3).slice (win1_3.rect t)).set ↔ _
  rw [View.set_slice_whole, Rect.mem_set_unit]
  exact Iff.rfl

/-- Every row of the array is in the block of the point numbered row / 5000. -/
theorem cover (i : S625000x128.Idx) :
    ∃ t : Fin cfg1.N, (cfg1.win 3).flush t = true ∧ i ∈ ((cfg1.win 3).blk t).view.set := by
  have hi0 : (i 0).val < 625000 := (i 0).isLt
  have hi1 : (i 1).val < 128 := (i 1).isLt
  have ht : (i 0).val / 5000 < 125 := by omega
  refine ⟨⟨(i 0).val / 5000, ht⟩, flush1_3 _, ?_⟩
  obtain ⟨e0, e1, e2, e3, e4, e5, e6, e7⟩ := idx_facts ⟨(i 0).val / 5000, ht⟩
  rw [mem_blk]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val
      ∧ (i 1).val < win1_3.index ⟨(i 0).val / 5000, ht⟩ (1 : Fin 2) * 128 + 128
    rw [e7]; omega

/-- The array after the launch: the encoder applied to the arrays as the launch found them. -/
theorem final (c : Dev nD) :
    (dat1 V c).arrAt 3 cfg1.N
      = encG (M := 625000) (K := 4) (N := 128) (V c main_arg2) (V c main_arg6) (V c main_v2) :=
  (dat1 V c).arrAt_eq_of_cover 3 _ (fun t _ => flushed_eq V c t) cover

end Cert.KernelIdeal.R1

end
-- ==== Proof.Region2.lean ====
/-
  Launch 2 (the message stage): the array it leaves.

  The grid has 125 points; point t works on rows 5000·t … 5000·t + 4999 of the gathered node rows and of the edge
  features and writes relu of their sum back to the same rows. The blocks of the 125 points tile the 625000 rows, so
  after the launch the output array is relu of the sum of the two input arrays, entry by entry.
-/
import proofs.«157398_j15616501088448_1_alg».proof.Proof.Gen.KernelIdeal.Frame
import proofs.«157398_j15616501088448_1_alg».proof.Proof.Spec

set_option maxRecDepth 16384

noncomputable section

namespace Cert.KernelIdeal.R2

open Cert.KernelIdeal Cert.KernelIdeal.Gen Cert.Gine
open Idealize.ShloMosaic Idealize.ShloMosaic.TcCoe Idealize.ShloMosaic.ValueIdx
open Idealize.SL.Sem
open Idealize.ShloMosaic.Pipeline (Dat Cfg Window)

abbrev IdealF := Idealize.ShloMosaic.Ideal

variable (V : (c : Dev nD) → (b : Ref sig .tc) → Buf (Elt IdealF) ((c : Thread nD τ).loc b))

theorem hz : (![0, 0] : Fin 2 → Nat) = fun _ => 0 := funext fun a => by fin_cases a <;> rfl

/-- The body's arithmetic on a block: relu of the sum, entry by entry. -/
theorem pay_eq (x0 x1 : Vec IdealF S5000x128 .f32) :
    k2_pay1 x0 x1 = fun j => msgAt (x0 j) (x1 j) := by
  funext j
  unfold k2_pay1
  simp only [shapeCast_self]
  rfl

/-- Point t's blocks all start at row block t, column block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of relu of the sum of the two input arrays. -/
theorem flushed_eq (c : Dev nD) (t : Fin cfg2.N) :
    (dat2 V c).flushed 2 t
      = ((cfg2.win 2).blk t).view.read (Elt IdealF) (msgG (M := 625000) (N := 128) (V c main_v14) (V c main_v3)) := by
  show (cfg2.win 2).cut (grid2.coords t) ((dat2 V c).after 2 t) = _
  rw [after2_2]
  unfold out2_2
  rw [View.canon_unit_zero hz]
  simp only [View.ld_unit_zero (S := S5000x128) hz]
  rw [pay_eq]
  obtain ⟨e0, e1, e2, e3, e4, e5⟩ := idx_facts t
  funext j
  show msgAt (V c main_v14 (((cfg2.win 0).blk t).view.emb j)) (V c main_v3 (((cfg2.win 1).blk t).view.emb j))
    = msgAt (V c main_v14 (((cfg2.win 2).blk t).view.emb j)) (V c main_v3 (((cfg2.win 2).blk t).view.emb j))
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 128 + 1 * (j 1).val = win2_2.index t (1 : Fin 2) * 128 + 1 * (j 1).val; omega
  rw [h0, h1]

/-- An index of the array is in point t's block iff each coordinate is in the block's range on its axis. -/
theorem mem_blk (t : Fin cfg2.N) (i : S625000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v15).slice (win2_2.rect t)).set ↔ _
  rw [View.set_slice_whole, Rect.mem_set_unit]
  exact Iff.rfl

/-- Every row of the array is in the block of the point numbered row / 5000. -/
theorem cover (i : S625000x128.Idx) :
    ∃ t : Fin cfg2.N, (cfg2.win 2).flush t = true ∧ i ∈ ((cfg2.win 2).blk t).view.set := by
  have hi0 : (i 0).val < 625000 := (i 0).isLt
  have hi1 : (i 1).val < 128 := (i 1).isLt
  have ht : (i 0).val / 5000 < 125 := by omega
  refine ⟨⟨(i 0).val / 5000, ht⟩, flush2_2 _, ?_⟩
  obtain ⟨e0, e1, e2, e3, e4, e5⟩ := idx_facts ⟨(i 0).val / 5000, ht⟩
  rw [mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    rw [e5]; omega

/-- The array after the launch: relu of the sum of the two input arrays as the launch found them. -/
theorem final (c : Dev nD) :
    (dat2 V c).arrAt 2 cfg2.N = msgG (M := 625000) (N := 128) (V c main_v14) (V c main_v3) :=
  (dat2 V c).arrAt_eq_of_cover 2 _ (fun t _ => flushed_eq V c t) cover

end Cert.KernelIdeal.R2

end
-- ==== Proof.Region3.lean ====
/-
  Launch 3 (a node update): the array it leaves.

  The grid has 25 points; point t takes rows 2000·t … 2000·t + 1999 of the node array h and of the aggregated messages,
  and the whole weight matrices and bias, scale and shift rows. Each row goes through the two-layer perceptron, is
  normalised over its 128 entries (mean, variance, reciprocal square root), scaled, shifted, cut at zero and added to
  the row of h it came from. Every step uses one row only, so the block's entry (p, q) is `layerRow` of row 2000·t + p;
  the 25 blocks tile the 50000 rows.
-/
import proofs.«157398_j15616501088448_1_alg».proof.Proof.Gen.KernelIdeal.Frame
import proofs.«157398_j15616501088448_1_alg».proof.Proof.Spec

set_option maxRecDepth 16384

noncomputable section

namespace Cert.KernelIdeal.R3

open Cert.KernelIdeal Cert.KernelIdeal.Gen Cert.Gine
open Idealize.ShloMosaic Idealize.ShloMosaic.TcCoe Idealize.ShloMosaic.ValueIdx
open Idealize.SL.Sem
open Idealize.ShloMosaic.Pipeline (Dat Cfg Window)

abbrev IdealF := Idealize.ShloMosaic.Ideal

variable (V : (c : Dev nD) → (b : Ref sig .tc) → Buf (Elt IdealF) ((c : Thread nD τ).loc b))

theorem hz : (![0, 0] : Fin 2 → Nat) = fun _ => 0 := funext fun a => by fin_cases a <;> rfl

theorem rsqrt_at {s : Shape} (v : FVec IdealF s .f32) (i : s.Idx) : rsqrt v i = Idealize.ShloMosaic.Ideal.rsqrt (v i) := rfl

/-- The perceptron's output at an entry of the block. -/
theorem mlp_apply (x0 x1 : Vec IdealF S2000x128 .f32) (x2 : Vec IdealF S128x256 .f32) (x3 : Vec IdealF S1x256 .f32)
    (x4 : Vec IdealF S256x128 .f32) (x5 : Vec IdealF S1x128 .f32) (p : Fin 2000) (q : Fin 128) :
    k3_pay3 x0 x1 x2 x3 x4 x5 (ix2 p q) = mlpRow (fun k => x0 (ix2 p k)) (fun k => x1 (ix2 p k)) x2 x3 x4 x5 q := by
  unfold k3_pay3 k3_pay2
  simp only [shapeCast_self]
  refine (denseVec_apply' _ x4 x5 _ _ p q).trans ?_
  refine congrArg (fun f => lin f x4 x5 q) (funext fun j => ?_)
  simp only [maximumf_apply, broadcast_apply]
  exact congrArg (fun v => max v (FloatOps.ofBits (F := IdealF) FTy.f32 0x00000000#32))
    (denseVec_apply' (addf x0 x1) x2 x3 _ _ p j)

/-- The row mean at a row of the block. -/
theorem mu_apply (x0 x1 : Vec IdealF S2000x128 .f32) (x2 : Vec IdealF S128x256 .f32) (x3 : Vec IdealF S1x256 .f32)
    (x4 : Vec IdealF S256x128 .f32) (x5 : Vec IdealF S1x128 .f32) (p : Fin 2000) (u : Fin 1) :
    k3_pay4 x0 x1 x2 x3 x4 x5 (ix2 p u) = mean128 (mlpRow (fun k => x0 (ix2 p k)) (fun k => x1 (ix2 p k)) x2 x3 x4 x5) := by
  unfold k3_pay4
  refine (meanVec_apply (k3_pay3 x0 x1 x2 x3 x4 x5) _ _ _ _ p u).trans ?_
  exact congrArg mean128 (funext fun q => mlp_apply x0 x1 x2 x3 x4 x5 p q)

/-- The centred row at an entry of the block. -/
theorem ctr_apply (x0 x1 : Vec IdealF S2000x128 .f32) (x2 : Vec IdealF S128x256 .f32) (x3 : Vec IdealF S1x256 .f32)
    (x4 : Vec IdealF S256x128 .f32) (x5 : Vec IdealF S1x128 .f32) (p : Fin 2000) (q : Fin 128) :
    k3_pay6 x0 x1 x2 x3 x4 x5 (ix2 p q) = mlpRow (fun k => x0 (ix2 p k)) (fun k => x1 (ix2 p k)) x2 x3 x4 x5 q - mean128 (mlpRow (fun k => x0 (ix2 p k)) (fun k => x1 (ix2 p k)) x2 x3 x4 x5) := by
  unfold k3_pay6
  simp only [subf_apply]
  rw [Cert.LibColumn.broadcastTo_a1_ab_apply, mlp_apply, mu_apply]

/-- The row variance at a row of the block. -/
theorem var_apply (x0 x1 : Vec IdealF S2000x128 .f32) (x2 : Vec IdealF S128x256 .f32) (x3 : Vec IdealF S1x256 .f32)
    (x4 : Vec IdealF S256x128 .f32) (x5 : Vec IdealF S1x128 .f32) (p : Fin 2000) (u : Fin 1) :
    k3_pay5 x0 x1 x2 x3 x4 x5 (ix2 p u)
      = mean128 (fun j => (mlpRow (fun k => x0 (ix2 p k)) (fun k => x1 (ix2 p k)) x2 x3 x4 x5 j - mean128 (mlpRow (fun k => x0 (ix2 p k)) (fun k => x1 (ix2 p k)) x2 x3 x4 x5)) * (mlpRow (fun k => x0 (ix2 p k)) (fun k => x1 (ix2 p k)) x2 x3 x4 x5 j - mean128 (mlpRow (fun k => x0 (ix2 p k)) (fun k => x1 (ix2 p k)) x2 x3 x4 x5))) := by
  unfold k3_pay5
  refine (meanVec_apply _ _ _ _ _ p u).trans ?_
  refine congrArg mean128 (funext fun j => ?_)
  simp only [mulf_apply, subf_apply]
  rw [Cert.LibColumn.broadcastTo_a1_ab_apply, mlp_apply, mu_apply]

/-- The body's arithmetic on a block: every row through the node update. -/
theorem pay_eq (x0 x1 : Vec IdealF S2000x128 .f32) (x2 : Vec IdealF S128x256 .f32) (x3 : Vec IdealF S1x256 .f32)
    (x4 : Vec IdealF S256x128 .f32) (x5 : Vec IdealF S1x128 .f32) (x6 x7 : Vec IdealF S1x128 .f32) :
    k3_pay1 (k3_pay2 x0) (k3_pay5 x0 x1 x2 x3 x4 x5) (k3_pay6 x0 x1 x2 x3 x4 x5) (k3_pay7 (F := IdealF)) x6 x7
      = fun j => layerRow (fun k => x0 (ix2 (j 0) k)) (fun k => x1 (ix2 (j 0) k)) x2 x3 x4 x5 x6 x7 (j 1) := by
  funext j
  obtain ⟨p, q, rfl⟩ : ∃ (p : Fin 2000) (q : Fin 128), j = ix2 p q := ⟨j 0, j 1, eq_ix2 j⟩
  unfold k3_pay1 k3_pay2 k3_pay7
  simp only [shapeCast_self, addf_apply, maximumf_apply, mulf_apply, broadcast_apply]
  rw [Cert.LibColumn.broadcastTo_a1_ab_apply, broadcastTo_1b_ab_apply, broadcastTo_1b_ab_apply, ctr_apply, rsqrt_at]
  simp only [addf_apply, broadcast_apply]
  rw [var_apply]
  rfl

/-- Point t's row blocks start at row block t; the six weight windows are the whole arrays. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

theorem t_lt (t : Fin cfg3.N) : t.val < 25 := t.isLt

theorem emb_0 (t : Fin cfg3.N) (p : Fin 2000) (q : Fin 128) (hr : t.val * 2000 + p.val < 50000) :
    ((cfg3.win 0).blk t).view.emb (ix2 p q) = ix2 (⟨t.val * 2000 + p.val, hr⟩ : Fin 50000) q := by
  obtain ⟨e0, e1, -⟩ := idx_facts t
  funext a; apply Fin.ext
  match a with
  | ⟨0, _⟩ => show win3_0.index t (0 : Fin 2) * 2000 + 1 * p.val = t.val * 2000 + p.val; omega
  | ⟨1, _⟩ => show win3_0.index t (1 : Fin 2) * 128 + 1 * q.val = q.val; omega

theorem emb_1 (t : Fin cfg3.N) (p : Fin 2000) (q : Fin 128) (hr : t.val * 2000 + p.val < 50000) :
    ((cfg3.win 1).blk t).view.emb (ix2 p q) = ix2 (⟨t.val * 2000 + p.val, hr⟩ : Fin 50000) q := by
  obtain ⟨-, -, e2, e3, -⟩ := idx_facts t
  funext a; apply Fin.ext
  match a with
  | ⟨0, _⟩ => show win3_1.index t (0 : Fin 2) * 2000 + 1 * p.val = t.val * 2000 + p.val; omega
  | ⟨1, _⟩ => show win3_1.index t (1 : Fin 2) * 128 + 1 * q.val = q.val; omega

theorem emb_8 (t : Fin cfg3.N) (p : Fin 2000) (q : Fin 128) (hr : t.val * 2000 + p.val < 50000) :
    ((cfg3.win 8).blk t).view.emb (ix2 p q) = ix2 (⟨t.val * 2000 + p.val, hr⟩ : Fin 50000) q := by
  obtain ⟨-, -, -, -, -, -, -, -, -, -, -, -, -, -, -, -, e16, e17⟩ := idx_facts t
  funext a; apply Fin.ext
  match a with
  | ⟨0, _⟩ => show win3_8.index t (0 : Fin 2) * 2000 + 1 * p.val = t.val * 2000 + p.val; omega
  | ⟨1, _⟩ => show win3_8.index t (1 : Fin 2) * 128 + 1 * q.val = q.val; omega

theorem emb_2 (t : Fin cfg3.N) (y : S128x256.Idx) : ((cfg3.win 2).blk t).view.emb y = y := by
  obtain ⟨-, -, -, -, e4, e5, -⟩ := idx_facts t
  funext a; apply Fin.ext
  match a with
  | ⟨0, _⟩ => show win3_2.index t (0 : Fin 2) * 128 + 1 * (y 0).val = (y 0).val; omega
  | ⟨1, _⟩ => show win3_2.index t (1 : Fin 2) * 256 + 1 * (y 1).val = (y 1).val; omega

theorem emb_3 (t : Fin cfg3.N) (y : S1x256.Idx) : ((cfg3.win 3).blk t).view.emb y = y := by
  obtain ⟨-, -, -, -, -, -, e6, e7, -⟩ := idx_facts t
  funext a; apply Fin.ext
  match a with
  | ⟨0, _⟩ => show win3_3.index t (0 : Fin 2) * 1 + 1 * (y 0).val = (y 0).val; omega
  | ⟨1, _⟩ => show win3_3.index t (1 : Fin 2) * 256 + 1 * (y 1).val = (y 1).val; omega

theorem emb_4 (t : Fin cfg3.N) (y : S256x128.Idx) : ((cfg3.win 4).blk t).view.emb y = y := by
  obtain ⟨-, -, -, -, -, -, -, -, e8, e9, -⟩ := idx_facts t
  funext a; apply Fin.ext
  match a with
  | ⟨0, _⟩ => show win3_4.index t (0 : Fin 2) * 256 + 1 * (y 0).val = (y 0).val; omega
  | ⟨1, _⟩ => show win3_4.index t (1 : Fin 2) * 128 + 1 * (y 1).val = (y 1).val; omega

theorem emb_5 (t : Fin cfg3.N) (y : S1x128.Idx) : ((cfg3.win 5).blk t).view.emb y = y := by
  obtain ⟨-, -, -, -, -, -, -, -, -, -, e10, e11, -⟩ := idx_facts t
  funext a; apply Fin.ext
  match a with
  | ⟨0, _⟩ => show win3_5.index t (0 : Fin 2) * 1 + 1 * (y 0).val = (y 0).val; omega
  | ⟨1, _⟩ => show win3_5.index t (1 : Fin 2) * 128 + 1 * (y 1).val = (y 1).val; omega

theorem emb_6 (t : Fin cfg3.N) (y : S1x128.Idx) : ((cfg3.win 6).blk t).view.emb y = y := by
  obtain ⟨-, -, -, -, -, -, -, -, -, -, -, -, e12, e13, -⟩ := idx_facts t
  funext a; apply Fin.ext
  match a with
  | ⟨0, _⟩ => show win3_6.index t (0 : Fin 2) * 1 + 1 * (y 0).val = (y 0).val; omega
  | ⟨1, _⟩ => show win3_6.index t (1 : Fin 2) * 128 + 1 * (y 1).val = (y 1).val; omega

theorem emb_7 (t : Fin cfg3.N) (y : S1x128.Idx) : ((cfg3.win 7).blk t).view.emb y = y := by
  obtain ⟨-, -, -, -, -, -, -, -, -, -, -, -, -, -, e14, e15, -⟩ := idx_facts t
  funext a; apply Fin.ext
  match a with
  | ⟨0, _⟩ => show win3_7.index t (0 : Fin 2) * 1 + 1 * (y 0).val = (y 0).val; omega
  | ⟨1, _⟩ => show win3_7.index t (1 : Fin 2) * 128 + 1 * (y 1).val = (y 1).val; omega

/-- What point t writes back is block t of the node update applied to the arrays as the launch found them. -/
theorem flushed_eq (c : Dev nD) (t : Fin cfg3.N) :
    (dat3 V c).flushed 8 t = ((cfg3.win 8).blk t).view.read (Elt IdealF)
      (layerG (M := 50000) (V c main_v1) (V c main_v18) (V c main_v20) (V c main_v31) (V c main_v24) (V c main_v32) (V c main_v33) (V c main_v34)) := by
  show (cfg3.win 8).cut (grid3.coords t) ((dat3 V c).after 8 t) = _
  rw [after3_8]
  unfold out3_8
  rw [View.canon_unit_zero hz]
  simp only [View.ld_unit_zero (S := S2000x128) hz, View.ld_unit_zero (S := S128x256) hz, View.ld_unit_zero (S := S1x256) hz,
    View.ld_unit_zero (S := S256x128) hz, View.ld_unit_zero (S := S1x128) hz]
  rw [pay_eq]
  have ht := t_lt t
  funext j
  obtain ⟨p, q, rfl⟩ : ∃ (p : Fin 2000) (q : Fin 128), j = ix2 p q := ⟨j 0, j 1, eq_ix2 j⟩
  have hr : t.val * 2000 + p.val < 50000 := by have := p.isLt; omega
  show layerRow (fun k => iblk3 V c 0 t (ix2 p k)) (fun k => iblk3 V c 1 t (ix2 p k)) (iblk3 V c 2 t) (iblk3 V c 3 t)
      (iblk3 V c 4 t) (iblk3 V c 5 t) (iblk3 V c 6 t) (iblk3 V c 7 t) q
    = layerG (M := 50000) (V c main_v1) (V c main_v18) (V c main_v20) (V c main_v31) (V c main_v24) (V c main_v32) (V c main_v33) (V c main_v34)
        (((cfg3.win 8).blk t).view.emb (ix2 p q))
  rw [emb_8 t p q hr, layerG_apply]
  have h0 : (fun k : Fin 128 => iblk3 V c 0 t (ix2 p k)) = fun k => V c main_v1 (ix2 (⟨t.val * 2000 + p.val, hr⟩ : Fin 50000) k) := by
    funext k
    show V c main_v1 (((cfg3.win 0).blk t).view.emb (ix2 p k)) = _
    rw [emb_0 t p k hr]
  have h1 : (fun k : Fin 128 => iblk3 V c 1 t (ix2 p k)) = fun k => V c main_v18 (ix2 (⟨t.val * 2000 + p.val, hr⟩ : Fin 50000) k) := by
    funext k
    show V c main_v18 (((cfg3.win 1).blk t).view.emb (ix2 p k)) = _
    rw [emb_1 t p k hr]
  have h2 : iblk3 V c 2 t = V c main_v20 := by
    funext y; show V c main_v20 (((cfg3.win 2).blk t).view.emb y) = _; rw [emb_2]
  have h3 : iblk3 V c 3 t = V c main_v31 := by
    funext y; show V c main_v31 (((cfg3.win 3).blk t).view.emb y) = _; rw [emb_3]
  have h4 : iblk3 V c 4 t = V c main_v24 := by
    funext y; show V c main_v24 (((cfg3.win 4).blk t).view.emb y) = _; rw [emb_4]
  have h5 : iblk3 V c 5 t = V c main_v32 := by
    funext y; show V c main_v32 (((cfg3.win 5).blk t).view.emb y) = _; rw [emb_5]
  have h6 : iblk3 V c 6 t = V c main_v33 := by
    funext y; show V c main_v33 (((cfg3.win 6).blk t).view.emb y) = _; rw [emb_6]
  have h7 : iblk3 V c 7 t = V c main_v34 := by
    funext y; show V c main_v34 (((cfg3.win 7).blk t).view.emb y) = _; rw [emb_7]
  rw [h0, h1, h2, h3, h4, h5, h6, h7]

/-- An index of the array is in point t's block iff each coordinate is in the block's range on its axis. -/
theorem mem_blk (t : Fin cfg3.N) (i : S50000x128.Idx) :
    i ∈ ((cfg3.win 8).blk t).view.set ↔ ∀ a : Fin 2, win3_8.index t a * S2000x128.size a ≤ (i a).val
      ∧ (i a).val < win3_8.index t a * S2000x128.size a + S2000x128.size a := by
  show i ∈ ((View.whole main_v35).slice (win3_8.rect t)).set ↔ _
  rw [View.set_slice_whole, Rect.mem_set_unit]
  exact Iff.rfl

/-- Every row of the array is in the block of the point numbered row / 2000. -/
theorem cover (i : S50000x128.Idx) :
    ∃ t : Fin cfg3.N, (cfg3.win 8).flush t = true ∧ i ∈ ((cfg3.win 8).blk t).view.set := by
  have hi0 : (i 0).val < 50000 := (i 0).isLt
  have hi1 : (i 1).val < 128 := (i 1).isLt
  have ht : (i 0).val / 2000 < 25 := by omega
  refine ⟨⟨(i 0).val / 2000, ht⟩, flush3_8 _, ?_⟩
  obtain ⟨-, -, -, -, -, -, -, -, -, -, -, -, -, -, -, -, e16, e17⟩ := idx_facts ⟨(i 0).val / 2000, ht⟩
  rw [mem_blk]
  intro a
  match a with
  | ⟨0, _⟩ =>
    show win3_8.index ⟨(i 0).val / 2000, ht⟩ (0 : Fin 2) * 2000 ≤ (i 0).val
      ∧ (i 0).val < win3_8.index ⟨(i 0).val / 2000, ht⟩ (0 : Fin 2) * 2000 + 2000
    rw [e16]; show (i 0).val / 2000 * 2000 ≤ (i 0).val ∧ (i 0).val < (i 0).val / 2000 * 2000 + 2000; omega
  | ⟨1, _⟩ =>
    show win3_8.index ⟨(i 0).val / 2000, ht⟩ (1 : Fin 2) * 128 ≤ (i 1).val
      ∧ (i 1).val < win3_8.index ⟨(i 0).val / 2000, ht⟩ (1 : Fin 2) * 128 + 128
    rw [e17]; omega

/-- The array after the launch: the node update applied to the arrays as the launch found them. -/
theorem final (c : Dev nD) :
    (dat3 V c).arrAt 8 cfg3.N
      = layerG (M := 50000) (V c main_v1) (V c main_v18) (V c main_v20) (V c main_v31) (V c main_v24) (V c main_v32) (V c main_v33) (V c main_v34) :=
  (dat3 V c).arrAt_eq_of_cover 8 _ (fun t _ => flushed_eq V c t) cover

end Cert.KernelIdeal.R3

end
-- ==== Proof.Region4.lean ====
/-
  Launch 4 (the message stage): the array it leaves.

  The grid has 125 points; point t works on rows 5000·t … 5000·t + 4999 of the gathered node rows and of the edge
  features and writes relu of their sum back to the same rows. The blocks of the 125 points tile the 625000 rows, so
  after the launch the output array is relu of the sum of the two input arrays, entry by entry.
-/
import proofs.«157398_j15616501088448_1_alg».proof.Proof.Gen.KernelIdeal.Frame
import proofs.«157398_j15616501088448_1_alg».proof.Proof.Spec

set_option maxRecDepth 16384

noncomputable section

namespace Cert.KernelIdeal.R4

open Cert.KernelIdeal Cert.KernelIdeal.Gen Cert.Gine
open Idealize.ShloMosaic Idealize.ShloMosaic.TcCoe Idealize.ShloMosaic.ValueIdx
open Idealize.SL.Sem
open Idealize.ShloMosaic.Pipeline (Dat Cfg Window)

abbrev IdealF := Idealize.ShloMosaic.Ideal

variable (V : (c : Dev nD) → (b : Ref sig .tc) → Buf (Elt IdealF) ((c : Thread nD τ).loc b))

theorem hz : (![0, 0] : Fin 2 → Nat) = fun _ => 0 := funext fun a => by fin_cases a <;> rfl

/-- The body's arithmetic on a block: relu of the sum, entry by entry. -/
theorem pay_eq (x0 x1 : Vec IdealF S5000x128 .f32) :
    k4_pay1 x0 x1 = fun j => msgAt (x0 j) (x1 j) := by
  funext j
  unfold k4_pay1
  simp only [shapeCast_self]
  rfl

/-- Point t's blocks all start at row block t, column block 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of relu of the sum of the two input arrays. -/
theorem flushed_eq (c : Dev nD) (t : Fin cfg4.N) :
    (dat4 V c).flushed 2 t
      = ((cfg4.win 2).blk t).view.read (Elt IdealF) (msgG (M := 625000) (N := 128) (V c main_v42) (V c main_v3)) := by
  show (cfg4.win 2).cut (grid4.coords t) ((dat4 V c).after 2 t) = _
  rw [after4_2]
  unfold out4_2
  rw [View.canon_unit_zero hz]
  simp only [View.ld_unit_zero (S := S5000x128) hz]
  rw [pay_eq]
  obtain ⟨e0, e1, e2, e3, e4, e5⟩ := idx_facts t
  funext j
  show msgAt (V c main_v42 (((cfg4.win 0).blk t).view.emb j)) (V c main_v3 (((cfg4.win 1).blk t).view.emb j))
    = msgAt (V c main_v42 (((cfg4.win 2).blk t).view.emb j)) (V c main_v3 (((cfg4.win 2).blk t).view.emb j))
  have h0 : ((cfg4.win 0).blk t).view.emb j = ((cfg4.win 2).blk t).view.emb j := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * (j 1).val = win4_2.index t (1 : Fin 2) * 128 + 1 * (j 1).val; omega
  have h1 : ((cfg4.win 1).blk t).view.emb j = ((cfg4.win 2).blk t).view.emb j := by
    funext a; apply Fin.ext
    match a with
    | ⟨0, _⟩ => show win4_1.index t (0 : Fin 2) * 5000 + 1 * (j 0).val = win4_2.index t (0 : Fin 2) * 5000 + 1 * (j 0).val; omega
    | ⟨1, _⟩ => show win4_1.index t (1 : Fin 2) * 128 + 1 * (j 1).val = win4_2.index t (1 : Fin 2) * 128 + 1 * (j 1).val; omega
  rw [h0, h1]

/-- An index of the array is in point t's block iff each coordinate is in the block's range on its axis. -/
theorem mem_blk (t : Fin cfg4.N) (i : S625000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v43).slice (win4_2.rect t)).set ↔ _
  rw [View.set_slice_whole, Rect.mem_set_unit]
  exact Iff.rfl

/-- Every row of the array is in the block of the point numbered row / 5000. -/
theorem cover (i : S625000x128.Idx) :
    ∃ t : Fin cfg4.N, (cfg4.win 2).flush t = true ∧ i ∈ ((cfg4.win 2).blk t).view.set := by
  have hi0 : (i 0).val < 625000 := (i 0).isLt
  have hi1 : (i 1).val < 128 := (i 1).isLt
  have ht : (i 0).val / 5000 < 125 := by omega
  refine ⟨⟨(i 0).val / 5000, ht⟩, flush4_2 _, ?_⟩
  obtain ⟨e0, e1, e2, e3, e4, e5⟩ := idx_facts ⟨(i 0).val / 5000, ht⟩
  rw [mem_blk]
  intro a
  match a with
  | ⟨0, _⟩ =>
    show win4_2.index ⟨(i 0).val / 5000, ht⟩ (0 : Fin 2) * 5000 ≤ (i 0).val
      ∧ (i 0).val < win4_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, ht⟩ (1 : Fin 2) * 128 ≤ (i 1).val
      ∧ (i 1).val < win4_2.index ⟨(i 0).val / 5000, ht⟩ (1 : Fin 2) * 128 + 128
    rw [e5]; omega

/-- The array after the launch: relu of the sum of the two input arrays as the launch found them. -/
theorem final (c : Dev nD) :
    (dat4 V c).arrAt 2 cfg4.N = msgG (M := 625000) (N := 128) (V c main_v42) (V c main_v3) :=
  (dat4 V c).arrAt_eq_of_cover 2 _ (fun t _ => flushed_eq V c t) cover

end Cert.KernelIdeal.R4

end
-- ==== Proof.Region5.lean ====
/-
  Launch 5 (a node update): the array it leaves.

  The grid has 25 points; point t takes rows 2000·t … 2000·t + 1999 of the node array h and of the aggregated messages,
  and the whole weight matrices and bias, scale and shift rows. Each row goes through the two-layer perceptron, is
  normalised over its 128 entries (mean, variance, reciprocal square root), scaled, shifted, cut at zero and added to
  the row of h it came from. Every step uses one row only, so the block's entry (p, q) is `layerRow` of row 2000·t + p;
  the 25 blocks tile the 50000 rows.
-/
import proofs.«157398_j15616501088448_1_alg».proof.Proof.Gen.KernelIdeal.Frame
import proofs.«157398_j15616501088448_1_alg».proof.Proof.Spec

set_option maxRecDepth 16384

noncomputable section

namespace Cert.KernelIdeal.R5

open Cert.KernelIdeal Cert.KernelIdeal.Gen Cert.Gine
open Idealize.ShloMosaic Idealize.ShloMosaic.TcCoe Idealize.ShloMosaic.ValueIdx
open Idealize.SL.Sem
open Idealize.ShloMosaic.Pipeline (Dat Cfg Window)

abbrev IdealF := Idealize.ShloMosaic.Ideal

variable (V : (c : Dev nD) → (b : Ref sig .tc) → Buf (Elt IdealF) ((c : Thread nD τ).loc b))

theorem hz : (![0, 0] : Fin 2 → Nat) = fun _ => 0 := funext fun a => by fin_cases a <;> rfl

theorem rsqrt_at {s : Shape} (v : FVec IdealF s .f32) (i : s.Idx) : rsqrt v i = Idealize.ShloMosaic.Ideal.rsqrt (v i) := rfl

/-- The perceptron's output at an entry of the block. -/
theorem mlp_apply (x0 x1 : Vec IdealF S2000x128 .f32) (x2 : Vec IdealF S128x256 .f32) (x3 : Vec IdealF S1x256 .f32)
    (x4 : Vec IdealF S256x128 .f32) (x5 : Vec IdealF S1x128 .f32) (p : Fin 2000) (q : Fin 128) :
    k5_pay3 x0 x1 x2 x3 x4 x5 (ix2 p q) = mlpRow (fun k => x0 (ix2 p k)) (fun k => x1 (ix2 p k)) x2 x3 x4 x5 q := by
  unfold k5_pay3 k5_pay2
  simp only [shapeCast_self]
  refine (denseVec_apply' _ x4 x5 _ _ p q).trans ?_
  refine congrArg (fun f => lin f x4 x5 q) (funext fun j => ?_)
  simp only [maximumf_apply, broadcast_apply]
  exact congrArg (fun v => max v (FloatOps.ofBits (F := IdealF) FTy.f32 0x00000000#32))
    (denseVec_apply' (addf x0 x1) x2 x3 _ _ p j)

/-- The row mean at a row of the block. -/
theorem mu_apply (x0 x1 : Vec IdealF S2000x128 .f32) (x2 : Vec IdealF S128x256 .f32) (x3 : Vec IdealF S1x256 .f32)
    (x4 : Vec IdealF S256x128 .f32) (x5 : Vec IdealF S1x128 .f32) (p : Fin 2000) (u : Fin 1) :
    k5_pay4 x0 x1 x2 x3 x4 x5 (ix2 p u) = mean128 (mlpRow (fun k => x0 (ix2 p k)) (fun k => x1 (ix2 p k)) x2 x3 x4 x5) := by
  unfold k5_pay4
  refine (meanVec_apply (k5_pay3 x0 x1 x2 x3 x4 x5) _ _ _ _ p u).trans ?_
  exact congrArg mean128 (funext fun q => mlp_apply x0 x1 x2 x3 x4 x5 p q)

/-- The centred row at an entry of the block. -/
theorem ctr_apply (x0 x1 : Vec IdealF S2000x128 .f32) (x2 : Vec IdealF S128x256 .f32) (x3 : Vec IdealF S1x256 .f32)
    (x4 : Vec IdealF S256x128 .f32) (x5 : Vec IdealF S1x128 .f32) (p : Fin 2000) (q : Fin 128) :
    k5_pay6 x0 x1 x2 x3 x4 x5 (ix2 p q) = mlpRow (fun k => x0 (ix2 p k)) (fun k => x1 (ix2 p k)) x2 x3 x4 x5 q - mean128 (mlpRow (fun k => x0 (ix2 p k)) (fun k => x1 (ix2 p k)) x2 x3 x4 x5) := by
  unfold k5_pay6
  simp only [subf_apply]
  rw [Cert.LibColumn.broadcastTo_a1_ab_apply, mlp_apply, mu_apply]

/-- The row variance at a row of the block. -/
theorem var_apply (x0 x1 : Vec IdealF S2000x128 .f32) (x2 : Vec IdealF S128x256 .f32) (x3 : Vec IdealF S1x256 .f32)
    (x4 : Vec IdealF S256x128 .f32) (x5 : Vec IdealF S1x128 .f32) (p : Fin 2000) (u : Fin 1) :
    k5_pay5 x0 x1 x2 x3 x4 x5 (ix2 p u)
      = mean128 (fun j => (mlpRow (fun k => x0 (ix2 p k)) (fun k => x1 (ix2 p k)) x2 x3 x4 x5 j - mean128 (mlpRow (fun k => x0 (ix2 p k)) (fun k => x1 (ix2 p k)) x2 x3 x4 x5)) * (mlpRow (fun k => x0 (ix2 p k)) (fun k => x1 (ix2 p k)) x2 x3 x4 x5 j - mean128 (mlpRow (fun k => x0 (ix2 p k)) (fun k => x1 (ix2 p k)) x2 x3 x4 x5))) := by
  unfold k5_pay5
  refine (meanVec_apply _ _ _ _ _ p u).trans ?_
  refine congrArg mean128 (funext fun j => ?_)
  simp only [mulf_apply, subf_apply]
  rw [Cert.LibColumn.broadcastTo_a1_ab_apply, mlp_apply, mu_apply]

/-- The body's arithmetic on a block: every row through the node update. -/
theorem pay_eq (x0 x1 : Vec IdealF S2000x128 .f32) (x2 : Vec IdealF S128x256 .f32) (x3 : Vec IdealF S1x256 .f32)
    (x4 : Vec IdealF S256x128 .f32) (x5 : Vec IdealF S1x128 .f32) (x6 x7 : Vec IdealF S1x128 .f32) :
    k5_pay1 (k5_pay2 x0) (k5_pay5 x0 x1 x2 x3 x4 x5) (k5_pay6 x0 x1 x2 x3 x4 x5) (k5_pay7 (F := IdealF)) x6 x7
      = fun j => layerRow (fun k => x0 (ix2 (j 0) k)) (fun k => x1 (ix2 (j 0) k)) x2 x3 x4 x5 x6 x7 (j 1) := by
  funext j
  obtain ⟨p, q, rfl⟩ : ∃ (p : Fin 2000) (q : Fin 128), j = ix2 p q := ⟨j 0, j 1, eq_ix2 j⟩
  unfold k5_pay1 k5_pay2 k5_pay7
  simp only [shapeCast_self, addf_apply, maximumf_apply, mulf_apply, broadcast_apply]
  rw [Cert.LibColumn.broadcastTo_a1_ab_apply, broadcastTo_1b_ab_apply, broadcastTo_1b_ab_apply, ctr_apply, rsqrt_at]
  simp only [addf_apply, broadcast_apply]
  rw [var_apply]
  rfl

/-- Point t's row blocks start at row block t; the six weight windows are the whole arrays. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0 :=
  (by decide +kernel : ∀ t : Fin grid5.N, _)

theorem t_lt (t : Fin cfg5.N) : t.val < 25 := t.isLt

theorem emb_0 (t : Fin cfg5.N) (p : Fin 2000) (q : Fin 128) (hr : t.val * 2000 + p.val < 50000) :
    ((cfg5.win 0).blk t).view.emb (ix2 p q) = ix2 (⟨t.val * 2000 + p.val, hr⟩ : Fin 50000) q := by
  obtain ⟨e0, e1, -⟩ := idx_facts t
  funext a; apply Fin.ext
  match a with
  | ⟨0, _⟩ => show win5_0.index t (0 : Fin 2) * 2000 + 1 * p.val = t.val * 2000 + p.val; omega
  | ⟨1, _⟩ => show win5_0.index t (1 : Fin 2) * 128 + 1 * q.val = q.val; omega

theorem emb_1 (t : Fin cfg5.N) (p : Fin 2000) (q : Fin 128) (hr : t.val * 2000 + p.val < 50000) :
    ((cfg5.win 1).blk t).view.emb (ix2 p q) = ix2 (⟨t.val * 2000 + p.val, hr⟩ : Fin 50000) q := by
  obtain ⟨-, -, e2, e3, -⟩ := idx_facts t
  funext a; apply Fin.ext
  match a with
  | ⟨0, _⟩ => show win5_1.index t (0 : Fin 2) * 2000 + 1 * p.val = t.val * 2000 + p.val; omega
  | ⟨1, _⟩ => show win5_1.index t (1 : Fin 2) * 128 + 1 * q.val = q.val; omega

theorem emb_8 (t : Fin cfg5.N) (p : Fin 2000) (q : Fin 128) (hr : t.val * 2000 + p.val < 50000) :
    ((cfg5.win 8).blk t).view.emb (ix2 p q) = ix2 (⟨t.val * 2000 + p.val, hr⟩ : Fin 50000) q := by
  obtain ⟨-, -, -, -, -, -, -, -, -, -, -, -, -, -, -, -, e16, e17⟩ := idx_facts t
  funext a; apply Fin.ext
  match a with
  | ⟨0, _⟩ => show win5_8.index t (0 : Fin 2) * 2000 + 1 * p.val = t.val * 2000 + p.val; omega
  | ⟨1, _⟩ => show win5_8.index t (1 : Fin 2) * 128 + 1 * q.val = q.val; omega

theorem emb_2 (t : Fin cfg5.N) (y : S128x256.Idx) : ((cfg5.win 2).blk t).view.emb y = y := by
  obtain ⟨-, -, -, -, e4, e5, -⟩ := idx_facts t
  funext a; apply Fin.ext
  match a with
  | ⟨0, _⟩ => show win5_2.index t (0 : Fin 2) * 128 + 1 * (y 0).val = (y 0).val; omega
  | ⟨1, _⟩ => show win5_2.index t (1 : Fin 2) * 256 + 1 * (y 1).val = (y 1).val; omega

theorem emb_3 (t : Fin cfg5.N) (y : S1x256.Idx) : ((cfg5.win 3).blk t).view.emb y = y := by
  obtain ⟨-, -, -, -, -, -, e6, e7, -⟩ := idx_facts t
  funext a; apply Fin.ext
  match a with
  | ⟨0, _⟩ => show win5_3.index t (0 : Fin 2) * 1 + 1 * (y 0).val = (y 0).val; omega
  | ⟨1, _⟩ => show win5_3.index t (1 : Fin 2) * 256 + 1 * (y 1).val = (y 1).val; omega

theorem emb_4 (t : Fin cfg5.N) (y : S256x128.Idx) : ((cfg5.win 4).blk t).view.emb y = y := by
  obtain ⟨-, -, -, -, -, -, -, -, e8, e9, -⟩ := idx_facts t
  funext a; apply Fin.ext
  match a with
  | ⟨0, _⟩ => show win5_4.index t (0 : Fin 2) * 256 + 1 * (y 0).val = (y 0).val; omega
  | ⟨1, _⟩ => show win5_4.index t (1 : Fin 2) * 128 + 1 * (y 1).val = (y 1).val; omega

theorem emb_5 (t : Fin cfg5.N) (y : S1x128.Idx) : ((cfg5.win 5).blk t).view.emb y = y := by
  obtain ⟨-, -, -, -, -, -, -, -, -, -, e10, e11, -⟩ := idx_facts t
  funext a; apply Fin.ext
  match a with
  | ⟨0, _⟩ => show win5_5.index t (0 : Fin 2) * 1 + 1 * (y 0).val = (y 0).val; omega
  | ⟨1, _⟩ => show win5_5.index t (1 : Fin 2) * 128 + 1 * (y 1).val = (y 1).val; omega

theorem emb_6 (t : Fin cfg5.N) (y : S1x128.Idx) : ((cfg5.win 6).blk t).view.emb y = y := by
  obtain ⟨-, -, -, -, -, -, -, -, -, -, -, -, e12, e13, -⟩ := idx_facts t
  funext a; apply Fin.ext
  match a with
  | ⟨0, _⟩ => show win5_6.index t (0 : Fin 2) * 1 + 1 * (y 0).val = (y 0).val; omega
  | ⟨1, _⟩ => show win5_6.index t (1 : Fin 2) * 128 + 1 * (y 1).val = (y 1).val; omega

theorem emb_7 (t : Fin cfg5.N) (y : S1x128.Idx) : ((cfg5.win 7).blk t).view.emb y = y := by
  obtain ⟨-, -, -, -, -, -, -, -, -, -, -, -, -, -, e14, e15, -⟩ := idx_facts t
  funext a; apply Fin.ext
  match a with
  | ⟨0, _⟩ => show win5_7.index t (0 : Fin 2) * 1 + 1 * (y 0).val = (y 0).val; omega
  | ⟨1, _⟩ => show win5_7.index t (1 : Fin 2) * 128 + 1 * (y 1).val = (y 1).val; omega

/-- What point t writes back is block t of the node update applied to the arrays as the launch found them. -/
theorem flushed_eq (c : Dev nD) (t : Fin cfg5.N) :
    (dat5 V c).flushed 8 t = ((cfg5.win 8).blk t).view.read (Elt IdealF)
      (layerG (M := 50000) (V c main_v35) (V c main_v46) (V c main_v48) (V c main_v59) (V c main_v52) (V c main_v60) (V c main_v61) (V c main_v62)) := by
  show (cfg5.win 8).cut (grid5.coords t) ((dat5 V c).after 8 t) = _
  rw [after5_8]
  unfold out5_8
  rw [View.canon_unit_zero hz]
  simp only [View.ld_unit_zero (S := S2000x128) hz, View.ld_unit_zero (S := S128x256) hz, View.ld_unit_zero (S := S1x256) hz,
    View.ld_unit_zero (S := S256x128) hz, View.ld_unit_zero (S := S1x128) hz]
  rw [pay_eq]
  have ht := t_lt t
  funext j
  obtain ⟨p, q, rfl⟩ : ∃ (p : Fin 2000) (q : Fin 128), j = ix2 p q := ⟨j 0, j 1, eq_ix2 j⟩
  have hr : t.val * 2000 + p.val < 50000 := by have := p.isLt; omega
  show layerRow (fun k => iblk5 V c 0 t (ix2 p k)) (fun k => iblk5 V c 1 t (ix2 p k)) (iblk5 V c 2 t) (iblk5 V c 3 t)
      (iblk5 V c 4 t) (iblk5 V c 5 t) (iblk5 V c 6 t) (iblk5 V c 7 t) q
    = layerG (M := 50000) (V c main_v35) (V c main_v46) (V c main_v48) (V c main_v59) (V c main_v52) (V c main_v60) (V c main_v61) (V c main_v62)
        (((cfg5.win 8).blk t).view.emb (ix2 p q))
  rw [emb_8 t p q hr, layerG_apply]
  have h0 : (fun k : Fin 128 => iblk5 V c 0 t (ix2 p k)) = fun k => V c main_v35 (ix2 (⟨t.val * 2000 + p.val, hr⟩ : Fin 50000) k) := by
    funext k
    show V c main_v35 (((cfg5.win 0).blk t).view.emb (ix2 p k)) = _
    rw [emb_0 t p k hr]
  have h1 : (fun k : Fin 128 => iblk5 V c 1 t (ix2 p k)) = fun k => V c main_v46 (ix2 (⟨t.val * 2000 + p.val, hr⟩ : Fin 50000) k) := by
    funext k
    show V c main_v46 (((cfg5.win 1).blk t).view.emb (ix2 p k)) = _
    rw [emb_1 t p k hr]
  have h2 : iblk5 V c 2 t = V c main_v48 := by
    funext y; show V c main_v48 (((cfg5.win 2).blk t).view.emb y) = _; rw [emb_2]
  have h3 : iblk5 V c 3 t = V c main_v59 := by
    funext y; show V c main_v59 (((cfg5.win 3).blk t).view.emb y) = _; rw [emb_3]
  have h4 : iblk5 V c 4 t = V c main_v52 := by
    funext y; show V c main_v52 (((cfg5.win 4).blk t).view.emb y) = _; rw [emb_4]
  have h5 : iblk5 V c 5 t = V c main_v60 := by
    funext y; show V c main_v60 (((cfg5.win 5).blk t).view.emb y) = _; rw [emb_5]
  have h6 : iblk5 V c 6 t = V c main_v61 := by
    funext y; show V c main_v61 (((cfg5.win 6).blk t).view.emb y) = _; rw [emb_6]
  have h7 : iblk5 V c 7 t = V c main_v62 := by
    funext y; show V c main_v62 (((cfg5.win 7).blk t).view.emb y) = _; rw [emb_7]
  rw [h0, h1, h2, h3, h4, h5, h6, h7]

/-- An index of the array is in point t's block iff each coordinate is in the block's range on its axis. -/
theorem mem_blk (t : Fin cfg5.N) (i : S50000x128.Idx) :
    i ∈ ((cfg5.win 8).blk t).view.set ↔ ∀ a : Fin 2, win5_8.index t a * S2000x128.size a ≤ (i a).val
      ∧ (i a).val < win5_8.index t a * S2000x128.size a + S2000x128.size a := by
  show i ∈ ((View.whole main_v63).slice (win5_8.rect t)).set ↔ _
  rw [View.set_slice_whole, Rect.mem_set_unit]
  exact Iff.rfl

/-- Every row of the array is in the block of the point numbered row / 2000. -/
theorem cover (i : S50000x128.Idx) :
    ∃ t : Fin cfg5.N, (cfg5.win 8).flush t = true ∧ i ∈ ((cfg5.win 8).blk t).view.set := by
  have hi0 : (i 0).val < 50000 := (i 0).isLt
  have hi1 : (i 1).val < 128 := (i 1).isLt
  have ht : (i 0).val / 2000 < 25 := by omega
  refine ⟨⟨(i 0).val / 2000, ht⟩, flush5_8 _, ?_⟩
  obtain ⟨-, -, -, -, -, -, -, -, -, -, -, -, -, -, -, -, e16, e17⟩ := idx_facts ⟨(i 0).val / 2000, ht⟩
  rw [mem_blk]
  intro a
  match a with
  | ⟨0, _⟩ =>
    show win5_8.index ⟨(i 0).val / 2000, ht⟩ (0 : Fin 2) * 2000 ≤ (i 0).val
      ∧ (i 0).val < win5_8.index ⟨(i 0).val / 2000, ht⟩ (0 : Fin 2) * 2000 + 2000
    rw [e16]; show (i 0).val / 2000 * 2000 ≤ (i 0).val ∧ (i 0).val < (i 0).val / 2000 * 2000 + 2000; omega
  | ⟨1, _⟩ =>
    show win5_8.index ⟨(i 0).val / 2000, ht⟩ (1 : Fin 2) * 128 ≤ (i 1).val
      ∧ (i 1).val < win5_8.index ⟨(i 0).val / 2000, ht⟩ (1 : Fin 2) * 128 + 128
    rw [e17]; omega

/-- The array after the launch: the node update applied to the arrays as the launch found them. -/
theorem final (c : Dev nD) :
    (dat5 V c).arrAt 8 cfg5.N
      = layerG (M := 50000) (V c main_v35) (V c main_v46) (V c main_v48) (V c main_v59) (V c main_v52) (V c main_v60) (V c main_v61) (V c main_v62) :=
  (dat5 V c).arrAt_eq_of_cover 8 _ (fun t _ => flushed_eq V c t) cover

end Cert.KernelIdeal.R5

end
-- ==== Proof.Region6.lean ====
/-
  Launch 6 (the message stage): the array it leaves.

  The grid has 125 points; point t works on rows 5000·t … 5000·t + 4999 of the gathered node rows and of the edge
  features and writes relu of their sum back to the same rows. The blocks of the 125 points tile the 625000 rows, so
  after the launch the output array is relu of the sum of the two input arrays, entry by entry.
-/
import proofs.«157398_j15616501088448_1_alg».proof.Proof.Gen.KernelIdeal.Frame
import proofs.«157398_j15616501088448_1_alg».proof.Proof.Spec

set_option maxRecDepth 16384

noncomputable section

namespace Cert.KernelIdeal.R6

open Cert.KernelIdeal Cert.KernelIdeal.Gen Cert.Gine
open Idealize.ShloMosaic Idealize.ShloMosaic.TcCoe Idealize.ShloMosaic.ValueIdx
open Idealize.SL.Sem
open Idealize.ShloMosaic.Pipeline (Dat Cfg Window)

abbrev IdealF := Idealize.ShloMosaic.Ideal

variable (V : (c : Dev nD) → (b : Ref sig .tc) → Buf (Elt IdealF) ((c : Thread nD τ).loc b))

theorem hz : (![0, 0] : Fin 2 → Nat) = fun _ => 0 := funext fun a => by fin_cases a <;> rfl

/-- The body's arithmetic on a block: relu of the sum, entry by entry. -/
theorem pay_eq (x0 x1 : Vec IdealF S5000x128 .f32) :
    k6_pay1 x0 x1 = fun j => msgAt (x0 j) (x1 j) := by
  funext j
  unfold k6_pay1
  simp only [shapeCast_self]
  rfl

/-- Point t's blocks all start at row block t, column block 0. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- What point t writes back is block t of relu of the sum of the two input arrays. -/
theorem flushed_eq (c : Dev nD) (t : Fin cfg6.N) :
    (dat6 V c).flushed 2 t
      = ((cfg6.win 2).blk t).view.read (Elt IdealF) (msgG (M := 625000) (N := 128) (V c main_v70) (V c main_v3)) := by
  show (cfg6.win 2).cut (grid6.coords t) ((dat6 V c).after 2 t) = _
  rw [after6_2]
  unfold out6_2
  rw [View.canon_unit_zero hz]
  simp only [View.ld_unit_zero (S := S5000x128) hz]
  rw [pay_eq]
  obtain ⟨e0, e1, e2, e3, e4, e5⟩ := idx_facts t
  funext j
  show msgAt (V c main_v70 (((cfg6.win 0).blk t).view.emb j)) (V c main_v3 (((cfg6.win 1).blk t).view.emb j))
    = msgAt (V c main_v70 (((cfg6.win 2).blk t).view.emb j)) (V c main_v3 (((cfg6.win 2).blk t).view.emb j))
  have h0 : ((cfg6.win 0).blk t).view.emb j = ((cfg6.win 2).blk t).view.emb j := by
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 128 + 1 * (j 1).val = win6_2.index t (1 : Fin 2) * 128 + 1 * (j 1).val; omega
  have h1 : ((cfg6.win 1).blk t).view.emb j = ((cfg6.win 2).blk t).view.emb j := by
    funext a; apply Fin.ext
    match a with
    | ⟨0, _⟩ => show win6_1.index t (0 : Fin 2) * 5000 + 1 * (j 0).val = win6_2.index t (0 : Fin 2) * 5000 + 1 * (j 0).val; omega
    | ⟨1, _⟩ => show win6_1.index t (1 : Fin 2) * 128 + 1 * (j 1).val = win6_2.index t (1 : Fin 2) * 128 + 1 * (j 1).val; omega
  rw [h0, h1]

/-- An index of the array is in point t's block iff each coordinate is in the block's range on its axis. -/
theorem mem_blk (t : Fin cfg6.N) (i : S625000x128.Idx) :
    i ∈ ((cfg6.win 2).blk t).view.set ↔ ∀ a : Fin 2, win6_2.index t a * S5000x128.size a ≤ (i a).val
      ∧ (i a).val < win6_2.index t a * S5000x128.size a + S5000x128.size a := by
  show i ∈ ((View.whole main_v71).slice (win6_2.rect t)).set ↔ _
  rw [View.set_slice_whole, Rect.mem_set_unit]
  exact Iff.rfl

/-- Every row of the array is in the block of the point numbered row / 5000. -/
theorem cover (i : S625000x128.Idx) :
    ∃ t : Fin cfg6.N, (cfg6.win 2).flush t = true ∧ i ∈ ((cfg6.win 2).blk t).view.set := by
  have hi0 : (i 0).val < 625000 := (i 0).isLt
  have hi1 : (i 1).val < 128 := (i 1).isLt
  have ht : (i 0).val / 5000 < 125 := by omega
  refine ⟨⟨(i 0).val / 5000, ht⟩, flush6_2 _, ?_⟩
  obtain ⟨e0, e1, e2, e3, e4, e5⟩ := idx_facts ⟨(i 0).val / 5000, ht⟩
  rw [mem_blk]
  intro a
  match a with
  | ⟨0, _⟩ =>
    show win6_2.index ⟨(i 0).val / 5000, ht⟩ (0 : Fin 2) * 5000 ≤ (i 0).val
      ∧ (i 0).val < win6_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win6_2.index ⟨(i 0).val / 5000, ht⟩ (1 : Fin 2) * 128 ≤ (i 1).val
      ∧ (i 1).val < win6_2.index ⟨(i 0).val / 5000, ht⟩ (1 : Fin 2) * 128 + 128
    rw [e5]; omega

/-- The array after the launch: relu of the sum of the two input arrays as the launch found them. -/
theorem final (c : Dev nD) :
    (dat6 V c).arrAt 2 cfg6.N = msgG (M := 625000) (N := 128) (V c main_v70) (V c main_v3) :=
  (dat6 V c).arrAt_eq_of_cover 2 _ (fun t _ => flushed_eq V c t) cover

end Cert.KernelIdeal.R6

end
-- ==== Proof.Region7.lean ====
/-
  Launch 7 (a node update): the array it leaves.

  The grid has 25 points; point t takes rows 2000·t … 2000·t + 1999 of the node array h and of the aggregated messages,
  and the whole weight matrices and bias, scale and shift rows. Each row goes through the two-layer perceptron, is
  normalised over its 128 entries (mean, variance, reciprocal square root), scaled, shifted, cut at zero and added to
  the row of h it came from. Every step uses one row only, so the block's entry (p, q) is `layerRow` of row 2000·t + p;
  the 25 blocks tile the 50000 rows.
-/
import proofs.«157398_j15616501088448_1_alg».proof.Proof.Gen.KernelIdeal.Frame
import proofs.«157398_j15616501088448_1_alg».proof.Proof.Spec

set_option maxRecDepth 16384

noncomputable section

namespace Cert.KernelIdeal.R7

open Cert.KernelIdeal Cert.KernelIdeal.Gen Cert.Gine
open Idealize.ShloMosaic Idealize.ShloMosaic.TcCoe Idealize.ShloMosaic.ValueIdx
open Idealize.SL.Sem
open Idealize.ShloMosaic.Pipeline (Dat Cfg Window)

abbrev IdealF := Idealize.ShloMosaic.Ideal

variable (V : (c : Dev nD) → (b : Ref sig .tc) → Buf (Elt IdealF) ((c : Thread nD τ).loc b))

theorem hz : (![0, 0] : Fin 2 → Nat) = fun _ => 0 := funext fun a => by fin_cases a <;> rfl

theorem rsqrt_at {s : Shape} (v : FVec IdealF s .f32) (i : s.Idx) : rsqrt v i = Idealize.ShloMosaic.Ideal.rsqrt (v i) := rfl

/-- The perceptron's output at an entry of the block. -/
theorem mlp_apply (x0 x1 : Vec IdealF S2000x128 .f32) (x2 : Vec IdealF S128x256 .f32) (x3 : Vec IdealF S1x256 .f32)
    (x4 : Vec IdealF S256x128 .f32) (x5 : Vec IdealF S1x128 .f32) (p : Fin 2000) (q : Fin 128) :
    k7_pay3 x0 x1 x2 x3 x4 x5 (ix2 p q) = mlpRow (fun k => x0 (ix2 p k)) (fun k => x1 (ix2 p k)) x2 x3 x4 x5 q := by
  unfold k7_pay3 k7_pay2
  simp only [shapeCast_self]
  refine (denseVec_apply' _ x4 x5 _ _ p q).trans ?_
  refine congrArg (fun f => lin f x4 x5 q) (funext fun j => ?_)
  simp only [maximumf_apply, broadcast_apply]
  exact congrArg (fun v => max v (FloatOps.ofBits (F := IdealF) FTy.f32 0x00000000#32))
    (denseVec_apply' (addf x0 x1) x2 x3 _ _ p j)

/-- The row mean at a row of the block. -/
theorem mu_apply (x0 x1 : Vec IdealF S2000x128 .f32) (x2 : Vec IdealF S128x256 .f32) (x3 : Vec IdealF S1x256 .f32)
    (x4 : Vec IdealF S256x128 .f32) (x5 : Vec IdealF S1x128 .f32) (p : Fin 2000) (u : Fin 1) :
    k7_pay4 x0 x1 x2 x3 x4 x5 (ix2 p u) = mean128 (mlpRow (fun k => x0 (ix2 p k)) (fun k => x1 (ix2 p k)) x2 x3 x4 x5) := by
  unfold k7_pay4
  refine (meanVec_apply (k7_pay3 x0 x1 x2 x3 x4 x5) _ _ _ _ p u).trans ?_
  exact congrArg mean128 (funext fun q => mlp_apply x0 x1 x2 x3 x4 x5 p q)

/-- The centred row at an entry of the block. -/
theorem ctr_apply (x0 x1 : Vec IdealF S2000x128 .f32) (x2 : Vec IdealF S128x256 .f32) (x3 : Vec IdealF S1x256 .f32)
    (x4 : Vec IdealF S256x128 .f32) (x5 : Vec IdealF S1x128 .f32) (p : Fin 2000) (q : Fin 128) :
    k7_pay6 x0 x1 x2 x3 x4 x5 (ix2 p q) = mlpRow (fun k => x0 (ix2 p k)) (fun k => x1 (ix2 p k)) x2 x3 x4 x5 q - mean128 (mlpRow (fun k => x0 (ix2 p k)) (fun k => x1 (ix2 p k)) x2 x3 x4 x5) := by
  unfold k7_pay6
  simp only [subf_apply]
  rw [Cert.LibColumn.broadcastTo_a1_ab_apply, mlp_apply, mu_apply]

/-- The row variance at a row of the block. -/
theorem var_apply (x0 x1 : Vec IdealF S2000x128 .f32) (x2 : Vec IdealF S128x256 .f32) (x3 : Vec IdealF S1x256 .f32)
    (x4 : Vec IdealF S256x128 .f32) (x5 : Vec IdealF S1x128 .f32) (p : Fin 2000) (u : Fin 1) :
    k7_pay5 x0 x1 x2 x3 x4 x5 (ix2 p u)
      = mean128 (fun j => (mlpRow (fun k => x0 (ix2 p k)) (fun k => x1 (ix2 p k)) x2 x3 x4 x5 j - mean128 (mlpRow (fun k => x0 (ix2 p k)) (fun k => x1 (ix2 p k)) x2 x3 x4 x5)) * (mlpRow (fun k => x0 (ix2 p k)) (fun k => x1 (ix2 p k)) x2 x3 x4 x5 j - mean128 (mlpRow (fun k => x0 (ix2 p k)) (fun k => x1 (ix2 p k)) x2 x3 x4 x5))) := by
  unfold k7_pay5
  refine (meanVec_apply _ _ _ _ _ p u).trans ?_
  refine congrArg mean128 (funext fun j => ?_)
  simp only [mulf_apply, subf_apply]
  rw [Cert.LibColumn.broadcastTo_a1_ab_apply, mlp_apply, mu_apply]

/-- The body's arithmetic on a block: every row through the node update. -/
theorem pay_eq (x0 x1 : Vec IdealF S2000x128 .f32) (x2 : Vec IdealF S128x256 .f32) (x3 : Vec IdealF S1x256 .f32)
    (x4 : Vec IdealF S256x128 .f32) (x5 : Vec IdealF S1x128 .f32) (x6 x7 : Vec IdealF S1x128 .f32) :
    k7_pay1 (k7_pay2 x0) (k7_pay5 x0 x1 x2 x3 x4 x5) (k7_pay6 x0 x1 x2 x3 x4 x5) (k7_pay7 (F := IdealF)) x6 x7
      = fun j => layerRow (fun k => x0 (ix2 (j 0) k)) (fun k => x1 (ix2 (j 0) k)) x2 x3 x4 x5 x6 x7 (j 1) := by
  funext j
  obtain ⟨p, q, rfl⟩ : ∃ (p : Fin 2000) (q : Fin 128), j = ix2 p q := ⟨j 0, j 1, eq_ix2 j⟩
  unfold k7_pay1 k7_pay2 k7_pay7
  simp only [shapeCast_self, addf_apply, maximumf_apply, mulf_apply, broadcast_apply]
  rw [Cert.LibColumn.broadcastTo_a1_ab_apply, broadcastTo_1b_ab_apply, broadcastTo_1b_ab_apply, ctr_apply, rsqrt_at]
  simp only [addf_apply, broadcast_apply]
  rw [var_apply]
  rfl

/-- Point t's row blocks start at row block t; the six weight windows are the whole arrays. -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = 0 ∧ win7_7.index t (1 : Fin 2) = 0
    ∧ win7_8.index t (0 : Fin 2) = t.val ∧ win7_8.index t (1 : Fin 2) = 0 :=
  (by decide +kernel : ∀ t : Fin grid7.N, _)

theorem t_lt (t : Fin cfg7.N) : t.val < 25 := t.isLt

theorem emb_0 (t : Fin cfg7.N) (p : Fin 2000) (q : Fin 128) (hr : t.val * 2000 + p.val < 50000) :
    ((cfg7.win 0).blk t).view.emb (ix2 p q) = ix2 (⟨t.val * 2000 + p.val, hr⟩ : Fin 50000) q := by
  obtain ⟨e0, e1, -⟩ := idx_facts t
  funext a; apply Fin.ext
  match a with
  | ⟨0, _⟩ => show win7_0.index t (0 : Fin 2) * 2000 + 1 * p.val = t.val * 2000 + p.val; omega
  | ⟨1, _⟩ => show win7_0.index t (1 : Fin 2) * 128 + 1 * q.val = q.val; omega

theorem emb_1 (t : Fin cfg7.N) (p : Fin 2000) (q : Fin 128) (hr : t.val * 2000 + p.val < 50000) :
    ((cfg7.win 1).blk t).view.emb (ix2 p q) = ix2 (⟨t.val * 2000 + p.val, hr⟩ : Fin 50000) q := by
  obtain ⟨-, -, e2, e3, -⟩ := idx_facts t
  funext a; apply Fin.ext
  match a with
  | ⟨0, _⟩ => show win7_1.index t (0 : Fin 2) * 2000 + 1 * p.val = t.val * 2000 + p.val; omega
  | ⟨1, _⟩ => show win7_1.index t (1 : Fin 2) * 128 + 1 * q.val = q.val; omega

theorem emb_8 (t : Fin cfg7.N) (p : Fin 2000) (q : Fin 128) (hr : t.val * 2000 + p.val < 50000) :
    ((cfg7.win 8).blk t).view.emb (ix2 p q) = ix2 (⟨t.val * 2000 + p.val, hr⟩ : Fin 50000) q := by
  obtain ⟨-, -, -, -, -, -, -, -, -, -, -, -, -, -, -, -, e16, e17⟩ := idx_facts t
  funext a; apply Fin.ext
  match a with
  | ⟨0, _⟩ => show win7_8.index t (0 : Fin 2) * 2000 + 1 * p.val = t.val * 2000 + p.val; omega
  | ⟨1, _⟩ => show win7_8.index t (1 : Fin 2) * 128 + 1 * q.val = q.val; omega

theorem emb_2 (t : Fin cfg7.N) (y : S128x256.Idx) : ((cfg7.win 2).blk t).view.emb y = y := by
  obtain ⟨-, -, -, -, e4, e5, -⟩ := idx_facts t
  funext a; apply Fin.ext
  match a with
  | ⟨0, _⟩ => show win7_2.index t (0 : Fin 2) * 128 + 1 * (y 0).val = (y 0).val; omega
  | ⟨1, _⟩ => show win7_2.index t (1 : Fin 2) * 256 + 1 * (y 1).val = (y 1).val; omega

theorem emb_3 (t : Fin cfg7.N) (y : S1x256.Idx) : ((cfg7.win 3).blk t).view.emb y = y := by
  obtain ⟨-, -, -, -, -, -, e6, e7, -⟩ := idx_facts t
  funext a; apply Fin.ext
  match a with
  | ⟨0, _⟩ => show win7_3.index t (0 : Fin 2) * 1 + 1 * (y 0).val = (y 0).val; omega
  | ⟨1, _⟩ => show win7_3.index t (1 : Fin 2) * 256 + 1 * (y 1).val = (y 1).val; omega

theorem emb_4 (t : Fin cfg7.N) (y : S256x128.Idx) : ((cfg7.win 4).blk t).view.emb y = y := by
  obtain ⟨-, -, -, -, -, -, -, -, e8, e9, -⟩ := idx_facts t
  funext a; apply Fin.ext
  match a with
  | ⟨0, _⟩ => show win7_4.index t (0 : Fin 2) * 256 + 1 * (y 0).val = (y 0).val; omega
  | ⟨1, _⟩ => show win7_4.index t (1 : Fin 2) * 128 + 1 * (y 1).val = (y 1).val; omega

theorem emb_5 (t : Fin cfg7.N) (y : S1x128.Idx) : ((cfg7.win 5).blk t).view.emb y = y := by
  obtain ⟨-, -, -, -, -, -, -, -, -, -, e10, e11, -⟩ := idx_facts t
  funext a; apply Fin.ext
  match a with
  | ⟨0, _⟩ => show win7_5.index t (0 : Fin 2) * 1 + 1 * (y 0).val = (y 0).val; omega
  | ⟨1, _⟩ => show win7_5.index t (1 : Fin 2) * 128 + 1 * (y 1).val = (y 1).val; omega

theorem emb_6 (t : Fin cfg7.N) (y : S1x128.Idx) : ((cfg7.win 6).blk t).view.emb y = y := by
  obtain ⟨-, -, -, -, -, -, -, -, -, -, -, -, e12, e13, -⟩ := idx_facts t
  funext a; apply Fin.ext
  match a with
  | ⟨0, _⟩ => show win7_6.index t (0 : Fin 2) * 1 + 1 * (y 0).val = (y 0).val; omega
  | ⟨1, _⟩ => show win7_6.index t (1 : Fin 2) * 128 + 1 * (y 1).val = (y 1).val; omega

theorem emb_7 (t : Fin cfg7.N) (y : S1x128.Idx) : ((cfg7.win 7).blk t).view.emb y = y := by
  obtain ⟨-, -, -, -, -, -, -, -, -, -, -, -, -, -, e14, e15, -⟩ := idx_facts t
  funext a; apply Fin.ext
  match a with
  | ⟨0, _⟩ => show win7_7.index t (0 : Fin 2) * 1 + 1 * (y 0).val = (y 0).val; omega
  | ⟨1, _⟩ => show win7_7.index t (1 : Fin 2) * 128 + 1 * (y 1).val = (y 1).val; omega

/-- What point t writes back is block t of the node update applied to the arrays as the launch found them. -/
theorem flushed_eq (c : Dev nD) (t : Fin cfg7.N) :
    (dat7 V c).flushed 8 t = ((cfg7.win 8).blk t).view.read (Elt IdealF)
      (layerG (M := 50000) (V c main_v63) (V c main_v74) (V c main_v76) (V c main_v87) (V c main_v80) (V c main_v88) (V c main_v89) (V c main_v90)) := by
  show (cfg7.win 8).cut (grid7.coords t) ((dat7 V c).after 8 t) = _
  rw [after7_8]
  unfold out7_8
  rw [View.canon_unit_zero hz]
  simp only [View.ld_unit_zero (S := S2000x128) hz, View.ld_unit_zero (S := S128x256) hz, View.ld_unit_zero (S := S1x256) hz,
    View.ld_unit_zero (S := S256x128) hz, View.ld_unit_zero (S := S1x128) hz]
  rw [pay_eq]
  have ht := t_lt t
  funext j
  obtain ⟨p, q, rfl⟩ : ∃ (p : Fin 2000) (q : Fin 128), j = ix2 p q := ⟨j 0, j 1, eq_ix2 j⟩
  have hr : t.val * 2000 + p.val < 50000 := by have := p.isLt; omega
  show layerRow (fun k => iblk7 V c 0 t (ix2 p k)) (fun k => iblk7 V c 1 t (ix2 p k)) (iblk7 V c 2 t) (iblk7 V c 3 t)
      (iblk7 V c 4 t) (iblk7 V c 5 t) (iblk7 V c 6 t) (iblk7 V c 7 t) q
    = layerG (M := 50000) (V c main_v63) (V c main_v74) (V c main_v76) (V c main_v87) (V c main_v80) (V c main_v88) (V c main_v89) (V c main_v90)
        (((cfg7.win 8).blk t).view.emb (ix2 p q))
  rw [emb_8 t p q hr, layerG_apply]
  have h0 : (fun k : Fin 128 => iblk7 V c 0 t (ix2 p k)) = fun k => V c main_v63 (ix2 (⟨t.val * 2000 + p.val, hr⟩ : Fin 50000) k) := by
    funext k
    show V c main_v63 (((cfg7.win 0).blk t).view.emb (ix2 p k)) = _
    rw [emb_0 t p k hr]
  have h1 : (fun k : Fin 128 => iblk7 V c 1 t (ix2 p k)) = fun k => V c main_v74 (ix2 (⟨t.val * 2000 + p.val, hr⟩ : Fin 50000) k) := by
    funext k
    show V c main_v74 (((cfg7.win 1).blk t).view.emb (ix2 p k)) = _
    rw [emb_1 t p k hr]
  have h2 : iblk7 V c 2 t = V c main_v76 := by
    funext y; show V c main_v76 (((cfg7.win 2).blk t).view.emb y) = _; rw [emb_2]
  have h3 : iblk7 V c 3 t = V c main_v87 := by
    funext y; show V c main_v87 (((cfg7.win 3).blk t).view.emb y) = _; rw [emb_3]
  have h4 : iblk7 V c 4 t = V c main_v80 := by
    funext y; show V c main_v80 (((cfg7.win 4).blk t).view.emb y) = _; rw [emb_4]
  have h5 : iblk7 V c 5 t = V c main_v88 := by
    funext y; show V c main_v88 (((cfg7.win 5).blk t).view.emb y) = _; rw [emb_5]
  have h6 : iblk7 V c 6 t = V c main_v89 := by
    funext y; show V c main_v89 (((cfg7.win 6).blk t).view.emb y) = _; rw [emb_6]
  have h7 : iblk7 V c 7 t = V c main_v90 := by
    funext y; show V c main_v90 (((cfg7.win 7).blk t).view.emb y) = _; rw [emb_7]
  rw [h0, h1, h2, h3, h4, h5, h6, h7]

/-- An index of the array is in point t's block iff each coordinate is in the block's range on its axis. -/
theorem mem_blk (t : Fin cfg7.N) (i : S50000x128.Idx) :
    i ∈ ((cfg7.win 8).blk t).view.set ↔ ∀ a : Fin 2, win7_8.index t a * S2000x128.size a ≤ (i a).val
      ∧ (i a).val < win7_8.index t a * S2000x128.size a + S2000x128.size a := by
  show i ∈ ((View.whole main_v91).slice (win7_8.rect t)).set ↔ _
  rw [View.set_slice_whole, Rect.mem_set_unit]
  exact Iff.rfl

/-- Every row of the array is in the block of the point numbered row / 2000. -/
theorem cover (i : S50000x128.Idx) :
    ∃ t : Fin cfg7.N, (cfg7.win 8).flush t = true ∧ i ∈ ((cfg7.win 8).blk t).view.set := by
  have hi0 : (i 0).val < 50000 := (i 0).isLt
  have hi1 : (i 1).val < 128 := (i 1).isLt
  have ht : (i 0).val / 2000 < 25 := by omega
  refine ⟨⟨(i 0).val / 2000, ht⟩, flush7_8 _, ?_⟩
  obtain ⟨-, -, -, -, -, -, -, -, -, -, -, -, -, -, -, -, e16, e17⟩ := idx_facts ⟨(i 0).val / 2000, ht⟩
  rw [mem_blk]
  intro a
  match a with
  | ⟨0, _⟩ =>
    show win7_8.index ⟨(i 0).val / 2000, ht⟩ (0 : Fin 2) * 2000 ≤ (i 0).val
      ∧ (i 0).val < win7_8.index ⟨(i 0).val / 2000, ht⟩ (0 : Fin 2) * 2000 + 2000
    rw [e16]; show (i 0).val / 2000 * 2000 ≤ (i 0).val ∧ (i 0).val < (i 0).val / 2000 * 2000 + 2000; omega
  | ⟨1, _⟩ =>
    show win7_8.index ⟨(i 0).val / 2000, ht⟩ (1 : Fin 2) * 128 ≤ (i 1).val
      ∧ (i 1).val < win7_8.index ⟨(i 0).val / 2000, ht⟩ (1 : Fin 2) * 128 + 128
    rw [e17]; omega

/-- The array after the launch: the node update applied to the arrays as the launch found them. -/
theorem final (c : Dev nD) :
    (dat7 V c).arrAt 8 cfg7.N
      = layerG (M := 50000) (V c main_v63) (V c main_v74) (V c main_v76) (V c main_v87) (V c main_v80) (V c main_v88) (V c main_v89) (V c main_v90) :=
  (dat7 V c).arrAt_eq_of_cover 8 _ (fun t _ => flushed_eq V c t) cover

end Cert.KernelIdeal.R7

end
-- ==== Proof.Region8.lean ====
/-
  Launch 8 (the message stage): the array it leaves.

  The grid has 125 points; point t works on rows 5000·t … 5000·t + 4999 of the gathered node rows and of the edge
  features and writes relu of their sum back to the same rows. The blocks of the 125 points tile the 625000 rows, so
  after the launch the output array is relu of the sum of the two input arrays, entry by entry.
-/
import proofs.«157398_j15616501088448_1_alg».proof.Proof.Gen.KernelIdeal.Frame
import proofs.«157398_j15616501088448_1_alg».proof.Proof.Spec

set_option maxRecDepth 16384

noncomputable section

namespace Cert.KernelIdeal.R8

open Cert.KernelIdeal Cert.KernelIdeal.Gen Cert.Gine
open Idealize.ShloMosaic Idealize.ShloMosaic.TcCoe Idealize.ShloMosaic.ValueIdx
open Idealize.SL.Sem
open Idealize.ShloMosaic.Pipeline (Dat Cfg Window)

abbrev IdealF := Idealize.ShloMosaic.Ideal

variable (V : (c : Dev nD) → (b : Ref sig .tc) → Buf (Elt IdealF) ((c : Thread nD τ).loc b))

theorem hz : (![0, 0] : Fin 2 → Nat) = fun _ => 0 := funext fun a => by fin_cases a <;> rfl

/-- The body's arithmetic on a block: relu of the sum, entry by entry. -/
theorem pay_eq (x0 x1 : Vec IdealF S5000x128 .f32) :
    k8_pay1 x0 x1 = fun j => msgAt (x0 j) (x1 j) := by
  funext j
  unfold k8_pay1
  simp only [shapeCast_self]
  rfl

/-- Point t's blocks all start at row block t, column block 0. -/
theorem idx_facts : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0 :=
  (by decide +kernel : ∀ t : Fin grid8.N, _)

/-- What point t writes back is block t of relu of the sum of the two input arrays. -/
theorem flushed_eq (c : Dev nD) (t : Fin cfg8.N) :
    (dat8 V c).flushed 2 t
      = ((cfg8.win 2).blk t).view.read (Elt IdealF) (msgG (M := 625000) (N := 128) (V c main_v98) (V c main_v3)) := by
  show (cfg8.win 2).cut (grid8.coords t) ((dat8 V c).after 2 t) = _
  rw [after8_2]
  unfold out8_2
  rw [View.canon_unit_zero hz]
  simp only [View.ld_unit_zero (S := S5000x128) hz]
  rw [pay_eq]
  obtain ⟨e0, e1, e2, e3, e4, e5⟩ := idx_facts t
  funext j
  show msgAt (V c main_v98 (((cfg8.win 0).blk t).view.emb j)) (V c main_v3 (((cfg8.win 1).blk t).view.emb j))
    = msgAt (V c main_v98 (((cfg8.win 2).blk t).view.emb j)) (V c main_v3 (((cfg8.win 2).blk t).view.emb j))
  have h0 : ((cfg8.win 0).blk t).view.emb j = ((cfg8.win 2).blk t).view.emb j := by
    funext a; apply Fin.ext
    match a with
    | ⟨0, _⟩ => show win8_0.index t (0 : Fin 2) * 5000 + 1 * (j 0).val = win8_2.index t (0 : Fin 2) * 5000 + 1 * (j 0).val; omega
    | ⟨1, _⟩ => show win8_0.index t (1 : Fin 2) * 128 + 1 * (j 1).val = win8_2.index t (1 : Fin 2) * 128 + 1 * (j 1).val; omega
  have h1 : ((cfg8.win 1).blk t).view.emb j = ((cfg8.win 2).blk t).view.emb j := by
    funext a; apply Fin.ext
    match a with
    | ⟨0, _⟩ => show win8_1.index t (0 : Fin 2) * 5000 + 1 * (j 0).val = win8_2.index t (0 : Fin 2) * 5000 + 1 * (j 0).val; omega
    | ⟨1, _⟩ => show win8_1.index t (1 : Fin 2) * 128 + 1 * (j 1).val = win8_2.index t (1 : Fin 2) * 128 + 1 * (j 1).val; omega
  rw [h0, h1]

/-- An index of the array is in point t's block iff each coordinate is in the block's range on its axis. -/
theorem mem_blk (t : Fin cfg8.N) (i : S625000x128.Idx) :
    i ∈ ((cfg8.win 2).blk t).view.set ↔ ∀ a : Fin 2, win8_2.index t a * S5000x128.size a ≤ (i a).val
      ∧ (i a).val < win8_2.index t a * S5000x128.size a + S5000x128.size a := by
  show i ∈ ((View.whole main_v99).slice (win8_2.rect t)).set ↔ _
  rw [View.set_slice_whole, Rect.mem_set_unit]
  exact Iff.rfl

/-- Every row of the array is in the block of the point numbered row / 5000. -/
theorem cover (i : S625000x128.Idx) :
    ∃ t : Fin cfg8.N, (cfg8.win 2).flush t = true ∧ i ∈ ((cfg8.win 2).blk t).view.set := by
  have hi0 : (i 0).val < 625000 := (i 0).isLt
  have hi1 : (i 1).val < 128 := (i 1).isLt
  have ht : (i 0).val / 5000 < 125 := by omega
  refine ⟨⟨(i 0).val / 5000, ht⟩, flush8_2 _, ?_⟩
  obtain ⟨e0, e1, e2, e3, e4, e5⟩ := idx_facts ⟨(i 0).val / 5000, ht⟩
  rw [mem_blk]
  intro a
  match a with
  | ⟨0, _⟩ =>
    show win8_2.index ⟨(i 0).val / 5000, ht⟩ (0 : Fin 2) * 5000 ≤ (i 0).val
      ∧ (i 0).val < win8_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win8_2.index ⟨(i 0).val / 5000, ht⟩ (1 : Fin 2) * 128 ≤ (i 1).val
      ∧ (i 1).val < win8_2.index ⟨(i 0).val / 5000, ht⟩ (1 : Fin 2) * 128 + 128
    rw [e5]; omega

/-- The array after the launch: relu of the sum of the two input arrays as the launch found them. -/
theorem final (c : Dev nD) :
    (dat8 V c).arrAt 2 cfg8.N = msgG (M := 625000) (N := 128) (V c main_v98) (V c main_v3) :=
  (dat8 V c).arrAt_eq_of_cover 2 _ (fun t _ => flushed_eq V c t) cover

end Cert.KernelIdeal.R8

end
-- ==== Proof.Region9.lean ====
/-
  Launch 9 (a node update): the array it leaves.

  The grid has 25 points; point t takes rows 2000·t … 2000·t + 1999 of the node array h and of the aggregated messages,
  and the whole weight matrices and bias, scale and shift rows. Each row goes through the two-layer perceptron, is
  normalised over its 128 entries (mean, variance, reciprocal square root), scaled, shifted, cut at zero and added to
  the row of h it came from. Every step uses one row only, so the block's entry (p, q) is `layerRow` of row 2000·t + p;
  the 25 blocks tile the 50000 rows.
-/
import proofs.«157398_j15616501088448_1_alg».proof.Proof.Gen.KernelIdeal.Frame
import proofs.«157398_j15616501088448_1_alg».proof.Proof.Spec

set_option maxRecDepth 16384

noncomputable section

namespace Cert.KernelIdeal.R9

open Cert.KernelIdeal Cert.KernelIdeal.Gen Cert.Gine
open Idealize.ShloMosaic Idealize.ShloMosaic.TcCoe Idealize.ShloMosaic.ValueIdx
open Idealize.SL.Sem
open Idealize.ShloMosaic.Pipeline (Dat Cfg Window)

abbrev IdealF := Idealize.ShloMosaic.Ideal

variable (V : (c : Dev nD) → (b : Ref sig .tc) → Buf (Elt IdealF) ((c : Thread nD τ).loc b))

theorem hz : (![0, 0] : Fin 2 → Nat) = fun _ => 0 := funext fun a => by fin_cases a <;> rfl

theorem rsqrt_at {s : Shape} (v : FVec IdealF s .f32) (i : s.Idx) : rsqrt v i = Idealize.ShloMosaic.Ideal.rsqrt (v i) := rfl

/-- The perceptron's output at an entry of the block. -/
theorem mlp_apply (x0 x1 : Vec IdealF S2000x128 .f32) (x2 : Vec IdealF S128x256 .f32) (x3 : Vec IdealF S1x256 .f32)
    (x4 : Vec IdealF S256x128 .f32) (x5 : Vec IdealF S1x128 .f32) (p : Fin 2000) (q : Fin 128) :
    k9_pay3 x0 x1 x2 x3 x4 x5 (ix2 p q) = mlpRow (fun k => x0 (ix2 p k)) (fun k => x1 (ix2 p k)) x2 x3 x4 x5 q := by
  unfold k9_pay3 k9_pay2
  simp only [shapeCast_self]
  refine (denseVec_apply' _ x4 x5 _ _ p q).trans ?_
  refine congrArg (fun f => lin f x4 x5 q) (funext fun j => ?_)
  simp only [maximumf_apply, broadcast_apply]
  exact congrArg (fun v => max v (FloatOps.ofBits (F := IdealF) FTy.f32 0x00000000#32))
    (denseVec_apply' (addf x0 x1) x2 x3 _ _ p j)

/-- The row mean at a row of the block. -/
theorem mu_apply (x0 x1 : Vec IdealF S2000x128 .f32) (x2 : Vec IdealF S128x256 .f32) (x3 : Vec IdealF S1x256 .f32)
    (x4 : Vec IdealF S256x128 .f32) (x5 : Vec IdealF S1x128 .f32) (p : Fin 2000) (u : Fin 1) :
    k9_pay4 x0 x1 x2 x3 x4 x5 (ix2 p u) = mean128 (mlpRow (fun k => x0 (ix2 p k)) (fun k => x1 (ix2 p k)) x2 x3 x4 x5) := by
  unfold k9_pay4
  refine (meanVec_apply (k9_pay3 x0 x1 x2 x3 x4 x5) _ _ _ _ p u).trans ?_
  exact congrArg mean128 (funext fun q => mlp_apply x0 x1 x2 x3 x4 x5 p q)

/-- The centred row at an entry of the block. -/
theorem ctr_apply (x0 x1 : Vec IdealF S2000x128 .f32) (x2 : Vec IdealF S128x256 .f32) (x3 : Vec IdealF S1x256 .f32)
    (x4 : Vec IdealF S256x128 .f32) (x5 : Vec IdealF S1x128 .f32) (p : Fin 2000) (q : Fin 128) :
    k9_pay6 x0 x1 x2 x3 x4 x5 (ix2 p q) = mlpRow (fun k => x0 (ix2 p k)) (fun k => x1 (ix2 p k)) x2 x3 x4 x5 q - mean128 (mlpRow (fun k => x0 (ix2 p k)) (fun k => x1 (ix2 p k)) x2 x3 x4 x5) := by
  unfold k9_pay6
  simp only [subf_apply]
  rw [Cert.LibColumn.broadcastTo_a1_ab_apply, mlp_apply, mu_apply]

/-- The row variance at a row of the block. -/
theorem var_apply (x0 x1 : Vec IdealF S2000x128 .f32) (x2 : Vec IdealF S128x256 .f32) (x3 : Vec IdealF S1x256 .f32)
    (x4 : Vec IdealF S256x128 .f32) (x5 : Vec IdealF S1x128 .f32) (p : Fin 2000) (u : Fin 1) :
    k9_pay5 x0 x1 x2 x3 x4 x5 (ix2 p u)
      = mean128 (fun j => (mlpRow (fun k => x0 (ix2 p k)) (fun k => x1 (ix2 p k)) x2 x3 x4 x5 j - mean128 (mlpRow (fun k => x0 (ix2 p k)) (fun k => x1 (ix2 p k)) x2 x3 x4 x5)) * (mlpRow (fun k => x0 (ix2 p k)) (fun k => x1 (ix2 p k)) x2 x3 x4 x5 j - mean128 (mlpRow (fun k => x0 (ix2 p k)) (fun k => x1 (ix2 p k)) x2 x3 x4 x5))) := by
  unfold k9_pay5
  refine (meanVec_apply _ _ _ _ _ p u).trans ?_
  refine congrArg mean128 (funext fun j => ?_)
  simp only [mulf_apply, subf_apply]
  rw [Cert.LibColumn.broadcastTo_a1_ab_apply, mlp_apply, mu_apply]

/-- The body's arithmetic on a block: every row through the node update. -/
theorem pay_eq (x0 x1 : Vec IdealF S2000x128 .f32) (x2 : Vec IdealF S128x256 .f32) (x3 : Vec IdealF S1x256 .f32)
    (x4 : Vec IdealF S256x128 .f32) (x5 : Vec IdealF S1x128 .f32) (x6 x7 : Vec IdealF S1x128 .f32) :
    k9_pay1 (k9_pay2 x0) (k9_pay5 x0 x1 x2 x3 x4 x5) (k9_pay6 x0 x1 x2 x3 x4 x5) (k9_pay7 (F := IdealF)) x6 x7
      = fun j => layerRow (fun k => x0 (ix2 (j 0) k)) (fun k => x1 (ix2 (j 0) k)) x2 x3 x4 x5 x6 x7 (j 1) := by
  funext j
  obtain ⟨p, q, rfl⟩ : ∃ (p : Fin 2000) (q : Fin 128), j = ix2 p q := ⟨j 0, j 1, eq_ix2 j⟩
  unfold k9_pay1 k9_pay2 k9_pay7
  simp only [shapeCast_self, addf_apply, maximumf_apply, mulf_apply, broadcast_apply]
  rw [Cert.LibColumn.broadcastTo_a1_ab_apply, broadcastTo_1b_ab_apply, broadcastTo_1b_ab_apply, ctr_apply, rsqrt_at]
  simp only [addf_apply, broadcast_apply]
  rw [var_apply]
  rfl

/-- Point t's row blocks start at row block t; the six weight windows are the whole arrays. -/
theorem idx_facts : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = 0 ∧ win9_7.index t (1 : Fin 2) = 0
    ∧ win9_8.index t (0 : Fin 2) = t.val ∧ win9_8.index t (1 : Fin 2) = 0 :=
  (by decide +kernel : ∀ t : Fin grid9.N, _)

theorem t_lt (t : Fin cfg9.N) : t.val < 25 := t.isLt

theorem emb_0 (t : Fin cfg9.N) (p : Fin 2000) (q : Fin 128) (hr : t.val * 2000 + p.val < 50000) :
    ((cfg9.win 0).blk t).view.emb (ix2 p q) = ix2 (⟨t.val * 2000 + p.val, hr⟩ : Fin 50000) q := by
  obtain ⟨e0, e1, -⟩ := idx_facts t
  funext a; apply Fin.ext
  match a with
  | ⟨0, _⟩ => show win9_0.index t (0 : Fin 2) * 2000 + 1 * p.val = t.val * 2000 + p.val; omega
  | ⟨1, _⟩ => show win9_0.index t (1 : Fin 2) * 128 + 1 * q.val = q.val; omega

theorem emb_1 (t : Fin cfg9.N) (p : Fin 2000) (q : Fin 128) (hr : t.val * 2000 + p.val < 50000) :
    ((cfg9.win 1).blk t).view.emb (ix2 p q) = ix2 (⟨t.val * 2000 + p.val, hr⟩ : Fin 50000) q := by
  obtain ⟨-, -, e2, e3, -⟩ := idx_facts t
  funext a; apply Fin.ext
  match a with
  | ⟨0, _⟩ => show win9_1.index t (0 : Fin 2) * 2000 + 1 * p.val = t.val * 2000 + p.val; omega
  | ⟨1, _⟩ => show win9_1.index t (1 : Fin 2) * 128 + 1 * q.val = q.val; omega

theorem emb_8 (t : Fin cfg9.N) (p : Fin 2000) (q : Fin 128) (hr : t.val * 2000 + p.val < 50000) :
    ((cfg9.win 8).blk t).view.emb (ix2 p q) = ix2 (⟨t.val * 2000 + p.val, hr⟩ : Fin 50000) q := by
  obtain ⟨-, -, -, -, -, -, -, -, -, -, -, -, -, -, -, -, e16, e17⟩ := idx_facts t
  funext a; apply Fin.ext
  match a with
  | ⟨0, _⟩ => show win9_8.index t (0 : Fin 2) * 2000 + 1 * p.val = t.val * 2000 + p.val; omega
  | ⟨1, _⟩ => show win9_8.index t (1 : Fin 2) * 128 + 1 * q.val = q.val; omega

theorem emb_2 (t : Fin cfg9.N) (y : S128x256.Idx) : ((cfg9.win 2).blk t).view.emb y = y := by
  obtain ⟨-, -, -, -, e4, e5, -⟩ := idx_facts t
  funext a; apply Fin.ext
  match a with
  | ⟨0, _⟩ => show win9_2.index t (0 : Fin 2) * 128 + 1 * (y 0).val = (y 0).val; omega
  | ⟨1, _⟩ => show win9_2.index t (1 : Fin 2) * 256 + 1 * (y 1).val = (y 1).val; omega

theorem emb_3 (t : Fin cfg9.N) (y : S1x256.Idx) : ((cfg9.win 3).blk t).view.emb y = y := by
  obtain ⟨-, -, -, -, -, -, e6, e7, -⟩ := idx_facts t
  funext a; apply Fin.ext
  match a with
  | ⟨0, _⟩ => show win9_3.index t (0 : Fin 2) * 1 + 1 * (y 0).val = (y 0).val; omega
  | ⟨1, _⟩ => show win9_3.index t (1 : Fin 2) * 256 + 1 * (y 1).val = (y 1).val; omega

theorem emb_4 (t : Fin cfg9.N) (y : S256x128.Idx) : ((cfg9.win 4).blk t).view.emb y = y := by
  obtain ⟨-, -, -, -, -, -, -, -, e8, e9, -⟩ := idx_facts t
  funext a; apply Fin.ext
  match a with
  | ⟨0, _⟩ => show win9_4.index t (0 : Fin 2) * 256 + 1 * (y 0).val = (y 0).val; omega
  | ⟨1, _⟩ => show win9_4.index t (1 : Fin 2) * 128 + 1 * (y 1).val = (y 1).val; omega

theorem emb_5 (t : Fin cfg9.N) (y : S1x128.Idx) : ((cfg9.win 5).blk t).view.emb y = y := by
  obtain ⟨-, -, -, -, -, -, -, -, -, -, e10, e11, -⟩ := idx_facts t
  funext a; apply Fin.ext
  match a with
  | ⟨0, _⟩ => show win9_5.index t (0 : Fin 2) * 1 + 1 * (y 0).val = (y 0).val; omega
  | ⟨1, _⟩ => show win9_5.index t (1 : Fin 2) * 128 + 1 * (y 1).val = (y 1).val; omega

theorem emb_6 (t : Fin cfg9.N) (y : S1x128.Idx) : ((cfg9.win 6).blk t).view.emb y = y := by
  obtain ⟨-, -, -, -, -, -, -, -, -, -, -, -, e12, e13, -⟩ := idx_facts t
  funext a; apply Fin.ext
  match a with
  | ⟨0, _⟩ => show win9_6.index t (0 : Fin 2) * 1 + 1 * (y 0).val = (y 0).val; omega
  | ⟨1, _⟩ => show win9_6.index t (1 : Fin 2) * 128 + 1 * (y 1).val = (y 1).val; omega

theorem emb_7 (t : Fin cfg9.N) (y : S1x128.Idx) : ((cfg9.win 7).blk t).view.emb y = y := by
  obtain ⟨-, -, -, -, -, -, -, -, -, -, -, -, -, -, e14, e15, -⟩ := idx_facts t
  funext a; apply Fin.ext
  match a with
  | ⟨0, _⟩ => show win9_7.index t (0 : Fin 2) * 1 + 1 * (y 0).val = (y 0).val; omega
  | ⟨1, _⟩ => show win9_7.index t (1 : Fin 2) * 128 + 1 * (y 1).val = (y 1).val; omega

/-- What point t writes back is block t of the node update applied to the arrays as the launch found them. -/
theorem flushed_eq (c : Dev nD) (t : Fin cfg9.N) :
    (dat9 V c).flushed 8 t = ((cfg9.win 8).blk t).view.read (Elt IdealF)
      (layerG (M := 50000) (V c main_v91) (V c main_v102) (V c main_v104) (V c main_v115) (V c main_v108) (V c main_v116) (V c main_v117) (V c main_v118)) := by
  show (cfg9.win 8).cut (grid9.coords t) ((dat9 V c).after 8 t) = _
  rw [after9_8]
  unfold out9_8
  rw [View.canon_unit_zero hz]
  simp only [View.ld_unit_zero (S := S2000x128) hz, View.ld_unit_zero (S := S128x256) hz, View.ld_unit_zero (S := S1x256) hz,
    View.ld_unit_zero (S := S256x128) hz, View.ld_unit_zero (S := S1x128) hz]
  rw [pay_eq]
  have ht := t_lt t
  funext j
  obtain ⟨p, q, rfl⟩ : ∃ (p : Fin 2000) (q : Fin 128), j = ix2 p q := ⟨j 0, j 1, eq_ix2 j⟩
  have hr : t.val * 2000 + p.val < 50000 := by have := p.isLt; omega
  show layerRow (fun k => iblk9 V c 0 t (ix2 p k)) (fun k => iblk9 V c 1 t (ix2 p k)) (iblk9 V c 2 t) (iblk9 V c 3 t)
      (iblk9 V c 4 t) (iblk9 V c 5 t) (iblk9 V c 6 t) (iblk9 V c 7 t) q
    = layerG (M := 50000) (V c main_v91) (V c main_v102) (V c main_v104) (V c main_v115) (V c main_v108) (V c main_v116) (V c main_v117) (V c main_v118)
        (((cfg9.win 8).blk t).view.emb (ix2 p q))
  rw [emb_8 t p q hr, layerG_apply]
  have h0 : (fun k : Fin 128 => iblk9 V c 0 t (ix2 p k)) = fun k => V c main_v91 (ix2 (⟨t.val * 2000 + p.val, hr⟩ : Fin 50000) k) := by
    funext k
    show V c main_v91 (((cfg9.win 0).blk t).view.emb (ix2 p k)) = _
    rw [emb_0 t p k hr]
  have h1 : (fun k : Fin 128 => iblk9 V c 1 t (ix2 p k)) = fun k => V c main_v102 (ix2 (⟨t.val * 2000 + p.val, hr⟩ : Fin 50000) k) := by
    funext k
    show V c main_v102 (((cfg9.win 1).blk t).view.emb (ix2 p k)) = _
    rw [emb_1 t p k hr]
  have h2 : iblk9 V c 2 t = V c main_v104 := by
    funext y; show V c main_v104 (((cfg9.win 2).blk t).view.emb y) = _; rw [emb_2]
  have h3 : iblk9 V c 3 t = V c main_v115 := by
    funext y; show V c main_v115 (((cfg9.win 3).blk t).view.emb y) = _; rw [emb_3]
  have h4 : iblk9 V c 4 t = V c main_v108 := by
    funext y; show V c main_v108 (((cfg9.win 4).blk t).view.emb y) = _; rw [emb_4]
  have h5 : iblk9 V c 5 t = V c main_v116 := by
    funext y; show V c main_v116 (((cfg9.win 5).blk t).view.emb y) = _; rw [emb_5]
  have h6 : iblk9 V c 6 t = V c main_v117 := by
    funext y; show V c main_v117 (((cfg9.win 6).blk t).view.emb y) = _; rw [emb_6]
  have h7 : iblk9 V c 7 t = V c main_v118 := by
    funext y; show V c main_v118 (((cfg9.win 7).blk t).view.emb y) = _; rw [emb_7]
  rw [h0, h1, h2, h3, h4, h5, h6, h7]

/-- An index of the array is in point t's block iff each coordinate is in the block's range on its axis. -/
theorem mem_blk (t : Fin cfg9.N) (i : S50000x128.Idx) :
    i ∈ ((cfg9.win 8).blk t).view.set ↔ ∀ a : Fin 2, win9_8.index t a * S2000x128.size a ≤ (i a).val
      ∧ (i a).val < win9_8.index t a * S2000x128.size a + S2000x128.size a := by
  show i ∈ ((View.whole main_v119).slice (win9_8.rect t)).set ↔ _
  rw [View.set_slice_whole, Rect.mem_set_unit]
  exact Iff.rfl

/-- Every row of the array is in the block of the point numbered row / 2000. -/
theorem cover (i : S50000x128.Idx) :
    ∃ t : Fin cfg9.N, (cfg9.win 8).flush t = true ∧ i ∈ ((cfg9.win 8).blk t).view.set := by
  have hi0 : (i 0).val < 50000 := (i 0).isLt
  have hi1 : (i 1).val < 128 := (i 1).isLt
  have ht : (i 0).val / 2000 < 25 := by omega
  refine ⟨⟨(i 0).val / 2000, ht⟩, flush9_8 _, ?_⟩
  obtain ⟨-, -, -, -, -, -, -, -, -, -, -, -, -, -, -, -, e16, e17⟩ := idx_facts ⟨(i 0).val / 2000, ht⟩
  rw [mem_blk]
  intro a
  match a with
  | ⟨0, _⟩ =>
    show win9_8.index ⟨(i 0).val / 2000, ht⟩ (0 : Fin 2) * 2000 ≤ (i 0).val
      ∧ (i 0).val < win9_8.index ⟨(i 0).val / 2000, ht⟩ (0 : Fin 2) * 2000 + 2000
    rw [e16]; show (i 0).val / 2000 * 2000 ≤ (i 0).val ∧ (i 0).val < (i 0).val / 2000 * 2000 + 2000; omega
  | ⟨1, _⟩ =>
    show win9_8.index ⟨(i 0).val / 2000, ht⟩ (1 : Fin 2) * 128 ≤ (i 1).val
      ∧ (i 1).val < win9_8.index ⟨(i 0).val / 2000, ht⟩ (1 : Fin 2) * 128 + 128
    rw [e17]; omega

/-- The array after the launch: the node update applied to the arrays as the launch found them. -/
theorem final (c : Dev nD) :
    (dat9 V c).arrAt 8 cfg9.N
      = layerG (M := 50000) (V c main_v91) (V c main_v102) (V c main_v104) (V c main_v115) (V c main_v108) (V c main_v116) (V c main_v117) (V c main_v118) :=
  (dat9 V c).arrAt_eq_of_cover 8 _ (fun t _ => flushed_eq V c t) cover

end Cert.KernelIdeal.R9

end
-- ==== Proof.Fold.lean ====
/-
  The program's buffers at the boundaries between its segments, in closed form.

  Boundary by boundary, each buffer that a later segment reads holds a function of the argument arrays: after the two
  encoder launches the encoded node rows and edge rows; in layer l the gathered source rows, the messages, their sum
  per destination node, the layer's weights, and after the layer's launch the node rows after l + 1 layers; at the end
  the pooled array, which is `net` of the fourteen arguments. A host stretch is read by unfolding its operations; a
  launch by the array its grid leaves (the per-launch lemmas) and by the fact that it leaves every other buffer alone.
-/
import proofs.«157398_j15616501088448_1_alg».proof.Proof.Gen.KernelIdeal.Frame
import proofs.«157398_j15616501088448_1_alg».proof.Proof.Net
import proofs.«157398_j15616501088448_1_alg».proof.Proof.FoldArgs
import proofs.«157398_j15616501088448_1_alg».proof.Proof.Region0
import proofs.«157398_j15616501088448_1_alg».proof.Proof.Region1
import proofs.«157398_j15616501088448_1_alg».proof.Proof.Region2
import proofs.«157398_j15616501088448_1_alg».proof.Proof.Region3
import proofs.«157398_j15616501088448_1_alg».proof.Proof.Region4
import proofs.«157398_j15616501088448_1_alg».proof.Proof.Region5
import proofs.«157398_j15616501088448_1_alg».proof.Proof.Region6
import proofs.«157398_j15616501088448_1_alg».proof.Proof.Region7
import proofs.«157398_j15616501088448_1_alg».proof.Proof.Region8
import proofs.«157398_j15616501088448_1_alg».proof.Proof.Region9

set_option maxRecDepth 16384

noncomputable section

namespace Cert.KernelIdeal.Fold

open Cert.KernelIdeal Cert.KernelIdeal.Gen Cert.Gine Cert.Gine.Net
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt IdealF) ℓ) (ρ : Dev nD → PrngReg) (c : Dev nD)

/-- The encoded node rows and edge rows, the edges' endpoints, and the node rows after each layer. -/
abbrev n0 : C S50000x128 .f32 := nodes0 (m ((c : Thread nD τ).loc main_arg0)) (m ((c : Thread nD τ).loc main_arg4)) (m ((c : Thread nD τ).loc main_arg5))
abbrev e0 : C S625000x128 .f32 := edges0 (m ((c : Thread nD τ).loc main_arg2)) (m ((c : Thread nD τ).loc main_arg6)) (m ((c : Thread nD τ).loc main_arg7))
abbrev sr : C S625000 .i32 := srcOf (m ((c : Thread nD τ).loc main_arg1))
abbrev ds : C S625000 .i32 := dstOf (m ((c : Thread nD τ).loc main_arg1))
abbrev n1 : C S50000x128 .f32 := nodes1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
abbrev n2 : C S50000x128 .f32 := nodes2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
abbrev n3 : C S50000x128 .f32 := nodes3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
abbrev n4 : C S50000x128 .f32 := nodes4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-! ### Boundary 1 -/

theorem v0_at1 : W1 m ρ c (Proc.devRef .tc main_v0) = (rowOf (m ((c : Thread nD τ).loc main_arg5))) := by
  show StableHlo.after hostOps0 (W0 m ρ c) (Proc.devRef .tc main_v0) = _
  dsimp only [hostOps0]
  after_results
  rw [arg5_at0 m ρ c]
  try rfl

/-! ### Boundary 2 -/

theorem v1_at2 : W2 m ρ c (Proc.devRef .tc main_v1) = (n0 m c) := by
  refine (W2_arr m ρ c 3).trans ((Cert.KernelIdeal.R0.final (V1 m ρ) c).trans ?_)
  show encG (M := 50000) (K := 9) (N := 128) (W1 m ρ c (Proc.devRef .tc main_arg0)) (W1 m ρ c (Proc.devRef .tc main_arg4)) (W1 m ρ c (Proc.devRef .tc main_v0)) = _
  rw [arg0_at1 m ρ c, arg4_at1 m ρ c, v0_at1 m ρ c]
  try rfl

/-! ### Boundary 3 -/

theorem v1_at3 : W3 m ρ c (Proc.devRef .tc main_v1) = (n0 m c) := by
  show StableHlo.after hostOps1 (W2 m ρ c) (Proc.devRef .tc main_v1) = _
  dsimp only [hostOps1]
  after_results <;> exact v1_at2 m ρ c

theorem v2_at3 : W3 m ρ c (Proc.devRef .tc main_v2) = (rowOf (m ((c : Thread nD τ).loc main_arg7))) := by
  show StableHlo.after hostOps1 (W2 m ρ c) (Proc.devRef .tc main_v2) = _
  dsimp only [hostOps1]
  after_results
  rw [arg7_at2 m ρ c]
  try rfl

/-! ### Boundary 4 -/

theorem v1_at4 : W4 m ρ c (Proc.devRef .tc main_v1) = (n0 m c) :=
  (W4_of_ne m ρ c main_v1 (by decide)).trans (v1_at3 m ρ c)

theorem v3_at4 : W4 m ρ c (Proc.devRef .tc main_v3) = (e0 m c) := by
  refine (W4_arr m ρ c 3).trans ((Cert.KernelIdeal.R1.final (V3 m ρ) c).trans ?_)
  show encG (M := 625000) (K := 4) (N := 128) (W3 m ρ c (Proc.devRef .tc main_arg2)) (W3 m ρ c (Proc.devRef .tc main_arg6)) (W3 m ρ c (Proc.devRef .tc main_v2)) = _
  rw [arg2_at3 m ρ c, arg6_at3 m ρ c, v2_at3 m ρ c]
  try rfl

/-! ### Boundary 5 -/

theorem v1_at5 : W5 m ρ c (Proc.devRef .tc main_v1) = (n0 m c) := by
  show StableHlo.after hostOps2 (W4 m ρ c) (Proc.devRef .tc main_v1) = _
  dsimp only [hostOps2]
  after_results <;> exact v1_at4 m ρ c

theorem v3_at5 : W5 m ρ c (Proc.devRef .tc main_v3) = (e0 m c) := by
  show StableHlo.after hostOps2 (W4 m ρ c) (Proc.devRef .tc main_v3) = _
  dsimp only [hostOps2]
  after_results <;> exact v3_at4 m ρ c

theorem v5_at5 : W5 m ρ c (Proc.devRef .tc main_v5) = (sr m c) := by
  show StableHlo.after hostOps2 (W4 m ρ c) (Proc.devRef .tc main_v5) = _
  dsimp only [hostOps2]
  after_results
  rw [arg1_at4 m ρ c]
  try rfl

theorem v7_at5 : W5 m ρ c (Proc.devRef .tc main_v7) = (ds m c) := by
  show StableHlo.after hostOps2 (W4 m ρ c) (Proc.devRef .tc main_v7) = _
  dsimp only [hostOps2]
  after_results
  rw [arg1_at4 m ρ c]
  try rfl

theorem v14_at5 : W5 m ρ c (Proc.devRef .tc main_v14) = (gath (n0 m c) (sr m c)) := by
  show StableHlo.after hostOps2 (W4 m ρ c) (Proc.devRef .tc main_v14) = _
  dsimp only [hostOps2]
  after_results
  rw [v1_at4 m ρ c, arg1_at4 m ρ c]
  try rfl

/-! ### Boundary 6 -/

theorem v1_at6 : W6 m ρ c (Proc.devRef .tc main_v1) = (n0 m c) :=
  (W6_of_ne m ρ c main_v1 (by decide)).trans (v1_at5 m ρ c)

theorem v3_at6 : W6 m ρ c (Proc.devRef .tc main_v3) = (e0 m c) :=
  (W6_arr m ρ c 1).trans (((dat2 (V5 m ρ) c).arrAt_in 1 rfl _).trans ((A_eq2 (V5 m ρ) c 1).trans (v3_at5 m ρ c)))

theorem v5_at6 : W6 m ρ c (Proc.devRef .tc main_v5) = (sr m c) :=
  (W6_of_ne m ρ c main_v5 (by decide)).trans (v5_at5 m ρ c)

theorem v7_at6 : W6 m ρ c (Proc.devRef .tc main_v7) = (ds m c) :=
  (W6_of_ne m ρ c main_v7 (by decide)).trans (v7_at5 m ρ c)

theorem v15_at6 : W6 m ρ c (Proc.devRef .tc main_v15) = (msgG (M := 625000) (N := 128) (gath (n0 m c) (sr m c)) (e0 m c)) := by
  refine (W6_arr m ρ c 2).trans ((Cert.KernelIdeal.R2.final (V5 m ρ) c).trans ?_)
  show msgG (M := 625000) (N := 128) (W5 m ρ c (Proc.devRef .tc main_v14)) (W5 m ρ c (Proc.devRef .tc main_v3)) = _
  rw [v14_at5 m ρ c, v3_at5 m ρ c]
  try rfl

/-! ### Boundary 7 -/

theorem v1_at7 : W7 m ρ c (Proc.devRef .tc main_v1) = (n0 m c) := by
  show StableHlo.after hostOps3 (W6 m ρ c) (Proc.devRef .tc main_v1) = _
  dsimp only [hostOps3]
  after_results <;> exact v1_at6 m ρ c

theorem v3_at7 : W7 m ρ c (Proc.devRef .tc main_v3) = (e0 m c) := by
  show StableHlo.after hostOps3 (W6 m ρ c) (Proc.devRef .tc main_v3) = _
  dsimp only [hostOps3]
  after_results <;> exact v3_at6 m ρ c

theorem v5_at7 : W7 m ρ c (Proc.devRef .tc main_v5) = (sr m c) := by
  show StableHlo.after hostOps3 (W6 m ρ c) (Proc.devRef .tc main_v5) = _
  dsimp only [hostOps3]
  after_results <;> exact v5_at6 m ρ c

theorem v7_at7 : W7 m ρ c (Proc.devRef .tc main_v7) = (ds m c) := by
  show StableHlo.after hostOps3 (W6 m ρ c) (Proc.devRef .tc main_v7) = _
  dsimp only [hostOps3]
  after_results <;> exact v7_at6 m ρ c

theorem v18_at7 : W7 m ρ c (Proc.devRef .tc main_v18) = (agg (msgG (M := 625000) (N := 128) (gath (n0 m c) (sr m c)) (e0 m c)) (ds m c)) := by
  show StableHlo.after hostOps3 (W6 m ρ c) (Proc.devRef .tc main_v18) = _
  dsimp only [hostOps3]
  after_results
  rw [v15_at6 m ρ c, v7_at6 m ρ c]
  try rfl

theorem v20_at7 : W7 m ρ c (Proc.devRef .tc main_v20) = (w1_0 (m ((c : Thread nD τ).loc main_arg8))) := by
  show StableHlo.after hostOps3 (W6 m ρ c) (Proc.devRef .tc main_v20) = _
  dsimp only [hostOps3]
  after_results
  rw [arg8_at6 m ρ c]
  try rfl

theorem v31_at7 : W7 m ρ c (Proc.devRef .tc main_v31) = (b1r_0 (m ((c : Thread nD τ).loc main_arg9))) := by
  show StableHlo.after hostOps3 (W6 m ρ c) (Proc.devRef .tc main_v31) = _
  dsimp only [hostOps3]
  after_results
  rw [arg9_at6 m ρ c]
  try rfl

theorem v24_at7 : W7 m ρ c (Proc.devRef .tc main_v24) = (w2_0 (m ((c : Thread nD τ).loc main_arg10))) := by
  show StableHlo.after hostOps3 (W6 m ρ c) (Proc.devRef .tc main_v24) = _
  dsimp only [hostOps3]
  after_results
  rw [arg10_at6 m ρ c]
  try rfl

theorem v32_at7 : W7 m ρ c (Proc.devRef .tc main_v32) = (b2r_0 (m ((c : Thread nD τ).loc main_arg11))) := by
  show StableHlo.after hostOps3 (W6 m ρ c) (Proc.devRef .tc main_v32) = _
  dsimp only [hostOps3]
  after_results
  rw [arg11_at6 m ρ c]
  try rfl

theorem v33_at7 : W7 m ρ c (Proc.devRef .tc main_v33) = (gr_0 (m ((c : Thread nD τ).loc main_arg12))) := by
  show StableHlo.after hostOps3 (W6 m ρ c) (Proc.devRef .tc main_v33) = _
  dsimp only [hostOps3]
  after_results
  rw [arg12_at6 m ρ c]
  try rfl

theorem v34_at7 : W7 m ρ c (Proc.devRef .tc main_v34) = (btr_0 (m ((c : Thread nD τ).loc main_arg13))) := by
  show StableHlo.after hostOps3 (W6 m ρ c) (Proc.devRef .tc main_v34) = _
  dsimp only [hostOps3]
  after_results
  rw [arg13_at6 m ρ c]
  try rfl

/-! ### Boundary 8 -/

theorem v3_at8 : W8 m ρ c (Proc.devRef .tc main_v3) = (e0 m c) :=
  (W8_of_ne m ρ c main_v3 (by decide)).trans (v3_at7 m ρ c)

theorem v5_at8 : W8 m ρ c (Proc.devRef .tc main_v5) = (sr m c) :=
  (W8_of_ne m ρ c main_v5 (by decide)).trans (v5_at7 m ρ c)

theorem v7_at8 : W8 m ρ c (Proc.devRef .tc main_v7) = (ds m c) :=
  (W8_of_ne m ρ c main_v7 (by decide)).trans (v7_at7 m ρ c)

theorem v35_at8 : W8 m ρ c (Proc.devRef .tc main_v35) = (n1 m c) := by
  refine (W8_arr m ρ c 8).trans ((Cert.KernelIdeal.R3.final (V7 m ρ) c).trans ?_)
  show layerG (M := 50000) (W7 m ρ c (Proc.devRef .tc main_v1)) (W7 m ρ c (Proc.devRef .tc main_v18)) (W7 m ρ c (Proc.devRef .tc main_v20)) (W7 m ρ c (Proc.devRef .tc main_v31)) (W7 m ρ c (Proc.devRef .tc main_v24)) (W7 m ρ c (Proc.devRef .tc main_v32)) (W7 m ρ c (Proc.devRef .tc main_v33)) (W7 m ρ c (Proc.devRef .tc main_v34)) = _
  rw [v1_at7 m ρ c, v18_at7 m ρ c, v20_at7 m ρ c, v31_at7 m ρ c, v24_at7 m ρ c, v32_at7 m ρ c, v33_at7 m ρ c, v34_at7 m ρ c]
  try rfl

/-! ### Boundary 9 -/

theorem v3_at9 : W9 m ρ c (Proc.devRef .tc main_v3) = (e0 m c) := by
  show StableHlo.after hostOps4 (W8 m ρ c) (Proc.devRef .tc main_v3) = _
  dsimp only [hostOps4]
  after_results <;> exact v3_at8 m ρ c

theorem v5_at9 : W9 m ρ c (Proc.devRef .tc main_v5) = (sr m c) := by
  show StableHlo.after hostOps4 (W8 m ρ c) (Proc.devRef .tc main_v5) = _
  dsimp only [hostOps4]
  after_results <;> exact v5_at8 m ρ c

theorem v7_at9 : W9 m ρ c (Proc.devRef .tc main_v7) = (ds m c) := by
  show StableHlo.after hostOps4 (W8 m ρ c) (Proc.devRef .tc main_v7) = _
  dsimp only [hostOps4]
  after_results <;> exact v7_at8 m ρ c

theorem v35_at9 : W9 m ρ c (Proc.devRef .tc main_v35) = (n1 m c) := by
  show StableHlo.after hostOps4 (W8 m ρ c) (Proc.devRef .tc main_v35) = _
  dsimp only [hostOps4]
  after_results <;> exact v35_at8 m ρ c

theorem v42_at9 : W9 m ρ c (Proc.devRef .tc main_v42) = (gath (n1 m c) (sr m c)) := by
  show StableHlo.after hostOps4 (W8 m ρ c) (Proc.devRef .tc main_v42) = _
  dsimp only [hostOps4]
  after_results
  rw [v35_at8 m ρ c, v5_at8 m ρ c]
  try rfl

/-! ### Boundary 10 -/

theorem v3_at10 : W10 m ρ c (Proc.devRef .tc main_v3) = (e0 m c) :=
  (W10_arr m ρ c 1).trans (((dat4 (V9 m ρ) c).arrAt_in 1 rfl _).trans ((A_eq4 (V9 m ρ) c 1).trans (v3_at9 m ρ c)))

theorem v5_at10 : W10 m ρ c (Proc.devRef .tc main_v5) = (sr m c) :=
  (W10_of_ne m ρ c main_v5 (by decide)).trans (v5_at9 m ρ c)

theorem v7_at10 : W10 m ρ c (Proc.devRef .tc main_v7) = (ds m c) :=
  (W10_of_ne m ρ c main_v7 (by decide)).trans (v7_at9 m ρ c)

theorem v35_at10 : W10 m ρ c (Proc.devRef .tc main_v35) = (n1 m c) :=
  (W10_of_ne m ρ c main_v35 (by decide)).trans (v35_at9 m ρ c)

theorem v43_at10 : W10 m ρ c (Proc.devRef .tc main_v43) = (msgG (M := 625000) (N := 128) (gath (n1 m c) (sr m c)) (e0 m c)) := by
  refine (W10_arr m ρ c 2).trans ((Cert.KernelIdeal.R4.final (V9 m ρ) c).trans ?_)
  show msgG (M := 625000) (N := 128) (W9 m ρ c (Proc.devRef .tc main_v42)) (W9 m ρ c (Proc.devRef .tc main_v3)) = _
  rw [v42_at9 m ρ c, v3_at9 m ρ c]
  try rfl

/-! ### Boundary 11 -/

theorem v3_at11 : W11 m ρ c (Proc.devRef .tc main_v3) = (e0 m c) := by
  show StableHlo.after hostOps5 (W10 m ρ c) (Proc.devRef .tc main_v3) = _
  dsimp only [hostOps5]
  after_results <;> exact v3_at10 m ρ c

theorem v5_at11 : W11 m ρ c (Proc.devRef .tc main_v5) = (sr m c) := by
  show StableHlo.after hostOps5 (W10 m ρ c) (Proc.devRef .tc main_v5) = _
  dsimp only [hostOps5]
  after_results <;> exact v5_at10 m ρ c

theorem v7_at11 : W11 m ρ c (Proc.devRef .tc main_v7) = (ds m c) := by
  show StableHlo.after hostOps5 (W10 m ρ c) (Proc.devRef .tc main_v7) = _
  dsimp only [hostOps5]
  after_results <;> exact v7_at10 m ρ c

theorem v35_at11 : W11 m ρ c (Proc.devRef .tc main_v35) = (n1 m c) := by
  show StableHlo.after hostOps5 (W10 m ρ c) (Proc.devRef .tc main_v35) = _
  dsimp only [hostOps5]
  after_results <;> exact v35_at10 m ρ c

theorem v46_at11 : W11 m ρ c (Proc.devRef .tc main_v46) = (agg (msgG (M := 625000) (N := 128) (gath (n1 m c) (sr m c)) (e0 m c)) (ds m c)) := by
  show StableHlo.after hostOps5 (W10 m ρ c) (Proc.devRef .tc main_v46) = _
  dsimp only [hostOps5]
  after_results
  rw [v43_at10 m ρ c, v7_at10 m ρ c]
  try rfl

theorem v48_at11 : W11 m ρ c (Proc.devRef .tc main_v48) = (w1_1 (m ((c : Thread nD τ).loc main_arg8))) := by
  show StableHlo.after hostOps5 (W10 m ρ c) (Proc.devRef .tc main_v48) = _
  dsimp only [hostOps5]
  after_results
  rw [arg8_at10 m ρ c]
  try rfl

theorem v59_at11 : W11 m ρ c (Proc.devRef .tc main_v59) = (b1r_1 (m ((c : Thread nD τ).loc main_arg9))) := by
  show StableHlo.after hostOps5 (W10 m ρ c) (Proc.devRef .tc main_v59) = _
  dsimp only [hostOps5]
  after_results
  rw [arg9_at10 m ρ c]
  try rfl

theorem v52_at11 : W11 m ρ c (Proc.devRef .tc main_v52) = (w2_1 (m ((c : Thread nD τ).loc main_arg10))) := by
  show StableHlo.after hostOps5 (W10 m ρ c) (Proc.devRef .tc main_v52) = _
  dsimp only [hostOps5]
  after_results
  rw [arg10_at10 m ρ c]
  try rfl

theorem v60_at11 : W11 m ρ c (Proc.devRef .tc main_v60) = (b2r_1 (m ((c : Thread nD τ).loc main_arg11))) := by
  show StableHlo.after hostOps5 (W10 m ρ c) (Proc.devRef .tc main_v60) = _
  dsimp only [hostOps5]
  after_results
  rw [arg11_at10 m ρ c]
  try rfl

theorem v61_at11 : W11 m ρ c (Proc.devRef .tc main_v61) = (gr_1 (m ((c : Thread nD τ).loc main_arg12))) := by
  show StableHlo.after hostOps5 (W10 m ρ c) (Proc.devRef .tc main_v61) = _
  dsimp only [hostOps5]
  after_results
  rw [arg12_at10 m ρ c]
  try rfl

theorem v62_at11 : W11 m ρ c (Proc.devRef .tc main_v62) = (btr_1 (m ((c : Thread nD τ).loc main_arg13))) := by
  show StableHlo.after hostOps5 (W10 m ρ c) (Proc.devRef .tc main_v62) = _
  dsimp only [hostOps5]
  after_results
  rw [arg13_at10 m ρ c]
  try rfl

/-! ### Boundary 12 -/

theorem v3_at12 : W12 m ρ c (Proc.devRef .tc main_v3) = (e0 m c) :=
  (W12_of_ne m ρ c main_v3 (by decide)).trans (v3_at11 m ρ c)

theorem v5_at12 : W12 m ρ c (Proc.devRef .tc main_v5) = (sr m c) :=
  (W12_of_ne m ρ c main_v5 (by decide)).trans (v5_at11 m ρ c)

theorem v7_at12 : W12 m ρ c (Proc.devRef .tc main_v7) = (ds m c) :=
  (W12_of_ne m ρ c main_v7 (by decide)).trans (v7_at11 m ρ c)

theorem v63_at12 : W12 m ρ c (Proc.devRef .tc main_v63) = (n2 m c) := by
  refine (W12_arr m ρ c 8).trans ((Cert.KernelIdeal.R5.final (V11 m ρ) c).trans ?_)
  show layerG (M := 50000) (W11 m ρ c (Proc.devRef .tc main_v35)) (W11 m ρ c (Proc.devRef .tc main_v46)) (W11 m ρ c (Proc.devRef .tc main_v48)) (W11 m ρ c (Proc.devRef .tc main_v59)) (W11 m ρ c (Proc.devRef .tc main_v52)) (W11 m ρ c (Proc.devRef .tc main_v60)) (W11 m ρ c (Proc.devRef .tc main_v61)) (W11 m ρ c (Proc.devRef .tc main_v62)) = _
  rw [v35_at11 m ρ c, v46_at11 m ρ c, v48_at11 m ρ c, v59_at11 m ρ c, v52_at11 m ρ c, v60_at11 m ρ c, v61_at11 m ρ c, v62_at11 m ρ c]
  try rfl

/-! ### Boundary 13 -/

theorem v3_at13 : W13 m ρ c (Proc.devRef .tc main_v3) = (e0 m c) := by
  show StableHlo.after hostOps6 (W12 m ρ c) (Proc.devRef .tc main_v3) = _
  dsimp only [hostOps6]
  after_results <;> exact v3_at12 m ρ c

theorem v5_at13 : W13 m ρ c (Proc.devRef .tc main_v5) = (sr m c) := by
  show StableHlo.after hostOps6 (W12 m ρ c) (Proc.devRef .tc main_v5) = _
  dsimp only [hostOps6]
  after_results <;> exact v5_at12 m ρ c

theorem v7_at13 : W13 m ρ c (Proc.devRef .tc main_v7) = (ds m c) := by
  show StableHlo.after hostOps6 (W12 m ρ c) (Proc.devRef .tc main_v7) = _
  dsimp only [hostOps6]
  after_results <;> exact v7_at12 m ρ c

theorem v63_at13 : W13 m ρ c (Proc.devRef .tc main_v63) = (n2 m c) := by
  show StableHlo.after hostOps6 (W12 m ρ c) (Proc.devRef .tc main_v63) = _
  dsimp only [hostOps6]
  after_results <;> exact v63_at12 m ρ c

theorem v70_at13 : W13 m ρ c (Proc.devRef .tc main_v70) = (gath (n2 m c) (sr m c)) := by
  show StableHlo.after hostOps6 (W12 m ρ c) (Proc.devRef .tc main_v70) = _
  dsimp only [hostOps6]
  after_results
  rw [v63_at12 m ρ c, v5_at12 m ρ c]
  try rfl

/-! ### Boundary 14 -/

theorem v3_at14 : W14 m ρ c (Proc.devRef .tc main_v3) = (e0 m c) :=
  (W14_arr m ρ c 1).trans (((dat6 (V13 m ρ) c).arrAt_in 1 rfl _).trans ((A_eq6 (V13 m ρ) c 1).trans (v3_at13 m ρ c)))

theorem v5_at14 : W14 m ρ c (Proc.devRef .tc main_v5) = (sr m c) :=
  (W14_of_ne m ρ c main_v5 (by decide)).trans (v5_at13 m ρ c)

theorem v7_at14 : W14 m ρ c (Proc.devRef .tc main_v7) = (ds m c) :=
  (W14_of_ne m ρ c main_v7 (by decide)).trans (v7_at13 m ρ c)

theorem v63_at14 : W14 m ρ c (Proc.devRef .tc main_v63) = (n2 m c) :=
  (W14_of_ne m ρ c main_v63 (by decide)).trans (v63_at13 m ρ c)

theorem v71_at14 : W14 m ρ c (Proc.devRef .tc main_v71) = (msgG (M := 625000) (N := 128) (gath (n2 m c) (sr m c)) (e0 m c)) := by
  refine (W14_arr m ρ c 2).trans ((Cert.KernelIdeal.R6.final (V13 m ρ) c).trans ?_)
  show msgG (M := 625000) (N := 128) (W13 m ρ c (Proc.devRef .tc main_v70)) (W13 m ρ c (Proc.devRef .tc main_v3)) = _
  rw [v70_at13 m ρ c, v3_at13 m ρ c]
  try rfl

/-! ### Boundary 15 -/

theorem v3_at15 : W15 m ρ c (Proc.devRef .tc main_v3) = (e0 m c) := by
  show StableHlo.after hostOps7 (W14 m ρ c) (Proc.devRef .tc main_v3) = _
  dsimp only [hostOps7]
  after_results <;> exact v3_at14 m ρ c

theorem v5_at15 : W15 m ρ c (Proc.devRef .tc main_v5) = (sr m c) := by
  show StableHlo.after hostOps7 (W14 m ρ c) (Proc.devRef .tc main_v5) = _
  dsimp only [hostOps7]
  after_results <;> exact v5_at14 m ρ c

theorem v7_at15 : W15 m ρ c (Proc.devRef .tc main_v7) = (ds m c) := by
  show StableHlo.after hostOps7 (W14 m ρ c) (Proc.devRef .tc main_v7) = _
  dsimp only [hostOps7]
  after_results <;> exact v7_at14 m ρ c

theorem v63_at15 : W15 m ρ c (Proc.devRef .tc main_v63) = (n2 m c) := by
  show StableHlo.after hostOps7 (W14 m ρ c) (Proc.devRef .tc main_v63) = _
  dsimp only [hostOps7]
  after_results <;> exact v63_at14 m ρ c

theorem v74_at15 : W15 m ρ c (Proc.devRef .tc main_v74) = (agg (msgG (M := 625000) (N := 128) (gath (n2 m c) (sr m c)) (e0 m c)) (ds m c)) := by
  show StableHlo.after hostOps7 (W14 m ρ c) (Proc.devRef .tc main_v74) = _
  dsimp only [hostOps7]
  after_results
  rw [v71_at14 m ρ c, v7_at14 m ρ c]
  try rfl

theorem v76_at15 : W15 m ρ c (Proc.devRef .tc main_v76) = (w1_2 (m ((c : Thread nD τ).loc main_arg8))) := by
  show StableHlo.after hostOps7 (W14 m ρ c) (Proc.devRef .tc main_v76) = _
  dsimp only [hostOps7]
  after_results
  rw [arg8_at14 m ρ c]
  try rfl

theorem v87_at15 : W15 m ρ c (Proc.devRef .tc main_v87) = (b1r_2 (m ((c : Thread nD τ).loc main_arg9))) := by
  show StableHlo.after hostOps7 (W14 m ρ c) (Proc.devRef .tc main_v87) = _
  dsimp only [hostOps7]
  after_results
  rw [arg9_at14 m ρ c]
  try rfl

theorem v80_at15 : W15 m ρ c (Proc.devRef .tc main_v80) = (w2_2 (m ((c : Thread nD τ).loc main_arg10))) := by
  show StableHlo.after hostOps7 (W14 m ρ c) (Proc.devRef .tc main_v80) = _
  dsimp only [hostOps7]
  after_results
  rw [arg10_at14 m ρ c]
  try rfl

theorem v88_at15 : W15 m ρ c (Proc.devRef .tc main_v88) = (b2r_2 (m ((c : Thread nD τ).loc main_arg11))) := by
  show StableHlo.after hostOps7 (W14 m ρ c) (Proc.devRef .tc main_v88) = _
  dsimp only [hostOps7]
  after_results
  rw [arg11_at14 m ρ c]
  try rfl

theorem v89_at15 : W15 m ρ c (Proc.devRef .tc main_v89) = (gr_2 (m ((c : Thread nD τ).loc main_arg12))) := by
  show StableHlo.after hostOps7 (W14 m ρ c) (Proc.devRef .tc main_v89) = _
  dsimp only [hostOps7]
  after_results
  rw [arg12_at14 m ρ c]
  try rfl

theorem v90_at15 : W15 m ρ c (Proc.devRef .tc main_v90) = (btr_2 (m ((c : Thread nD τ).loc main_arg13))) := by
  show StableHlo.after hostOps7 (W14 m ρ c) (Proc.devRef .tc main_v90) = _
  dsimp only [hostOps7]
  after_results
  rw [arg13_at14 m ρ c]
  try rfl

/-! ### Boundary 16 -/

theorem v3_at16 : W16 m ρ c (Proc.devRef .tc main_v3) = (e0 m c) :=
  (W16_of_ne m ρ c main_v3 (by decide)).trans (v3_at15 m ρ c)

theorem v5_at16 : W16 m ρ c (Proc.devRef .tc main_v5) = (sr m c) :=
  (W16_of_ne m ρ c main_v5 (by decide)).trans (v5_at15 m ρ c)

theorem v7_at16 : W16 m ρ c (Proc.devRef .tc main_v7) = (ds m c) :=
  (W16_of_ne m ρ c main_v7 (by decide)).trans (v7_at15 m ρ c)

theorem v91_at16 : W16 m ρ c (Proc.devRef .tc main_v91) = (n3 m c) := by
  refine (W16_arr m ρ c 8).trans ((Cert.KernelIdeal.R7.final (V15 m ρ) c).trans ?_)
  show layerG (M := 50000) (W15 m ρ c (Proc.devRef .tc main_v63)) (W15 m ρ c (Proc.devRef .tc main_v74)) (W15 m ρ c (Proc.devRef .tc main_v76)) (W15 m ρ c (Proc.devRef .tc main_v87)) (W15 m ρ c (Proc.devRef .tc main_v80)) (W15 m ρ c (Proc.devRef .tc main_v88)) (W15 m ρ c (Proc.devRef .tc main_v89)) (W15 m ρ c (Proc.devRef .tc main_v90)) = _
  rw [v63_at15 m ρ c, v74_at15 m ρ c, v76_at15 m ρ c, v87_at15 m ρ c, v80_at15 m ρ c, v88_at15 m ρ c, v89_at15 m ρ c, v90_at15 m ρ c]
  try rfl

/-! ### Boundary 17 -/

theorem v3_at17 : W17 m ρ c (Proc.devRef .tc main_v3) = (e0 m c) := by
  show StableHlo.after hostOps8 (W16 m ρ c) (Proc.devRef .tc main_v3) = _
  dsimp only [hostOps8]
  after_results <;> exact v3_at16 m ρ c

theorem v7_at17 : W17 m ρ c (Proc.devRef .tc main_v7) = (ds m c) := by
  show StableHlo.after hostOps8 (W16 m ρ c) (Proc.devRef .tc main_v7) = _
  dsimp only [hostOps8]
  after_results <;> exact v7_at16 m ρ c

theorem v91_at17 : W17 m ρ c (Proc.devRef .tc main_v91) = (n3 m c) := by
  show StableHlo.after hostOps8 (W16 m ρ c) (Proc.devRef .tc main_v91) = _
  dsimp only [hostOps8]
  after_results <;> exact v91_at16 m ρ c

theorem v98_at17 : W17 m ρ c (Proc.devRef .tc main_v98) = (gath (n3 m c) (sr m c)) := by
  show StableHlo.after hostOps8 (W16 m ρ c) (Proc.devRef .tc main_v98) = _
  dsimp only [hostOps8]
  after_results
  rw [v91_at16 m ρ c, v5_at16 m ρ c]
  try rfl

/-! ### Boundary 18 -/

theorem v7_at18 : W18 m ρ c (Proc.devRef .tc main_v7) = (ds m c) :=
  (W18_of_ne m ρ c main_v7 (by decide)).trans (v7_at17 m ρ c)

theorem v91_at18 : W18 m ρ c (Proc.devRef .tc main_v91) = (n3 m c) :=
  (W18_of_ne m ρ c main_v91 (by decide)).trans (v91_at17 m ρ c)

theorem v99_at18 : W18 m ρ c (Proc.devRef .tc main_v99) = (msgG (M := 625000) (N := 128) (gath (n3 m c) (sr m c)) (e0 m c)) := by
  refine (W18_arr m ρ c 2).trans ((Cert.KernelIdeal.R8.final (V17 m ρ) c).trans ?_)
  show msgG (M := 625000) (N := 128) (W17 m ρ c (Proc.devRef .tc main_v98)) (W17 m ρ c (Proc.devRef .tc main_v3)) = _
  rw [v98_at17 m ρ c, v3_at17 m ρ c]
  try rfl

/-! ### Boundary 19 -/

theorem v91_at19 : W19 m ρ c (Proc.devRef .tc main_v91) = (n3 m c) := by
  show StableHlo.after hostOps9 (W18 m ρ c) (Proc.devRef .tc main_v91) = _
  dsimp only [hostOps9]
  after_results <;> exact v91_at18 m ρ c

theorem v102_at19 : W19 m ρ c (Proc.devRef .tc main_v102) = (agg (msgG (M := 625000) (N := 128) (gath (n3 m c) (sr m c)) (e0 m c)) (ds m c)) := by
  show StableHlo.after hostOps9 (W18 m ρ c) (Proc.devRef .tc main_v102) = _
  dsimp only [hostOps9]
  after_results
  rw [v99_at18 m ρ c, v7_at18 m ρ c]
  try rfl

theorem v104_at19 : W19 m ρ c (Proc.devRef .tc main_v104) = (w1_3 (m ((c : Thread nD τ).loc main_arg8))) := by
  show StableHlo.after hostOps9 (W18 m ρ c) (Proc.devRef .tc main_v104) = _
  dsimp only [hostOps9]
  after_results
  rw [arg8_at18 m ρ c]
  try rfl

theorem v115_at19 : W19 m ρ c (Proc.devRef .tc main_v115) = (b1r_3 (m ((c : Thread nD τ).loc main_arg9))) := by
  show StableHlo.after hostOps9 (W18 m ρ c) (Proc.devRef .tc main_v115) = _
  dsimp only [hostOps9]
  after_results
  rw [arg9_at18 m ρ c]
  try rfl

theorem v108_at19 : W19 m ρ c (Proc.devRef .tc main_v108) = (w2_3 (m ((c : Thread nD τ).loc main_arg10))) := by
  show StableHlo.after hostOps9 (W18 m ρ c) (Proc.devRef .tc main_v108) = _
  dsimp only [hostOps9]
  after_results
  rw [arg10_at18 m ρ c]
  try rfl

theorem v116_at19 : W19 m ρ c (Proc.devRef .tc main_v116) = (b2r_3 (m ((c : Thread nD τ).loc main_arg11))) := by
  show StableHlo.after hostOps9 (W18 m ρ c) (Proc.devRef .tc main_v116) = _
  dsimp only [hostOps9]
  after_results
  rw [arg11_at18 m ρ c]
  try rfl

theorem v117_at19 : W19 m ρ c (Proc.devRef .tc main_v117) = (gr_3 (m ((c : Thread nD τ).loc main_arg12))) := by
  show StableHlo.after hostOps9 (W18 m ρ c) (Proc.devRef .tc main_v117) = _
  dsimp only [hostOps9]
  after_results
  rw [arg12_at18 m ρ c]
  try rfl

theorem v118_at19 : W19 m ρ c (Proc.devRef .tc main_v118) = (btr_3 (m ((c : Thread nD τ).loc main_arg13))) := by
  show StableHlo.after hostOps9 (W18 m ρ c) (Proc.devRef .tc main_v118) = _
  dsimp only [hostOps9]
  after_results
  rw [arg13_at18 m ρ c]
  try rfl

/-! ### Boundary 20 -/

theorem v119_at20 : W20 m ρ c (Proc.devRef .tc main_v119) = (n4 m c) := by
  refine (W20_arr m ρ c 8).trans ((Cert.KernelIdeal.R9.final (V19 m ρ) c).trans ?_)
  show layerG (M := 50000) (W19 m ρ c (Proc.devRef .tc main_v91)) (W19 m ρ c (Proc.devRef .tc main_v102)) (W19 m ρ c (Proc.devRef .tc main_v104)) (W19 m ρ c (Proc.devRef .tc main_v115)) (W19 m ρ c (Proc.devRef .tc main_v108)) (W19 m ρ c (Proc.devRef .tc main_v116)) (W19 m ρ c (Proc.devRef .tc main_v117)) (W19 m ρ c (Proc.devRef .tc main_v118)) = _
  rw [v91_at19 m ρ c, v102_at19 m ρ c, v104_at19 m ρ c, v115_at19 m ρ c, v108_at19 m ρ c, v116_at19 m ρ c, v117_at19 m ρ c, v118_at19 m ρ c]
  try rfl

/-! ### Boundary 21 -/

theorem v122_at21 : W21 m ρ c (Proc.devRef .tc main_v122) = (net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  show StableHlo.after hostOps10 (W20 m ρ c) (Proc.devRef .tc main_v122) = _
  dsimp only [hostOps10]
  after_results
  rw [v119_at20 m ρ c, arg3_at20 m ρ c]
  try rfl

/-- The result buffer at the last boundary is the network of the argument arrays as launched. -/
theorem result_eq : W21 m ρ c (Proc.devRef .tc main_v122) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := v122_at21 m ρ c

end Cert.KernelIdeal.Fold

end
-- ==== Proof.LibHostRowMax.lean ====
/-
  A host reduction by maximum along the rows of a matrix, read at a row.

  For any extents: the one-operand host reduction of an `[n, d]` array along its second axis with the maximum as its body
  is, at row `p`, the fold of the maximum from the initial value over the row's `d` entries.
-/
import Idealize.ShloMosaic.PureOps.Ideal.Laws
import Idealize.ShloMosaic.PureOps.Reduce
import Idealize.ShloMosaic.Lib.ValueIdx

noncomputable section

namespace Cert.LibHostRowMax

open Idealize.ShloMosaic Idealize.ShloMosaic.ValueIdx

/-- Row `p` with the column coordinate `k` inserted is the entry `(p, k)`. -/
theorem lift_row {n d : ℕ} (hR : (⟨2, ![n, d]⟩ : Shape).Reduces [1] ⟨1, ![n]⟩) (p : Fin n) (k : Fin d) :
    hR.lift (ix1 p) k = ix2 p k := by
  funext a
  match a with
  | ⟨0, _⟩ => rfl
  | ⟨1, _⟩ => rfl

/-- The host's row maximum at row `p`: the fold of the maximum over the row from the initial value. -/
theorem reduce_max_row {n d : ℕ} {u : Shape} (A : (⟨2, ![n, d]⟩ : Shape).Idx → EReal) (init : u.Idx → EReal)
    (h' : (⟨2, ![n, d]⟩ : Shape).ReducesTo [1] ⟨1, ![n]⟩) (hR : (⟨2, ![n, d]⟩ : Shape).Reduces [1] ⟨1, ![n]⟩)
    (hu : 0 < u.numel) (p : Fin n) :
    Host.reduce (FloatOps.maximumf (F := Ideal) (φ := .f32)) A init h' hu (ix1 p)
      = (Finset.univ : Finset (Fin d)).fold max (init (Shape.Idx.first hu)) fun k => A (ix2 p k) := by
  refine (Host.reduce_eq_fold_single (α := Ideal .f32) FloatOps.maximumf A init h' hR hu (ix1 p)).trans ?_
  refine congrArg (Finset.fold max (init (Shape.Idx.first hu)) · Finset.univ) ?_
  funext k
  exact congrArg A (lift_row hR p k)

end Cert.LibHostRowMax

end
-- ==== Proof.LibHostRowSum.lean ====
/-
  A host sum along the rows of a matrix, and the host's pointwise exponential and logarithm, read at an entry.

  For any extents: the host reduction of an `[n, d]` array along its second axis with addition as its body is, at row
  `p` and at the exact values, the initial value plus the sum of the row's `d` entries. The host's exponential and
  logarithm of an array are, entry by entry, the exact exponential and logarithm.
-/
import proofs.«157398_j15616501088448_1_alg».proof.Proof.LibHostRowMax
import Idealize.ShloMosaic.PureOps.Ideal.Laws
import Idealize.ShloMosaic.Lib.ValueIdx

noncomputable section

namespace Cert.LibHostRowSum

open Idealize.ShloMosaic Idealize.ShloMosaic.ValueIdx

/-- The host's row sum at row `p`: the initial value plus the sum over the row. -/
theorem reduceAdd_row {n d : ℕ} {u : Shape} (A : (⟨2, ![n, d]⟩ : Shape).Idx → EReal) (init : u.Idx → EReal)
    (h' : (⟨2, ![n, d]⟩ : Shape).ReducesTo [1] ⟨1, ![n]⟩) (hR : (⟨2, ![n, d]⟩ : Shape).Reduces [1] ⟨1, ![n]⟩)
    (hu : 0 < u.numel) (p : Fin n) :
    Host.reduceAdd (F := Ideal) (φ := .f32) A init h' hu (ix1 p)
      = init (Shape.Idx.first hu) + ∑ k : Fin d, A (ix2 p k) := by
  unfold Host.reduceAdd
  rw [Ideal.hostReduceAdd_def, Ideal.hostReduceAdd_single h' hR]
  refine congrArg (init (Shape.Idx.first hu) + ·) (Finset.sum_congr rfl fun k _ => ?_)
  exact congrArg A (Cert.LibHostRowMax.lift_row hR p k)

/-- The host's exponential of an array, at an entry. -/
theorem hostExp_apply {s : Shape} (v : FVec Ideal s .f32) (i : s.Idx) : Host.exp v i = Ideal.exp (v i) := rfl

/-- The host's logarithm of an array, at an entry. -/
theorem hostLog_apply {s : Shape} (v : FVec Ideal s .f32) (i : s.Idx) : Host.log v i = Ideal.log (v i) := rfl

end Cert.LibHostRowSum

end
-- ==== Proof.LibHostColumn.lean ====
/-
  A row statistic spread back over the rows, on the host; and a fold that does not mind its starting value twice.

  A host reduction along the rows of an `[n, d]` array comes back as an `[n]` vector. To combine it with the array again
  the host spreads it into a column `[n, 1]` and the column along the rows to `[n, d]` (two `broadcast_in_dim`s, with
  dimension maps `[0]` and `[0, 1]`): entry (r, q) of the result is entry r of the vector. Both steps are stated for
  arbitrary extents. The last lemma: the maximum of a value with a fold of the maximum that started from that same value is
  the fold (what `max(x, axis, initial=-inf)` adds to a reduce that already started from −∞).
-/
import Idealize.ShloMosaic.Lib.Pipeline.Value
import Idealize.ShloMosaic.Lib.ValueIdx
import Idealize.ShloMosaic.PureOps.Ideal

noncomputable section

namespace Cert.LibHostColumn

open Idealize.ShloMosaic Idealize.ShloMosaic.ValueIdx

/-- A vector spread into a column reads, at (r, 0), the vector's entry r. -/
theorem column_apply {α : Type} {n : ℕ} (x : (⟨1, ![n]⟩ : Shape).Idx → α)
    (h : (⟨1, ![n]⟩ : Shape).BroadcastsInDim ⟨2, ![n, 1]⟩ (![0] : Fin 1 → Fin 2)) (r : Fin n) (u : Fin 1) :
    broadcastInDim ⟨2, ![n, 1]⟩ ![0] h x (ix2 r u) = x (ix1 r) := by
  refine broadcastInDim_apply _ h x (ix2 r u) (ix1 r) fun a => ?_
  match a with
  | ⟨0, _⟩ =>
    show r.val = if n = 1 then 0 else r.val
    split
    · have := r.isLt; omega
    · rfl

/-- A column spread along the rows reads, at (r, q), the column's entry r. -/
theorem spread_apply {α : Type} {n d : ℕ} (x : (⟨2, ![n, 1]⟩ : Shape).Idx → α)
    (h : (⟨2, ![n, 1]⟩ : Shape).BroadcastsInDim ⟨2, ![n, d]⟩ (![0, 1] : Fin 2 → Fin 2)) (r : Fin n) (q : Fin d) :
    broadcastInDim ⟨2, ![n, d]⟩ ![0, 1] h x (ix2 r q) = x (ix2 r (0 : Fin 1)) := by
  refine broadcastInDim_apply _ h x (ix2 r q) (ix2 r (0 : Fin 1)) fun a => ?_
  match a with
  | ⟨0, _⟩ =>
    show r.val = if n = 1 then 0 else r.val
    split
    · have := r.isLt; omega
    · rfl
  | ⟨1, _⟩ => rfl

/-- One more maximum with the fold's starting value changes nothing. -/
theorem max_start_fold {ι : Type} (s : Finset ι) (a : EReal) (f : ι → EReal) : max a (s.fold max a f) = s.fold max a f :=
  max_eq_right (Finset.le_fold_max a |>.mpr (Or.inl le_rfl))

end Cert.LibHostColumn

end
-- ==== Proof.HostSpec.lean ====
/-
  The same stages as the host spells them, read at an entry.

  On the host a dense layer is a `dot_general` plus the bias vector regarded as one row and repeated down the rows; a
  row mean is a reduction along the second axis from zero, spread into a column and divided by a column of 128s; the
  normalisation broadcasts the mean, and the reciprocal square root of the variance plus a small constant, back along
  the rows. Read at an entry (r, q), each is the row function of row r, with a bias vector v appearing as the row
  (0, q) ↦ v q. All statements are for any number of rows M.
-/
import proofs.«157398_j15616501088448_1_alg».proof.Proof.Spec
import proofs.«157398_j15616501088448_1_alg».proof.Proof.LibHostRow
import proofs.«157398_j15616501088448_1_alg».proof.Proof.LibHostRowSum
import proofs.«157398_j15616501088448_1_alg».proof.Proof.LibHostColumn

noncomputable section

open scoped BigOperators

namespace Cert.Gine

open Idealize.ShloMosaic Idealize.ShloMosaic.ValueIdx

abbrev IdF := Idealize.ShloMosaic.Ideal
abbrev S0 : Shape := ⟨0, ![]⟩

/-- The host's message at an entry. -/
theorem hostMsg_apply {t : Shape} (a e : FVec IdF t .f32) (hb : S0.BroadcastsInDim t (![] : Fin 0 → Fin t.rank))
    (j : t.Idx) :
    maximumf (addf a e) (broadcastInDim t ![] hb (constant (F := IdF) S0 .f32 0x00000000#32)) j = msgAt (a j) (e j) := by
  show max (a j + e j) (broadcastInDim t ![] hb (constant (F := IdF) S0 .f32 0x00000000#32) j) = _
  rw [Cert.LibHostRow.scalar_apply]
  rfl

section Layer

variable {M : ℕ}

/-- The host's perceptron at an entry. -/
theorem hostMlp_apply (h ag : FVec IdF ⟨2, ![M, 128]⟩ .f32) (w1 : FVec IdF ⟨2, ![128, 256]⟩ .f32)
    (b1v : FVec IdF ⟨1, ![256]⟩ .f32) (w2 : FVec IdF ⟨2, ![256, 128]⟩ .f32) (b2v : FVec IdF ⟨1, ![128]⟩ .f32)
    (hr1 : (⟨1, ![256]⟩ : Shape).BroadcastsInDim ⟨2, ![1, 256]⟩ (![1] : Fin 1 → Fin 2))
    (hR1 : (⟨2, ![1, 256]⟩ : Shape).BroadcastsInDim ⟨2, ![M, 256]⟩ (![0, 1] : Fin 2 → Fin 2))
    (hz1 : S0.BroadcastsInDim ⟨2, ![M, 256]⟩ (![] : Fin 0 → Fin 2))
    (hr2 : (⟨1, ![128]⟩ : Shape).BroadcastsInDim ⟨2, ![1, 128]⟩ (![1] : Fin 1 → Fin 2))
    (hR2 : (⟨2, ![1, 128]⟩ : Shape).BroadcastsInDim ⟨2, ![M, 128]⟩ (![0, 1] : Fin 2 → Fin 2))
    (hs1 : (⟨1, ![256]⟩ : Shape).ShapeCasts ⟨2, ![1, 256]⟩) (hs2 : (⟨1, ![128]⟩ : Shape).ShapeCasts ⟨2, ![1, 128]⟩)
    (r : Fin M) (q : Fin 128) :
    addf (Host.dotGeneral (F := IdF) (DotDims.plain M 256 128) none
          (maximumf (addf (Host.dotGeneral (F := IdF) (DotDims.plain M 128 256) none (addf h ag) w1)
              (broadcastInDim ⟨2, ![M, 256]⟩ ![0, 1] hR1 (broadcastInDim ⟨2, ![1, 256]⟩ ![1] hr1 b1v)))
            (broadcastInDim ⟨2, ![M, 256]⟩ ![] hz1 (constant (F := IdF) S0 .f32 0x00000000#32))) w2)
        (broadcastInDim ⟨2, ![M, 128]⟩ ![0, 1] hR2 (broadcastInDim ⟨2, ![1, 128]⟩ ![1] hr2 b2v)) (ix2 r q)
      = mlpRow (fun k => h (ix2 r k)) (fun k => ag (ix2 r k)) w1 (shapeCast ⟨2, ![1, 256]⟩ b1v hs1) w2
          (shapeCast ⟨2, ![1, 128]⟩ b2v hs2) q := by
  refine (hostDense_apply _ w2 b2v hr2 hR2 hs2 r q).trans ?_
  refine congrArg (fun f => lin f w2 (shapeCast ⟨2, ![1, 128]⟩ b2v hs2) q) (funext fun j => ?_)
  show max (addf (Host.dotGeneral (F := IdF) (DotDims.plain M 128 256) none (addf h ag) w1)
        (broadcastInDim ⟨2, ![M, 256]⟩ ![0, 1] hR1 (broadcastInDim ⟨2, ![1, 256]⟩ ![1] hr1 b1v)) (ix2 r j))
      (broadcastInDim ⟨2, ![M, 256]⟩ ![] hz1 (constant (F := IdF) S0 .f32 0x00000000#32) (ix2 r j)) = _
  rw [Cert.LibHostRow.scalar_apply, hostDense_apply (addf h ag) w1 b1v hr1 hR1 hs1 r j]
  rfl

/-- The host's row mean at a row. -/
theorem hostMean_apply (z : FVec IdF ⟨2, ![M, 128]⟩ .f32)
    (hc : (⟨1, ![M]⟩ : Shape).BroadcastsInDim ⟨2, ![M, 1]⟩ (![0] : Fin 1 → Fin 2))
    (hd : S0.BroadcastsInDim ⟨2, ![M, 1]⟩ (![] : Fin 0 → Fin 2))
    (hRT : (⟨2, ![M, 128]⟩ : Shape).ReducesTo [1] ⟨1, ![M]⟩) (hR : (⟨2, ![M, 128]⟩ : Shape).Reduces [1] ⟨1, ![M]⟩)
    (hu : 0 < S0.numel) (r : Fin M) (u : Fin 1) :
    Host.divf (broadcastInDim ⟨2, ![M, 1]⟩ ![0] hc
          (Host.reduceAdd (F := IdF) z (constant (F := IdF) S0 .f32 0x00000000#32) hRT hu))
        (broadcastInDim ⟨2, ![M, 1]⟩ ![] hd (constant (F := IdF) S0 .f32 0x43000000#32)) (ix2 r u)
      = mean128 (fun q => z (ix2 r q)) := by
  show Idealize.ShloMosaic.Ideal.div
      (broadcastInDim ⟨2, ![M, 1]⟩ ![0] hc
        (Host.reduceAdd (F := IdF) z (constant (F := IdF) S0 .f32 0x00000000#32) hRT hu) (ix2 r u))
      (broadcastInDim ⟨2, ![M, 1]⟩ ![] hd (constant (F := IdF) S0 .f32 0x43000000#32) (ix2 r u)) = _
  rw [Cert.LibHostColumn.column_apply, Cert.LibHostRow.scalar_apply, Cert.LibHostRowSum.reduceAdd_row z _ hRT hR hu r]
  show Idealize.ShloMosaic.Ideal.div (Idealize.ShloMosaic.Ideal.ofBits .f32 0x00000000#32 + ∑ k : Fin 128, z (ix2 r k)) _ = _
  rw [Idealize.ShloMosaic.Ideal.ofBits_zero_f32, zero_add]
  rfl

/-- The host's row variance at a row, from the array and its column of means. -/
theorem hostVar_apply (z : FVec IdF ⟨2, ![M, 128]⟩ .f32) (mu : FVec IdF ⟨2, ![M, 1]⟩ .f32)
    (hm : (⟨2, ![M, 1]⟩ : Shape).BroadcastsInDim ⟨2, ![M, 128]⟩ (![0, 1] : Fin 2 → Fin 2))
    (hc : (⟨1, ![M]⟩ : Shape).BroadcastsInDim ⟨2, ![M, 1]⟩ (![0] : Fin 1 → Fin 2))
    (hd : S0.BroadcastsInDim ⟨2, ![M, 1]⟩ (![] : Fin 0 → Fin 2))
    (hRT : (⟨2, ![M, 128]⟩ : Shape).ReducesTo [1] ⟨1, ![M]⟩) (hR : (⟨2, ![M, 128]⟩ : Shape).Reduces [1] ⟨1, ![M]⟩)
    (hu : 0 < S0.numel) (r : Fin M) (u : Fin 1) :
    Host.divf (broadcastInDim ⟨2, ![M, 1]⟩ ![0] hc
          (Host.reduceAdd (F := IdF)
            (mulf (subf z (broadcastInDim ⟨2, ![M, 128]⟩ ![0, 1] hm mu)) (subf z (broadcastInDim ⟨2, ![M, 128]⟩ ![0, 1] hm mu)))
            (constant (F := IdF) S0 .f32 0x00000000#32) hRT hu))
        (broadcastInDim ⟨2, ![M, 1]⟩ ![] hd (constant (F := IdF) S0 .f32 0x43000000#32)) (ix2 r u)
      = mean128 (fun q => (z (ix2 r q) - mu (ix2 r (0 : Fin 1))) * (z (ix2 r q) - mu (ix2 r (0 : Fin 1)))) := by
  refine (hostMean_apply _ hc hd hRT hR hu r u).trans ?_
  refine congrArg mean128 (funext fun q => ?_)
  show (z (ix2 r q) - broadcastInDim ⟨2, ![M, 128]⟩ ![0, 1] hm mu (ix2 r q))
      * (z (ix2 r q) - broadcastInDim ⟨2, ![M, 128]⟩ ![0, 1] hm mu (ix2 r q)) = _
  rw [Cert.LibHostColumn.spread_apply]

/-- The host's normalised, scaled, shifted, cut and re-added row at an entry. -/
theorem hostOut_apply (z h : FVec IdF ⟨2, ![M, 128]⟩ .f32) (mu vr : FVec IdF ⟨2, ![M, 1]⟩ .f32)
    (gv btv : FVec IdF ⟨1, ![128]⟩ .f32)
    (hm : (⟨2, ![M, 1]⟩ : Shape).BroadcastsInDim ⟨2, ![M, 128]⟩ (![0, 1] : Fin 2 → Fin 2))
    (he : S0.BroadcastsInDim ⟨2, ![M, 1]⟩ (![] : Fin 0 → Fin 2))
    (hr : (⟨1, ![128]⟩ : Shape).BroadcastsInDim ⟨2, ![1, 128]⟩ (![1] : Fin 1 → Fin 2))
    (hR : (⟨2, ![1, 128]⟩ : Shape).BroadcastsInDim ⟨2, ![M, 128]⟩ (![0, 1] : Fin 2 → Fin 2))
    (hz : S0.BroadcastsInDim ⟨2, ![M, 128]⟩ (![] : Fin 0 → Fin 2))
    (hs : (⟨1, ![128]⟩ : Shape).ShapeCasts ⟨2, ![1, 128]⟩) (r : Fin M) (q : Fin 128) :
    addf (maximumf
          (addf (mulf (mulf (subf z (broadcastInDim ⟨2, ![M, 128]⟩ ![0, 1] hm mu))
                  (broadcastInDim ⟨2, ![M, 128]⟩ ![0, 1] hm
                    (Host.rsqrt (F := IdF) (addf vr (broadcastInDim ⟨2, ![M, 1]⟩ ![] he (constant (F := IdF) S0 .f32 0x3727C5AC#32))))))
                (broadcastInDim ⟨2, ![M, 128]⟩ ![0, 1] hR (broadcastInDim ⟨2, ![1, 128]⟩ ![1] hr gv)))
            (broadcastInDim ⟨2, ![M, 128]⟩ ![0, 1] hR (broadcastInDim ⟨2, ![1, 128]⟩ ![1] hr btv)))
          (broadcastInDim ⟨2, ![M, 128]⟩ ![] hz (constant (F := IdF) S0 .f32 0x00000000#32))) h (ix2 r q)
      = relu ((z (ix2 r q) - mu (ix2 r (0 : Fin 1)))
            * Idealize.ShloMosaic.Ideal.rsqrt (vr (ix2 r (0 : Fin 1)) + Idealize.ShloMosaic.Ideal.ofBits .f32 0x3727C5AC#32)
            * shapeCast ⟨2, ![1, 128]⟩ gv hs (ix2 (0 : Fin 1) q)
          + shapeCast ⟨2, ![1, 128]⟩ btv hs (ix2 (0 : Fin 1) q)) + h (ix2 r q) := by
  show max (((z (ix2 r q) - broadcastInDim ⟨2, ![M, 128]⟩ ![0, 1] hm mu (ix2 r q))
          * broadcastInDim ⟨2, ![M, 128]⟩ ![0, 1] hm
              (Host.rsqrt (F := IdF) (addf vr (broadcastInDim ⟨2, ![M, 1]⟩ ![] he (constant (F := IdF) S0 .f32 0x3727C5AC#32)))) (ix2 r q))
          * broadcastInDim ⟨2, ![M, 128]⟩ ![0, 1] hR (broadcastInDim ⟨2, ![1, 128]⟩ ![1] hr gv) (ix2 r q)
        + broadcastInDim ⟨2, ![M, 128]⟩ ![0, 1] hR (broadcastInDim ⟨2, ![1, 128]⟩ ![1] hr btv) (ix2 r q))
      (broadcastInDim ⟨2, ![M, 128]⟩ ![] hz (constant (F := IdF) S0 .f32 0x00000000#32) (ix2 r q)) + h (ix2 r q) = _
  rw [Cert.LibHostColumn.spread_apply, Cert.LibHostColumn.spread_apply, Cert.LibHostRow.rows_apply, Cert.LibHostRow.row_apply,
    Cert.LibHostRow.rows_apply, Cert.LibHostRow.row_apply, Cert.LibHostRow.scalar_apply, rowCast_apply, rowCast_apply]
  show max (((z (ix2 r q) - mu (ix2 r (0 : Fin 1)))
          * Idealize.ShloMosaic.Ideal.rsqrt (vr (ix2 r (0 : Fin 1))
              + broadcastInDim ⟨2, ![M, 1]⟩ ![] he (constant (F := IdF) S0 .f32 0x3727C5AC#32) (ix2 r (0 : Fin 1))))
          * gv (ix1 q) + btv (ix1 q)) _ + h (ix2 r q) = _
  rw [Cert.LibHostRow.scalar_apply]
  rfl

end Layer

end Cert.Gine

end
-- ==== Proof.RefNet.lean ====
/-
  The reference program's stages, and that each is the specification's.

  The definitions are the reference's host operations, grouped by what they compute: the two encoders, the edges'
  endpoints, the gather, the message, the scatter-add, each layer's weight slices, and the node update cut into the
  perceptron, the row mean, the row variance and the output row (the values the later operations read more than once).
  Read at an entry, the encoder is `encG`, the message is `msgG`, and the node update is `layerG` with each bias vector
  as a row; the gather, the scatter-add, the endpoint rows and the weight slices are the same operations the launches'
  program uses, so they agree as written.
-/
import proofs.«157398_j15616501088448_1_alg».proof.ReferenceIdeal
import proofs.«157398_j15616501088448_1_alg».proof.Proof.Gen.ReferenceIdeal
import proofs.«157398_j15616501088448_1_alg».proof.Proof.HostSpec
import proofs.«157398_j15616501088448_1_alg».proof.Proof.Net

set_option maxRecDepth 16384

noncomputable section

namespace Cert.ReferenceIdeal.RefValue

open Cert.ReferenceIdeal Cert.ReferenceIdeal.Facts₀ Cert.ReferenceIdeal.Facts Cert.Gine
open Idealize.ShloMosaic Idealize.ShloMosaic.ValueIdx

abbrev IdealF := Idealize.ShloMosaic.Ideal

abbrev C (s : Shape) (e : EltTy) : Type := (⟨s, e⟩ : BufTy).Contents (Elt IdealF)

def rEnc0 (a0 : C S50000x9 .f32) (a4 : C S9x128 .f32) (a5 : C S128 .f32) : C S50000x128 .f32 :=
  (addf (Host.dotGeneral (F := IdealF) dot_S50000x9_S9x128_S50000x128_1_0_0_1_n_n none a0 a4) (broadcastInDim S50000x128 ![0, 1] bcast_S1x128_S50000x128_0_1 (broadcastInDim S1x128 ![1] bcast_S128_S1x128_1 a5)))
def rEnc1 (a2 : C S625000x4 .f32) (a6 : C S4x128 .f32) (a7 : C S128 .f32) : C S625000x128 .f32 :=
  (addf (Host.dotGeneral (F := IdealF) dot_S625000x4_S4x128_S625000x128_1_0_0_1_n_n none a2 a6) (broadcastInDim S625000x128 ![0, 1] bcast_S1x128_S625000x128_0_1 (broadcastInDim S1x128 ![1] bcast_S128_S1x128_1 a7)))
def rSrc (a1 : C S2x625000 .i32) : C S625000 .i32 := (shapeCast S625000 (extractStridedSlice S1x625000 ![0, 0] a1 slices_S2x625000_S1x625000_0_0) shapeCasts_S1x625000_S625000)
def rDst (a1 : C S2x625000 .i32) : C S625000 .i32 := (shapeCast S625000 (extractStridedSlice S1x625000 ![1, 0] a1 slices_S2x625000_S1x625000_1_0) shapeCasts_S1x625000_S625000)
def rGath (h : C S50000x128 .f32) (s : C S625000 .i32) : C S625000x128 .f32 :=
  (Host.gather gather_S50000x128_S625000x1_S625000x128_1_0_n_n_0_1_1128 h (broadcastInDim S625000x1 ![0] bcast_S625000_S625000x1_0 (select (cmpi .slt s (broadcastInDim S625000 ![] bcast_S_S625000 ((constantI S_ 32 0#32)))) (addi s (broadcastInDim S625000 ![] bcast_S_S625000 ((constantI S_ 32 50000#32)))) s)))
def rMsg (g ea : C S625000x128 .f32) : C S625000x128 .f32 :=
  (maximumf (addf g ea) ((broadcastInDim S625000x128 ![] bcast_S_S625000x128) ((constant (F := IdealF) S_ .f32 0x00000000#32))))
def rAgg (msg : C S625000x128 .f32) (d : C S625000 .i32) : C S50000x128 .f32 :=
  (Host.scatterAdd (F := IdealF) scatter_S50000x128_S625000x1_S625000x128_1_0_0_1 (broadcastInDim S50000x128 ![] bcast_S_S50000x128 ((constant (F := IdealF) S_ .f32 0x00000000#32))) (broadcastInDim S625000x1 ![0] bcast_S625000_S625000x1_0 d) msg)
def rZ2 (h ag : C S50000x128 .f32) (w1 : C S128x256 .f32) (b1v : C S256 .f32) (w2 : C S256x128 .f32) (b2v : C S128 .f32) :
    C S50000x128 .f32 :=
  (addf (Host.dotGeneral (F := IdealF) dot_S50000x256_S256x128_S50000x128_1_0_0_1_n_n none (maximumf (addf (Host.dotGeneral (F := IdealF) dot_S50000x128_S128x256_S50000x256_1_0_0_1_n_n none (addf h ag) w1) (broadcastInDim S50000x256 ![0, 1] bcast_S1x256_S50000x256_0_1 (broadcastInDim S1x256 ![1] bcast_S256_S1x256_1 b1v))) ((broadcastInDim S50000x256 ![] bcast_S_S50000x256) ((constant (F := IdealF) S_ .f32 0x00000000#32)))) w2) (broadcastInDim S50000x128 ![0, 1] bcast_S1x128_S50000x128_0_1 (broadcastInDim S1x128 ![1] bcast_S128_S1x128_1 b2v)))
def rMu (z : C S50000x128 .f32) : C S50000x1 .f32 :=
  (Host.divf (F := IdealF) (broadcastInDim S50000x1 ![0] bcast_S50000_S50000x1_0 (Host.reduceAdd (F := IdealF) z ((constant (F := IdealF) S_ .f32 0x00000000#32)) reducesTo_S50000x128_S50000_d1 h_S_)) (broadcastInDim S50000x1 ![] bcast_S_S50000x1 ((constant (F := IdealF) S_ .f32 0x43000000#32))))
def rVar (z : C S50000x128 .f32) (mu : C S50000x1 .f32) : C S50000x1 .f32 :=
  (Host.divf (F := IdealF) (broadcastInDim S50000x1 ![0] bcast_S50000_S50000x1_0 (Host.reduceAdd (F := IdealF) (mulf (subf z (broadcastInDim S50000x128 ![0, 1] bcast_S50000x1_S50000x128_0_1 mu)) (subf z (broadcastInDim S50000x128 ![0, 1] bcast_S50000x1_S50000x128_0_1 mu))) ((constant (F := IdealF) S_ .f32 0x00000000#32)) reducesTo_S50000x128_S50000_d1 h_S_)) (broadcastInDim S50000x1 ![] bcast_S_S50000x1 ((constant (F := IdealF) S_ .f32 0x43000000#32))))
def rOut (z : C S50000x128 .f32) (mu vr : C S50000x1 .f32) (h : C S50000x128 .f32) (gv btv : C S128 .f32) : C S50000x128 .f32 :=
  (addf (maximumf (addf (mulf (mulf (subf z (broadcastInDim S50000x128 ![0, 1] bcast_S50000x1_S50000x128_0_1 mu)) (broadcastInDim S50000x128 ![0, 1] bcast_S50000x1_S50000x128_0_1 (Host.rsqrt (F := IdealF) (addf vr (broadcastInDim S50000x1 ![] bcast_S_S50000x1 ((constant (F := IdealF) S_ .f32 0x3727C5AC#32))))))) (broadcastInDim S50000x128 ![0, 1] bcast_S1x128_S50000x128_0_1 (broadcastInDim S1x128 ![1] bcast_S128_S1x128_1 gv))) (broadcastInDim S50000x128 ![0, 1] bcast_S1x128_S50000x128_0_1 (broadcastInDim S1x128 ![1] bcast_S128_S1x128_1 btv))) ((broadcastInDim S50000x128 ![] bcast_S_S50000x128) ((constant (F := IdealF) S_ .f32 0x00000000#32)))) h)
/-- The node update as the host spells it, from the node rows, the summed messages and the layer's weights. -/
def rCore (h ag : C S50000x128 .f32) (w1 : C S128x256 .f32) (b1v : C S256 .f32) (w2 : C S256x128 .f32) (b2v gv btv : C S128 .f32) :
    C S50000x128 .f32 :=
  rOut (rZ2 h ag w1 b1v w2 b2v) (rMu (rZ2 h ag w1 b1v w2 b2v)) (rVar (rZ2 h ag w1 b1v w2 b2v) (rMu (rZ2 h ag w1 b1v w2 b2v))) h gv btv
def rPool (h : C S50000x128 .f32) (b : C S50000 .i32) : C S2000x128 .f32 :=
  (Host.scatterAdd (F := IdealF) scatter_S2000x128_S50000x1_S50000x128_1_0_0_1 (broadcastInDim S2000x128 ![] bcast_S_S2000x128 ((constant (F := IdealF) S_ .f32 0x00000000#32))) (broadcastInDim S50000x1 ![0] bcast_S50000_S50000x1_0 b) h)

/-! ## Each stage is the specification's -/

theorem rEnc0_eq (a0 : C S50000x9 .f32) (a4 : C S9x128 .f32) (a5 : C S128 .f32) :
    rEnc0 a0 a4 a5 = Cert.Gine.Net.nodes0 a0 a4 a5 := by
  funext j
  obtain ⟨r, q, rfl⟩ : ∃ (r : Fin 50000) (q : Fin 128), j = ix2 r q := ⟨j 0, j 1, eq_ix2 j⟩
  exact hostDense_apply a0 a4 a5 _ _ Cert.KernelIdeal.Facts₀.shapeCasts_S128_S1x128 r q

theorem rEnc1_eq (a2 : C S625000x4 .f32) (a6 : C S4x128 .f32) (a7 : C S128 .f32) :
    rEnc1 a2 a6 a7 = Cert.Gine.Net.edges0 a2 a6 a7 := by
  funext j
  obtain ⟨r, q, rfl⟩ : ∃ (r : Fin 625000) (q : Fin 128), j = ix2 r q := ⟨j 0, j 1, eq_ix2 j⟩
  exact hostDense_apply a2 a6 a7 _ _ Cert.KernelIdeal.Facts₀.shapeCasts_S128_S1x128 r q

theorem rMsg_eq (g ea : C S625000x128 .f32) : rMsg g ea = msgG (M := 625000) (N := 128) g ea := by
  funext j
  exact hostMsg_apply g ea _ j

theorem rZ2_apply (h ag : C S50000x128 .f32) (w1 : C S128x256 .f32) (b1v : C S256 .f32) (w2 : C S256x128 .f32) (b2v : C S128 .f32)
    (hs1 : S256.ShapeCasts S1x256) (hs2 : S128.ShapeCasts S1x128) (r : Fin 50000) (q : Fin 128) :
    rZ2 h ag w1 b1v w2 b2v (ix2 r q)
      = mlpRow (fun k => h (ix2 r k)) (fun k => ag (ix2 r k)) w1 (shapeCast S1x256 b1v hs1) w2 (shapeCast S1x128 b2v hs2) q :=
  hostMlp_apply h ag w1 b1v w2 b2v _ _ _ _ _ hs1 hs2 r q

theorem rMu_apply (z : C S50000x128 .f32) (r : Fin 50000) (u : Fin 1) :
    rMu z (ix2 r u) = mean128 (fun q => z (ix2 r q)) :=
  hostMean_apply z _ _ _ (by decide) _ r u

theorem rVar_apply (z : C S50000x128 .f32) (mu : C S50000x1 .f32) (r : Fin 50000) (u : Fin 1) :
    rVar z mu (ix2 r u) = mean128 (fun q => (z (ix2 r q) - mu (ix2 r (0 : Fin 1))) * (z (ix2 r q) - mu (ix2 r (0 : Fin 1)))) :=
  hostVar_apply z mu _ _ _ _ (by decide) _ r u

theorem rOut_apply (z : C S50000x128 .f32) (mu vr : C S50000x1 .f32) (h : C S50000x128 .f32) (gv btv : C S128 .f32)
    (hs : S128.ShapeCasts S1x128) (r : Fin 50000) (q : Fin 128) :
    rOut z mu vr h gv btv (ix2 r q)
      = relu ((z (ix2 r q) - mu (ix2 r (0 : Fin 1)))
            * Idealize.ShloMosaic.Ideal.rsqrt (vr (ix2 r (0 : Fin 1)) + Idealize.ShloMosaic.Ideal.ofBits .f32 0x3727C5AC#32)
            * shapeCast S1x128 gv hs (ix2 (0 : Fin 1) q)
          + shapeCast S1x128 btv hs (ix2 (0 : Fin 1) q)) + h (ix2 r q) :=
  hostOut_apply z h mu vr gv btv _ _ _ _ _ hs r q

/-- The node update as the host spells it is `layerG` with the bias, scale and shift vectors as rows. -/
theorem rCore_eq (h ag : C S50000x128 .f32) (w1 : C S128x256 .f32) (b1v : C S256 .f32) (w2 : C S256x128 .f32) (b2v gv btv : C S128 .f32)
    (hs1 : S256.ShapeCasts S1x256) (hs2 : S128.ShapeCasts S1x128) :
    rCore h ag w1 b1v w2 b2v gv btv
      = layerG (M := 50000) h ag w1 (shapeCast S1x256 b1v hs1) w2 (shapeCast S1x128 b2v hs2) (shapeCast S1x128 gv hs2)
          (shapeCast S1x128 btv hs2) := by
  funext j
  obtain ⟨r, q, rfl⟩ : ∃ (r : Fin 50000) (q : Fin 128), j = ix2 r q := ⟨j 0, j 1, eq_ix2 j⟩
  rw [layerG_apply]
  unfold rCore
  rw [rOut_apply _ _ _ _ _ _ hs2, rVar_apply, rMu_apply]
  simp only [rZ2_apply _ _ _ _ _ _ hs1 hs2]
  rfl

def rW1_0 (a8 : C S4x128x256 .f32) : C S128x256 .f32 := (shapeCast S128x256 (extractStridedSlice S1x128x256 ![0, 0, 0] a8 slices_S4x128x256_S1x128x256_0_0_0) shapeCasts_S1x128x256_S128x256)
def rB1_0 (a9 : C S4x256 .f32) : C S256 .f32 := (shapeCast S256 (extractStridedSlice S1x256 ![0, 0] a9 slices_S4x256_S1x256_0_0) shapeCasts_S1x256_S256)
def rW2_0 (a10 : C S4x256x128 .f32) : C S256x128 .f32 := (shapeCast S256x128 (extractStridedSlice S1x256x128 ![0, 0, 0] a10 slices_S4x256x128_S1x256x128_0_0_0) shapeCasts_S1x256x128_S256x128)
def rB2_0 (a11 : C S4x128 .f32) : C S128 .f32 := (shapeCast S128 (extractStridedSlice S1x128 ![0, 0] a11 slices_S4x128_S1x128_0_0) shapeCasts_S1x128_S128)
def rG_0 (a12 : C S4x128 .f32) : C S128 .f32 := (shapeCast S128 (extractStridedSlice S1x128 ![0, 0] a12 slices_S4x128_S1x128_0_0) shapeCasts_S1x128_S128)
def rBt_0 (a13 : C S4x128 .f32) : C S128 .f32 := (shapeCast S128 (extractStridedSlice S1x128 ![0, 0] a13 slices_S4x128_S1x128_0_0) shapeCasts_S1x128_S128)

/-- Layer 0 as the host spells it. -/
def rLayer0 (h : C S50000x128 .f32) (ea : C S625000x128 .f32) (s d : C S625000 .i32) (a8 : C S4x128x256 .f32) (a9 : C S4x256 .f32)
    (a10 : C S4x256x128 .f32) (a11 a12 a13 : C S4x128 .f32) : C S50000x128 .f32 :=
  rCore h (rAgg (rMsg (rGath h s) ea) d) (rW1_0 a8) (rB1_0 a9) (rW2_0 a10) (rB2_0 a11) (rG_0 a12) (rBt_0 a13)

theorem rLayer0_eq (h : C S50000x128 .f32) (ea : C S625000x128 .f32) (s d : C S625000 .i32) (a8 : C S4x128x256 .f32) (a9 : C S4x256 .f32)
    (a10 : C S4x256x128 .f32) (a11 a12 a13 : C S4x128 .f32) :
    rLayer0 h ea s d a8 a9 a10 a11 a12 a13 = Cert.Gine.Net.layer0 h ea s d a8 a9 a10 a11 a12 a13 := by
  unfold rLayer0
  rw [rCore_eq _ _ _ _ _ _ _ _ Cert.KernelIdeal.Facts₀.shapeCasts_S256_S1x256 Cert.KernelIdeal.Facts₀.shapeCasts_S128_S1x128, rMsg_eq]
  rfl

def rW1_1 (a8 : C S4x128x256 .f32) : C S128x256 .f32 := (shapeCast S128x256 (extractStridedSlice S1x128x256 ![1, 0, 0] a8 slices_S4x128x256_S1x128x256_1_0_0) shapeCasts_S1x128x256_S128x256)
def rB1_1 (a9 : C S4x256 .f32) : C S256 .f32 := (shapeCast S256 (extractStridedSlice S1x256 ![1, 0] a9 slices_S4x256_S1x256_1_0) shapeCasts_S1x256_S256)
def rW2_1 (a10 : C S4x256x128 .f32) : C S256x128 .f32 := (shapeCast S256x128 (extractStridedSlice S1x256x128 ![1, 0, 0] a10 slices_S4x256x128_S1x256x128_1_0_0) shapeCasts_S1x256x128_S256x128)
def rB2_1 (a11 : C S4x128 .f32) : C S128 .f32 := (shapeCast S128 (extractStridedSlice S1x128 ![1, 0] a11 slices_S4x128_S1x128_1_0) shapeCasts_S1x128_S128)
def rG_1 (a12 : C S4x128 .f32) : C S128 .f32 := (shapeCast S128 (extractStridedSlice S1x128 ![1, 0] a12 slices_S4x128_S1x128_1_0) shapeCasts_S1x128_S128)
def rBt_1 (a13 : C S4x128 .f32) : C S128 .f32 := (shapeCast S128 (extractStridedSlice S1x128 ![1, 0] a13 slices_S4x128_S1x128_1_0) shapeCasts_S1x128_S128)

/-- Layer 1 as the host spells it. -/
def rLayer1 (h : C S50000x128 .f32) (ea : C S625000x128 .f32) (s d : C S625000 .i32) (a8 : C S4x128x256 .f32) (a9 : C S4x256 .f32)
    (a10 : C S4x256x128 .f32) (a11 a12 a13 : C S4x128 .f32) : C S50000x128 .f32 :=
  rCore h (rAgg (rMsg (rGath h s) ea) d) (rW1_1 a8) (rB1_1 a9) (rW2_1 a10) (rB2_1 a11) (rG_1 a12) (rBt_1 a13)

theorem rLayer1_eq (h : C S50000x128 .f32) (ea : C S625000x128 .f32) (s d : C S625000 .i32) (a8 : C S4x128x256 .f32) (a9 : C S4x256 .f32)
    (a10 : C S4x256x128 .f32) (a11 a12 a13 : C S4x128 .f32) :
    rLayer1 h ea s d a8 a9 a10 a11 a12 a13 = Cert.Gine.Net.layer1 h ea s d a8 a9 a10 a11 a12 a13 := by
  unfold rLayer1
  rw [rCore_eq _ _ _ _ _ _ _ _ Cert.KernelIdeal.Facts₀.shapeCasts_S256_S1x256 Cert.KernelIdeal.Facts₀.shapeCasts_S128_S1x128, rMsg_eq]
  rfl

def rW1_2 (a8 : C S4x128x256 .f32) : C S128x256 .f32 := (shapeCast S128x256 (extractStridedSlice S1x128x256 ![2, 0, 0] a8 slices_S4x128x256_S1x128x256_2_0_0) shapeCasts_S1x128x256_S128x256)
def rB1_2 (a9 : C S4x256 .f32) : C S256 .f32 := (shapeCast S256 (extractStridedSlice S1x256 ![2, 0] a9 slices_S4x256_S1x256_2_0) shapeCasts_S1x256_S256)
def rW2_2 (a10 : C S4x256x128 .f32) : C S256x128 .f32 := (shapeCast S256x128 (extractStridedSlice S1x256x128 ![2, 0, 0] a10 slices_S4x256x128_S1x256x128_2_0_0) shapeCasts_S1x256x128_S256x128)
def rB2_2 (a11 : C S4x128 .f32) : C S128 .f32 := (shapeCast S128 (extractStridedSlice S1x128 ![2, 0] a11 slices_S4x128_S1x128_2_0) shapeCasts_S1x128_S128)
def rG_2 (a12 : C S4x128 .f32) : C S128 .f32 := (shapeCast S128 (extractStridedSlice S1x128 ![2, 0] a12 slices_S4x128_S1x128_2_0) shapeCasts_S1x128_S128)
def rBt_2 (a13 : C S4x128 .f32) : C S128 .f32 := (shapeCast S128 (extractStridedSlice S1x128 ![2, 0] a13 slices_S4x128_S1x128_2_0) shapeCasts_S1x128_S128)

/-- Layer 2 as the host spells it. -/
def rLayer2 (h : C S50000x128 .f32) (ea : C S625000x128 .f32) (s d : C S625000 .i32) (a8 : C S4x128x256 .f32) (a9 : C S4x256 .f32)
    (a10 : C S4x256x128 .f32) (a11 a12 a13 : C S4x128 .f32) : C S50000x128 .f32 :=
  rCore h (rAgg (rMsg (rGath h s) ea) d) (rW1_2 a8) (rB1_2 a9) (rW2_2 a10) (rB2_2 a11) (rG_2 a12) (rBt_2 a13)

theorem rLayer2_eq (h : C S50000x128 .f32) (ea : C S625000x128 .f32) (s d : C S625000 .i32) (a8 : C S4x128x256 .f32) (a9 : C S4x256 .f32)
    (a10 : C S4x256x128 .f32) (a11 a12 a13 : C S4x128 .f32) :
    rLayer2 h ea s d a8 a9 a10 a11 a12 a13 = Cert.Gine.Net.layer2 h ea s d a8 a9 a10 a11 a12 a13 := by
  unfold rLayer2
  rw [rCore_eq _ _ _ _ _ _ _ _ Cert.KernelIdeal.Facts₀.shapeCasts_S256_S1x256 Cert.KernelIdeal.Facts₀.shapeCasts_S128_S1x128, rMsg_eq]
  rfl

def rW1_3 (a8 : C S4x128x256 .f32) : C S128x256 .f32 := (shapeCast S128x256 (extractStridedSlice S1x128x256 ![3, 0, 0] a8 slices_S4x128x256_S1x128x256_3_0_0) shapeCasts_S1x128x256_S128x256)
def rB1_3 (a9 : C S4x256 .f32) : C S256 .f32 := (shapeCast S256 (extractStridedSlice S1x256 ![3, 0] a9 slices_S4x256_S1x256_3_0) shapeCasts_S1x256_S256)
def rW2_3 (a10 : C S4x256x128 .f32) : C S256x128 .f32 := (shapeCast S256x128 (extractStridedSlice S1x256x128 ![3, 0, 0] a10 slices_S4x256x128_S1x256x128_3_0_0) shapeCasts_S1x256x128_S256x128)
def rB2_3 (a11 : C S4x128 .f32) : C S128 .f32 := (shapeCast S128 (extractStridedSlice S1x128 ![3, 0] a11 slices_S4x128_S1x128_3_0) shapeCasts_S1x128_S128)
def rG_3 (a12 : C S4x128 .f32) : C S128 .f32 := (shapeCast S128 (extractStridedSlice S1x128 ![3, 0] a12 slices_S4x128_S1x128_3_0) shapeCasts_S1x128_S128)
def rBt_3 (a13 : C S4x128 .f32) : C S128 .f32 := (shapeCast S128 (extractStridedSlice S1x128 ![3, 0] a13 slices_S4x128_S1x128_3_0) shapeCasts_S1x128_S128)

/-- Layer 3 as the host spells it. -/
def rLayer3 (h : C S50000x128 .f32) (ea : C S625000x128 .f32) (s d : C S625000 .i32) (a8 : C S4x128x256 .f32) (a9 : C S4x256 .f32)
    (a10 : C S4x256x128 .f32) (a11 a12 a13 : C S4x128 .f32) : C S50000x128 .f32 :=
  rCore h (rAgg (rMsg (rGath h s) ea) d) (rW1_3 a8) (rB1_3 a9) (rW2_3 a10) (rB2_3 a11) (rG_3 a12) (rBt_3 a13)

theorem rLayer3_eq (h : C S50000x128 .f32) (ea : C S625000x128 .f32) (s d : C S625000 .i32) (a8 : C S4x128x256 .f32) (a9 : C S4x256 .f32)
    (a10 : C S4x256x128 .f32) (a11 a12 a13 : C S4x128 .f32) :
    rLayer3 h ea s d a8 a9 a10 a11 a12 a13 = Cert.Gine.Net.layer3 h ea s d a8 a9 a10 a11 a12 a13 := by
  unfold rLayer3
  rw [rCore_eq _ _ _ _ _ _ _ _ Cert.KernelIdeal.Facts₀.shapeCasts_S256_S1x256 Cert.KernelIdeal.Facts₀.shapeCasts_S128_S1x128, rMsg_eq]
  rfl

end Cert.ReferenceIdeal.RefValue

end
-- ==== Proof.LibAfter.lean ====
/-
  Running a list of host operations in two stretches.

  The contents every buffer holds after a list of host operations is a fold of the operations' results over the
  contents before it; the fold over a list split in two is the fold over the second part from what the first part
  leaves. So a long straight line can be read stretch by stretch, each from the contents at its start.
-/
import Idealize.ShloMosaic.Lib.StableHlo.Run

namespace Cert.LibAfter

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => exact ih _

end Cert.LibAfter
-- ==== Proof.RefStages.lean ====
/-
  The reference program read in six stretches.

  The reference is a straight line of 312 host operations: twelve that encode the node and edge features and split the
  edge index, four stretches of seventy-four (one per layer), and four that pool. What a buffer holds after a list of
  operations is a fold over the list, and the fold over a concatenation is the fold over the second part from what the
  first leaves; so each stretch is read from ANY contents at its start: its result buffer holds the stretch's function
  of the buffers it reads, and the buffers later stretches still need (the edge rows, the endpoints, the arguments)
  are left as they were. Chained, the result buffer holds `net` of the argument arrays.
-/
import proofs.«157398_j15616501088448_1_alg».proof.Proof.RefRun
import proofs.«157398_j15616501088448_1_alg».proof.Proof.RefNet
import proofs.«157398_j15616501088448_1_alg».proof.Proof.LibAfter

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
abbrev opsP : List (HloOp τ sig (Elt F)) :=
  [ binary main_arg0 main_arg4 main_v0 ((fun l r => Host.dotGeneral dot_S50000x9_S9x128_S50000x128_1_0_0_1_n_n none l r) : (⟨S50000x9, .f32⟩ : BufTy).Contents (Elt F) → (⟨S9x128, .f32⟩ : BufTy).Contents (Elt F) → (⟨S50000x128, .f32⟩ : BufTy).Contents (Elt F)),
    unary main_arg5 main_v1 (broadcastInDim S1x128 ![1] bcast_S128_S1x128_1 : (⟨S128, .f32⟩ : BufTy).Contents (Elt F) → (⟨S1x128, .f32⟩ : BufTy).Contents (Elt F)),
    unary main_v1 main_v2 (broadcastInDim S50000x128 ![0, 1] bcast_S1x128_S50000x128_0_1 : (⟨S1x128, .f32⟩ : BufTy).Contents (Elt F) → (⟨S50000x128, .f32⟩ : BufTy).Contents (Elt F)),
    binary main_v0 main_v2 main_v3 (addf : (⟨S50000x128, .f32⟩ : BufTy).Contents (Elt F) → (⟨S50000x128, .f32⟩ : BufTy).Contents (Elt F) → (⟨S50000x128, .f32⟩ : BufTy).Contents (Elt F)),
    binary main_arg2 main_arg6 main_v4 ((fun l r => Host.dotGeneral dot_S625000x4_S4x128_S625000x128_1_0_0_1_n_n none l r) : (⟨S625000x4, .f32⟩ : BufTy).Contents (Elt F) → (⟨S4x128, .f32⟩ : BufTy).Contents (Elt F) → (⟨S625000x128, .f32⟩ : BufTy).Contents (Elt F)),
    unary main_arg7 main_v5 (broadcastInDim S1x128 ![1] bcast_S128_S1x128_1 : (⟨S128, .f32⟩ : BufTy).Contents (Elt F) → (⟨S1x128, .f32⟩ : BufTy).Contents (Elt F)),
    unary main_v5 main_v6 (broadcastInDim S625000x128 ![0, 1] bcast_S1x128_S625000x128_0_1 : (⟨S1x128, .f32⟩ : BufTy).Contents (Elt F) → (⟨S625000x128, .f32⟩ : BufTy).Contents (Elt F)),
    binary main_v4 main_v6 main_v7 (addf : (⟨S625000x128, .f32⟩ : BufTy).Contents (Elt F) → (⟨S625000x128, .f32⟩ : BufTy).Contents (Elt F) → (⟨S625000x128, .f32⟩ : BufTy).Contents (Elt F)),
    unary main_arg1 main_v8 ((extractStridedSlice S1x625000 ![0, 0] · slices_S2x625000_S1x625000_0_0) : (⟨S2x625000, .i32⟩ : BufTy).Contents (Elt F) → (⟨S1x625000, .i32⟩ : BufTy).Contents (Elt F)),
    reshape main_v8 main_v9 rfl shapeCasts_S1x625000_S625000,
    unary main_arg1 main_v10 ((extractStridedSlice S1x625000 ![1, 0] · slices_S2x625000_S1x625000_1_0) : (⟨S2x625000, .i32⟩ : BufTy).Contents (Elt F) → (⟨S1x625000, .i32⟩ : BufTy).Contents (Elt F)),
    reshape main_v10 main_v11 rfl shapeCasts_S1x625000_S625000 ]

set_option maxRecDepth 8192 in
set_option maxHeartbeats 4000000 in
abbrev opsL0 : List (HloOp τ sig (Elt F)) :=
  [ nullary main_c (constantI S_ 32 0#32),
    unary main_c main_v12 (broadcastInDim S625000 ![] bcast_S_S625000 : (⟨S_, .i32⟩ : BufTy).Contents (Elt F) → (⟨S625000, .i32⟩ : BufTy).Contents (Elt F)),
    binary main_v9 main_v12 main_v13 (cmpi .slt : (⟨S625000, .i32⟩ : BufTy).Contents (Elt F) → (⟨S625000, .i32⟩ : BufTy).Contents (Elt F) → (⟨S625000, .i1⟩ : BufTy).Contents (Elt F)),
    nullary main_c_0 (constantI S_ 32 50000#32),
    unary main_c_0 main_v14 (broadcastInDim S625000 ![] bcast_S_S625000 : (⟨S_, .i32⟩ : BufTy).Contents (Elt F) → (⟨S625000, .i32⟩ : BufTy).Contents (Elt F)),
    binary main_v9 main_v14 main_v15 (addi : (⟨S625000, .i32⟩ : BufTy).Contents (Elt F) → (⟨S625000, .i32⟩ : BufTy).Contents (Elt F) → (⟨S625000, .i32⟩ : BufTy).Contents (Elt F)),
    ternary main_v13 main_v15 main_v9 main_v16 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v16 main_v17 (broadcastInDim S625000x1 ![0] bcast_S625000_S625000x1_0 : (⟨S625000, .i32⟩ : BufTy).Contents (Elt F) → (⟨S625000x1, .i32⟩ : BufTy).Contents (Elt F)),
    binary main_v3 main_v17 main_v18 ((fun x i => Host.gather gather_S50000x128_S625000x1_S625000x128_1_0_n_n_0_1_1128 x i) : (⟨S50000x128, .f32⟩ : BufTy).Contents (Elt F) → (⟨S625000x1, .i32⟩ : BufTy).Contents (Elt F) → (⟨S625000x128, .f32⟩ : BufTy).Contents (Elt F)),
    binary main_v18 main_v7 main_v19 (addf : (⟨S625000x128, .f32⟩ : BufTy).Contents (Elt F) → (⟨S625000x128, .f32⟩ : BufTy).Contents (Elt F) → (⟨S625000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S625000x128, .f32⟩) main_call0_v0) (broadcastInDim S625000x128 ![] bcast_S_S625000x128),
    TRef.binary (TRef.of (T := ⟨S625000x128, .f32⟩) main_v19) (TRef.of (T := ⟨S625000x128, .f32⟩) main_call0_v0) (TRef.of (T := ⟨S625000x128, .f32⟩) main_v20) maximumf,
    nullary main_cst (constant S_ .f32 0x00000000#32),
    unary main_cst main_v21 (broadcastInDim S50000x128 ![] bcast_S_S50000x128 : (⟨S_, .f32⟩ : BufTy).Contents (Elt F) → (⟨S50000x128, .f32⟩ : BufTy).Contents (Elt F)),
    unary main_v11 main_v22 (broadcastInDim S625000x1 ![0] bcast_S625000_S625000x1_0 : (⟨S625000, .i32⟩ : BufTy).Contents (Elt F) → (⟨S625000x1, .i32⟩ : BufTy).Contents (Elt F)),
    ternary main_v21 main_v22 main_v20 main_v23 ((fun x i u => Host.scatterAdd scatter_S50000x128_S625000x1_S625000x128_1_0_0_1 x i u) : (⟨S50000x128, .f32⟩ : BufTy).Contents (Elt F) → (⟨S625000x1, .i32⟩ : BufTy).Contents (Elt F) → (⟨S625000x128, .f32⟩ : BufTy).Contents (Elt F) → (⟨S50000x128, .f32⟩ : BufTy).Contents (Elt F)),
    binary main_v3 main_v23 main_v24 (addf : (⟨S50000x128, .f32⟩ : BufTy).Contents (Elt F) → (⟨S50000x128, .f32⟩ : BufTy).Contents (Elt F) → (⟨S50000x128, .f32⟩ : BufTy).Contents (Elt F)),
    unary main_arg8 main_v25 ((extractStridedSlice S1x128x256 ![0, 0, 0] · slices_S4x128x256_S1x128x256_0_0_0) : (⟨S4x128x256, .f32⟩ : BufTy).Contents (Elt F) → (⟨S1x128x256, .f32⟩ : BufTy).Contents (Elt F)),
    reshape main_v25 main_v26 rfl shapeCasts_S1x128x256_S128x256,
    binary main_v24 main_v26 main_v27 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg9 main_v28 ((extractStridedSlice S1x256 ![0, 0] · slices_S4x256_S1x256_0_0) : (⟨S4x256, .f32⟩ : BufTy).Contents (Elt F) → (⟨S1x256, .f32⟩ : BufTy).Contents (Elt F)),
    reshape main_v28 main_v29 rfl shapeCasts_S1x256_S256,
    unary main_v29 main_v30 (broadcastInDim S1x256 ![1] bcast_S256_S1x256_1 : (⟨S256, .f32⟩ : BufTy).Contents (Elt F) → (⟨S1x256, .f32⟩ : BufTy).Contents (Elt F)),
    unary main_v30 main_v31 (broadcastInDim S50000x256 ![0, 1] bcast_S1x256_S50000x256_0_1 : (⟨S1x256, .f32⟩ : BufTy).Contents (Elt F) → (⟨S50000x256, .f32⟩ : BufTy).Contents (Elt F)),
    binary main_v27 main_v31 main_v32 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v32) (TRef.of (T := ⟨S50000x256, .f32⟩) main_call1_v0) (TRef.of (T := ⟨S50000x256, .f32⟩) main_v33) maximumf,
    unary main_arg10 main_v34 ((extractStridedSlice S1x256x128 ![0, 0, 0] · slices_S4x256x128_S1x256x128_0_0_0) : (⟨S4x256x128, .f32⟩ : BufTy).Contents (Elt F) → (⟨S1x256x128, .f32⟩ : BufTy).Contents (Elt F)),
    reshape main_v34 main_v35 rfl shapeCasts_S1x256x128_S256x128,
    binary main_v33 main_v35 main_v36 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg11 main_v37 ((extractStridedSlice S1x128 ![0, 0] · slices_S4x128_S1x128_0_0) : (⟨S4x128, .f32⟩ : BufTy).Contents (Elt F) → (⟨S1x128, .f32⟩ : BufTy).Contents (Elt F)),
    reshape main_v37 main_v38 rfl shapeCasts_S1x128_S128,
    unary main_v38 main_v39 (broadcastInDim S1x128 ![1] bcast_S128_S1x128_1 : (⟨S128, .f32⟩ : BufTy).Contents (Elt F) → (⟨S1x128, .f32⟩ : BufTy).Contents (Elt F)),
    unary main_v39 main_v40 (broadcastInDim S50000x128 ![0, 1] bcast_S1x128_S50000x128_0_1 : (⟨S1x128, .f32⟩ : BufTy).Contents (Elt F) → (⟨S50000x128, .f32⟩ : BufTy).Contents (Elt F)),
    binary main_v36 main_v40 main_v41 (addf : (⟨S50000x128, .f32⟩ : BufTy).Contents (Elt F) → (⟨S50000x128, .f32⟩ : BufTy).Contents (Elt F) → (⟨S50000x128, .f32⟩ : BufTy).Contents (Elt F)),
    nullary main_cst_1 (constant S_ .f32 0x00000000#32),
    binary main_v41 main_cst_1 main_v42 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v42 main_v43 (broadcastInDim S50000x1 ![0] bcast_S50000_S50000x1_0 : (⟨S50000, .f32⟩ : BufTy).Contents (Elt F) → (⟨S50000x1, .f32⟩ : BufTy).Contents (Elt F)),
    nullary main_cst_2 (constant S_ .f32 0x43000000#32),
    unary main_cst_2 main_v44 (broadcastInDim S50000x1 ![] bcast_S_S50000x1 : (⟨S_, .f32⟩ : BufTy).Contents (Elt F) → (⟨S50000x1, .f32⟩ : BufTy).Contents (Elt F)),
    binary main_v43 main_v44 main_v45 (Host.divf : (⟨S50000x1, .f32⟩ : BufTy).Contents (Elt F) → (⟨S50000x1, .f32⟩ : BufTy).Contents (Elt F) → (⟨S50000x1, .f32⟩ : BufTy).Contents (Elt F)),
    unary main_v45 main_v46 (broadcastInDim S50000x128 ![0, 1] bcast_S50000x1_S50000x128_0_1 : (⟨S50000x1, .f32⟩ : BufTy).Contents (Elt F) → (⟨S50000x128, .f32⟩ : BufTy).Contents (Elt F)),
    binary main_v41 main_v46 main_v47 (subf : (⟨S50000x128, .f32⟩ : BufTy).Contents (Elt F) → (⟨S50000x128, .f32⟩ : BufTy).Contents (Elt F) → (⟨S50000x128, .f32⟩ : BufTy).Contents (Elt F)),
    binary main_v47 main_v47 main_v48 (mulf : (⟨S50000x128, .f32⟩ : BufTy).Contents (Elt F) → (⟨S50000x128, .f32⟩ : BufTy).Contents (Elt F) → (⟨S50000x128, .f32⟩ : BufTy).Contents (Elt F)),
    nullary main_cst_3 (constant S_ .f32 0x00000000#32),
    binary main_v48 main_cst_3 main_v49 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v49 main_v50 (broadcastInDim S50000x1 ![0] bcast_S50000_S50000x1_0 : (⟨S50000, .f32⟩ : BufTy).Contents (Elt F) → (⟨S50000x1, .f32⟩ : BufTy).Contents (Elt F)),
    nullary main_cst_4 (constant S_ .f32 0x43000000#32),
    unary main_cst_4 main_v51 (broadcastInDim S50000x1 ![] bcast_S_S50000x1 : (⟨S_, .f32⟩ : BufTy).Contents (Elt F) → (⟨S50000x1, .f32⟩ : BufTy).Contents (Elt F)),
    binary main_v50 main_v51 main_v52 (Host.divf : (⟨S50000x1, .f32⟩ : BufTy).Contents (Elt F) → (⟨S50000x1, .f32⟩ : BufTy).Contents (Elt F) → (⟨S50000x1, .f32⟩ : BufTy).Contents (Elt F)),
    unary main_v45 main_v53 (broadcastInDim S50000x128 ![0, 1] bcast_S50000x1_S50000x128_0_1 : (⟨S50000x1, .f32⟩ : BufTy).Contents (Elt F) → (⟨S50000x128, .f32⟩ : BufTy).Contents (Elt F)),
    binary main_v41 main_v53 main_v54 (subf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x3727C5AC#32),
    unary main_cst_5 main_v55 (broadcastInDim S50000x1 ![] bcast_S_S50000x1 : (⟨S_, .f32⟩ : BufTy).Contents (Elt F) → (⟨S50000x1, .f32⟩ : BufTy).Contents (Elt F)),
    binary main_v52 main_v55 main_v56 (addf : (⟨S50000x1, .f32⟩ : BufTy).Contents (Elt F) → (⟨S50000x1, .f32⟩ : BufTy).Contents (Elt F) → (⟨S50000x1, .f32⟩ : BufTy).Contents (Elt F)),
    unary main_v56 main_v57 (Host.rsqrt : (⟨S50000x1, .f32⟩ : BufTy).Contents (Elt F) → (⟨S50000x1, .f32⟩ : BufTy).Contents (Elt F)),
    unary main_v57 main_v58 (broadcastInDim S50000x128 ![0, 1] bcast_S50000x1_S50000x128_0_1 : (⟨S50000x1, .f32⟩ : BufTy).Contents (Elt F) → (⟨S50000x128, .f32⟩ : BufTy).Contents (Elt F)),
    binary main_v54 main_v58 main_v59 (mulf : (⟨S50000x128, .f32⟩ : BufTy).Contents (Elt F) → (⟨S50000x128, .f32⟩ : BufTy).Contents (Elt F) → (⟨S50000x128, .f32⟩ : BufTy).Contents (Elt F)),
    unary main_arg12 main_v60 ((extractStridedSlice S1x128 ![0, 0] · slices_S4x128_S1x128_0_0) : (⟨S4x128, .f32⟩ : BufTy).Contents (Elt F) → (⟨S1x128, .f32⟩ : BufTy).Contents (Elt F)),
    reshape main_v60 main_v61 rfl shapeCasts_S1x128_S128,
    unary main_v61 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v59 main_v63 main_v64 (mulf : (⟨S50000x128, .f32⟩ : BufTy).Contents (Elt F) → (⟨S50000x128, .f32⟩ : BufTy).Contents (Elt F) → (⟨S50000x128, .f32⟩ : BufTy).Contents (Elt F)),
    unary main_arg13 main_v65 ((extractStridedSlice S1x128 ![0, 0] · slices_S4x128_S1x128_0_0) : (⟨S4x128, .f32⟩ : BufTy).Contents (Elt F) → (⟨S1x128, .f32⟩ : BufTy).Contents (Elt F)),
    reshape main_v65 main_v66 rfl shapeCasts_S1x128_S128,
    unary main_v66 main_v67 (broadcastInDim S1x128 ![1] bcast_S128_S1x128_1 : (⟨S128, .f32⟩ : BufTy).Contents (Elt F) → (⟨S1x128, .f32⟩ : BufTy).Contents (Elt F)),
    unary main_v67 main_v68 (broadcastInDim S50000x128 ![0, 1] bcast_S1x128_S50000x128_0_1 : (⟨S1x128, .f32⟩ : BufTy).Contents (Elt F) → (⟨S50000x128, .f32⟩ : BufTy).Contents (Elt F)),
    binary main_v64 main_v68 main_v69 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v69) (TRef.of (T := ⟨S50000x128, .f32⟩) main_call2_v0) (TRef.of (T := ⟨S50000x128, .f32⟩) main_v70) maximumf,
    binary main_v70 main_v3 main_v71 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 4000000 in
abbrev opsL1 : List (HloOp τ sig (Elt F)) :=
  [ nullary main_c_6 (constantI S_ 32 0#32),
    unary main_c_6 main_v72 (broadcastInDim S625000 ![] bcast_S_S625000 : (⟨S_, .i32⟩ : BufTy).Contents (Elt F) → (⟨S625000, .i32⟩ : BufTy).Contents (Elt F)),
    binary main_v9 main_v72 main_v73 (cmpi .slt : (⟨S625000, .i32⟩ : BufTy).Contents (Elt F) → (⟨S625000, .i32⟩ : BufTy).Contents (Elt F) → (⟨S625000, .i1⟩ : BufTy).Contents (Elt F)),
    nullary main_c_7 (constantI S_ 32 50000#32),
    unary main_c_7 main_v74 (broadcastInDim S625000 ![] bcast_S_S625000 : (⟨S_, .i32⟩ : BufTy).Contents (Elt F) → (⟨S625000, .i32⟩ : BufTy).Contents (Elt F)),
    binary main_v9 main_v74 main_v75 (addi : (⟨S625000, .i32⟩ : BufTy).Contents (Elt F) → (⟨S625000, .i32⟩ : BufTy).Contents (Elt F) → (⟨S625000, .i32⟩ : BufTy).Contents (Elt F)),
    ternary main_v73 main_v75 main_v9 main_v76 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v76 main_v77 (broadcastInDim S625000x1 ![0] bcast_S625000_S625000x1_0 : (⟨S625000, .i32⟩ : BufTy).Contents (Elt F) → (⟨S625000x1, .i32⟩ : BufTy).Contents (Elt F)),
    binary main_v71 main_v77 main_v78 ((fun x i => Host.gather gather_S50000x128_S625000x1_S625000x128_1_0_n_n_0_1_1128 x i) : (⟨S50000x128, .f32⟩ : BufTy).Contents (Elt F) → (⟨S625000x1, .i32⟩ : BufTy).Contents (Elt F) → (⟨S625000x128, .f32⟩ : BufTy).Contents (Elt F)),
    binary main_v78 main_v7 main_v79 (addf : (⟨S625000x128, .f32⟩ : BufTy).Contents (Elt F) → (⟨S625000x128, .f32⟩ : BufTy).Contents (Elt F) → (⟨S625000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S625000x128, .f32⟩) main_call3_v0) (broadcastInDim S625000x128 ![] bcast_S_S625000x128),
    TRef.binary (TRef.of (T := ⟨S625000x128, .f32⟩) main_v79) (TRef.of (T := ⟨S625000x128, .f32⟩) main_call3_v0) (TRef.of (T := ⟨S625000x128, .f32⟩) main_v80) maximumf,
    nullary main_cst_8 (constant S_ .f32 0x00000000#32),
    unary main_cst_8 main_v81 (broadcastInDim S50000x128 ![] bcast_S_S50000x128 : (⟨S_, .f32⟩ : BufTy).Contents (Elt F) → (⟨S50000x128, .f32⟩ : BufTy).Contents (Elt F)),
    unary main_v11 main_v82 (broadcastInDim S625000x1 ![0] bcast_S625000_S625000x1_0 : (⟨S625000, .i32⟩ : BufTy).Contents (Elt F) → (⟨S625000x1, .i32⟩ : BufTy).Contents (Elt F)),
    ternary main_v81 main_v82 main_v80 main_v83 ((fun x i u => Host.scatterAdd scatter_S50000x128_S625000x1_S625000x128_1_0_0_1 x i u) : (⟨S50000x128, .f32⟩ : BufTy).Contents (Elt F) → (⟨S625000x1, .i32⟩ : BufTy).Contents (Elt F) → (⟨S625000x128, .f32⟩ : BufTy).Contents (Elt F) → (⟨S50000x128, .f32⟩ : BufTy).Contents (Elt F)),
    binary main_v71 main_v83 main_v84 (addf : (⟨S50000x128, .f32⟩ : BufTy).Contents (Elt F) → (⟨S50000x128, .f32⟩ : BufTy).Contents (Elt F) → (⟨S50000x128, .f32⟩ : BufTy).Contents (Elt F)),
    unary main_arg8 main_v85 ((extractStridedSlice S1x128x256 ![1, 0, 0] · slices_S4x128x256_S1x128x256_1_0_0) : (⟨S4x128x256, .f32⟩ : BufTy).Contents (Elt F) → (⟨S1x128x256, .f32⟩ : BufTy).Contents (Elt F)),
    reshape main_v85 main_v86 rfl shapeCasts_S1x128x256_S128x256,
    binary main_v84 main_v86 main_v87 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg9 main_v88 ((extractStridedSlice S1x256 ![1, 0] · slices_S4x256_S1x256_1_0) : (⟨S4x256, .f32⟩ : BufTy).Contents (Elt F) → (⟨S1x256, .f32⟩ : BufTy).Contents (Elt F)),
    reshape main_v88 main_v89 rfl shapeCasts_S1x256_S256,
    unary main_v89 main_v90 (broadcastInDim S1x256 ![1] bcast_S256_S1x256_1 : (⟨S256, .f32⟩ : BufTy).Contents (Elt F) → (⟨S1x256, .f32⟩ : BufTy).Contents (Elt F)),
    unary main_v90 main_v91 (broadcastInDim S50000x256 ![0, 1] bcast_S1x256_S50000x256_0_1 : (⟨S1x256, .f32⟩ : BufTy).Contents (Elt F) → (⟨S50000x256, .f32⟩ : BufTy).Contents (Elt F)),
    binary main_v87 main_v91 main_v92 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x256, .f32⟩) main_call4_v0) (broadcastInDim S50000x256 ![] bcast_S_S50000x256),
    TRef.binary (TRef.of (T := ⟨S50000x256, .f32⟩) main_v92) (TRef.of (T := ⟨S50000x256, .f32⟩) main_call4_v0) (TRef.of (T := ⟨S50000x256, .f32⟩) main_v93) maximumf,
    unary main_arg10 main_v94 ((extractStridedSlice S1x256x128 ![1, 0, 0] · slices_S4x256x128_S1x256x128_1_0_0) : (⟨S4x256x128, .f32⟩ : BufTy).Contents (Elt F) → (⟨S1x256x128, .f32⟩ : BufTy).Contents (Elt F)),
    reshape main_v94 main_v95 rfl shapeCasts_S1x256x128_S256x128,
    binary main_v93 main_v95 main_v96 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg11 main_v97 ((extractStridedSlice S1x128 ![1, 0] · slices_S4x128_S1x128_1_0) : (⟨S4x128, .f32⟩ : BufTy).Contents (Elt F) → (⟨S1x128, .f32⟩ : BufTy).Contents (Elt F)),
    reshape main_v97 main_v98 rfl shapeCasts_S1x128_S128,
    unary main_v98 main_v99 (broadcastInDim S1x128 ![1] bcast_S128_S1x128_1 : (⟨S128, .f32⟩ : BufTy).Contents (Elt F) → (⟨S1x128, .f32⟩ : BufTy).Contents (Elt F)),
    unary main_v99 main_v100 (broadcastInDim S50000x128 ![0, 1] bcast_S1x128_S50000x128_0_1 : (⟨S1x128, .f32⟩ : BufTy).Contents (Elt F) → (⟨S50000x128, .f32⟩ : BufTy).Contents (Elt F)),
    binary main_v96 main_v100 main_v101 (addf : (⟨S50000x128, .f32⟩ : BufTy).Contents (Elt F) → (⟨S50000x128, .f32⟩ : BufTy).Contents (Elt F) → (⟨S50000x128, .f32⟩ : BufTy).Contents (Elt F)),
    nullary main_cst_9 (constant S_ .f32 0x00000000#32),
    binary main_v101 main_cst_9 main_v102 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v102 main_v103 (broadcastInDim S50000x1 ![0] bcast_S50000_S50000x1_0 : (⟨S50000, .f32⟩ : BufTy).Contents (Elt F) → (⟨S50000x1, .f32⟩ : BufTy).Contents (Elt F)),
    nullary main_cst_10 (constant S_ .f32 0x43000000#32),
    unary main_cst_10 main_v104 (broadcastInDim S50000x1 ![] bcast_S_S50000x1 : (⟨S_, .f32⟩ : BufTy).Contents (Elt F) → (⟨S50000x1, .f32⟩ : BufTy).Contents (Elt F)),
    binary main_v103 main_v104 main_v105 (Host.divf : (⟨S50000x1, .f32⟩ : BufTy).Contents (Elt F) → (⟨S50000x1, .f32⟩ : BufTy).Contents (Elt F) → (⟨S50000x1, .f32⟩ : BufTy).Contents (Elt F)),
    unary main_v105 main_v106 (broadcastInDim S50000x128 ![0, 1] bcast_S50000x1_S50000x128_0_1 : (⟨S50000x1, .f32⟩ : BufTy).Contents (Elt F) → (⟨S50000x128, .f32⟩ : BufTy).Contents (Elt F)),
    binary main_v101 main_v106 main_v107 (subf : (⟨S50000x128, .f32⟩ : BufTy).Contents (Elt F) → (⟨S50000x128, .f32⟩ : BufTy).Contents (Elt F) → (⟨S50000x128, .f32⟩ : BufTy).Contents (Elt F)),
    binary main_v107 main_v107 main_v108 (mulf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v108 main_cst_11 main_v109 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v109 main_v110 (broadcastInDim S50000x1 ![0] bcast_S50000_S50000x1_0 : (⟨S50000, .f32⟩ : BufTy).Contents (Elt F) → (⟨S50000x1, .f32⟩ : BufTy).Contents (Elt F)),
    nullary main_cst_12 (constant S_ .f32 0x43000000#32),
    unary main_cst_12 main_v111 (broadcastInDim S50000x1 ![] bcast_S_S50000x1 : (⟨S_, .f32⟩ : BufTy).Contents (Elt F) → (⟨S50000x1, .f32⟩ : BufTy).Contents (Elt F)),
    binary main_v110 main_v111 main_v112 (Host.divf : (⟨S50000x1, .f32⟩ : BufTy).Contents (Elt F) → (⟨S50000x1, .f32⟩ : BufTy).Contents (Elt F) → (⟨S50000x1, .f32⟩ : BufTy).Contents (Elt F)),
    unary main_v105 main_v113 (broadcastInDim S50000x128 ![0, 1] bcast_S50000x1_S50000x128_0_1 : (⟨S50000x1, .f32⟩ : BufTy).Contents (Elt F) → (⟨S50000x128, .f32⟩ : BufTy).Contents (Elt F)),
    binary main_v101 main_v113 main_v114 (subf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3727C5AC#32),
    unary main_cst_13 main_v115 (broadcastInDim S50000x1 ![] bcast_S_S50000x1 : (⟨S_, .f32⟩ : BufTy).Contents (Elt F) → (⟨S50000x1, .f32⟩ : BufTy).Contents (Elt F)),
    binary main_v112 main_v115 main_v116 (addf : (⟨S50000x1, .f32⟩ : BufTy).Contents (Elt F) → (⟨S50000x1, .f32⟩ : BufTy).Contents (Elt F) → (⟨S50000x1, .f32⟩ : BufTy).Contents (Elt F)),
    unary main_v116 main_v117 (Host.rsqrt : (⟨S50000x1, .f32⟩ : BufTy).Contents (Elt F) → (⟨S50000x1, .f32⟩ : BufTy).Contents (Elt F)),
    unary main_v117 main_v118 (broadcastInDim S50000x128 ![0, 1] bcast_S50000x1_S50000x128_0_1 : (⟨S50000x1, .f32⟩ : BufTy).Contents (Elt F) → (⟨S50000x128, .f32⟩ : BufTy).Contents (Elt F)),
    binary main_v114 main_v118 main_v119 (mulf : (⟨S50000x128, .f32⟩ : BufTy).Contents (Elt F) → (⟨S50000x128, .f32⟩ : BufTy).Contents (Elt F) → (⟨S50000x128, .f32⟩ : BufTy).Contents (Elt F)),
    unary main_arg12 main_v120 ((extractStridedSlice S1x128 ![1, 0] · slices_S4x128_S1x128_1_0) : (⟨S4x128, .f32⟩ : BufTy).Contents (Elt F) → (⟨S1x128, .f32⟩ : BufTy).Contents (Elt F)),
    reshape main_v120 main_v121 rfl shapeCasts_S1x128_S128,
    unary main_v121 main_v122 (broadcastInDim S1x128 ![1] bcast_S128_S1x128_1 : (⟨S128, .f32⟩ : BufTy).Contents (Elt F) → (⟨S1x128, .f32⟩ : BufTy).Contents (Elt F)),
    unary main_v122 main_v123 (broadcastInDim S50000x128 ![0, 1] bcast_S1x128_S50000x128_0_1 : (⟨S1x128, .f32⟩ : BufTy).Contents (Elt F) → (⟨S50000x128, .f32⟩ : BufTy).Contents (Elt F)),
    binary main_v119 main_v123 main_v124 (mulf : (⟨S50000x128, .f32⟩ : BufTy).Contents (Elt F) → (⟨S50000x128, .f32⟩ : BufTy).Contents (Elt F) → (⟨S50000x128, .f32⟩ : BufTy).Contents (Elt F)),
    unary main_arg13 main_v125 ((extractStridedSlice S1x128 ![1, 0] · slices_S4x128_S1x128_1_0) : (⟨S4x128, .f32⟩ : BufTy).Contents (Elt F) → (⟨S1x128, .f32⟩ : BufTy).Contents (Elt F)),
    reshape main_v125 main_v126 rfl shapeCasts_S1x128_S128,
    unary main_v126 main_v127 (broadcastInDim S1x128 ![1] bcast_S128_S1x128_1 : (⟨S128, .f32⟩ : BufTy).Contents (Elt F) → (⟨S1x128, .f32⟩ : BufTy).Contents (Elt F)),
    unary main_v127 main_v128 (broadcastInDim S50000x128 ![0, 1] bcast_S1x128_S50000x128_0_1 : (⟨S1x128, .f32⟩ : BufTy).Contents (Elt F) → (⟨S50000x128, .f32⟩ : BufTy).Contents (Elt F)),
    binary main_v124 main_v128 main_v129 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v129) (TRef.of (T := ⟨S50000x128, .f32⟩) main_call5_v0) (TRef.of (T := ⟨S50000x128, .f32⟩) main_v130) maximumf,
    binary main_v130 main_v71 main_v131 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 4000000 in
abbrev opsL2 : List (HloOp τ sig (Elt F)) :=
  [ nullary main_c_14 (constantI S_ 32 0#32),
    unary main_c_14 main_v132 (broadcastInDim S625000 ![] bcast_S_S625000 : (⟨S_, .i32⟩ : BufTy).Contents (Elt F) → (⟨S625000, .i32⟩ : BufTy).Contents (Elt F)),
    binary main_v9 main_v132 main_v133 (cmpi .slt : (⟨S625000, .i32⟩ : BufTy).Contents (Elt F) → (⟨S625000, .i32⟩ : BufTy).Contents (Elt F) → (⟨S625000, .i1⟩ : BufTy).Contents (Elt F)),
    nullary main_c_15 (constantI S_ 32 50000#32),
    unary main_c_15 main_v134 (broadcastInDim S625000 ![] bcast_S_S625000 : (⟨S_, .i32⟩ : BufTy).Contents (Elt F) → (⟨S625000, .i32⟩ : BufTy).Contents (Elt F)),
    binary main_v9 main_v134 main_v135 (addi : (⟨S625000, .i32⟩ : BufTy).Contents (Elt F) → (⟨S625000, .i32⟩ : BufTy).Contents (Elt F) → (⟨S625000, .i32⟩ : BufTy).Contents (Elt F)),
    ternary main_v133 main_v135 main_v9 main_v136 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v136 main_v137 (broadcastInDim S625000x1 ![0] bcast_S625000_S625000x1_0 : (⟨S625000, .i32⟩ : BufTy).Contents (Elt F) → (⟨S625000x1, .i32⟩ : BufTy).Contents (Elt F)),
    binary main_v131 main_v137 main_v138 ((fun x i => Host.gather gather_S50000x128_S625000x1_S625000x128_1_0_n_n_0_1_1128 x i) : (⟨S50000x128, .f32⟩ : BufTy).Contents (Elt F) → (⟨S625000x1, .i32⟩ : BufTy).Contents (Elt F) → (⟨S625000x128, .f32⟩ : BufTy).Contents (Elt F)),
    binary main_v138 main_v7 main_v139 (addf : (⟨S625000x128, .f32⟩ : BufTy).Contents (Elt F) → (⟨S625000x128, .f32⟩ : BufTy).Contents (Elt F) → (⟨S625000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S625000x128, .f32⟩) main_call6_v0) (broadcastInDim S625000x128 ![] bcast_S_S625000x128),
    TRef.binary (TRef.of (T := ⟨S625000x128, .f32⟩) main_v139) (TRef.of (T := ⟨S625000x128, .f32⟩) main_call6_v0) (TRef.of (T := ⟨S625000x128, .f32⟩) main_v140) maximumf,
    nullary main_cst_16 (constant S_ .f32 0x00000000#32),
    unary main_cst_16 main_v141 (broadcastInDim S50000x128 ![] bcast_S_S50000x128 : (⟨S_, .f32⟩ : BufTy).Contents (Elt F) → (⟨S50000x128, .f32⟩ : BufTy).Contents (Elt F)),
    unary main_v11 main_v142 (broadcastInDim S625000x1 ![0] bcast_S625000_S625000x1_0 : (⟨S625000, .i32⟩ : BufTy).Contents (Elt F) → (⟨S625000x1, .i32⟩ : BufTy).Contents (Elt F)),
    ternary main_v141 main_v142 main_v140 main_v143 ((fun x i u => Host.scatterAdd scatter_S50000x128_S625000x1_S625000x128_1_0_0_1 x i u) : (⟨S50000x128, .f32⟩ : BufTy).Contents (Elt F) → (⟨S625000x1, .i32⟩ : BufTy).Contents (Elt F) → (⟨S625000x128, .f32⟩ : BufTy).Contents (Elt F) → (⟨S50000x128, .f32⟩ : BufTy).Contents (Elt F)),
    binary main_v131 main_v143 main_v144 (addf : (⟨S50000x128, .f32⟩ : BufTy).Contents (Elt F) → (⟨S50000x128, .f32⟩ : BufTy).Contents (Elt F) → (⟨S50000x128, .f32⟩ : BufTy).Contents (Elt F)),
    unary main_arg8 main_v145 ((extractStridedSlice S1x128x256 ![2, 0, 0] · slices_S4x128x256_S1x128x256_2_0_0) : (⟨S4x128x256, .f32⟩ : BufTy).Contents (Elt F) → (⟨S1x128x256, .f32⟩ : BufTy).Contents (Elt F)),
    reshape main_v145 main_v146 rfl shapeCasts_S1x128x256_S128x256,
    binary main_v144 main_v146 main_v147 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg9 main_v148 ((extractStridedSlice S1x256 ![2, 0] · slices_S4x256_S1x256_2_0) : (⟨S4x256, .f32⟩ : BufTy).Contents (Elt F) → (⟨S1x256, .f32⟩ : BufTy).Contents (Elt F)),
    reshape main_v148 main_v149 rfl shapeCasts_S1x256_S256,
    unary main_v149 main_v150 (broadcastInDim S1x256 ![1] bcast_S256_S1x256_1 : (⟨S256, .f32⟩ : BufTy).Contents (Elt F) → (⟨S1x256, .f32⟩ : BufTy).Contents (Elt F)),
    unary main_v150 main_v151 (broadcastInDim S50000x256 ![0, 1] bcast_S1x256_S50000x256_0_1 : (⟨S1x256, .f32⟩ : BufTy).Contents (Elt F) → (⟨S50000x256, .f32⟩ : BufTy).Contents (Elt F)),
    binary main_v147 main_v151 main_v152 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x256, .f32⟩) main_call7_v0) (broadcastInDim S50000x256 ![] bcast_S_S50000x256),
    TRef.binary (TRef.of (T := ⟨S50000x256, .f32⟩) main_v152) (TRef.of (T := ⟨S50000x256, .f32⟩) main_call7_v0) (TRef.of (T := ⟨S50000x256, .f32⟩) main_v153) maximumf,
    unary main_arg10 main_v154 ((extractStridedSlice S1x256x128 ![2, 0, 0] · slices_S4x256x128_S1x256x128_2_0_0) : (⟨S4x256x128, .f32⟩ : BufTy).Contents (Elt F) → (⟨S1x256x128, .f32⟩ : BufTy).Contents (Elt F)),
    reshape main_v154 main_v155 rfl shapeCasts_S1x256x128_S256x128,
    binary main_v153 main_v155 main_v156 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg11 main_v157 ((extractStridedSlice S1x128 ![2, 0] · slices_S4x128_S1x128_2_0) : (⟨S4x128, .f32⟩ : BufTy).Contents (Elt F) → (⟨S1x128, .f32⟩ : BufTy).Contents (Elt F)),
    reshape main_v157 main_v158 rfl shapeCasts_S1x128_S128,
    unary main_v158 main_v159 (broadcastInDim S1x128 ![1] bcast_S128_S1x128_1 : (⟨S128, .f32⟩ : BufTy).Contents (Elt F) → (⟨S1x128, .f32⟩ : BufTy).Contents (Elt F)),
    unary main_v159 main_v160 (broadcastInDim S50000x128 ![0, 1] bcast_S1x128_S50000x128_0_1 : (⟨S1x128, .f32⟩ : BufTy).Contents (Elt F) → (⟨S50000x128, .f32⟩ : BufTy).Contents (Elt F)),
    binary main_v156 main_v160 main_v161 (addf : (⟨S50000x128, .f32⟩ : BufTy).Contents (Elt F) → (⟨S50000x128, .f32⟩ : BufTy).Contents (Elt F) → (⟨S50000x128, .f32⟩ : BufTy).Contents (Elt F)),
    nullary main_cst_17 (constant S_ .f32 0x00000000#32),
    binary main_v161 main_cst_17 main_v162 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v162 main_v163 (broadcastInDim S50000x1 ![0] bcast_S50000_S50000x1_0 : (⟨S50000, .f32⟩ : BufTy).Contents (Elt F) → (⟨S50000x1, .f32⟩ : BufTy).Contents (Elt F)),
    nullary main_cst_18 (constant S_ .f32 0x43000000#32),
    unary main_cst_18 main_v164 (broadcastInDim S50000x1 ![] bcast_S_S50000x1 : (⟨S_, .f32⟩ : BufTy).Contents (Elt F) → (⟨S50000x1, .f32⟩ : BufTy).Contents (Elt F)),
    binary main_v163 main_v164 main_v165 (Host.divf : (⟨S50000x1, .f32⟩ : BufTy).Contents (Elt F) → (⟨S50000x1, .f32⟩ : BufTy).Contents (Elt F) → (⟨S50000x1, .f32⟩ : BufTy).Contents (Elt F)),
    unary main_v165 main_v166 (broadcastInDim S50000x128 ![0, 1] bcast_S50000x1_S50000x128_0_1 : (⟨S50000x1, .f32⟩ : BufTy).Contents (Elt F) → (⟨S50000x128, .f32⟩ : BufTy).Contents (Elt F)),
    binary main_v161 main_v166 main_v167 (subf : (⟨S50000x128, .f32⟩ : BufTy).Contents (Elt F) → (⟨S50000x128, .f32⟩ : BufTy).Contents (Elt F) → (⟨S50000x128, .f32⟩ : BufTy).Contents (Elt F)),
    binary main_v167 main_v167 main_v168 (mulf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x00000000#32),
    binary main_v168 main_cst_19 main_v169 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v169 main_v170 (broadcastInDim S50000x1 ![0] bcast_S50000_S50000x1_0 : (⟨S50000, .f32⟩ : BufTy).Contents (Elt F) → (⟨S50000x1, .f32⟩ : BufTy).Contents (Elt F)),
    nullary main_cst_20 (constant S_ .f32 0x43000000#32),
    unary main_cst_20 main_v171 (broadcastInDim S50000x1 ![] bcast_S_S50000x1 : (⟨S_, .f32⟩ : BufTy).Contents (Elt F) → (⟨S50000x1, .f32⟩ : BufTy).Contents (Elt F)),
    binary main_v170 main_v171 main_v172 (Host.divf : (⟨S50000x1, .f32⟩ : BufTy).Contents (Elt F) → (⟨S50000x1, .f32⟩ : BufTy).Contents (Elt F) → (⟨S50000x1, .f32⟩ : BufTy).Contents (Elt F)),
    unary main_v165 main_v173 (broadcastInDim S50000x128 ![0, 1] bcast_S50000x1_S50000x128_0_1 : (⟨S50000x1, .f32⟩ : BufTy).Contents (Elt F) → (⟨S50000x128, .f32⟩ : BufTy).Contents (Elt F)),
    binary main_v161 main_v173 main_v174 (subf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x3727C5AC#32),
    unary main_cst_21 main_v175 (broadcastInDim S50000x1 ![] bcast_S_S50000x1 : (⟨S_, .f32⟩ : BufTy).Contents (Elt F) → (⟨S50000x1, .f32⟩ : BufTy).Contents (Elt F)),
    binary main_v172 main_v175 main_v176 (addf : (⟨S50000x1, .f32⟩ : BufTy).Contents (Elt F) → (⟨S50000x1, .f32⟩ : BufTy).Contents (Elt F) → (⟨S50000x1, .f32⟩ : BufTy).Contents (Elt F)),
    unary main_v176 main_v177 (Host.rsqrt : (⟨S50000x1, .f32⟩ : BufTy).Contents (Elt F) → (⟨S50000x1, .f32⟩ : BufTy).Contents (Elt F)),
    unary main_v177 main_v178 (broadcastInDim S50000x128 ![0, 1] bcast_S50000x1_S50000x128_0_1 : (⟨S50000x1, .f32⟩ : BufTy).Contents (Elt F) → (⟨S50000x128, .f32⟩ : BufTy).Contents (Elt F)),
    binary main_v174 main_v178 main_v179 (mulf : (⟨S50000x128, .f32⟩ : BufTy).Contents (Elt F) → (⟨S50000x128, .f32⟩ : BufTy).Contents (Elt F) → (⟨S50000x128, .f32⟩ : BufTy).Contents (Elt F)),
    unary main_arg12 main_v180 ((extractStridedSlice S1x128 ![2, 0] · slices_S4x128_S1x128_2_0) : (⟨S4x128, .f32⟩ : BufTy).Contents (Elt F) → (⟨S1x128, .f32⟩ : BufTy).Contents (Elt F)),
    reshape main_v180 main_v181 rfl shapeCasts_S1x128_S128,
    unary main_v181 main_v182 (broadcastInDim S1x128 ![1] bcast_S128_S1x128_1 : (⟨S128, .f32⟩ : BufTy).Contents (Elt F) → (⟨S1x128, .f32⟩ : BufTy).Contents (Elt F)),
    unary main_v182 main_v183 (broadcastInDim S50000x128 ![0, 1] bcast_S1x128_S50000x128_0_1 : (⟨S1x128, .f32⟩ : BufTy).Contents (Elt F) → (⟨S50000x128, .f32⟩ : BufTy).Contents (Elt F)),
    binary main_v179 main_v183 main_v184 (mulf : (⟨S50000x128, .f32⟩ : BufTy).Contents (Elt F) → (⟨S50000x128, .f32⟩ : BufTy).Contents (Elt F) → (⟨S50000x128, .f32⟩ : BufTy).Contents (Elt F)),
    unary main_arg13 main_v185 ((extractStridedSlice S1x128 ![2, 0] · slices_S4x128_S1x128_2_0) : (⟨S4x128, .f32⟩ : BufTy).Contents (Elt F) → (⟨S1x128, .f32⟩ : BufTy).Contents (Elt F)),
    reshape main_v185 main_v186 rfl shapeCasts_S1x128_S128,
    unary main_v186 main_v187 (broadcastInDim S1x128 ![1] bcast_S128_S1x128_1 : (⟨S128, .f32⟩ : BufTy).Contents (Elt F) → (⟨S1x128, .f32⟩ : BufTy).Contents (Elt F)),
    unary main_v187 main_v188 (broadcastInDim S50000x128 ![0, 1] bcast_S1x128_S50000x128_0_1 : (⟨S1x128, .f32⟩ : BufTy).Contents (Elt F) → (⟨S50000x128, .f32⟩ : BufTy).Contents (Elt F)),
    binary main_v184 main_v188 main_v189 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S50000x128, .f32⟩) main_call8_v0) (broadcastInDim S50000x128 ![] bcast_S_S50000x128),
    TRef.binary (TRef.of (T := ⟨S50000x128, .f32⟩) main_v189) (TRef.of (T := ⟨S50000x128, .f32⟩) main_call8_v0) (TRef.of (T := ⟨S50000x128, .f32⟩) main_v190) maximumf,
    binary main_v190 main_v131 main_v191 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 4000000 in
abbrev opsL3 : List (HloOp τ sig (Elt F)) :=
  [ nullary main_c_22 (constantI S_ 32 0#32),
    unary main_c_22 main_v192 (broadcastInDim S625000 ![] bcast_S_S625000 : (⟨S_, .i32⟩ : BufTy).Contents (Elt F) → (⟨S625000, .i32⟩ : BufTy).Contents (Elt F)),
    binary main_v9 main_v192 main_v193 (cmpi .slt : (⟨S625000, .i32⟩ : BufTy).Contents (Elt F) → (⟨S625000, .i32⟩ : BufTy).Contents (Elt F) → (⟨S625000, .i1⟩ : BufTy).Contents (Elt F)),
    nullary main_c_23 (constantI S_ 32 50000#32),
    unary main_c_23 main_v194 (broadcastInDim S625000 ![] bcast_S_S625000 : (⟨S_, .i32⟩ : BufTy).Contents (Elt F) → (⟨S625000, .i32⟩ : BufTy).Contents (Elt F)),
    binary main_v9 main_v194 main_v195 (addi : (⟨S625000, .i32⟩ : BufTy).Contents (Elt F) → (⟨S625000, .i32⟩ : BufTy).Contents (Elt F) → (⟨S625000, .i32⟩ : BufTy).Contents (Elt F)),
    ternary main_v193 main_v195 main_v9 main_v196 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v196 main_v197 (broadcastInDim S625000x1 ![0] bcast_S625000_S625000x1_0 : (⟨S625000, .i32⟩ : BufTy).Contents (Elt F) → (⟨S625000x1, .i32⟩ : BufTy).Contents (Elt F)),
    binary main_v191 main_v197 main_v198 ((fun x i => Host.gather gather_S50000x128_S625000x1_S625000x128_1_0_n_n_0_1_1128 x i) : (⟨S50000x128, .f32⟩ : BufTy).Contents (Elt F) → (⟨S625000x1, .i32⟩ : BufTy).Contents (Elt F) → (⟨S625000x128, .f32⟩ : BufTy).Contents (Elt F)),
    binary main_v198 main_v7 main_v199 (addf : (⟨S625000x128, .f32⟩ : BufTy).Contents (Elt F) → (⟨S625000x128, .f32⟩ : BufTy).Contents (Elt F) → (⟨S625000x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S625000x128, .f32⟩) main_call9_v0) (broadcastInDim S625000x128 ![] bcast_S_S625000x128),
    TRef.binary (TRef.of (T := ⟨S625000x128, .f32⟩) main_v199) (TRef.of (T := ⟨S625000x128, .f32⟩) main_call9_v0) (TRef.of (T := ⟨S625000x128, .f32⟩) main_v200) maximumf,
    nullary main_cst_24 (constant S_ .f32 0x00000000#32),
    unary main_cst_24 main_v201 (broadcastInDim S50000x128 ![] bcast_S_S50000x128 : (⟨S_, .f32⟩ : BufTy).Contents (Elt F) → (⟨S50000x128, .f32⟩ : BufTy).Contents (Elt F)),
    unary main_v11 main_v202 (broadcastInDim S625000x1 ![0] bcast_S625000_S625000x1_0 : (⟨S625000, .i32⟩ : BufTy).Contents (Elt F) → (⟨S625000x1, .i32⟩ : BufTy).Contents (Elt F)),
    ternary main_v201 main_v202 main_v200 main_v203 ((fun x i u => Host.scatterAdd scatter_S50000x128_S625000x1_S625000x128_1_0_0_1 x i u) : (⟨S50000x128, .f32⟩ : BufTy).Contents (Elt F) → (⟨S625000x1, .i32⟩ : BufTy).Contents (Elt F) → (⟨S625000x128, .f32⟩ : BufTy).Contents (Elt F) → (⟨S50000x128, .f32⟩ : BufTy).Contents (Elt F)),
    binary main_v191 main_v203 main_v204 (addf : (⟨S50000x128, .f32⟩ : BufTy).Contents (Elt F) → (⟨S50000x128, .f32⟩ : BufTy).Contents (Elt F) → (⟨S50000x128, .f32⟩ : BufTy).Contents (Elt F)),
    unary main_arg8 main_v205 ((extractStridedSlice S1x128x256 ![3, 0, 0] · slices_S4x128x256_S1x128x256_3_0_0) : (⟨S4x128x256, .f32⟩ : BufTy).Contents (Elt F) → (⟨S1x128x256, .f32⟩ : BufTy).Contents (Elt F)),
    reshape main_v205 main_v206 rfl shapeCasts_S1x128x256_S128x256,
    binary main_v204 main_v206 main_v207 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg9 main_v208 ((extractStridedSlice S1x256 ![3, 0] · slices_S4x256_S1x256_3_0) : (⟨S4x256, .f32⟩ : BufTy).Contents (Elt F) → (⟨S1x256, .f32⟩ : BufTy).Contents (Elt F)),
    reshape main_v208 main_v209 rfl shapeCasts_S1x256_S256,
    unary main_v209 main_v210 (broadcastInDim S1x256 ![1] bcast_S256_S1x256_1 : (⟨S256, .f32⟩ : BufTy).Contents (Elt F) → (⟨S1x256, .f32⟩ : BufTy).Contents (Elt F)),
    unary main_v210 main_v211 (broadcastInDim S50000x256 ![0, 1] bcast_S1x256_S50000x256_0_1 : (⟨S1x256, .f32⟩ : BufTy).Contents (Elt F) → (⟨S50000x256, .f32⟩ : BufTy).Contents (Elt F)),
    binary main_v207 main_v211 main_v212 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S50000x256, .f32⟩) main_call10_v0) (broadcastInDim S50000x256 ![] bcast_S_S50000x256),
    TRef.binary (TRef.of (T := ⟨S50000x256, .f32⟩) main_v212) (TRef.of (T := ⟨S50000x256, .f32⟩) main_call10_v0) (TRef.of (T := ⟨S50000x256, .f32⟩) main_v213) maximumf,
    unary main_arg10 main_v214 ((extractStridedSlice S1x256x128 ![3, 0, 0] · slices_S4x256x128_S1x256x128_3_0_0) : (⟨S4x256x128, .f32⟩ : BufTy).Contents (Elt F) → (⟨S1x256x128, .f32⟩ : BufTy).Contents (Elt F)),
    reshape main_v214 main_v215 rfl shapeCasts_S1x256x128_S256x128,
    binary main_v213 main_v215 main_v216 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg11 main_v217 ((extractStridedSlice S1x128 ![3, 0] · slices_S4x128_S1x128_3_0) : (⟨S4x128, .f32⟩ : BufTy).Contents (Elt F) → (⟨S1x128, .f32⟩ : BufTy).Contents (Elt F)),
    reshape main_v217 main_v218 rfl shapeCasts_S1x128_S128,
    unary main_v218 main_v219 (broadcastInDim S1x128 ![1] bcast_S128_S1x128_1 : (⟨S128, .f32⟩ : BufTy).Contents (Elt F) → (⟨S1x128, .f32⟩ : BufTy).Contents (Elt F)),
    unary main_v219 main_v220 (broadcastInDim S50000x128 ![0, 1] bcast_S1x128_S50000x128_0_1 : (⟨S1x128, .f32⟩ : BufTy).Contents (Elt F) → (⟨S50000x128, .f32⟩ : BufTy).Contents (Elt F)),
    binary main_v216 main_v220 main_v221 (addf : (⟨S50000x128, .f32⟩ : BufTy).Contents (Elt F) → (⟨S50000x128, .f32⟩ : BufTy).Contents (Elt F) → (⟨S50000x128, .f32⟩ : BufTy).Contents (Elt F)),
    nullary main_cst_25 (constant S_ .f32 0x00000000#32),
    binary main_v221 main_cst_25 main_v222 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v222 main_v223 (broadcastInDim S50000x1 ![0] bcast_S50000_S50000x1_0 : (⟨S50000, .f32⟩ : BufTy).Contents (Elt F) → (⟨S50000x1, .f32⟩ : BufTy).Contents (Elt F)),
    nullary main_cst_26 (constant S_ .f32 0x43000000#32),
    unary main_cst_26 main_v224 (broadcastInDim S50000x1 ![] bcast_S_S50000x1 : (⟨S_, .f32⟩ : BufTy).Contents (Elt F) → (⟨S50000x1, .f32⟩ : BufTy).Contents (Elt F)),
    binary main_v223 main_v224 main_v225 (Host.divf : (⟨S50000x1, .f32⟩ : BufTy).Contents (Elt F) → (⟨S50000x1, .f32⟩ : BufTy).Contents (Elt F) → (⟨S50000x1, .f32⟩ : BufTy).Contents (Elt F)),
    unary main_v225 main_v226 (broadcastInDim S50000x128 ![0, 1] bcast_S50000x1_S50000x128_0_1 : (⟨S50000x1, .f32⟩ : BufTy).Contents (Elt F) → (⟨S50000x128, .f32⟩ : BufTy).Contents (Elt F)),
    binary main_v221 main_v226 main_v227 (subf : (⟨S50000x128, .f32⟩ : BufTy).Contents (Elt F) → (⟨S50000x128, .f32⟩ : BufTy).Contents (Elt F) → (⟨S50000x128, .f32⟩ : BufTy).Contents (Elt F)),
    binary main_v227 main_v227 main_v228 (mulf : (⟨S50000x128, .f32⟩ : BufTy).Contents (Elt F) → (⟨S50000x128, .f32⟩ : BufTy).Contents (Elt F) → (⟨S50000x128, .f32⟩ : BufTy).Contents (Elt F)),
    nullary main_cst_27 (constant S_ .f32 0x00000000#32),
    binary main_v228 main_cst_27 main_v229 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v229 main_v230 (broadcastInDim S50000x1 ![0] bcast_S50000_S50000x1_0 : (⟨S50000, .f32⟩ : BufTy).Contents (Elt F) → (⟨S50000x1, .f32⟩ : BufTy).Contents (Elt F)),
    nullary main_cst_28 (constant S_ .f32 0x43000000#32),
    unary main_cst_28 main_v231 (broadcastInDim S50000x1 ![] bcast_S_S50000x1 : (⟨S_, .f32⟩ : BufTy).Contents (Elt F) → (⟨S50000x1, .f32⟩ : BufTy).Contents (Elt F)),
    binary main_v230 main_v231 main_v232 (Host.divf : (⟨S50000x1, .f32⟩ : BufTy).Contents (Elt F) → (⟨S50000x1, .f32⟩ : BufTy).Contents (Elt F) → (⟨S50000x1, .f32⟩ : BufTy).Contents (Elt F)),
    unary main_v225 main_v233 (broadcastInDim S50000x128 ![0, 1] bcast_S50000x1_S50000x128_0_1 : (⟨S50000x1, .f32⟩ : BufTy).Contents (Elt F) → (⟨S50000x128, .f32⟩ : BufTy).Contents (Elt F)),
    binary main_v221 main_v233 main_v234 (subf : (⟨S50000x128, .f32⟩ : BufTy).Contents (Elt F) → (⟨S50000x128, .f32⟩ : BufTy).Contents (Elt F) → (⟨S50000x128, .f32⟩ : BufTy).Contents (Elt F)),
    nullary main_cst_29 (constant S_ .f32 0x3727C5AC#32),
    unary main_cst_29 main_v235 (broadcastInDim S50000x1 ![] bcast_S_S50000x1 : (⟨S_, .f32⟩ : BufTy).Contents (Elt F) → (⟨S50000x1, .f32⟩ : BufTy).Contents (Elt F)),
    binary main_v232 main_v235 main_v236 (addf : (⟨S50000x1, .f32⟩ : BufTy).Contents (Elt F) → (⟨S50000x1, .f32⟩ : BufTy).Contents (Elt F) → (⟨S50000x1, .f32⟩ : BufTy).Contents (Elt F)),
    unary main_v236 main_v237 (Host.rsqrt : (⟨S50000x1, .f32⟩ : BufTy).Contents (Elt F) → (⟨S50000x1, .f32⟩ : BufTy).Contents (Elt F)),
    unary main_v237 main_v238 (broadcastInDim S50000x128 ![0, 1] bcast_S50000x1_S50000x128_0_1 : (⟨S50000x1, .f32⟩ : BufTy).Contents (Elt F) → (⟨S50000x128, .f32⟩ : BufTy).Contents (Elt F)),
    binary main_v234 main_v238 main_v239 (mulf : (⟨S50000x128, .f32⟩ : BufTy).Contents (Elt F) → (⟨S50000x128, .f32⟩ : BufTy).Contents (Elt F) → (⟨S50000x128, .f32⟩ : BufTy).Contents (Elt F)),
    unary main_arg12 main_v240 ((extractStridedSlice S1x128 ![3, 0] · slices_S4x128_S1x128_3_0) : (⟨S4x128, .f32⟩ : BufTy).Contents (Elt F) → (⟨S1x128, .f32⟩ : BufTy).Contents (Elt F)),
    reshape main_v240 main_v241 rfl shapeCasts_S1x128_S128,
    unary main_v241 main_v242 (broadcastInDim S1x128 ![1] bcast_S128_S1x128_1 : (⟨S128, .f32⟩ : BufTy).Contents (Elt F) → (⟨S1x128, .f32⟩ : BufTy).Contents (Elt F)),
    unary main_v242 main_v243 (broadcastInDim S50000x128 ![0, 1] bcast_S1x128_S50000x128_0_1 : (⟨S1x128, .f32⟩ : BufTy).Contents (Elt F) → (⟨S50000x128, .f32⟩ : BufTy).Contents (Elt F)),
    binary main_v239 main_v243 main_v244 (mulf : (⟨S50000x128, .f32⟩ : BufTy).Contents (Elt F) → (⟨S50000x128, .f32⟩ : BufTy).Contents (Elt F) → (⟨S50000x128, .f32⟩ : BufTy).Contents (Elt F)),
    unary main_arg13 main_v245 ((extractStridedSlice S1x128 ![3, 0] · slices_S4x128_S1x128_3_0) : (⟨S4x128, .f32⟩ : BufTy).Contents (Elt F) → (⟨S1x128, .f32⟩ : BufTy).Contents (Elt F)),
    reshape main_v245 main_v246 rfl shapeCasts_S1x128_S128,
    unary main_v246 main_v247 (broadcastInDim S1x128 ![1] bcast_S128_S1x128_1 : (⟨S128, .f32⟩ : BufTy).Contents (Elt F) → (⟨S1x128, .f32⟩ : BufTy).Contents (Elt F)),
    unary main_v247 main_v248 (broadcastInDim S50000x128 ![0, 1] bcast_S1x128_S50000x128_0_1 : (⟨S1x128, .f32⟩ : BufTy).Contents (Elt F) → (⟨S50000x128, .f32⟩ : BufTy).Contents (Elt F)),
    binary main_v244 main_v248 main_v249 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S50000x128, .f32⟩) main_call11_v0) (broadcastInDim S50000x128 ![] bcast_S_S50000x128),
    TRef.binary (TRef.of (T := ⟨S50000x128, .f32⟩) main_v249) (TRef.of (T := ⟨S50000x128, .f32⟩) main_call11_v0) (TRef.of (T := ⟨S50000x128, .f32⟩) main_v250) maximumf,
    binary main_v250 main_v191 main_v251 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 4000000 in
abbrev opsQ : List (HloOp τ sig (Elt F)) :=
  [ nullary main_cst_30 (constant S_ .f32 0x00000000#32),
    unary main_cst_30 main_v252 (broadcastInDim S2000x128 ![] bcast_S_S2000x128 : (⟨S_, .f32⟩ : BufTy).Contents (Elt F) → (⟨S2000x128, .f32⟩ : BufTy).Contents (Elt F)),
    unary main_arg3 main_v253 (broadcastInDim S50000x1 ![0] bcast_S50000_S50000x1_0 : (⟨S50000, .i32⟩ : BufTy).Contents (Elt F) → (⟨S50000x1, .i32⟩ : BufTy).Contents (Elt F)),
    ternary main_v252 main_v253 main_v251 main_v254 ((fun x i u => Host.scatterAdd scatter_S2000x128_S50000x1_S50000x128_1_0_0_1 x i u) : (⟨S2000x128, .f32⟩ : BufTy).Contents (Elt F) → (⟨S50000x1, .i32⟩ : BufTy).Contents (Elt F) → (⟨S50000x128, .f32⟩ : BufTy).Contents (Elt F) → (⟨S2000x128, .f32⟩ : BufTy).Contents (Elt F)) ]

set_option maxRecDepth 65536 in
set_option maxHeartbeats 8000000 in
/-- The program's operations are the six stretches one after the other. -/
theorem ops_split : (Cert.ReferenceIdeal.ValueP.ops : List (HloOp τ sig (Elt F)))
    = opsP ++ (opsL0 ++ (opsL1 ++ (opsL2 ++ (opsL3 ++ opsQ)))) := rfl

/-! ## The first stretch: the encoders and the edges' endpoints -/

set_option maxHeartbeats 4000000 in
theorem P_v3 (X : Valuation τ sig (Elt IdealF)) : after (opsP (F := IdealF)) X (Proc.devRef .tc main_v3)
    = rEnc0 (X (Proc.devRef .tc main_arg0)) (X (Proc.devRef .tc main_arg4)) (X (Proc.devRef .tc main_arg5)) := by
  dsimp only [opsP]
  after_results_simp <;> rfl
set_option maxHeartbeats 4000000 in
theorem P_v7 (X : Valuation τ sig (Elt IdealF)) : after (opsP (F := IdealF)) X (Proc.devRef .tc main_v7)
    = rEnc1 (X (Proc.devRef .tc main_arg2)) (X (Proc.devRef .tc main_arg6)) (X (Proc.devRef .tc main_arg7)) := by
  dsimp only [opsP]
  after_results_simp <;> rfl
set_option maxHeartbeats 4000000 in
theorem P_v9 (X : Valuation τ sig (Elt IdealF)) : after (opsP (F := IdealF)) X (Proc.devRef .tc main_v9) = rSrc (X (Proc.devRef .tc main_arg1)) := by
  dsimp only [opsP]
  after_results_simp <;> rfl
set_option maxHeartbeats 4000000 in
theorem P_v11 (X : Valuation τ sig (Elt IdealF)) : after (opsP (F := IdealF)) X (Proc.devRef .tc main_v11) = rDst (X (Proc.devRef .tc main_arg1)) := by
  dsimp only [opsP]
  after_results_simp <;> rfl
set_option maxHeartbeats 4000000 in
theorem P_keep_arg3 (X : Valuation τ sig (Elt IdealF)) :
    after (opsP (F := IdealF)) X (Proc.devRef .tc main_arg3) = X (Proc.devRef .tc main_arg3) := by
  dsimp only [opsP]
  after_results_simp <;> rfl
set_option maxHeartbeats 4000000 in
theorem P_keep_arg8 (X : Valuation τ sig (Elt IdealF)) :
    after (opsP (F := IdealF)) X (Proc.devRef .tc main_arg8) = X (Proc.devRef .tc main_arg8) := by
  dsimp only [opsP]
  after_results_simp <;> rfl
set_option maxHeartbeats 4000000 in
theorem P_keep_arg9 (X : Valuation τ sig (Elt IdealF)) :
    after (opsP (F := IdealF)) X (Proc.devRef .tc main_arg9) = X (Proc.devRef .tc main_arg9) := by
  dsimp only [opsP]
  after_results_simp <;> rfl
set_option maxHeartbeats 4000000 in
theorem P_keep_arg10 (X : Valuation τ sig (Elt IdealF)) :
    after (opsP (F := IdealF)) X (Proc.devRef .tc main_arg10) = X (Proc.devRef .tc main_arg10) := by
  dsimp only [opsP]
  after_results_simp <;> rfl
set_option maxHeartbeats 4000000 in
theorem P_keep_arg11 (X : Valuation τ sig (Elt IdealF)) :
    after (opsP (F := IdealF)) X (Proc.devRef .tc main_arg11) = X (Proc.devRef .tc main_arg11) := by
  dsimp only [opsP]
  after_results_simp <;> rfl
set_option maxHeartbeats 4000000 in
theorem P_keep_arg12 (X : Valuation τ sig (Elt IdealF)) :
    after (opsP (F := IdealF)) X (Proc.devRef .tc main_arg12) = X (Proc.devRef .tc main_arg12) := by
  dsimp only [opsP]
  after_results_simp <;> rfl
set_option maxHeartbeats 4000000 in
theorem P_keep_arg13 (X : Valuation τ sig (Elt IdealF)) :
    after (opsP (F := IdealF)) X (Proc.devRef .tc main_arg13) = X (Proc.devRef .tc main_arg13) := by
  dsimp only [opsP]
  after_results_simp <;> rfl

/-! ## Layer 0's stretch -/

set_option maxHeartbeats 64000000 in
theorem L0_out (X : Valuation τ sig (Elt IdealF)) : after (opsL0 (F := IdealF)) X (Proc.devRef .tc main_v71)
    = rLayer0 (X (Proc.devRef .tc main_v3)) (X (Proc.devRef .tc main_v7)) (X (Proc.devRef .tc main_v9)) (X (Proc.devRef .tc main_v11)) (X (Proc.devRef .tc main_arg8)) (X (Proc.devRef .tc main_arg9))
        (X (Proc.devRef .tc main_arg10)) (X (Proc.devRef .tc main_arg11)) (X (Proc.devRef .tc main_arg12)) (X (Proc.devRef .tc main_arg13)) := by
  dsimp only [opsL0]
  after_results_simp <;> rfl
set_option maxHeartbeats 16000000 in
theorem L0_keep_v7 (X : Valuation τ sig (Elt IdealF)) :
    after (opsL0 (F := IdealF)) X (Proc.devRef .tc main_v7) = X (Proc.devRef .tc main_v7) := by
  dsimp only [opsL0]
  after_results_simp <;> rfl
set_option maxHeartbeats 16000000 in
theorem L0_keep_v9 (X : Valuation τ sig (Elt IdealF)) :
    after (opsL0 (F := IdealF)) X (Proc.devRef .tc main_v9) = X (Proc.devRef .tc main_v9) := by
  dsimp only [opsL0]
  after_results_simp <;> rfl
set_option maxHeartbeats 16000000 in
theorem L0_keep_v11 (X : Valuation τ sig (Elt IdealF)) :
    after (opsL0 (F := IdealF)) X (Proc.devRef .tc main_v11) = X (Proc.devRef .tc main_v11) := by
  dsimp only [opsL0]
  after_results_simp <;> rfl
set_option maxHeartbeats 16000000 in
theorem L0_keep_arg3 (X : Valuation τ sig (Elt IdealF)) :
    after (opsL0 (F := IdealF)) X (Proc.devRef .tc main_arg3) = X (Proc.devRef .tc main_arg3) := by
  dsimp only [opsL0]
  after_results_simp <;> rfl
set_option maxHeartbeats 16000000 in
theorem L0_keep_arg8 (X : Valuation τ sig (Elt IdealF)) :
    after (opsL0 (F := IdealF)) X (Proc.devRef .tc main_arg8) = X (Proc.devRef .tc main_arg8) := by
  dsimp only [opsL0]
  after_results_simp <;> rfl
set_option maxHeartbeats 16000000 in
theorem L0_keep_arg9 (X : Valuation τ sig (Elt IdealF)) :
    after (opsL0 (F := IdealF)) X (Proc.devRef .tc main_arg9) = X (Proc.devRef .tc main_arg9) := by
  dsimp only [opsL0]
  after_results_simp <;> rfl
set_option maxHeartbeats 16000000 in
theorem L0_keep_arg10 (X : Valuation τ sig (Elt IdealF)) :
    after (opsL0 (F := IdealF)) X (Proc.devRef .tc main_arg10) = X (Proc.devRef .tc main_arg10) := by
  dsimp only [opsL0]
  after_results_simp <;> rfl
set_option maxHeartbeats 16000000 in
theorem L0_keep_arg11 (X : Valuation τ sig (Elt IdealF)) :
    after (opsL0 (F := IdealF)) X (Proc.devRef .tc main_arg11) = X (Proc.devRef .tc main_arg11) := by
  dsimp only [opsL0]
  after_results_simp <;> rfl
set_option maxHeartbeats 16000000 in
theorem L0_keep_arg12 (X : Valuation τ sig (Elt IdealF)) :
    after (opsL0 (F := IdealF)) X (Proc.devRef .tc main_arg12) = X (Proc.devRef .tc main_arg12) := by
  dsimp only [opsL0]
  after_results_simp <;> rfl
set_option maxHeartbeats 16000000 in
theorem L0_keep_arg13 (X : Valuation τ sig (Elt IdealF)) :
    after (opsL0 (F := IdealF)) X (Proc.devRef .tc main_arg13) = X (Proc.devRef .tc main_arg13) := by
  dsimp only [opsL0]
  after_results_simp <;> rfl

/-! ## Layer 1's stretch -/

set_option maxHeartbeats 64000000 in
theorem L1_out (X : Valuation τ sig (Elt IdealF)) : after (opsL1 (F := IdealF)) X (Proc.devRef .tc main_v131)
    = rLayer1 (X (Proc.devRef .tc main_v71)) (X (Proc.devRef .tc main_v7)) (X (Proc.devRef .tc main_v9)) (X (Proc.devRef .tc main_v11)) (X (Proc.devRef .tc main_arg8)) (X (Proc.devRef .tc main_arg9))
        (X (Proc.devRef .tc main_arg10)) (X (Proc.devRef .tc main_arg11)) (X (Proc.devRef .tc main_arg12)) (X (Proc.devRef .tc main_arg13)) := by
  dsimp only [opsL1]
  after_results_simp <;> rfl
set_option maxHeartbeats 16000000 in
theorem L1_keep_v7 (X : Valuation τ sig (Elt IdealF)) :
    after (opsL1 (F := IdealF)) X (Proc.devRef .tc main_v7) = X (Proc.devRef .tc main_v7) := by
  dsimp only [opsL1]
  after_results_simp <;> rfl
set_option maxHeartbeats 16000000 in
theorem L1_keep_v9 (X : Valuation τ sig (Elt IdealF)) :
    after (opsL1 (F := IdealF)) X (Proc.devRef .tc main_v9) = X (Proc.devRef .tc main_v9) := by
  dsimp only [opsL1]
  after_results_simp <;> rfl
set_option maxHeartbeats 16000000 in
theorem L1_keep_v11 (X : Valuation τ sig (Elt IdealF)) :
    after (opsL1 (F := IdealF)) X (Proc.devRef .tc main_v11) = X (Proc.devRef .tc main_v11) := by
  dsimp only [opsL1]
  after_results_simp <;> rfl
set_option maxHeartbeats 16000000 in
theorem L1_keep_arg3 (X : Valuation τ sig (Elt IdealF)) :
    after (opsL1 (F := IdealF)) X (Proc.devRef .tc main_arg3) = X (Proc.devRef .tc main_arg3) := by
  dsimp only [opsL1]
  after_results_simp <;> rfl
set_option maxHeartbeats 16000000 in
theorem L1_keep_arg8 (X : Valuation τ sig (Elt IdealF)) :
    after (opsL1 (F := IdealF)) X (Proc.devRef .tc main_arg8) = X (Proc.devRef .tc main_arg8) := by
  dsimp only [opsL1]
  after_results_simp <;> rfl
set_option maxHeartbeats 16000000 in
theorem L1_keep_arg9 (X : Valuation τ sig (Elt IdealF)) :
    after (opsL1 (F := IdealF)) X (Proc.devRef .tc main_arg9) = X (Proc.devRef .tc main_arg9) := by
  dsimp only [opsL1]
  after_results_simp <;> rfl
set_option maxHeartbeats 16000000 in
theorem L1_keep_arg10 (X : Valuation τ sig (Elt IdealF)) :
    after (opsL1 (F := IdealF)) X (Proc.devRef .tc main_arg10) = X (Proc.devRef .tc main_arg10) := by
  dsimp only [opsL1]
  after_results_simp <;> rfl
set_option maxHeartbeats 16000000 in
theorem L1_keep_arg11 (X : Valuation τ sig (Elt IdealF)) :
    after (opsL1 (F := IdealF)) X (Proc.devRef .tc main_arg11) = X (Proc.devRef .tc main_arg11) := by
  dsimp only [opsL1]
  after_results_simp <;> rfl
set_option maxHeartbeats 16000000 in
theorem L1_keep_arg12 (X : Valuation τ sig (Elt IdealF)) :
    after (opsL1 (F := IdealF)) X (Proc.devRef .tc main_arg12) = X (Proc.devRef .tc main_arg12) := by
  dsimp only [opsL1]
  after_results_simp <;> rfl
set_option maxHeartbeats 16000000 in
theorem L1_keep_arg13 (X : Valuation τ sig (Elt IdealF)) :
    after (opsL1 (F := IdealF)) X (Proc.devRef .tc main_arg13) = X (Proc.devRef .tc main_arg13) := by
  dsimp only [opsL1]
  after_results_simp <;> rfl

/-! ## Layer 2's stretch -/

set_option maxHeartbeats 64000000 in
theorem L2_out (X : Valuation τ sig (Elt IdealF)) : after (opsL2 (F := IdealF)) X (Proc.devRef .tc main_v191)
    = rLayer2 (X (Proc.devRef .tc main_v131)) (X (Proc.devRef .tc main_v7)) (X (Proc.devRef .tc main_v9)) (X (Proc.devRef .tc main_v11)) (X (Proc.devRef .tc main_arg8)) (X (Proc.devRef .tc main_arg9))
        (X (Proc.devRef .tc main_arg10)) (X (Proc.devRef .tc main_arg11)) (X (Proc.devRef .tc main_arg12)) (X (Proc.devRef .tc main_arg13)) := by
  dsimp only [opsL2]
  after_results_simp <;> rfl
set_option maxHeartbeats 16000000 in
theorem L2_keep_v7 (X : Valuation τ sig (Elt IdealF)) :
    after (opsL2 (F := IdealF)) X (Proc.devRef .tc main_v7) = X (Proc.devRef .tc main_v7) := by
  dsimp only [opsL2]
  after_results_simp <;> rfl
set_option maxHeartbeats 16000000 in
theorem L2_keep_v9 (X : Valuation τ sig (Elt IdealF)) :
    after (opsL2 (F := IdealF)) X (Proc.devRef .tc main_v9) = X (Proc.devRef .tc main_v9) := by
  dsimp only [opsL2]
  after_results_simp <;> rfl
set_option maxHeartbeats 16000000 in
theorem L2_keep_v11 (X : Valuation τ sig (Elt IdealF)) :
    after (opsL2 (F := IdealF)) X (Proc.devRef .tc main_v11) = X (Proc.devRef .tc main_v11) := by
  dsimp only [opsL2]
  after_results_simp <;> rfl
set_option maxHeartbeats 16000000 in
theorem L2_keep_arg3 (X : Valuation τ sig (Elt IdealF)) :
    after (opsL2 (F := IdealF)) X (Proc.devRef .tc main_arg3) = X (Proc.devRef .tc main_arg3) := by
  dsimp only [opsL2]
  after_results_simp <;> rfl
set_option maxHeartbeats 16000000 in
theorem L2_keep_arg8 (X : Valuation τ sig (Elt IdealF)) :
    after (opsL2 (F := IdealF)) X (Proc.devRef .tc main_arg8) = X (Proc.devRef .tc main_arg8) := by
  dsimp only [opsL2]
  after_results_simp <;> rfl
set_option maxHeartbeats 16000000 in
theorem L2_keep_arg9 (X : Valuation τ sig (Elt IdealF)) :
    after (opsL2 (F := IdealF)) X (Proc.devRef .tc main_arg9) = X (Proc.devRef .tc main_arg9) := by
  dsimp only [opsL2]
  after_results_simp <;> rfl
set_option maxHeartbeats 16000000 in
theorem L2_keep_arg10 (X : Valuation τ sig (Elt IdealF)) :
    after (opsL2 (F := IdealF)) X (Proc.devRef .tc main_arg10) = X (Proc.devRef .tc main_arg10) := by
  dsimp only [opsL2]
  after_results_simp <;> rfl
set_option maxHeartbeats 16000000 in
theorem L2_keep_arg11 (X : Valuation τ sig (Elt IdealF)) :
    after (opsL2 (F := IdealF)) X (Proc.devRef .tc main_arg11) = X (Proc.devRef .tc main_arg11) := by
  dsimp only [opsL2]
  after_results_simp <;> rfl
set_option maxHeartbeats 16000000 in
theorem L2_keep_arg12 (X : Valuation τ sig (Elt IdealF)) :
    after (opsL2 (F := IdealF)) X (Proc.devRef .tc main_arg12) = X (Proc.devRef .tc main_arg12) := by
  dsimp only [opsL2]
  after_results_simp <;> rfl
set_option maxHeartbeats 16000000 in
theorem L2_keep_arg13 (X : Valuation τ sig (Elt IdealF)) :
    after (opsL2 (F := IdealF)) X (Proc.devRef .tc main_arg13) = X (Proc.devRef .tc main_arg13) := by
  dsimp only [opsL2]
  after_results_simp <;> rfl

/-! ## Layer 3's stretch -/

set_option maxHeartbeats 64000000 in
theorem L3_out (X : Valuation τ sig (Elt IdealF)) : after (opsL3 (F := IdealF)) X (Proc.devRef .tc main_v251)
    = rLayer3 (X (Proc.devRef .tc main_v191)) (X (Proc.devRef .tc main_v7)) (X (Proc.devRef .tc main_v9)) (X (Proc.devRef .tc main_v11)) (X (Proc.devRef .tc main_arg8)) (X (Proc.devRef .tc main_arg9))
        (X (Proc.devRef .tc main_arg10)) (X (Proc.devRef .tc main_arg11)) (X (Proc.devRef .tc main_arg12)) (X (Proc.devRef .tc main_arg13)) := by
  dsimp only [opsL3]
  after_results_simp <;> rfl
set_option maxHeartbeats 16000000 in
theorem L3_keep_v7 (X : Valuation τ sig (Elt IdealF)) :
    after (opsL3 (F := IdealF)) X (Proc.devRef .tc main_v7) = X (Proc.devRef .tc main_v7) := by
  dsimp only [opsL3]
  after_results_simp <;> rfl
set_option maxHeartbeats 16000000 in
theorem L3_keep_v9 (X : Valuation τ sig (Elt IdealF)) :
    after (opsL3 (F := IdealF)) X (Proc.devRef .tc main_v9) = X (Proc.devRef .tc main_v9) := by
  dsimp only [opsL3]
  after_results_simp <;> rfl
set_option maxHeartbeats 16000000 in
theorem L3_keep_v11 (X : Valuation τ sig (Elt IdealF)) :
    after (opsL3 (F := IdealF)) X (Proc.devRef .tc main_v11) = X (Proc.devRef .tc main_v11) := by
  dsimp only [opsL3]
  after_results_simp <;> rfl
set_option maxHeartbeats 16000000 in
theorem L3_keep_arg3 (X : Valuation τ sig (Elt IdealF)) :
    after (opsL3 (F := IdealF)) X (Proc.devRef .tc main_arg3) = X (Proc.devRef .tc main_arg3) := by
  dsimp only [opsL3]
  after_results_simp <;> rfl
set_option maxHeartbeats 16000000 in
theorem L3_keep_arg8 (X : Valuation τ sig (Elt IdealF)) :
    after (opsL3 (F := IdealF)) X (Proc.devRef .tc main_arg8) = X (Proc.devRef .tc main_arg8) := by
  dsimp only [opsL3]
  after_results_simp <;> rfl
set_option maxHeartbeats 16000000 in
theorem L3_keep_arg9 (X : Valuation τ sig (Elt IdealF)) :
    after (opsL3 (F := IdealF)) X (Proc.devRef .tc main_arg9) = X (Proc.devRef .tc main_arg9) := by
  dsimp only [opsL3]
  after_results_simp <;> rfl
set_option maxHeartbeats 16000000 in
theorem L3_keep_arg10 (X : Valuation τ sig (Elt IdealF)) :
    after (opsL3 (F := IdealF)) X (Proc.devRef .tc main_arg10) = X (Proc.devRef .tc main_arg10) := by
  dsimp only [opsL3]
  after_results_simp <;> rfl
set_option maxHeartbeats 16000000 in
theorem L3_keep_arg11 (X : Valuation τ sig (Elt IdealF)) :
    after (opsL3 (F := IdealF)) X (Proc.devRef .tc main_arg11) = X (Proc.devRef .tc main_arg11) := by
  dsimp only [opsL3]
  after_results_simp <;> rfl
set_option maxHeartbeats 16000000 in
theorem L3_keep_arg12 (X : Valuation τ sig (Elt IdealF)) :
    after (opsL3 (F := IdealF)) X (Proc.devRef .tc main_arg12) = X (Proc.devRef .tc main_arg12) := by
  dsimp only [opsL3]
  after_results_simp <;> rfl
set_option maxHeartbeats 16000000 in
theorem L3_keep_arg13 (X : Valuation τ sig (Elt IdealF)) :
    after (opsL3 (F := IdealF)) X (Proc.devRef .tc main_arg13) = X (Proc.devRef .tc main_arg13) := by
  dsimp only [opsL3]
  after_results_simp <;> rfl

/-! ## The last stretch: the pool -/

theorem Q_out (X : Valuation τ sig (Elt IdealF)) : after (opsQ (F := IdealF)) X (Proc.devRef .tc main_v254)
    = rPool (X (Proc.devRef .tc main_v251)) (X (Proc.devRef .tc main_arg3)) := by
  dsimp only [opsQ]
  after_results_simp <;> rfl

end Cert.ReferenceIdeal.RefValue

end
-- ==== Proof.RefResult.lean ====
/-
  The reference program's result and its arguments after the whole line.

  Chaining the six stretches: the pool of the node rows after four layers, each layer's stretch applied to what the
  stretch before it leaves, the encoders' stretch applied to the launch contents. Every stage is the specification's
  (the encoder, message and node-update lemmas), so the result buffer holds `net` of the argument arrays. No operation
  writes an argument buffer, so each argument holds its launch contents at the end.
-/
import proofs.«157398_j15616501088448_1_alg».proof.Proof.RefStages

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxHeartbeats 16000000 in
theorem P_keep_arg0 (X : Valuation τ sig (Elt IdealF)) :
    after (opsP (F := IdealF)) X (Proc.devRef .tc main_arg0) = X (Proc.devRef .tc main_arg0) := by
  dsimp only [opsP]
  after_results_simp <;> rfl
set_option maxHeartbeats 16000000 in
theorem P_keep_arg1 (X : Valuation τ sig (Elt IdealF)) :
    after (opsP (F := IdealF)) X (Proc.devRef .tc main_arg1) = X (Proc.devRef .tc main_arg1) := by
  dsimp only [opsP]
  after_results_simp <;> rfl
set_option maxHeartbeats 16000000 in
theorem P_keep_arg2 (X : Valuation τ sig (Elt IdealF)) :
    after (opsP (F := IdealF)) X (Proc.devRef .tc main_arg2) = X (Proc.devRef .tc main_arg2) := by
  dsimp only [opsP]
  after_results_simp <;> rfl
set_option maxHeartbeats 16000000 in
theorem P_keep_arg4 (X : Valuation τ sig (Elt IdealF)) :
    after (opsP (F := IdealF)) X (Proc.devRef .tc main_arg4) = X (Proc.devRef .tc main_arg4) := by
  dsimp only [opsP]
  after_results_simp <;> rfl
set_option maxHeartbeats 16000000 in
theorem P_keep_arg5 (X : Valuation τ sig (Elt IdealF)) :
    after (opsP (F := IdealF)) X (Proc.devRef .tc main_arg5) = X (Proc.devRef .tc main_arg5) := by
  dsimp only [opsP]
  after_results_simp <;> rfl
set_option maxHeartbeats 16000000 in
theorem P_keep_arg6 (X : Valuation τ sig (Elt IdealF)) :
    after (opsP (F := IdealF)) X (Proc.devRef .tc main_arg6) = X (Proc.devRef .tc main_arg6) := by
  dsimp only [opsP]
  after_results_simp <;> rfl
set_option maxHeartbeats 16000000 in
theorem P_keep_arg7 (X : Valuation τ sig (Elt IdealF)) :
    after (opsP (F := IdealF)) X (Proc.devRef .tc main_arg7) = X (Proc.devRef .tc main_arg7) := by
  dsimp only [opsP]
  after_results_simp <;> rfl
set_option maxHeartbeats 16000000 in
theorem L0_keep_arg0 (X : Valuation τ sig (Elt IdealF)) :
    after (opsL0 (F := IdealF)) X (Proc.devRef .tc main_arg0) = X (Proc.devRef .tc main_arg0) := by
  dsimp only [opsL0]
  after_results_simp <;> rfl
set_option maxHeartbeats 16000000 in
theorem L0_keep_arg1 (X : Valuation τ sig (Elt IdealF)) :
    after (opsL0 (F := IdealF)) X (Proc.devRef .tc main_arg1) = X (Proc.devRef .tc main_arg1) := by
  dsimp only [opsL0]
  after_results_simp <;> rfl
set_option maxHeartbeats 16000000 in
theorem L0_keep_arg2 (X : Valuation τ sig (Elt IdealF)) :
    after (opsL0 (F := IdealF)) X (Proc.devRef .tc main_arg2) = X (Proc.devRef .tc main_arg2) := by
  dsimp only [opsL0]
  after_results_simp <;> rfl
set_option maxHeartbeats 16000000 in
theorem L0_keep_arg4 (X : Valuation τ sig (Elt IdealF)) :
    after (opsL0 (F := IdealF)) X (Proc.devRef .tc main_arg4) = X (Proc.devRef .tc main_arg4) := by
  dsimp only [opsL0]
  after_results_simp <;> rfl
set_option maxHeartbeats 16000000 in
theorem L0_keep_arg5 (X : Valuation τ sig (Elt IdealF)) :
    after (opsL0 (F := IdealF)) X (Proc.devRef .tc main_arg5) = X (Proc.devRef .tc main_arg5) := by
  dsimp only [opsL0]
  after_results_simp <;> rfl
set_option maxHeartbeats 16000000 in
theorem L0_keep_arg6 (X : Valuation τ sig (Elt IdealF)) :
    after (opsL0 (F := IdealF)) X (Proc.devRef .tc main_arg6) = X (Proc.devRef .tc main_arg6) := by
  dsimp only [opsL0]
  after_results_simp <;> rfl
set_option maxHeartbeats 16000000 in
theorem L0_keep_arg7 (X : Valuation τ sig (Elt IdealF)) :
    after (opsL0 (F := IdealF)) X (Proc.devRef .tc main_arg7) = X (Proc.devRef .tc main_arg7) := by
  dsimp only [opsL0]
  after_results_simp <;> rfl
set_option maxHeartbeats 16000000 in
theorem L1_keep_arg0 (X : Valuation τ sig (Elt IdealF)) :
    after (opsL1 (F := IdealF)) X (Proc.devRef .tc main_arg0) = X (Proc.devRef .tc main_arg0) := by
  dsimp only [opsL1]
  after_results_simp <;> rfl
set_option maxHeartbeats 16000000 in
theorem L1_keep_arg1 (X : Valuation τ sig (Elt IdealF)) :
    after (opsL1 (F := IdealF)) X (Proc.devRef .tc main_arg1) = X (Proc.devRef .tc main_arg1) := by
  dsimp only [opsL1]
  after_results_simp <;> rfl
set_option maxHeartbeats 16000000 in
theorem L1_keep_arg2 (X : Valuation τ sig (Elt IdealF)) :
    after (opsL1 (F := IdealF)) X (Proc.devRef .tc main_arg2) = X (Proc.devRef .tc main_arg2) := by
  dsimp only [opsL1]
  after_results_simp <;> rfl
set_option maxHeartbeats 16000000 in
theorem L1_keep_arg4 (X : Valuation τ sig (Elt IdealF)) :
    after (opsL1 (F := IdealF)) X (Proc.devRef .tc main_arg4) = X (Proc.devRef .tc main_arg4) := by
  dsimp only [opsL1]
  after_results_simp <;> rfl
set_option maxHeartbeats 16000000 in
theorem L1_keep_arg5 (X : Valuation τ sig (Elt IdealF)) :
    after (opsL1 (F := IdealF)) X (Proc.devRef .tc main_arg5) = X (Proc.devRef .tc main_arg5) := by
  dsimp only [opsL1]
  after_results_simp <;> rfl
set_option maxHeartbeats 16000000 in
theorem L1_keep_arg6 (X : Valuation τ sig (Elt IdealF)) :
    after (opsL1 (F := IdealF)) X (Proc.devRef .tc main_arg6) = X (Proc.devRef .tc main_arg6) := by
  dsimp only [opsL1]
  after_results_simp <;> rfl
set_option maxHeartbeats 16000000 in
theorem L1_keep_arg7 (X : Valuation τ sig (Elt IdealF)) :
    after (opsL1 (F := IdealF)) X (Proc.devRef .tc main_arg7) = X (Proc.devRef .tc main_arg7) := by
  dsimp only [opsL1]
  after_results_simp <;> rfl
set_option maxHeartbeats 16000000 in
theorem L2_keep_arg0 (X : Valuation τ sig (Elt IdealF)) :
    after (opsL2 (F := IdealF)) X (Proc.devRef .tc main_arg0) = X (Proc.devRef .tc main_arg0) := by
  dsimp only [opsL2]
  after_results_simp <;> rfl
set_option maxHeartbeats 16000000 in
theorem L2_keep_arg1 (X : Valuation τ sig (Elt IdealF)) :
    after (opsL2 (F := IdealF)) X (Proc.devRef .tc main_arg1) = X (Proc.devRef .tc main_arg1) := by
  dsimp only [opsL2]
  after_results_simp <;> rfl
set_option maxHeartbeats 16000000 in
theorem L2_keep_arg2 (X : Valuation τ sig (Elt IdealF)) :
    after (opsL2 (F := IdealF)) X (Proc.devRef .tc main_arg2) = X (Proc.devRef .tc main_arg2) := by
  dsimp only [opsL2]
  after_results_simp <;> rfl
set_option maxHeartbeats 16000000 in
theorem L2_keep_arg4 (X : Valuation τ sig (Elt IdealF)) :
    after (opsL2 (F := IdealF)) X (Proc.devRef .tc main_arg4) = X (Proc.devRef .tc main_arg4) := by
  dsimp only [opsL2]
  after_results_simp <;> rfl
set_option maxHeartbeats 16000000 in
theorem L2_keep_arg5 (X : Valuation τ sig (Elt IdealF)) :
    after (opsL2 (F := IdealF)) X (Proc.devRef .tc main_arg5) = X (Proc.devRef .tc main_arg5) := by
  dsimp only [opsL2]
  after_results_simp <;> rfl
set_option maxHeartbeats 16000000 in
theorem L2_keep_arg6 (X : Valuation τ sig (Elt IdealF)) :
    after (opsL2 (F := IdealF)) X (Proc.devRef .tc main_arg6) = X (Proc.devRef .tc main_arg6) := by
  dsimp only [opsL2]
  after_results_simp <;> rfl
set_option maxHeartbeats 16000000 in
theorem L2_keep_arg7 (X : Valuation τ sig (Elt IdealF)) :
    after (opsL2 (F := IdealF)) X (Proc.devRef .tc main_arg7) = X (Proc.devRef .tc main_arg7) := by
  dsimp only [opsL2]
  after_results_simp <;> rfl
set_option maxHeartbeats 16000000 in
theorem L3_keep_arg0 (X : Valuation τ sig (Elt IdealF)) :
    after (opsL3 (F := IdealF)) X (Proc.devRef .tc main_arg0) = X (Proc.devRef .tc main_arg0) := by
  dsimp only [opsL3]
  after_results_simp <;> rfl
set_option maxHeartbeats 16000000 in
theorem L3_keep_arg1 (X : Valuation τ sig (Elt IdealF)) :
    after (opsL3 (F := IdealF)) X (Proc.devRef .tc main_arg1) = X (Proc.devRef .tc main_arg1) := by
  dsimp only [opsL3]
  after_results_simp <;> rfl
set_option maxHeartbeats 16000000 in
theorem L3_keep_arg2 (X : Valuation τ sig (Elt IdealF)) :
    after (opsL3 (F := IdealF)) X (Proc.devRef .tc main_arg2) = X (Proc.devRef .tc main_arg2) := by
  dsimp only [opsL3]
  after_results_simp <;> rfl
set_option maxHeartbeats 16000000 in
theorem L3_keep_arg4 (X : Valuation τ sig (Elt IdealF)) :
    after (opsL3 (F := IdealF)) X (Proc.devRef .tc main_arg4) = X (Proc.devRef .tc main_arg4) := by
  dsimp only [opsL3]
  after_results_simp <;> rfl
set_option maxHeartbeats 16000000 in
theorem L3_keep_arg5 (X : Valuation τ sig (Elt IdealF)) :
    after (opsL3 (F := IdealF)) X (Proc.devRef .tc main_arg5) = X (Proc.devRef .tc main_arg5) := by
  dsimp only [opsL3]
  after_results_simp <;> rfl
set_option maxHeartbeats 16000000 in
theorem L3_keep_arg6 (X : Valuation τ sig (Elt IdealF)) :
    after (opsL3 (F := IdealF)) X (Proc.devRef .tc main_arg6) = X (Proc.devRef .tc main_arg6) := by
  dsimp only [opsL3]
  after_results_simp <;> rfl
set_option maxHeartbeats 16000000 in
theorem L3_keep_arg7 (X : Valuation τ sig (Elt IdealF)) :
    after (opsL3 (F := IdealF)) X (Proc.devRef .tc main_arg7) = X (Proc.devRef .tc main_arg7) := by
  dsimp only [opsL3]
  after_results_simp <;> rfl
set_option maxHeartbeats 16000000 in
theorem Q_keep_arg0 (X : Valuation τ sig (Elt IdealF)) :
    after (opsQ (F := IdealF)) X (Proc.devRef .tc main_arg0) = X (Proc.devRef .tc main_arg0) := by
  dsimp only [opsQ]
  after_results_simp <;> rfl
set_option maxHeartbeats 16000000 in
theorem Q_keep_arg1 (X : Valuation τ sig (Elt IdealF)) :
    after (opsQ (F := IdealF)) X (Proc.devRef .tc main_arg1) = X (Proc.devRef .tc main_arg1) := by
  dsimp only [opsQ]
  after_results_simp <;> rfl
set_option maxHeartbeats 16000000 in
theorem Q_keep_arg2 (X : Valuation τ sig (Elt IdealF)) :
    after (opsQ (F := IdealF)) X (Proc.devRef .tc main_arg2) = X (Proc.devRef .tc main_arg2) := by
  dsimp only [opsQ]
  after_results_simp <;> rfl
set_option maxHeartbeats 16000000 in
theorem Q_keep_arg3 (X : Valuation τ sig (Elt IdealF)) :
    after (opsQ (F := IdealF)) X (Proc.devRef .tc main_arg3) = X (Proc.devRef .tc main_arg3) := by
  dsimp only [opsQ]
  after_results_simp <;> rfl
set_option maxHeartbeats 16000000 in
theorem Q_keep_arg4 (X : Valuation τ sig (Elt IdealF)) :
    after (opsQ (F := IdealF)) X (Proc.devRef .tc main_arg4) = X (Proc.devRef .tc main_arg4) := by
  dsimp only [opsQ]
  after_results_simp <;> rfl
set_option maxHeartbeats 16000000 in
theorem Q_keep_arg5 (X : Valuation τ sig (Elt IdealF)) :
    after (opsQ (F := IdealF)) X (Proc.devRef .tc main_arg5) = X (Proc.devRef .tc main_arg5) := by
  dsimp only [opsQ]
  after_results_simp <;> rfl
set_option maxHeartbeats 16000000 in
theorem Q_keep_arg6 (X : Valuation τ sig (Elt IdealF)) :
    after (opsQ (F := IdealF)) X (Proc.devRef .tc main_arg6) = X (Proc.devRef .tc main_arg6) := by
  dsimp only [opsQ]
  after_results_simp <;> rfl
set_option maxHeartbeats 16000000 in
theorem Q_keep_arg7 (X : Valuation τ sig (Elt IdealF)) :
    after (opsQ (F := IdealF)) X (Proc.devRef .tc main_arg7) = X (Proc.devRef .tc main_arg7) := by
  dsimp only [opsQ]
  after_results_simp <;> rfl
set_option maxHeartbeats 16000000 in
theorem Q_keep_arg8 (X : Valuation τ sig (Elt IdealF)) :
    after (opsQ (F := IdealF)) X (Proc.devRef .tc main_arg8) = X (Proc.devRef .tc main_arg8) := by
  dsimp only [opsQ]
  after_results_simp <;> rfl
set_option maxHeartbeats 16000000 in
theorem Q_keep_arg9 (X : Valuation τ sig (Elt IdealF)) :
    after (opsQ (F := IdealF)) X (Proc.devRef .tc main_arg9) = X (Proc.devRef .tc main_arg9) := by
  dsimp only [opsQ]
  after_results_simp <;> rfl
set_option maxHeartbeats 16000000 in
theorem Q_keep_arg10 (X : Valuation τ sig (Elt IdealF)) :
    after (opsQ (F := IdealF)) X (Proc.devRef .tc main_arg10) = X (Proc.devRef .tc main_arg10) := by
  dsimp only [opsQ]
  after_results_simp <;> rfl
set_option maxHeartbeats 16000000 in
theorem Q_keep_arg11 (X : Valuation τ sig (Elt IdealF)) :
    after (opsQ (F := IdealF)) X (Proc.devRef .tc main_arg11) = X (Proc.devRef .tc main_arg11) := by
  dsimp only [opsQ]
  after_results_simp <;> rfl
set_option maxHeartbeats 16000000 in
theorem Q_keep_arg12 (X : Valuation τ sig (Elt IdealF)) :
    after (opsQ (F := IdealF)) X (Proc.devRef .tc main_arg12) = X (Proc.devRef .tc main_arg12) := by
  dsimp only [opsQ]
  after_results_simp <;> rfl
set_option maxHeartbeats 16000000 in
theorem Q_keep_arg13 (X : Valuation τ sig (Elt IdealF)) :
    after (opsQ (F := IdealF)) X (Proc.devRef .tc main_arg13) = X (Proc.devRef .tc main_arg13) := by
  dsimp only [opsQ]
  after_results_simp <;> rfl

/-! ## The arguments -/

theorem ref_arg0 (X : Valuation τ sig (Elt IdealF)) :
    after (Cert.ReferenceIdeal.ValueP.ops (F := IdealF)) X (Proc.devRef .tc main_arg0) = X (Proc.devRef .tc main_arg0) := by
  rw [ops_split]
  simp only [Cert.LibAfter.after_append]
  rw [Q_keep_arg0, L3_keep_arg0, L2_keep_arg0, L1_keep_arg0, L0_keep_arg0, P_keep_arg0]
theorem ref_arg1 (X : Valuation τ sig (Elt IdealF)) :
    after (Cert.ReferenceIdeal.ValueP.ops (F := IdealF)) X (Proc.devRef .tc main_arg1) = X (Proc.devRef .tc main_arg1) := by
  rw [ops_split]
  simp only [Cert.LibAfter.after_append]
  rw [Q_keep_arg1, L3_keep_arg1, L2_keep_arg1, L1_keep_arg1, L0_keep_arg1, P_keep_arg1]
theorem ref_arg2 (X : Valuation τ sig (Elt IdealF)) :
    after (Cert.ReferenceIdeal.ValueP.ops (F := IdealF)) X (Proc.devRef .tc main_arg2) = X (Proc.devRef .tc main_arg2) := by
  rw [ops_split]
  simp only [Cert.LibAfter.after_append]
  rw [Q_keep_arg2, L3_keep_arg2, L2_keep_arg2, L1_keep_arg2, L0_keep_arg2, P_keep_arg2]
theorem ref_arg3 (X : Valuation τ sig (Elt IdealF)) :
    after (Cert.ReferenceIdeal.ValueP.ops (F := IdealF)) X (Proc.devRef .tc main_arg3) = X (Proc.devRef .tc main_arg3) := by
  rw [ops_split]
  simp only [Cert.LibAfter.after_append]
  rw [Q_keep_arg3, L3_keep_arg3, L2_keep_arg3, L1_keep_arg3, L0_keep_arg3, P_keep_arg3]
theorem ref_arg4 (X : Valuation τ sig (Elt IdealF)) :
    after (Cert.ReferenceIdeal.ValueP.ops (F := IdealF)) X (Proc.devRef .tc main_arg4) = X (Proc.devRef .tc main_arg4) := by
  rw [ops_split]
  simp only [Cert.LibAfter.after_append]
  rw [Q_keep_arg4, L3_keep_arg4, L2_keep_arg4, L1_keep_arg4, L0_keep_arg4, P_keep_arg4]
theorem ref_arg5 (X : Valuation τ sig (Elt IdealF)) :
    after (Cert.ReferenceIdeal.ValueP.ops (F := IdealF)) X (Proc.devRef .tc main_arg5) = X (Proc.devRef .tc main_arg5) := by
  rw [ops_split]
  simp only [Cert.LibAfter.after_append]
  rw [Q_keep_arg5, L3_keep_arg5, L2_keep_arg5, L1_keep_arg5, L0_keep_arg5, P_keep_arg5]
theorem ref_arg6 (X : Valuation τ sig (Elt IdealF)) :
    after (Cert.ReferenceIdeal.ValueP.ops (F := IdealF)) X (Proc.devRef .tc main_arg6) = X (Proc.devRef .tc main_arg6) := by
  rw [ops_split]
  simp only [Cert.LibAfter.after_append]
  rw [Q_keep_arg6, L3_keep_arg6, L2_keep_arg6, L1_keep_arg6, L0_keep_arg6, P_keep_arg6]
theorem ref_arg7 (X : Valuation τ sig (Elt IdealF)) :
    after (Cert.ReferenceIdeal.ValueP.ops (F := IdealF)) X (Proc.devRef .tc main_arg7) = X (Proc.devRef .tc main_arg7) := by
  rw [ops_split]
  simp only [Cert.LibAfter.after_append]
  rw [Q_keep_arg7, L3_keep_arg7, L2_keep_arg7, L1_keep_arg7, L0_keep_arg7, P_keep_arg7]
theorem ref_arg8 (X : Valuation τ sig (Elt IdealF)) :
    after (Cert.ReferenceIdeal.ValueP.ops (F := IdealF)) X (Proc.devRef .tc main_arg8) = X (Proc.devRef .tc main_arg8) := by
  rw [ops_split]
  simp only [Cert.LibAfter.after_append]
  rw [Q_keep_arg8, L3_keep_arg8, L2_keep_arg8, L1_keep_arg8, L0_keep_arg8, P_keep_arg8]
theorem ref_arg9 (X : Valuation τ sig (Elt IdealF)) :
    after (Cert.ReferenceIdeal.ValueP.ops (F := IdealF)) X (Proc.devRef .tc main_arg9) = X (Proc.devRef .tc main_arg9) := by
  rw [ops_split]
  simp only [Cert.LibAfter.after_append]
  rw [Q_keep_arg9, L3_keep_arg9, L2_keep_arg9, L1_keep_arg9, L0_keep_arg9, P_keep_arg9]
theorem ref_arg10 (X : Valuation τ sig (Elt IdealF)) :
    after (Cert.ReferenceIdeal.ValueP.ops (F := IdealF)) X (Proc.devRef .tc main_arg10) = X (Proc.devRef .tc main_arg10) := by
  rw [ops_split]
  simp only [Cert.LibAfter.after_append]
  rw [Q_keep_arg10, L3_keep_arg10, L2_keep_arg10, L1_keep_arg10, L0_keep_arg10, P_keep_arg10]
theorem ref_arg11 (X : Valuation τ sig (Elt IdealF)) :
    after (Cert.ReferenceIdeal.ValueP.ops (F := IdealF)) X (Proc.devRef .tc main_arg11) = X (Proc.devRef .tc main_arg11) := by
  rw [ops_split]
  simp only [Cert.LibAfter.after_append]
  rw [Q_keep_arg11, L3_keep_arg11, L2_keep_arg11, L1_keep_arg11, L0_keep_arg11, P_keep_arg11]
theorem ref_arg12 (X : Valuation τ sig (Elt IdealF)) :
    after (Cert.ReferenceIdeal.ValueP.ops (F := IdealF)) X (Proc.devRef .tc main_arg12) = X (Proc.devRef .tc main_arg12) := by
  rw [ops_split]
  simp only [Cert.LibAfter.after_append]
  rw [Q_keep_arg12, L3_keep_arg12, L2_keep_arg12, L1_keep_arg12, L0_keep_arg12, P_keep_arg12]
theorem ref_arg13 (X : Valuation τ sig (Elt IdealF)) :
    after (Cert.ReferenceIdeal.ValueP.ops (F := IdealF)) X (Proc.devRef .tc main_arg13) = X (Proc.devRef .tc main_arg13) := by
  rw [ops_split]
  simp only [Cert.LibAfter.after_append]
  rw [Q_keep_arg13, L3_keep_arg13, L2_keep_arg13, L1_keep_arg13, L0_keep_arg13, P_keep_arg13]

/-! ## The result -/

set_option maxHeartbeats 4000000 in
/-- After the whole line the result buffer holds the network of the argument arrays the line started from. -/
theorem ref_result (X : Valuation τ sig (Elt IdealF)) :
    after (Cert.ReferenceIdeal.ValueP.ops (F := IdealF)) X (Proc.devRef .tc main_v254)
      = Cert.Gine.Net.net (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) (X (Proc.devRef .tc main_arg11)) (X (Proc.devRef .tc main_arg12)) (X (Proc.devRef .tc main_arg13)) := by
  rw [ops_split]
  simp only [Cert.LibAfter.after_append]
  rw [Q_out,
    L3_out,
    L3_keep_arg3,
    L2_out,
    L2_keep_v7, L2_keep_v9, L2_keep_v11, L2_keep_arg8, L2_keep_arg9, L2_keep_arg10, L2_keep_arg11, L2_keep_arg12, L2_keep_arg13,
    L2_keep_arg3,
    L1_out,
    L1_keep_v7, L1_keep_v9, L1_keep_v11, L1_keep_arg8, L1_keep_arg9, L1_keep_arg10, L1_keep_arg11, L1_keep_arg12, L1_keep_arg13,
    L1_keep_arg3,
    L0_out,
    L0_keep_v7, L0_keep_v9, L0_keep_v11, L0_keep_arg8, L0_keep_arg9, L0_keep_arg10, L0_keep_arg11, L0_keep_arg12, L0_keep_arg13,
    L0_keep_arg3,
    P_v3,
    P_v7,
    P_v9,
    P_v11,
    P_keep_arg8, P_keep_arg9, P_keep_arg10, P_keep_arg11, P_keep_arg12, P_keep_arg13,
    P_keep_arg3]
  rw [rLayer3_eq, rLayer2_eq, rLayer1_eq, rLayer0_eq, rEnc0_eq, rEnc1_eq]
  rfl

end Cert.ReferenceIdeal.RefValue

end
-- ==== Proof.lean ====
/-
  A graph network with edge features: the launches' program against the plain reference, at the exact values.

  Both programs compute the same function `net` of the fourteen argument arrays. Node and edge features go through
  one dense layer each. Then, four times: every edge takes the row of its source node, adds its edge-feature row and
  cuts at zero; the messages are summed into their destination nodes; every node row h with its message sum a is
  replaced by relu(norm(lin(relu(lin(h + a))))) + h, the normalisation over the row's 128 entries. Last, the node rows
  are summed per graph.

  The launches' program does the dense stages in ten grid launches over blocks of rows (2000 node rows or 5000 edge
  rows at a time), with the gather, the scatter-adds and the weight slices on the host between them. Each dense stage
  uses one row of its inputs per row of its output, so a block of the result is the stage's row function on the same
  rows of the inputs, and the blocks tile the arrays: after a launch the output array is the whole-array function of
  the input arrays (one module per launch). Followed through the twenty-one boundaries between host stretches and
  launches, the result buffer ends at `net` of the launch contents of the arguments.

  The reference is a straight line of host operations. Read in six stretches, each from any contents at its start, its
  result buffer ends at the same `net`: the host's dense layer (a product plus a bias vector spread as a row down the
  rows), row mean and variance (a reduction from zero, spread as a column, divided by 128) and normalisation are, entry
  by entry, the row functions of the specification; the gather, the scatter-adds and the weight slices are the same
  host operations in both programs. On the extended reals a narrowing to bf16 is the identity, a product accumulated
  into zero and a host product are both the plain sum of products, and a lane sum and a host sum from zero are both
  the sum; no law that needs finite values is used, so the precondition is never opened.

  The three frames: the two launch programs by their generated frame certificates, the reference by its run. The
  idealised kernel is the kernel's own text read at the exact values (no rewrite), so `preserves` is trivial.
-/
import proofs.«157398_j15616501088448_1_alg».proof.Defs
import proofs.«157398_j15616501088448_1_alg».proof.Proof.Gen.Kernel
import proofs.«157398_j15616501088448_1_alg».proof.Proof.Gen.Kernel.Skeleton
import proofs.«157398_j15616501088448_1_alg».proof.Proof.Gen.Kernel.Launch
import proofs.«157398_j15616501088448_1_alg».proof.Proof.Gen.Kernel.Points
import proofs.«157398_j15616501088448_1_alg».proof.Proof.Gen.Kernel.Frame
import proofs.«157398_j15616501088448_1_alg».proof.Proof.Gen.KernelIdeal
import proofs.«157398_j15616501088448_1_alg».proof.Proof.Gen.KernelIdeal.Skeleton
import proofs.«157398_j15616501088448_1_alg».proof.Proof.Gen.KernelIdeal.Launch
import proofs.«157398_j15616501088448_1_alg».proof.Proof.Gen.KernelIdeal.Points
import proofs.«157398_j15616501088448_1_alg».proof.Proof.Gen.KernelIdeal.Frame
import proofs.«157398_j15616501088448_1_alg».proof.Proof.Gen.ReferenceIdeal
import proofs.«157398_j15616501088448_1_alg».proof.Proof.Gen.Pre_finite_inputs
import proofs.«157398_j15616501088448_1_alg».proof.Proof.KernelRun
import proofs.«157398_j15616501088448_1_alg».proof.Proof.Fold
import proofs.«157398_j15616501088448_1_alg».proof.Proof.RefResult
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The launches' program, as printed, runs and leaves its arguments alone. -/
theorem frame_k : Cert.frame_Kernel := fun m ρ _ => Cert.Kernel.Gen.frame m ρ

/-- So does its reading at the exact values. -/
theorem frame_ki : Cert.frame_KernelIdeal := fun m ρ _ => Cert.KernelIdeal.Gen.frame m ρ

/-- The reference runs, and no operation of it writes an argument buffer. -/
theorem frame_ri : Cert.frame_ReferenceIdeal := fun m ρ _ =>
  (θ_run Cert.ReferenceIdeal.defs _ _).mono (fun r h c =>
      ⟨(h c Cert.ReferenceIdeal.main_arg0).trans (Cert.ReferenceIdeal.RefValue.ref_arg0 _),
       (h c Cert.ReferenceIdeal.main_arg1).trans (Cert.ReferenceIdeal.RefValue.ref_arg1 _),
       (h c Cert.ReferenceIdeal.main_arg2).trans (Cert.ReferenceIdeal.RefValue.ref_arg2 _),
       (h c Cert.ReferenceIdeal.main_arg3).trans (Cert.ReferenceIdeal.RefValue.ref_arg3 _),
       (h c Cert.ReferenceIdeal.main_arg4).trans (Cert.ReferenceIdeal.RefValue.ref_arg4 _),
       (h c Cert.ReferenceIdeal.main_arg5).trans (Cert.ReferenceIdeal.RefValue.ref_arg5 _),
       (h c Cert.ReferenceIdeal.main_arg6).trans (Cert.ReferenceIdeal.RefValue.ref_arg6 _),
       (h c Cert.ReferenceIdeal.main_arg7).trans (Cert.ReferenceIdeal.RefValue.ref_arg7 _),
       (h c Cert.ReferenceIdeal.main_arg8).trans (Cert.ReferenceIdeal.RefValue.ref_arg8 _),
       (h c Cert.ReferenceIdeal.main_arg9).trans (Cert.ReferenceIdeal.RefValue.ref_arg9 _),
       (h c Cert.ReferenceIdeal.main_arg10).trans (Cert.ReferenceIdeal.RefValue.ref_arg10 _),
       (h c Cert.ReferenceIdeal.main_arg11).trans (Cert.ReferenceIdeal.RefValue.ref_arg11 _),
       (h c Cert.ReferenceIdeal.main_arg12).trans (Cert.ReferenceIdeal.RefValue.ref_arg12 _),
       (h c Cert.ReferenceIdeal.main_arg13).trans (Cert.ReferenceIdeal.RefValue.ref_arg13 _)⟩)
    (Cert.ReferenceIdeal.ValueP.run_after (F := Idealize.ShloMosaic.Ideal) m ρ)

/-- Both programs, from memories that agree on the arguments, end with the result array at `net` of the arguments. -/
theorem algebraic : Cert.algebraic_KernelIdeal_ReferenceIdeal := by
  intro m ρ m' ρ' _ hagree
  refine ⟨fun c => Cert.Gine.Net.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Fold.result_eq m ρ c), (h c).2⟩)
      (Cert.KernelIdeal.RunValue.run_result (F := Idealize.ShloMosaic.Ideal) m ρ)
  · refine (θ_run Cert.ReferenceIdeal.defs _ _).mono (fun r h c =>
        ⟨?_,
         (h c Cert.ReferenceIdeal.main_arg0).trans (Cert.ReferenceIdeal.RefValue.ref_arg0 _),
         (h c Cert.ReferenceIdeal.main_arg1).trans (Cert.ReferenceIdeal.RefValue.ref_arg1 _),
         (h c Cert.ReferenceIdeal.main_arg2).trans (Cert.ReferenceIdeal.RefValue.ref_arg2 _),
         (h c Cert.ReferenceIdeal.main_arg3).trans (Cert.ReferenceIdeal.RefValue.ref_arg3 _),
         (h c Cert.ReferenceIdeal.main_arg4).trans (Cert.ReferenceIdeal.RefValue.ref_arg4 _),
         (h c Cert.ReferenceIdeal.main_arg5).trans (Cert.ReferenceIdeal.RefValue.ref_arg5 _),
         (h c Cert.ReferenceIdeal.main_arg6).trans (Cert.ReferenceIdeal.RefValue.ref_arg6 _),
         (h c Cert.ReferenceIdeal.main_arg7).trans (Cert.ReferenceIdeal.RefValue.ref_arg7 _),
         (h c Cert.ReferenceIdeal.main_arg8).trans (Cert.ReferenceIdeal.RefValue.ref_arg8 _),
         (h c Cert.ReferenceIdeal.main_arg9).trans (Cert.ReferenceIdeal.RefValue.ref_arg9 _),
         (h c Cert.ReferenceIdeal.main_arg10).trans (Cert.ReferenceIdeal.RefValue.ref_arg10 _),
         (h c Cert.ReferenceIdeal.main_arg11).trans (Cert.ReferenceIdeal.RefValue.ref_arg11 _),
         (h c Cert.ReferenceIdeal.main_arg12).trans (Cert.ReferenceIdeal.RefValue.ref_arg12 _),
         (h c Cert.ReferenceIdeal.main_arg13).trans (Cert.ReferenceIdeal.RefValue.ref_arg13 _)⟩)
      (Cert.ReferenceIdeal.ValueP.run_after (F := Idealize.ShloMosaic.Ideal) m' ρ')
    refine ((h c Cert.ReferenceIdeal.main_v254).trans (Cert.ReferenceIdeal.RefValue.ref_result _)).trans ?_
    obtain ⟨g0, g1, g2, g3, g4, g5, g6, g7, g8, g9, g10, g11, g12, g13⟩ := hagree c
    have e0 : launchContents m' c (Proc.devRef .tc Cert.ReferenceIdeal.main_arg0) = m ((c.tc : Thread Cert.KernelIdeal.nD Cert.KernelIdeal.τ).loc Cert.KernelIdeal.main_arg0) := g0
    have e1 : launchContents m' c (Proc.devRef .tc Cert.ReferenceIdeal.main_arg1) = m ((c.tc : Thread Cert.KernelIdeal.nD Cert.KernelIdeal.τ).loc Cert.KernelIdeal.main_arg1) := g1
    have e2 : launchContents m' c (Proc.devRef .tc Cert.ReferenceIdeal.main_arg2) = m ((c.tc : Thread Cert.KernelIdeal.nD Cert.KernelIdeal.τ).loc Cert.KernelIdeal.main_arg2) := g2
    have e3 : launchContents m' c (Proc.devRef .tc Cert.ReferenceIdeal.main_arg3) = m ((c.tc : Thread Cert.KernelIdeal.nD Cert.KernelIdeal.τ).loc Cert.KernelIdeal.main_arg3) := g3
    have e4 : launchContents m' c (Proc.devRef .tc Cert.ReferenceIdeal.main_arg4) = m ((c.tc : Thread Cert.KernelIdeal.nD Cert.KernelIdeal.τ).loc Cert.KernelIdeal.main_arg4) := g4
    have e5 : launchContents m' c (Proc.devRef .tc Cert.ReferenceIdeal.main_arg5) = m ((c.tc : Thread Cert.KernelIdeal.nD Cert.KernelIdeal.τ).loc Cert.KernelIdeal.main_arg5) := g5
    have e6 : launchContents m' c (Proc.devRef .tc Cert.ReferenceIdeal.main_arg6) = m ((c.tc : Thread Cert.KernelIdeal.nD Cert.KernelIdeal.τ).loc Cert.KernelIdeal.main_arg6) := g6
    have e7 : launchContents m' c (Proc.devRef .tc Cert.ReferenceIdeal.main_arg7) = m ((c.tc : Thread Cert.KernelIdeal.nD Cert.KernelIdeal.τ).loc Cert.KernelIdeal.main_arg7) := g7
    have e8 : launchContents m' c (Proc.devRef .tc Cert.ReferenceIdeal.main_arg8) = m ((c.tc : Thread Cert.KernelIdeal.nD Cert.KernelIdeal.τ).loc Cert.KernelIdeal.main_arg8) := g8
    have e9 : launchContents m' c (Proc.devRef .tc Cert.ReferenceIdeal.main_arg9) = m ((c.tc : Thread Cert.KernelIdeal.nD Cert.KernelIdeal.τ).loc Cert.KernelIdeal.main_arg9) := g9
    have e10 : launchContents m' c (Proc.devRef .tc Cert.ReferenceIdeal.main_arg10) = m ((c.tc : Thread Cert.KernelIdeal.nD Cert.KernelIdeal.τ).loc Cert.KernelIdeal.main_arg10) := g10
    have e11 : launchContents m' c (Proc.devRef .tc Cert.ReferenceIdeal.main_arg11) = m ((c.tc : Thread Cert.KernelIdeal.nD Cert.KernelIdeal.τ).loc Cert.KernelIdeal.main_arg11) := g11
    have e12 : launchContents m' c (Proc.devRef .tc Cert.ReferenceIdeal.main_arg12) = m ((c.tc : Thread Cert.KernelIdeal.nD Cert.KernelIdeal.τ).loc Cert.KernelIdeal.main_arg12) := g12
    have e13 : launchContents m' c (Proc.devRef .tc Cert.ReferenceIdeal.main_arg13) = m ((c.tc : Thread Cert.KernelIdeal.nD Cert.KernelIdeal.τ).loc Cert.KernelIdeal.main_arg13) := g13
    rw [e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
